-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x15135x64 : Shape := ⟨3, ![8, 15135, 64]⟩
abbrev S2x242160 : Shape := ⟨2, ![2, 242160]⟩
abbrev S64x128 : Shape := ⟨2, ![64, 128]⟩
abbrev S128 : Shape := ⟨1, ![128]⟩
abbrev S128x128 : Shape := ⟨2, ![128, 128]⟩
abbrev S384x1 : Shape := ⟨2, ![384, 1]⟩
abbrev S1 : Shape := ⟨1, ![1]⟩
abbrev S15135x512 : Shape := ⟨2, ![15135, 512]⟩
abbrev S512 : Shape := ⟨1, ![512]⟩
abbrev S512x10 : Shape := ⟨2, ![512, 10]⟩
abbrev S10 : Shape := ⟨1, ![10]⟩
abbrev S_ : Shape := ⟨0, ![]⟩

class Facts : Prop where
  bcast_S_S8x15135x64 : S_.BroadcastsInDim S8x15135x64 (![] : Fin 0 → Fin S8x15135x64.rank)
  reducesTo_S8x15135x64_S_d0_1_2 : S8x15135x64.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x1 : S_.BroadcastsInDim S384x1 (![] : Fin 0 → Fin S384x1.rank)
  reducesTo_S384x1_S_d0_1 : S384x1.ReducesTo [0, 1] S_
  bcast_S_S1 : S_.BroadcastsInDim S1 (![] : Fin 0 → Fin S1.rank)
  reducesTo_S1_S_d0 : S1.ReducesTo [0] S_
  bcast_S_S15135x512 : S_.BroadcastsInDim S15135x512 (![] : Fin 0 → Fin S15135x512.rank)
  reducesTo_S15135x512_S_d0_1 : S15135x512.ReducesTo [0, 1] S_
  bcast_S_S512 : S_.BroadcastsInDim S512 (![] : Fin 0 → Fin S512.rank)
  reducesTo_S512_S_d0 : S512.ReducesTo [0] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_
  bcast_S_S2x242160 : S_.BroadcastsInDim S2x242160 (![] : Fin 0 → Fin S2x242160.rank)
  reducesTo_S2x242160_S_d0_1 : S2x242160.ReducesTo [0, 1] S_

variable [Facts]

def fn_part4 {F : FTy → Type} [FloatOps F] (main_v63 : IVec S_ 1) (main_v65 : IVec S2x242160 1) (main_v67 : IVec S2x242160 1) : IVec S_ 1 :=
  let main_v68 : IVec S2x242160 1 := andi main_v65 main_v67
  let main_c_26 : IVec S_ 1 := constantI S_ 1 1#1
  let main_v69 : IVec S_ 1 := (fun x v => Host.reduce IntOp.andi x v reducesTo_S2x242160_S_d0_1 h_S_) main_v68 main_c_26
  let main_v70 : IVec S_ 1 := andi main_v63 main_v69
  main_v70

def fn_part3 {F : FTy → Type} [FloatOps F] (main_arg1 : IVec S2x242160 32) (main_arg12 : FVec F S512x10 .f32) (main_arg13 : FVec F S10 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x10 .f32 := Host.absf main_arg12
  let main_cst_20 : FVec F S_ .f32 := constant S_ .f32 0x7F800000#32
  let main_v55 : FVec F S512x10 .f32 := broadcastInDim S512x10 ![] bcast_S_S512x10 main_cst_20
  let main_v56 : IVec S512x10 1 := cmpf .olt main_v54 main_v55
  let main_c_21 : IVec S_ 1 := constantI S_ 1 1#1
  let main_v57 : IVec S_ 1 := (fun x v => Host.reduce IntOp.andi x v reducesTo_S512x10_S_d0_1 h_S_) main_v56 main_c_21
  let main_v58 : IVec S_ 1 := andi main_v53 main_v57
  let main_v59 : FVec F S10 .f32 := Host.absf main_arg13
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_c_24 : IVec S_ 32 := constantI S_ 32 0#32
  let main_v64 : IVec S2x242160 32 := broadcastInDim S2x242160 ![] bcast_S_S2x242160 main_c_24
  let main_v65 : IVec S2x242160 1 := cmpi .sge main_arg1 main_v64
  let main_c_25 : IVec S_ 32 := constantI S_ 32 15135#32
  let main_v66 : IVec S2x242160 32 := broadcastInDim S2x242160 ![] bcast_S_S2x242160 main_c_25
  let main_v67 : IVec S2x242160 1 := cmpi .slt main_arg1 main_v66
  fn_part4 (F := F) main_v63 main_v65 main_v67

def fn_part2 {F : FTy → Type} [FloatOps F] (main_arg1 : IVec S2x242160 32) (main_arg8 : FVec F S384x1 .f32) (main_arg9 : FVec F S1 .f32) (main_arg10 : FVec F S15135x512 .f32) (main_arg11 : FVec F S512 .f32) (main_arg12 : FVec F S512x10 .f32) (main_arg13 : FVec F S10 .f32) (main_v33 : IVec S_ 1) : IVec S_ 1 :=
  let main_v34 : FVec F S384x1 .f32 := Host.absf main_arg8
  let main_cst_12 : FVec F S_ .f32 := constant S_ .f32 0x7F800000#32
  let main_v35 : FVec F S384x1 .f32 := broadcastInDim S384x1 ![] bcast_S_S384x1 main_cst_12
  let main_v36 : IVec S384x1 1 := cmpf .olt main_v34 main_v35
  let main_c_13 : IVec S_ 1 := constantI S_ 1 1#1
  let main_v37 : IVec S_ 1 := (fun x v => Host.reduce IntOp.andi x v reducesTo_S384x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S15135x512 .f32 := Host.absf main_arg10
  let main_cst_16 : FVec F S_ .f32 := constant S_ .f32 0x7F800000#32
  let main_v45 : FVec F S15135x512 .f32 := broadcastInDim S15135x512 ![] bcast_S_S15135x512 main_cst_16
  let main_v46 : IVec S15135x512 1 := cmpf .olt main_v44 main_v45
  let main_c_17 : IVec S_ 1 := constantI S_ 1 1#1
  let main_v47 : IVec S_ 1 := (fun x v => Host.reduce IntOp.andi x v reducesTo_S15135x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg1 main_arg12 main_arg13 main_v48 main_v49 main_v50

def fn_part1 {F : FTy → Type} [FloatOps F] (main_arg1 : IVec S2x242160 32) (main_arg5 : FVec F S128 .f32) (main_arg6 : FVec F S128x128 .f32) (main_arg7 : FVec F S128 .f32) (main_arg8 : FVec F S384x1 .f32) (main_arg9 : FVec F S1 .f32) (main_arg10 : FVec F S15135x512 .f32) (main_arg11 : FVec F S512 .f32) (main_arg12 : FVec F S512x10 .f32) (main_arg13 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S8x15135x64 .f32) (main_arg1 : IVec S2x242160 32) (main_arg2 : FVec F S64x128 .f32) (main_arg3 : FVec F S128 .f32) (main_arg4 : FVec F S128x128 .f32) (main_arg5 : FVec F S128 .f32) (main_arg6 : FVec F S128x128 .f32) (main_arg7 : FVec F S128 .f32) (main_arg8 : FVec F S384x1 .f32) (main_arg9 : FVec F S1 .f32) (main_arg10 : FVec F S15135x512 .f32) (main_arg11 : FVec F S512 .f32) (main_arg12 : FVec F S512x10 .f32) (main_arg13 : FVec F S10 .f32) : IVec S_ 1 :=
  let main_v0 : FVec F S8x15135x64 .f32 := Host.absf main_arg0
  let main_cst : FVec F S_ .f32 := constant S_ .f32 0x7F800000#32
  let main_v1 : FVec F S8x15135x64 .f32 := broadcastInDim S8x15135x64 ![] bcast_S_S8x15135x64 main_cst
  let main_v2 : IVec S8x15135x64 1 := cmpf .olt main_v0 main_v1
  let main_c : IVec S_ 1 := constantI S_ 1 1#1
  let main_v3 : IVec S_ 1 := (fun x v => Host.reduce IntOp.andi x v reducesTo_S8x15135x64_S_d0_1_2 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_arg13 main_v13 main_v16
-- ==== Kernel.lean ====
abbrev S8x15135x64 : Shape := ⟨3, ![8, 15135, 64]⟩
abbrev S2x242160 : Shape := ⟨2, ![2, 242160]⟩
abbrev S64x128 : Shape := ⟨2, ![64, 128]⟩
abbrev S128 : Shape := ⟨1, ![128]⟩
abbrev S128x128 : Shape := ⟨2, ![128, 128]⟩
abbrev S384x1 : Shape := ⟨2, ![384, 1]⟩
abbrev S1 : Shape := ⟨1, ![1]⟩
abbrev S15135x512 : Shape := ⟨2, ![15135, 512]⟩
abbrev S512 : Shape := ⟨1, ![512]⟩
abbrev S512x10 : Shape := ⟨2, ![512, 10]⟩
abbrev S10 : Shape := ⟨1, ![10]⟩
abbrev S15135 : Shape := ⟨1, ![15135]⟩
abbrev S1x242160 : Shape := ⟨2, ![1, 242160]⟩
abbrev S242160 : Shape := ⟨1, ![242160]⟩
abbrev S257295 : Shape := ⟨1, ![257295]⟩
abbrev S_ : Shape := ⟨0, ![]⟩
abbrev S257295x1 : Shape := ⟨2, ![257295, 1]⟩
abbrev S15360x15360 : Shape := ⟨2, ![15360, 15360]⟩
abbrev S257295x2 : Shape := ⟨2, ![257295, 2]⟩
abbrev S15360 : Shape := ⟨1, ![15360]⟩
abbrev S15360x1 : Shape := ⟨2, ![15360, 1]⟩
abbrev S15135x8x64 : Shape := ⟨3, ![15135, 8, 64]⟩
abbrev S15360x8x64 : Shape := ⟨3, ![15360, 8, 64]⟩
abbrev S15360x512 : Shape := ⟨2, ![15360, 512]⟩
abbrev S1536x1536 : Shape := ⟨2, ![1536, 1536]⟩
abbrev S1536x512 : Shape := ⟨2, ![1536, 512]⟩
abbrev S122880x64 : Shape := ⟨2, ![122880, 64]⟩
abbrev S122880x128 : Shape := ⟨2, ![122880, 128]⟩
abbrev S1x128 : Shape := ⟨2, ![1, 128]⟩
abbrev S15360x1024 : Shape := ⟨2, ![15360, 1024]⟩
abbrev S1536x1024 : Shape := ⟨2, ![1536, 1024]⟩
abbrev S384 : Shape := ⟨1, ![384]⟩
abbrev S128x3 : Shape := ⟨2, ![128, 3]⟩
abbrev S128x1 : Shape := ⟨2, ![128, 1]⟩
abbrev S122880x1 : Shape := ⟨2, ![122880, 1]⟩
abbrev S15360x8 : Shape := ⟨2, ![15360, 8]⟩
abbrev S8x15360 : Shape := ⟨2, ![8, 15360]⟩
abbrev S8x15135 : Shape := ⟨2, ![8, 15135]⟩
abbrev S8x512 : Shape := ⟨2, ![8, 512]⟩
abbrev S1x512 : Shape := ⟨2, ![1, 512]⟩
abbrev S8x10 : Shape := ⟨2, ![8, 10]⟩
abbrev S1x10 : Shape := ⟨2, ![1, 10]⟩
abbrev S8 : Shape := ⟨1, ![8]⟩
abbrev S8x1 : Shape := ⟨2, ![8, 1]⟩

abbrev nBuf : Space → Nat
  | .hbm => 166
  | .vmem => 21
  | .smem => 0
  | _ => 0

abbrev hbmTy0_0 (i : Nat) : BufTy := match i % 128 with
  | 0 => ⟨S8x15135x64, .f32⟩
  | 1 => ⟨S2x242160, .i32⟩
  | 2 => ⟨S64x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S384x1, .f32⟩
  | 9 => ⟨S1, .f32⟩
  | 10 => ⟨S15135x512, .f32⟩
  | 11 => ⟨S512, .f32⟩
  | 12 => ⟨S512x10, .f32⟩
  | 13 => ⟨S10, .f32⟩
  | 14 => ⟨S15135, .i32⟩
  | 15 => ⟨S1x242160, .i32⟩
  | 16 => ⟨S242160, .i32⟩
  | 17 => ⟨S257295, .i32⟩
  | 18 => ⟨S1x242160, .i32⟩
  | 19 => ⟨S242160, .i32⟩
  | 20 => ⟨S257295, .i32⟩
  | 21 => ⟨S_, .f32⟩
  | 22 => ⟨S257295, .f32⟩
  | 23 => ⟨S_, .f32⟩
  | 24 => ⟨S15135, .f32⟩
  | 25 => ⟨S257295x1, .i32⟩
  | 26 => ⟨S15135, .f32⟩
  | 27 => ⟨S15135, .f32⟩
  | 28 => ⟨S_, .i32⟩
  | 29 => ⟨S257295, .i32⟩
  | 30 => ⟨S257295, .i1⟩
  | 31 => ⟨S_, .i32⟩
  | 32 => ⟨S257295, .i32⟩
  | 33 => ⟨S257295, .i32⟩
  | 34 => ⟨S257295, .i32⟩
  | 35 => ⟨S257295x1, .i32⟩
  | 36 => ⟨S257295, .f32⟩
  | 37 => ⟨S_, .i32⟩
  | 38 => ⟨S257295, .i32⟩
  | 39 => ⟨S257295, .i1⟩
  | 40 => ⟨S_, .i32⟩
  | 41 => ⟨S257295, .i32⟩
  | 42 => ⟨S257295, .i32⟩
  | 43 => ⟨S257295, .i32⟩
  | 44 => ⟨S257295x1, .i32⟩
  | 45 => ⟨S257295, .f32⟩
  | 46 => ⟨S257295, .f32⟩
  | 47 => ⟨S_, .f32⟩
  | 48 => ⟨S15360x15360, .f32⟩
  | 49 => ⟨S_, .i32⟩
  | 50 => ⟨S257295, .i32⟩
  | 51 => ⟨S257295, .i1⟩
  | 52 => ⟨S_, .i32⟩
  | 53 => ⟨S257295, .i32⟩
  | 54 => ⟨S257295, .i32⟩
  | 55 => ⟨S257295, .i32⟩
  | 56 => ⟨S_, .i32⟩
  | 57 => ⟨S257295, .i32⟩
  | 58 => ⟨S257295, .i1⟩
  | 59 => ⟨S_, .i32⟩
  | 60 => ⟨S257295, .i32⟩
  | 61 => ⟨S257295, .i32⟩
  | 62 => ⟨S257295, .i32⟩
  | 63 => ⟨S257295x1, .i32⟩
  | 64 => ⟨S257295x1, .i32⟩
  | 65 => ⟨S257295x2, .i32⟩
  | 66 => ⟨S15360x15360, .f32⟩
  | 67 => ⟨S15360x15360, .bf16⟩
  | 68 => ⟨S15360, .i32⟩
  | 69 => ⟨S_, .i32⟩
  | 70 => ⟨S15360, .i32⟩
  | 71 => ⟨S15360, .i1⟩
  | 72 => ⟨S15360, .f32⟩
  | 73 => ⟨S15360x1, .f32⟩
  | 74 => ⟨S15135x8x64, .f32⟩
  | 75 => ⟨S_, .i32⟩
  | 76 => ⟨S_, .f32⟩
  | 77 => ⟨S15360x8x64, .f32⟩
  | 78 => ⟨S15360x512, .f32⟩
  | 79 => ⟨S15360x512, .bf16⟩
  | 80 => ⟨S15360x512, .f32⟩
  | 81 => ⟨S122880x64, .f32⟩
  | 82 => ⟨S122880x128, .f32⟩
  | 83 => ⟨S1x128, .f32⟩
  | 84 => ⟨S122880x128, .f32⟩
  | 85 => ⟨S122880x128, .f32⟩
  | 86 => ⟨S_, .f32⟩
  | 87 => ⟨S122880x128, .f32⟩
  | 88 => ⟨S122880x128, .f32⟩
  | 89 => ⟨S15360x1024, .f32⟩
  | 90 => ⟨S15360x1024, .f32⟩
  | 91 => ⟨S15360x1024, .f32⟩
  | 92 => ⟨S15360x1024, .bf16⟩
  | 93 => ⟨S15360x1024, .f32⟩
  | 94 => ⟨S122880x128, .f32⟩
  | 95 => ⟨S122880x128, .f32⟩
  | 96 => ⟨S1x128, .f32⟩
  | 97 => ⟨S122880x128, .f32⟩
  | 98 => ⟨S122880x128, .f32⟩
  | 99 => ⟨S_, .f32⟩
  | 100 => ⟨S122880x128, .f32⟩
  | 101 => ⟨S122880x128, .f32⟩
  | 102 => ⟨S15360x1024, .f32⟩
  | 103 => ⟨S15360x1024, .f32⟩
  | 104 => ⟨S15360x1024, .f32⟩
  | 105 => ⟨S15360x1024, .bf16⟩
  | 106 => ⟨S15360x1024, .f32⟩
  | 107 => ⟨S122880x128, .f32⟩
  | 108 => ⟨S122880x128, .f32⟩
  | 109 => ⟨S1x128, .f32⟩
  | 110 => ⟨S122880x128, .f32⟩
  | 111 => ⟨S122880x128, .f32⟩
  | 112 => ⟨S_, .f32⟩
  | 113 => ⟨S122880x128, .f32⟩
  | 114 => ⟨S122880x128, .f32⟩
  | 115 => ⟨S15360x1024, .f32⟩
  | 116 => ⟨S15360x1024, .f32⟩
  | 117 => ⟨S15360x1024, .f32⟩
  | 118 => ⟨S384, .f32⟩
  | 119 => ⟨S384x1, .f32⟩
  | 120 => ⟨S128x3, .f32⟩
  | 121 => ⟨S128x1, .f32⟩
  | 122 => ⟨S122880x128, .f32⟩
  | 123 => ⟨S122880x1, .f32⟩
  | 124 => ⟨S15360x8, .f32⟩
  | 125 => ⟨S128x1, .f32⟩
  | 126 => ⟨S122880x128, .f32⟩
  | 127 => ⟨S122880x1, .f32⟩
  | _ => ⟨S8x15135x64, .f32⟩

abbrev hbmTy0_1 (i : Nat) : BufTy := match i % 128 with
  | 0 => ⟨S15360x8, .f32⟩
  | 1 => ⟨S128x1, .f32⟩
  | 2 => ⟨S122880x128, .f32⟩
  | 3 => ⟨S122880x1, .f32⟩
  | 4 => ⟨S15360x8, .f32⟩
  | 5 => ⟨S15360x8, .f32⟩
  | 6 => ⟨S15360x8, .f32⟩
  | 7 => ⟨S_, .f32⟩
  | 8 => ⟨S15360x8, .f32⟩
  | 9 => ⟨S15360x8, .f32⟩
  | 10 => ⟨S8x15360, .f32⟩
  | 11 => ⟨S8x15135, .f32⟩
  | 12 => ⟨S8x512, .f32⟩
  | 13 => ⟨S1x512, .f32⟩
  | 14 => ⟨S8x512, .f32⟩
  | 15 => ⟨S8x512, .f32⟩
  | 16 => ⟨S_, .f32⟩
  | 17 => ⟨S8x512, .f32⟩
  | 18 => ⟨S8x512, .f32⟩
  | 19 => ⟨S8x10, .f32⟩
  | 20 => ⟨S1x10, .f32⟩
  | 21 => ⟨S8x10, .f32⟩
  | 22 => ⟨S8x10, .f32⟩
  | 23 => ⟨S_, .f32⟩
  | 24 => ⟨S8, .f32⟩
  | 25 => ⟨S_, .f32⟩
  | 26 => ⟨S8, .f32⟩
  | 27 => ⟨S8, .f32⟩
  | 28 => ⟨S8x1, .f32⟩
  | 29 => ⟨S8x10, .f32⟩
  | 30 => ⟨S8x10, .f32⟩
  | 31 => ⟨S8x10, .f32⟩
  | 32 => ⟨S_, .f32⟩
  | 33 => ⟨S8, .f32⟩
  | 34 => ⟨S8x1, .f32⟩
  | 35 => ⟨S8x1, .f32⟩
  | 36 => ⟨S8x10, .f32⟩
  | 37 => ⟨S8x10, .f32⟩
  | _ => ⟨S8x15135x64, .f32⟩

abbrev hbmTy (i : Nat) : BufTy := match i / 128 with
  | 0 => hbmTy0_0 i
  | 1 => hbmTy0_1 i
  | _ => ⟨S8x15135x64, .f32⟩

abbrev bufTy : (tb : Table) → Fin (tcTables nBuf tb) → BufTy
  | .hbm, ⟨i, _⟩ => hbmTy i
  | .local _ .vmem, ⟨0, _⟩ => ⟨S1536x1536, .bf16⟩
  | .local _ .vmem, ⟨1, _⟩ => ⟨S1536x1536, .bf16⟩
  | .local _ .vmem, ⟨2, _⟩ => ⟨S1536x512, .bf16⟩
  | .local _ .vmem, ⟨3, _⟩ => ⟨S1536x512, .bf16⟩
  | .local _ .vmem, ⟨4, _⟩ => ⟨S1536x512, .f32⟩
  | .local _ .vmem, ⟨5, _⟩ => ⟨S1536x512, .f32⟩
  | .local _ .vmem, ⟨6, _⟩ => ⟨S1536x512, .f32⟩
  | .local _ .vmem, ⟨7, _⟩ => ⟨S1536x1536, .bf16⟩
  | .local _ .vmem, ⟨8, _⟩ => ⟨S1536x1536, .bf16⟩
  | .local _ .vmem, ⟨9, _⟩ => ⟨S1536x1024, .bf16⟩
  | .local _ .vmem, ⟨10, _⟩ => ⟨S1536x1024, .bf16⟩
  | .local _ .vmem, ⟨11, _⟩ => ⟨S1536x1024, .f32⟩
  | .local _ .vmem, ⟨12, _⟩ => ⟨S1536x1024, .f32⟩
  | .local _ .vmem, ⟨13, _⟩ => ⟨S1536x1024, .f32⟩
  | .local _ .vmem, ⟨14, _⟩ => ⟨S1536x1536, .bf16⟩
  | .local _ .vmem, ⟨15, _⟩ => ⟨S1536x1536, .bf16⟩
  | .local _ .vmem, ⟨16, _⟩ => ⟨S1536x1024, .bf16⟩
  | .local _ .vmem, ⟨17, _⟩ => ⟨S1536x1024, .bf16⟩
  | .local _ .vmem, ⟨18, _⟩ => ⟨S1536x1024, .f32⟩
  | .local _ .vmem, ⟨19, _⟩ => ⟨S1536x1024, .f32⟩
  | .local _ .vmem, ⟨20, _⟩ => ⟨S1536x1024, .f32⟩
  | _, _ => ⟨S8x15135x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_10 : Ref sig .tc := ⟨.hbm, 75, rfl⟩
abbrev main_call0_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call1_cst : Ref sig .tc := ⟨.hbm, 86, rfl⟩
abbrev main_call1_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_call2_cst : Ref sig .tc := ⟨.hbm, 99, rfl⟩
abbrev main_call2_v0 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call3_cst : Ref sig .tc := ⟨.hbm, 112, rfl⟩
abbrev main_call3_v0 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_call4_cst : Ref sig .tc := ⟨.hbm, 144, rfl⟩
abbrev main_call4_v0 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_call5_cst : Ref sig .tc := ⟨.hbm, 151, rfl⟩
abbrev main_call5_v0 : Ref sig .tc := ⟨.hbm, 152, rfl⟩
abbrev main_call5_cst_0 : Ref sig .tc := ⟨.hbm, 153, rfl⟩
abbrev main_call5_v1 : Ref sig .tc := ⟨.hbm, 154, rfl⟩
abbrev main_call5_v2 : Ref sig .tc := ⟨.hbm, 155, rfl⟩
abbrev main_call5_v3 : Ref sig .tc := ⟨.hbm, 156, rfl⟩
abbrev main_call5_v4 : Ref sig .tc := ⟨.hbm, 157, rfl⟩
abbrev main_call5_v5 : Ref sig .tc := ⟨.hbm, 158, rfl⟩
abbrev main_call5_v6 : Ref sig .tc := ⟨.hbm, 159, rfl⟩
abbrev main_call5_cst_1 : Ref sig .tc := ⟨.hbm, 160, rfl⟩
abbrev main_call5_v7 : Ref sig .tc := ⟨.hbm, 161, rfl⟩
abbrev main_call5_v8 : Ref sig .tc := ⟨.hbm, 162, rfl⟩
abbrev main_call5_v9 : Ref sig .tc := ⟨.hbm, 163, rfl⟩
abbrev main_call5_v10 : Ref sig .tc := ⟨.hbm, 164, rfl⟩
abbrev main_v115 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![10, 10], ![false, false]⟩

def k0_cond2 (i : grid0.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1536x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![10, 10], ![false, false]⟩

def k1_cond2 (i : grid1.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1536x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1536x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1536x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![10, 10], ![false, false]⟩

def k2_cond2 (i : grid2.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1536x1536 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1536x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1536x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  slices_S2x242160_S1x242160_0_0 : S2x242160.Slices ![0, 0] S1x242160
  shapeCasts_S1x242160_S242160 : S1x242160.ShapeCasts S242160
  concatenates_S242160_S15135_S257295_d0 : Shape.Concatenates [S242160, S15135] S257295 0
  slices_S2x242160_S1x242160_1_0 : S2x242160.Slices ![1, 0] S1x242160
  bcast_S_S257295 : S_.BroadcastsInDim S257295 (![] : Fin 0 → Fin S257295.rank)
  bcast_S_S15135 : S_.BroadcastsInDim S15135 (![] : Fin 0 → Fin S15135.rank)
  bcast_S257295_S257295x1_0 : S257295.BroadcastsInDim S257295x1 (![0] : Fin 1 → Fin S257295x1.rank)
  bcast_S_S15360x15360 : S_.BroadcastsInDim S15360x15360 (![] : Fin 0 → Fin S15360x15360.rank)
  concatenates_S257295x1_S257295x1_S257295x2_d1 : Shape.Concatenates [S257295x1, S257295x1] S257295x2 1
  bitsLt_bf16_f32 : FTy.bits .bf16 < FTy.bits .f32
  bcast_S_S15360 : S_.BroadcastsInDim S15360 (![] : Fin 0 → Fin S15360.rank)
  bcast_S15360_S15360x1_0 : S15360.BroadcastsInDim S15360x1 (![0] : Fin 1 → Fin S15360x1.rank)
  transposes_S8x15135x64_S15135x8x64_1_0_2 : S8x15135x64.Transposes [1, 0, 2] S15135x8x64
  pads_S15135x8x64_S15360x8x64_02250_000_000 : S15135x8x64.Pads (![0, 0, 0] : Fin 3 → Nat) ![225, 0, 0] ![0, 0, 0] S15360x8x64
  h_S_ : 0 < S_.numel
  shapeCasts_S15360x8x64_S15360x512 : S15360x8x64.ShapeCasts S15360x512
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  inb_S1536x1536_S1536x1536_0_0 : ∀ a, (![0, 0] : Fin 2 → Nat) a + S1536x1536.size a ≤ S1536x1536.size a
  h_S1536x1536 : 0 < S1536x1536.numel
  shapeCasts_S1536x1536_S1536x1536 : S1536x1536.ShapeCasts S1536x1536
  shapeCasts_S15360x512_S122880x64 : S15360x512.ShapeCasts S122880x64
  bcast_S128_S1x128_1 : S128.BroadcastsInDim S1x128 (![1] : Fin 1 → Fin S1x128.rank)
  bcast_S1x128_S122880x128_0_1 : S1x128.BroadcastsInDim S122880x128 (![0, 1] : Fin 2 → Fin S122880x128.rank)
  bcast_S_S122880x128 : S_.BroadcastsInDim S122880x128 (![] : Fin 0 → Fin S122880x128.rank)
  shapeCasts_S122880x128_S15360x1024 : S122880x128.ShapeCasts S15360x1024
  bcast_S15360x1_S15360x1024_0_1 : S15360x1.BroadcastsInDim S15360x1024 (![0, 1] : Fin 2 → Fin S15360x1024.rank)
  inb_S1536x1024_S1536x1024_0_0 : ∀ a, (![0, 0] : Fin 2 → Nat) a + S1536x1024.size a ≤ S1536x1024.size a
  h_S1536x1024 : 0 < S1536x1024.numel
  shapeCasts_S1536x1024_S1536x1024 : S1536x1024.ShapeCasts S1536x1024
  shapeCasts_S15360x1024_S122880x128 : S15360x1024.ShapeCasts S122880x128
  shapeCasts_S384x1_S384 : S384x1.ShapeCasts S384
  bcast_S384_S384x1_0 : S384.BroadcastsInDim S384x1 (![0] : Fin 1 → Fin S384x1.rank)
  shapeCasts_S384x1_S128x3 : S384x1.ShapeCasts S128x3
  slices_S128x3_S128x1_0_0 : S128x3.Slices ![0, 0] S128x1
  shapeCasts_S122880x1_S15360x8 : S122880x1.ShapeCasts S15360x8
  slices_S128x3_S128x1_0_1 : S128x3.Slices ![0, 1] S128x1
  slices_S128x3_S128x1_0_2 : S128x3.Slices ![0, 2] S128x1
  shapeCasts_S1_S_ : S1.ShapeCasts S_
  bcast_S_S15360x8 : S_.BroadcastsInDim S15360x8 (![] : Fin 0 → Fin S15360x8.rank)
  transposes_S15360x8_S8x15360_1_0 : S15360x8.Transposes [1, 0] S8x15360
  slices_S8x15360_S8x15135_0_0 : S8x15360.Slices ![0, 0] S8x15135
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S_S8x512 : S_.BroadcastsInDim S8x512 (![] : Fin 0 → Fin S8x512.rank)
  bcast_S10_S1x10_1 : S10.BroadcastsInDim S1x10 (![1] : Fin 1 → Fin S1x10.rank)
  bcast_S1x10_S8x10_0_1 : S1x10.BroadcastsInDim S8x10 (![0, 1] : Fin 2 → Fin S8x10.rank)
  reducesTo_S8x10_S8_d1 : S8x10.ReducesTo [1] S8
  bcast_S_S8 : S_.BroadcastsInDim S8 (![] : Fin 0 → Fin S8.rank)
  bcast_S8_S8x1_0 : S8.BroadcastsInDim S8x1 (![0] : Fin 1 → Fin S8x1.rank)
  bcast_S8x1_S8x10_0_1 : S8x1.BroadcastsInDim S8x10 (![0, 1] : Fin 2 → Fin S8x10.rank)
  scatter_S15135_S257295x1_S257295_n_0_0_1_wf : ScatterDims.WF S15135 S257295x1 S257295 [] [0] [0] 1
  gather_S15135_S257295x1_S257295_n_0_n_n_0_1_1_wf : GatherDims.WF S15135 S257295x1 S257295 [] [0] [] [0] [] 1 ![1]
  scatter_S15360x15360_S257295x2_S257295_n_01_01_1_wf : ScatterDims.WF S15360x15360 S257295x2 S257295 [] [0, 1] [0, 1] 1
  dot_S1536x1536_S1536x512_S1536x512_1_0_0_1_n_n_wf : DotDims.WF S1536x1536 S1536x512 S1536x512 [1] [0] [0] [1] [] []
  dot_S122880x64_S64x128_S122880x128_1_0_0_1_n_n_wf : DotDims.WF S122880x64 S64x128 S122880x128 [1] [0] [0] [1] [] []
  dot_S1536x1536_S1536x1024_S1536x1024_1_0_0_1_n_n_wf : DotDims.WF S1536x1536 S1536x1024 S1536x1024 [1] [0] [0] [1] [] []
  dot_S122880x128_S128x128_S122880x128_1_0_0_1_n_n_wf : DotDims.WF S122880x128 S128x128 S122880x128 [1] [0] [0] [1] [] []
  dot_S122880x128_S128x1_S122880x1_1_0_0_1_n_n_wf : DotDims.WF S122880x128 S128x1 S122880x1 [1] [0] [0] [1] [] []
  dot_S8x15135_S15135x512_S8x512_1_0_0_1_n_n_wf : DotDims.WF S8x15135 S15135x512 S8x512 [1] [0] [0] [1] [] []
  dot_S8x512_S512x10_S8x10_1_0_0_1_n_n_wf : DotDims.WF S8x512 S512x10 S8x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x1536.size a ≤ S15360x15360.size a
  hwx0_0 : ∀ i : grid0.Coords, EltTy.bits .bf16 = 32 ∨ (Rect.block (s := S15360x15360) S1536x1536.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S15360x512.size a
  hwx0_1 : ∀ i : grid0.Coords, EltTy.bits .bf16 = 32 ∨ (Rect.block (s := S15360x512) S1536x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1536x512.size a ≤ S15360x512.size a
  hwx0_2 : ∀ i : grid0.Coords, EltTy.bits .f32 = 32 ∨ (Rect.block (s := S15360x512) S1536x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1536x1536.size a ≤ S15360x15360.size a
  hwx1_0 : ∀ i : grid1.Coords, EltTy.bits .bf16 = 32 ∨ (Rect.block (s := S15360x15360) S1536x1536.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1536x1024.size a ≤ S15360x1024.size a
  hwx1_1 : ∀ i : grid1.Coords, EltTy.bits .bf16 = 32 ∨ (Rect.block (s := S15360x1024) S1536x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1536x1024.size a ≤ S15360x1024.size a
  hwx1_2 : ∀ i : grid1.Coords, EltTy.bits .f32 = 32 ∨ (Rect.block (s := S15360x1024) S1536x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1536x1536.size a ≤ S15360x15360.size a
  hwx2_0 : ∀ i : grid2.Coords, EltTy.bits .bf16 = 32 ∨ (Rect.block (s := S15360x15360) S1536x1536.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1536x1024.size a ≤ S15360x1024.size a
  hwx2_1 : ∀ i : grid2.Coords, EltTy.bits .bf16 = 32 ∨ (Rect.block (s := S15360x1024) S1536x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1536x1024.size a ≤ S15360x1024.size a
  hwx2_2 : ∀ i : grid2.Coords, EltTy.bits .f32 = 32 ∨ (Rect.block (s := S15360x1024) S1536x1024.size (cc2_transform_2 i) (hinb2_2 i)).WholeWords (EltTy.packing .f32)

variable [Facts₀]

def scatter_S15135_S257295x1_S257295_n_0_0_1 : ScatterDims S15135 S257295x1 S257295 where
  updateWindowDims := []
  insertedWindowDims := [0]
  scatterDimsToOperandDims := [0]
  indexVectorDim := 1
  wf := scatter_S15135_S257295x1_S257295_n_0_0_1_wf
def gather_S15135_S257295x1_S257295_n_0_n_n_0_1_1 : GatherDims S15135 S257295x1 S257295 where
  offsetDims := []
  collapsedSliceDims := [0]
  operandBatchingDims := []
  startIndicesBatchingDims := []
  startIndexMap := [0]
  indexVectorDim := 1
  sliceSizes := ![1]
  wf := gather_S15135_S257295x1_S257295_n_0_n_n_0_1_1_wf
def scatter_S15360x15360_S257295x2_S257295_n_01_01_1 : ScatterDims S15360x15360 S257295x2 S257295 where
  updateWindowDims := []
  insertedWindowDims := [0, 1]
  scatterDimsToOperandDims := [0, 1]
  indexVectorDim := 1
  wf := scatter_S15360x15360_S257295x2_S257295_n_01_01_1_wf
def dot_S1536x1536_S1536x512_S1536x512_1_0_0_1_n_n : DotDims S1536x1536 S1536x512 S1536x512 where
  lhsContracting := [1]
  rhsContracting := [0]
  lhsNonContracting := [0]
  rhsNonContracting := [1]
  lhsBatch := []
  rhsBatch := []
  wf := dot_S1536x1536_S1536x512_S1536x512_1_0_0_1_n_n_wf
def dot_S122880x64_S64x128_S122880x128_1_0_0_1_n_n : DotDims S122880x64 S64x128 S122880x128 where
  lhsContracting := [1]
  rhsContracting := [0]
  lhsNonContracting := [0]
  rhsNonContracting := [1]
  lhsBatch := []
  rhsBatch := []
  wf := dot_S122880x64_S64x128_S122880x128_1_0_0_1_n_n_wf
def dot_S1536x1536_S1536x1024_S1536x1024_1_0_0_1_n_n : DotDims S1536x1536 S1536x1024 S1536x1024 where
  lhsContracting := [1]
  rhsContracting := [0]
  lhsNonContracting := [0]
  rhsNonContracting := [1]
  lhsBatch := []
  rhsBatch := []
  wf := dot_S1536x1536_S1536x1024_S1536x1024_1_0_0_1_n_n_wf
def dot_S122880x128_S128x128_S122880x128_1_0_0_1_n_n : DotDims S122880x128 S128x128 S122880x128 where
  lhsContracting := [1]
  rhsContracting := [0]
  lhsNonContracting := [0]
  rhsNonContracting := [1]
  lhsBatch := []
  rhsBatch := []
  wf := dot_S122880x128_S128x128_S122880x128_1_0_0_1_n_n_wf
def dot_S122880x128_S128x1_S122880x1_1_0_0_1_n_n : DotDims S122880x128 S128x1 S122880x1 where
  lhsContracting := [1]
  rhsContracting := [0]
  lhsNonContracting := [0]
  rhsNonContracting := [1]
  lhsBatch := []
  rhsBatch := []
  wf := dot_S122880x128_S128x1_S122880x1_1_0_0_1_n_n_wf
def dot_S8x15135_S15135x512_S8x512_1_0_0_1_n_n : DotDims S8x15135 S15135x512 S8x512 where
  lhsContracting := [1]
  rhsContracting := [0]
  lhsNonContracting := [0]
  rhsNonContracting := [1]
  lhsBatch := []
  rhsBatch := []
  wf := dot_S8x15135_S15135x512_S8x512_1_0_0_1_n_n_wf
def dot_S8x512_S512x10_S8x10_1_0_0_1_n_n : DotDims S8x512 S512x10 S8x10 where
  lhsContracting := [1]
  rhsContracting := [0]
  lhsNonContracting := [0]
  rhsNonContracting := [1]
  lhsBatch := []
  rhsBatch := []
  wf := dot_S8x512_S512x10_S8x10_1_0_0_1_n_n_wf

abbrev win0_0 : Pipeline.Window sig grid0 :=
  Pipeline.Window.ofSpec (Memref.whole main_v42) S1536x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S1536x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v52) S1536x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v42) S1536x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S1536x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1536x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v42) S1536x1536.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S1536x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v74) S1536x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8x15135x64 : Shape := ⟨3, ![8, 15135, 64]⟩
abbrev S2x242160 : Shape := ⟨2, ![2, 242160]⟩
abbrev S64x128 : Shape := ⟨2, ![64, 128]⟩
abbrev S128 : Shape := ⟨1, ![128]⟩
abbrev S128x128 : Shape := ⟨2, ![128, 128]⟩
abbrev S384x1 : Shape := ⟨2, ![384, 1]⟩
abbrev S1 : Shape := ⟨1, ![1]⟩
abbrev S15135x512 : Shape := ⟨2, ![15135, 512]⟩
abbrev S512 : Shape := ⟨1, ![512]⟩
abbrev S512x10 : Shape := ⟨2, ![512, 10]⟩
abbrev S10 : Shape := ⟨1, ![10]⟩
abbrev S15135 : Shape := ⟨1, ![15135]⟩
abbrev S1x242160 : Shape := ⟨2, ![1, 242160]⟩
abbrev S242160 : Shape := ⟨1, ![242160]⟩
abbrev S257295 : Shape := ⟨1, ![257295]⟩
abbrev S_ : Shape := ⟨0, ![]⟩
abbrev S257295x1 : Shape := ⟨2, ![257295, 1]⟩
abbrev S8x15135x128 : Shape := ⟨3, ![8, 15135, 128]⟩
abbrev S8x257295x128 : Shape := ⟨3, ![8, 257295, 128]⟩
abbrev S1x257295x1 : Shape := ⟨3, ![1, 257295, 1]⟩
abbrev S1x1x128 : Shape := ⟨3, ![1, 1, 128]⟩
abbrev S8x15135x128x1 : Shape := ⟨4, ![8, 15135, 128, 1]⟩
abbrev S8x15135x128x3 : Shape := ⟨4, ![8, 15135, 128, 3]⟩
abbrev S8x15135x384 : Shape := ⟨3, ![8, 15135, 384]⟩
abbrev S8x15135x1 : Shape := ⟨3, ![8, 15135, 1]⟩
abbrev S1x1x1 : Shape := ⟨3, ![1, 1, 1]⟩
abbrev S8x15135 : Shape := ⟨2, ![8, 15135]⟩
abbrev S8x512 : Shape := ⟨2, ![8, 512]⟩
abbrev S1x512 : Shape := ⟨2, ![1, 512]⟩
abbrev S8x10 : Shape := ⟨2, ![8, 10]⟩
abbrev S1x10 : Shape := ⟨2, ![1, 10]⟩
abbrev S8 : Shape := ⟨1, ![8]⟩
abbrev S8x1 : Shape := ⟨2, ![8, 1]⟩

abbrev nBuf : Space → Nat
  | .hbm => 173
  | .vmem => 0
  | .smem => 0
  | _ => 0

abbrev hbmTy0_0 (i : Nat) : BufTy := match i % 128 with
  | 0 => ⟨S8x15135x64, .f32⟩
  | 1 => ⟨S2x242160, .i32⟩
  | 2 => ⟨S64x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S384x1, .f32⟩
  | 9 => ⟨S1, .f32⟩
  | 10 => ⟨S15135x512, .f32⟩
  | 11 => ⟨S512, .f32⟩
  | 12 => ⟨S512x10, .f32⟩
  | 13 => ⟨S10, .f32⟩
  | 14 => ⟨S15135, .i32⟩
  | 15 => ⟨S1x242160, .i32⟩
  | 16 => ⟨S242160, .i32⟩
  | 17 => ⟨S257295, .i32⟩
  | 18 => ⟨S1x242160, .i32⟩
  | 19 => ⟨S242160, .i32⟩
  | 20 => ⟨S257295, .i32⟩
  | 21 => ⟨S_, .f32⟩
  | 22 => ⟨S257295, .f32⟩
  | 23 => ⟨S_, .f32⟩
  | 24 => ⟨S15135, .f32⟩
  | 25 => ⟨S257295x1, .i32⟩
  | 26 => ⟨S15135, .f32⟩
  | 27 => ⟨S15135, .f32⟩
  | 28 => ⟨S_, .i32⟩
  | 29 => ⟨S257295, .i32⟩
  | 30 => ⟨S257295, .i1⟩
  | 31 => ⟨S_, .i32⟩
  | 32 => ⟨S257295, .i32⟩
  | 33 => ⟨S257295, .i32⟩
  | 34 => ⟨S257295, .i32⟩
  | 35 => ⟨S257295x1, .i32⟩
  | 36 => ⟨S257295, .f32⟩
  | 37 => ⟨S_, .i32⟩
  | 38 => ⟨S257295, .i32⟩
  | 39 => ⟨S257295, .i1⟩
  | 40 => ⟨S_, .i32⟩
  | 41 => ⟨S257295, .i32⟩
  | 42 => ⟨S257295, .i32⟩
  | 43 => ⟨S257295, .i32⟩
  | 44 => ⟨S257295x1, .i32⟩
  | 45 => ⟨S257295, .f32⟩
  | 46 => ⟨S257295, .f32⟩
  | 47 => ⟨S8x15135x128, .f32⟩
  | 48 => ⟨S_, .i32⟩
  | 49 => ⟨S257295, .i32⟩
  | 50 => ⟨S257295, .i1⟩
  | 51 => ⟨S_, .i32⟩
  | 52 => ⟨S257295, .i32⟩
  | 53 => ⟨S257295, .i32⟩
  | 54 => ⟨S257295, .i32⟩
  | 55 => ⟨S257295x1, .i32⟩
  | 56 => ⟨S8x257295x128, .f32⟩
  | 57 => ⟨S1x257295x1, .f32⟩
  | 58 => ⟨S8x257295x128, .f32⟩
  | 59 => ⟨S8x257295x128, .f32⟩
  | 60 => ⟨S_, .f32⟩
  | 61 => ⟨S8x15135x128, .f32⟩
  | 62 => ⟨S_, .i32⟩
  | 63 => ⟨S257295, .i32⟩
  | 64 => ⟨S257295, .i1⟩
  | 65 => ⟨S_, .i32⟩
  | 66 => ⟨S257295, .i32⟩
  | 67 => ⟨S257295, .i32⟩
  | 68 => ⟨S257295, .i32⟩
  | 69 => ⟨S257295x1, .i32⟩
  | 70 => ⟨S8x15135x128, .f32⟩
  | 71 => ⟨S1x1x128, .f32⟩
  | 72 => ⟨S8x15135x128, .f32⟩
  | 73 => ⟨S8x15135x128, .f32⟩
  | 74 => ⟨S_, .f32⟩
  | 75 => ⟨S8x15135x128, .f32⟩
  | 76 => ⟨S8x15135x128, .f32⟩
  | 77 => ⟨S8x15135x128, .f32⟩
  | 78 => ⟨S_, .i32⟩
  | 79 => ⟨S257295, .i32⟩
  | 80 => ⟨S257295, .i1⟩
  | 81 => ⟨S_, .i32⟩
  | 82 => ⟨S257295, .i32⟩
  | 83 => ⟨S257295, .i32⟩
  | 84 => ⟨S257295, .i32⟩
  | 85 => ⟨S257295x1, .i32⟩
  | 86 => ⟨S8x257295x128, .f32⟩
  | 87 => ⟨S1x257295x1, .f32⟩
  | 88 => ⟨S8x257295x128, .f32⟩
  | 89 => ⟨S8x257295x128, .f32⟩
  | 90 => ⟨S_, .f32⟩
  | 91 => ⟨S8x15135x128, .f32⟩
  | 92 => ⟨S_, .i32⟩
  | 93 => ⟨S257295, .i32⟩
  | 94 => ⟨S257295, .i1⟩
  | 95 => ⟨S_, .i32⟩
  | 96 => ⟨S257295, .i32⟩
  | 97 => ⟨S257295, .i32⟩
  | 98 => ⟨S257295, .i32⟩
  | 99 => ⟨S257295x1, .i32⟩
  | 100 => ⟨S8x15135x128, .f32⟩
  | 101 => ⟨S1x1x128, .f32⟩
  | 102 => ⟨S8x15135x128, .f32⟩
  | 103 => ⟨S8x15135x128, .f32⟩
  | 104 => ⟨S_, .f32⟩
  | 105 => ⟨S8x15135x128, .f32⟩
  | 106 => ⟨S8x15135x128, .f32⟩
  | 107 => ⟨S8x15135x128, .f32⟩
  | 108 => ⟨S_, .i32⟩
  | 109 => ⟨S257295, .i32⟩
  | 110 => ⟨S257295, .i1⟩
  | 111 => ⟨S_, .i32⟩
  | 112 => ⟨S257295, .i32⟩
  | 113 => ⟨S257295, .i32⟩
  | 114 => ⟨S257295, .i32⟩
  | 115 => ⟨S257295x1, .i32⟩
  | 116 => ⟨S8x257295x128, .f32⟩
  | 117 => ⟨S1x257295x1, .f32⟩
  | 118 => ⟨S8x257295x128, .f32⟩
  | 119 => ⟨S8x257295x128, .f32⟩
  | 120 => ⟨S_, .f32⟩
  | 121 => ⟨S8x15135x128, .f32⟩
  | 122 => ⟨S_, .i32⟩
  | 123 => ⟨S257295, .i32⟩
  | 124 => ⟨S257295, .i1⟩
  | 125 => ⟨S_, .i32⟩
  | 126 => ⟨S257295, .i32⟩
  | 127 => ⟨S257295, .i32⟩
  | _ => ⟨S8x15135x64, .f32⟩

abbrev hbmTy0_1 (i : Nat) : BufTy := match i % 128 with
  | 0 => ⟨S257295, .i32⟩
  | 1 => ⟨S257295x1, .i32⟩
  | 2 => ⟨S8x15135x128, .f32⟩
  | 3 => ⟨S1x1x128, .f32⟩
  | 4 => ⟨S8x15135x128, .f32⟩
  | 5 => ⟨S8x15135x128, .f32⟩
  | 6 => ⟨S_, .f32⟩
  | 7 => ⟨S8x15135x128, .f32⟩
  | 8 => ⟨S8x15135x128, .f32⟩
  | 9 => ⟨S8x15135x128x1, .f32⟩
  | 10 => ⟨S8x15135x128x1, .f32⟩
  | 11 => ⟨S8x15135x128x1, .f32⟩
  | 12 => ⟨S8x15135x128x3, .f32⟩
  | 13 => ⟨S8x15135x384, .f32⟩
  | 14 => ⟨S8x15135x1, .f32⟩
  | 15 => ⟨S1x1x1, .f32⟩
  | 16 => ⟨S8x15135x1, .f32⟩
  | 17 => ⟨S8x15135x1, .f32⟩
  | 18 => ⟨S8x15135, .f32⟩
  | 19 => ⟨S8x512, .f32⟩
  | 20 => ⟨S1x512, .f32⟩
  | 21 => ⟨S8x512, .f32⟩
  | 22 => ⟨S8x512, .f32⟩
  | 23 => ⟨S_, .f32⟩
  | 24 => ⟨S8x512, .f32⟩
  | 25 => ⟨S8x512, .f32⟩
  | 26 => ⟨S8x10, .f32⟩
  | 27 => ⟨S1x10, .f32⟩
  | 28 => ⟨S8x10, .f32⟩
  | 29 => ⟨S8x10, .f32⟩
  | 30 => ⟨S_, .f32⟩
  | 31 => ⟨S8, .f32⟩
  | 32 => ⟨S_, .f32⟩
  | 33 => ⟨S8, .f32⟩
  | 34 => ⟨S8, .f32⟩
  | 35 => ⟨S8x1, .f32⟩
  | 36 => ⟨S8x10, .f32⟩
  | 37 => ⟨S8x10, .f32⟩
  | 38 => ⟨S8x10, .f32⟩
  | 39 => ⟨S_, .f32⟩
  | 40 => ⟨S8, .f32⟩
  | 41 => ⟨S8x1, .f32⟩
  | 42 => ⟨S8x1, .f32⟩
  | 43 => ⟨S8x10, .f32⟩
  | 44 => ⟨S8x10, .f32⟩
  | _ => ⟨S8x15135x64, .f32⟩

abbrev hbmTy (i : Nat) : BufTy := match i / 128 with
  | 0 => hbmTy0_0 i
  | 1 => hbmTy0_1 i
  | _ => ⟨S8x15135x64, .f32⟩

abbrev bufTy : (tb : Table) → Fin (tcTables nBuf tb) → BufTy
  | .hbm, ⟨i, _⟩ => hbmTy i
  | _, _ => ⟨S8x15135x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call0_cst : Ref sig .tc := ⟨.hbm, 74, rfl⟩
abbrev main_call0_v0 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_c_12 : Ref sig .tc := ⟨.hbm, 92, rfl⟩
abbrev main_v62 : Ref sig .tc := ⟨.hbm, 93, rfl⟩
abbrev main_v63 : Ref sig .tc := ⟨.hbm, 94, rfl⟩
abbrev main_c_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call1_cst : Ref sig .tc := ⟨.hbm, 104, rfl⟩
abbrev main_call1_v0 : Ref sig .tc := ⟨.hbm, 105, rfl⟩
abbrev main_v72 : Ref sig .tc := ⟨.hbm, 106, rfl⟩
abbrev main_v73 : Ref sig .tc := ⟨.hbm, 107, rfl⟩
abbrev main_c_14 : Ref sig .tc := ⟨.hbm, 108, rfl⟩
abbrev main_v74 : Ref sig .tc := ⟨.hbm, 109, rfl⟩
abbrev main_v75 : Ref sig .tc := ⟨.hbm, 110, rfl⟩
abbrev main_c_15 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_16 : Ref sig .tc := ⟨.hbm, 120, rfl⟩
abbrev main_v84 : Ref sig .tc := ⟨.hbm, 121, rfl⟩
abbrev main_c_17 : Ref sig .tc := ⟨.hbm, 122, rfl⟩
abbrev main_v85 : Ref sig .tc := ⟨.hbm, 123, rfl⟩
abbrev main_v86 : Ref sig .tc := ⟨.hbm, 124, rfl⟩
abbrev main_c_18 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_call2_cst : Ref sig .tc := ⟨.hbm, 134, rfl⟩
abbrev main_call2_v0 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_call3_cst : Ref sig .tc := ⟨.hbm, 151, rfl⟩
abbrev main_call3_v0 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_call4_cst : Ref sig .tc := ⟨.hbm, 158, rfl⟩
abbrev main_call4_v0 : Ref sig .tc := ⟨.hbm, 159, rfl⟩
abbrev main_call4_cst_0 : Ref sig .tc := ⟨.hbm, 160, rfl⟩
abbrev main_call4_v1 : Ref sig .tc := ⟨.hbm, 161, rfl⟩
abbrev main_call4_v2 : Ref sig .tc := ⟨.hbm, 162, rfl⟩
abbrev main_call4_v3 : Ref sig .tc := ⟨.hbm, 163, rfl⟩
abbrev main_call4_v4 : Ref sig .tc := ⟨.hbm, 164, rfl⟩
abbrev main_call4_v5 : Ref sig .tc := ⟨.hbm, 165, rfl⟩
abbrev main_call4_v6 : Ref sig .tc := ⟨.hbm, 166, rfl⟩
abbrev main_call4_cst_1 : Ref sig .tc := ⟨.hbm, 167, rfl⟩
abbrev main_call4_v7 : Ref sig .tc := ⟨.hbm, 168, rfl⟩
abbrev main_call4_v8 : Ref sig .tc := ⟨.hbm, 169, rfl⟩
abbrev main_call4_v9 : Ref sig .tc := ⟨.hbm, 170, rfl⟩
abbrev main_call4_v10 : Ref sig .tc := ⟨.hbm, 171, rfl⟩
abbrev main_v115 : Ref sig .tc := ⟨.hbm, 172, rfl⟩

abbrev nD : Nat := 1
abbrev τ : Topo := Topo.v7x

variable {F : FTy → Type} [FloatOps F]

class Facts₀ : Prop where
  slices_S2x242160_S1x242160_0_0 : S2x242160.Slices ![0, 0] S1x242160
  shapeCasts_S1x242160_S242160 : S1x242160.ShapeCasts S242160
  concatenates_S242160_S15135_S257295_d0 : Shape.Concatenates [S242160, S15135] S257295 0
  slices_S2x242160_S1x242160_1_0 : S2x242160.Slices ![1, 0] S1x242160
  bcast_S_S257295 : S_.BroadcastsInDim S257295 (![] : Fin 0 → Fin S257295.rank)
  bcast_S_S15135 : S_.BroadcastsInDim S15135 (![] : Fin 0 → Fin S15135.rank)
  bcast_S257295_S257295x1_0 : S257295.BroadcastsInDim S257295x1 (![0] : Fin 1 → Fin S257295x1.rank)
  bcast_S257295_S1x257295x1_1 : S257295.BroadcastsInDim S1x257295x1 (![1] : Fin 1 → Fin S1x257295x1.rank)
  bcast_S1x257295x1_S8x257295x128_0_1_2 : S1x257295x1.BroadcastsInDim S8x257295x128 (![0, 1, 2] : Fin 3 → Fin S8x257295x128.rank)
  bcast_S_S8x15135x128 : S_.BroadcastsInDim S8x15135x128 (![] : Fin 0 → Fin S8x15135x128.rank)
  bcast_S128_S1x1x128_2 : S128.BroadcastsInDim S1x1x128 (![2] : Fin 1 → Fin S1x1x128.rank)
  bcast_S1x1x128_S8x15135x128_0_1_2 : S1x1x128.BroadcastsInDim S8x15135x128 (![0, 1, 2] : Fin 3 → Fin S8x15135x128.rank)
  bcast_S8x15135x128_S8x15135x128x1_0_1_2 : S8x15135x128.BroadcastsInDim S8x15135x128x1 (![0, 1, 2] : Fin 3 → Fin S8x15135x128x1.rank)
  concatenates_S8x15135x128x1_S8x15135x128x1_S8x15135x128x1_S8x15135x128x3_d3 : Shape.Concatenates [S8x15135x128x1, S8x15135x128x1, S8x15135x128x1] S8x15135x128x3 3
  shapeCasts_S8x15135x128x3_S8x15135x384 : S8x15135x128x3.ShapeCasts S8x15135x384
  bcast_S1_S1x1x1_2 : S1.BroadcastsInDim S1x1x1 (![2] : Fin 1 → Fin S1x1x1.rank)
  bcast_S1x1x1_S8x15135x1_0_1_2 : S1x1x1.BroadcastsInDim S8x15135x1 (![0, 1, 2] : Fin 3 → Fin S8x15135x1.rank)
  shapeCasts_S8x15135x1_S8x15135 : S8x15135x1.ShapeCasts S8x15135
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S_S8x512 : S_.BroadcastsInDim S8x512 (![] : Fin 0 → Fin S8x512.rank)
  bcast_S10_S1x10_1 : S10.BroadcastsInDim S1x10 (![1] : Fin 1 → Fin S1x10.rank)
  bcast_S1x10_S8x10_0_1 : S1x10.BroadcastsInDim S8x10 (![0, 1] : Fin 2 → Fin S8x10.rank)
  reducesTo_S8x10_S8_d1 : S8x10.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x10_0_1 : S8x1.BroadcastsInDim S8x10 (![0, 1] : Fin 2 → Fin S8x10.rank)
  scatter_S15135_S257295x1_S257295_n_0_0_1_wf : ScatterDims.WF S15135 S257295x1 S257295 [] [0] [0] 1
  gather_S15135_S257295x1_S257295_n_0_n_n_0_1_1_wf : GatherDims.WF S15135 S257295x1 S257295 [] [0] [] [0] [] 1 ![1]
  dot_S8x15135x64_S64x128_S8x15135x128_2_0_01_1_n_n_wf : DotDims.WF S8x15135x64 S64x128 S8x15135x128 [2] [0] [0, 1] [1] [] []
  gather_S8x15135x128_S257295x1_S8x257295x128_02_1_n_n_1_1_81128_wf : GatherDims.WF S8x15135x128 S257295x1 S8x257295x128 [0, 2] [1] [] [1] [] 1 ![8, 1, 128]
  scatter_S8x15135x128_S257295x1_S8x257295x128_02_1_1_1_wf : ScatterDims.WF S8x15135x128 S257295x1 S8x257295x128 [0, 2] [1] [1] 1
  dot_S8x15135x128_S128x128_S8x15135x128_2_0_01_1_n_n_wf : DotDims.WF S8x15135x128 S128x128 S8x15135x128 [2] [0] [0, 1] [1] [] []
  dot_S8x15135x384_S384x1_S8x15135x1_2_0_01_1_n_n_wf : DotDims.WF S8x15135x384 S384x1 S8x15135x1 [2] [0] [0, 1] [1] [] []
  dot_S8x15135_S15135x512_S8x512_1_0_0_1_n_n_wf : DotDims.WF S8x15135 S15135x512 S8x512 [1] [0] [0] [1] [] []
  dot_S8x512_S512x10_S8x10_1_0_0_1_n_n_wf : DotDims.WF S8x512 S512x10 S8x10 [1] [0] [0] [1] [] []

variable [Facts₀]

def scatter_S15135_S257295x1_S257295_n_0_0_1 : ScatterDims S15135 S257295x1 S257295 where
  updateWindowDims := []
  insertedWindowDims := [0]
  scatterDimsToOperandDims := [0]
  indexVectorDim := 1
  wf := scatter_S15135_S257295x1_S257295_n_0_0_1_wf
def gather_S15135_S257295x1_S257295_n_0_n_n_0_1_1 : GatherDims S15135 S257295x1 S257295 where
  offsetDims := []
  collapsedSliceDims := [0]
  operandBatchingDims := []
  startIndicesBatchingDims := []
  startIndexMap := [0]
  indexVectorDim := 1
  sliceSizes := ![1]
  wf := gather_S15135_S257295x1_S257295_n_0_n_n_0_1_1_wf
def dot_S8x15135x64_S64x128_S8x15135x128_2_0_01_1_n_n : DotDims S8x15135x64 S64x128 S8x15135x128 where
  lhsContracting := [2]
  rhsContracting := [0]
  lhsNonContracting := [0, 1]
  rhsNonContracting := [1]
  lhsBatch := []
  rhsBatch := []
  wf := dot_S8x15135x64_S64x128_S8x15135x128_2_0_01_1_n_n_wf
def gather_S8x15135x128_S257295x1_S8x257295x128_02_1_n_n_1_1_81128 : GatherDims S8x15135x128 S257295x1 S8x257295x128 where
  offsetDims := [0, 2]
  collapsedSliceDims := [1]
  operandBatchingDims := []
  startIndicesBatchingDims := []
  startIndexMap := [1]
  indexVectorDim := 1
  sliceSizes := ![8, 1, 128]
  wf := gather_S8x15135x128_S257295x1_S8x257295x128_02_1_n_n_1_1_81128_wf
def scatter_S8x15135x128_S257295x1_S8x257295x128_02_1_1_1 : ScatterDims S8x15135x128 S257295x1 S8x257295x128 where
  updateWindowDims := [0, 2]
  insertedWindowDims := [1]
  scatterDimsToOperandDims := [1]
  indexVectorDim := 1
  wf := scatter_S8x15135x128_S257295x1_S8x257295x128_02_1_1_1_wf
def dot_S8x15135x128_S128x128_S8x15135x128_2_0_01_1_n_n : DotDims S8x15135x128 S128x128 S8x15135x128 where
  lhsContracting := [2]
  rhsContracting := [0]
  lhsNonContracting := [0, 1]
  rhsNonContracting := [1]
  lhsBatch := []
  rhsBatch := []
  wf := dot_S8x15135x128_S128x128_S8x15135x128_2_0_01_1_n_n_wf
def dot_S8x15135x384_S384x1_S8x15135x1_2_0_01_1_n_n : DotDims S8x15135x384 S384x1 S8x15135x1 where
  lhsContracting := [2]
  rhsContracting := [0]
  lhsNonContracting := [0, 1]
  rhsNonContracting := [1]
  lhsBatch := []
  rhsBatch := []
  wf := dot_S8x15135x384_S384x1_S8x15135x1_2_0_01_1_n_n_wf
def dot_S8x15135_S15135x512_S8x512_1_0_0_1_n_n : DotDims S8x15135 S15135x512 S8x512 where
  lhsContracting := [1]
  rhsContracting := [0]
  lhsNonContracting := [0]
  rhsNonContracting := [1]
  lhsBatch := []
  rhsBatch := []
  wf := dot_S8x15135_S15135x512_S8x512_1_0_0_1_n_n_wf
def dot_S8x512_S512x10_S8x10_1_0_0_1_n_n : DotDims S8x512 S512x10 S8x10 where
  lhsContracting := [1]
  rhsContracting := [0]
  lhsNonContracting := [0]
  rhsNonContracting := [1]
  lhsBatch := []
  rhsBatch := []
  wf := dot_S8x512_S512x10_S8x10_1_0_0_1_n_n_wf

class Facts : Prop extends Facts₀ where

variable [Facts]
-- ==== Proof.RegionK0.lean ====
import proofs.«150125_j89541478187016_2_alg».proof.Proof.Gen.Kernel.Skeleton
import proofs.«150125_j89541478187016_2_alg».proof.Proof.Gen.Kernel.Launch
import proofs.«150125_j89541478187016_2_alg».proof.Proof.Gen.Kernel.Points
import Idealize.ShloMosaic.Lib.Tactic
import Idealize.ShloMosaic.Lib.Pipeline.Frame
import Idealize.ShloMosaic.Lib.Pipeline.FrameBody
import Idealize.ShloMosaic.Lib.Pipeline.Value

/-!
  Region 0: a block product accumulated over the inner grid axis.

  The grid is 10 x 10; point `t` has row block `t / 10` and inner coordinate `k = t % 10`. The body keeps a running
  accumulator in a scratch buffer: at `k = 0` it is zero-filled, at every `k` the product of the two input blocks is
  added to it, and at `k = 9` it is copied to the output block. This file states what the scratch holds after every
  point (`acc0`), the pipeline's proof data over it (`dat0`), and proves the body obligation.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body in its three control cases -/

/-- The inner coordinate is `0`: the scratch is zero-filled before the block product is added. -/
abbrev isFirst0 (i : grid0.Coords) : Prop :=
  Scalar.cmpi .ne (Scalar.extui (Scalar.cmpi .eq (BitVec.ofNat 32 (i 1).val) 0#32) : BitVec 32) 0#32 = 1#1

/-- The inner coordinate is `9`: the scratch is copied to the output block after the block product is added. -/
abbrev isLast0 (i : grid0.Coords) : Prop := k0_cond2 i = 1#1

/-- The zero offsets of a whole-block access, as a constant function. -/
theorem hz0 : (![0, 0] : Fin 2 → Nat) = fun _ => 0 := funext fun a => by fin_cases a <;> rfl

/-- Writes whose LAST one stores the whole block leave that store's payload, whatever the buffer held and whatever the
    earlier writes were. -/
theorem read_writes_whole0 {κ : Kind} {sp : Space} (v : View sig κ sp S1536x512 .f32) (f : v.ty.Contents (Elt F))
    (inb : ∀ a, (![0, 0] : Fin 2 → Nat) a + S1536x512.size a ≤ S1536x512.size a) (w : Vec F S1536x512 .f32)
    (L : List (View.Piece (Elt F) S1536x512 .f32)) :
    v.read (Elt F) (v.writes (Elt F) f (⟨Rect.unit ![0, 0] S1536x512.size inb, w⟩ :: L)) = w := by
  rw [View.read_writes_eq_canon _ _ _ (fun y => ⟨_, List.mem_cons_self .., View.mem_set_unit_zero hz0 inb y⟩),
    View.canon_cons_unit_zero hz0]

set_option maxHeartbeats 1000000 in
/-- A middle point (inner coordinate neither `0` nor `9`): the body's run, with the pieces the scratch ends with. -/
noncomputable def runMid0 (c : Dev nD) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : ¬ isFirst0 i) (h2 : ¬ isLast0 i)
    (a : Vec F S1536x1536 .bf16) (x : Vec F S1536x512 .bf16) (acc : Vec F S1536x512 .f32) :
    { L5 : List (View.Piece (Elt F) S1536x512 .f32) //
      ∀ (E : Set ℕ) (K : PUnit → sProp 𝕄),
        iprop(owns (c : Thread nD τ) arg2 fullShare a ∗ owns (c : Thread nD τ) arg3 fullShare x ∗ owns (c : Thread nD τ) arg5 fullShare acc
            ∗ (iprop(owns (c : Thread nD τ) arg2 fullShare a ∗ owns (c : Thread nD τ) arg3 fullShare x
                ∗ (∃ f, arg5.view.loc (c : Thread nD τ) ↦[arg5.view.set]{fullShare} arg5.view.writes (Elt F) f L5)) -∗ K ⟨⟩))
          ⊢ wp frame (wpE (defs₀ (F := F)) Variants.none c none) E (cc0__gcn_propagate_kernel i arg2 harg2 arg3 harg3 arg4 harg4 arg5 harg5) K } := by
  refine ⟨?_, fun E K => ?run⟩
  case run =>
    simp only [cc0__gcn_propagate_kernel_eq_skeleton]; unfold cc0__gcn_propagate_kernel_skel
    unfold owns
    iintro ⟨⟨%f2, %hf2, H2⟩, ⟨%f3, %hf3, H3⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    iexists _; iexact H5

set_option maxHeartbeats 1000000 in
/-- The first inner coordinate: the scratch is zero-filled, then the block product is added to it. -/
noncomputable def runFirst0 (c : Dev nD) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : isFirst0 i) (h2 : ¬ isLast0 i)
    (a : Vec F S1536x1536 .bf16) (x : Vec F S1536x512 .bf16) (acc : Vec F S1536x512 .f32) :
    { L5 : List (View.Piece (Elt F) S1536x512 .f32) //
      ∀ (E : Set ℕ) (K : PUnit → sProp 𝕄),
        iprop(owns (c : Thread nD τ) arg2 fullShare a ∗ owns (c : Thread nD τ) arg3 fullShare x ∗ owns (c : Thread nD τ) arg5 fullShare acc
            ∗ (iprop(owns (c : Thread nD τ) arg2 fullShare a ∗ owns (c : Thread nD τ) arg3 fullShare x
                ∗ (∃ f, arg5.view.loc (c : Thread nD τ) ↦[arg5.view.set]{fullShare} arg5.view.writes (Elt F) f L5)) -∗ K ⟨⟩))
          ⊢ wp frame (wpE (defs₀ (F := F)) Variants.none c none) E (cc0__gcn_propagate_kernel i arg2 harg2 arg3 harg3 arg4 harg4 arg5 harg5) K } := by
  refine ⟨?_, fun E K => ?run⟩
  case run =>
    simp only [cc0__gcn_propagate_kernel_eq_skeleton]; unfold cc0__gcn_propagate_kernel_skel
    unfold owns
    iintro ⟨⟨%f2, %hf2, H2⟩, ⟨%f3, %hf3, H3⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    iexists _; iexact H5

set_option maxHeartbeats 1000000 in
/-- The last inner coordinate: the block product is added to the scratch, and the scratch is copied to the output block. -/
noncomputable def runLast0 (c : Dev nD) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : ¬ isFirst0 i) (h2 : isLast0 i)
    (a : Vec F S1536x1536 .bf16) (x : Vec F S1536x512 .bf16) (acc : Vec F S1536x512 .f32) :
    { L : List (View.Piece (Elt F) S1536x512 .f32) × List (View.Piece (Elt F) S1536x512 .f32) //
      ∀ (E : Set ℕ) (K : PUnit → sProp 𝕄),
        iprop(owns (c : Thread nD τ) arg2 fullShare a ∗ owns (c : Thread nD τ) arg3 fullShare x ∗ (∃ d, owns (c : Thread nD τ) arg4 fullShare d)
            ∗ owns (c : Thread nD τ) arg5 fullShare acc
            ∗ (iprop(owns (c : Thread nD τ) arg2 fullShare a ∗ owns (c : Thread nD τ) arg3 fullShare x
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__gcn_propagate_kernel i arg2 harg2 arg3 harg3 arg4 harg4 arg5 harg5) K } := by
  refine ⟨(?_, ?_), fun E K => ?run⟩
  case run =>
    simp only [cc0__gcn_propagate_kernel_eq_skeleton]; unfold cc0__gcn_propagate_kernel_skel
    unfold owns
    iintro ⟨⟨%f2, %hf2, H2⟩, ⟨%f3, %hf3, H3⟩, ⟨%d4, %f4, -, H4⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact H5

/-! ## What each case leaves, as values -/

/-- A middle point leaves the accumulate payload of the scratch's old contents and the two input blocks. -/
theorem scratchMid0 (c : Dev nD) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : ¬ isFirst0 i) (h2 : ¬ isLast0 i)
    (a : Vec F S1536x1536 .bf16) (x : Vec F S1536x512 .bf16) (acc : Vec F S1536x512 .f32) (f : arg5.view.ty.Contents (Elt F)) :
    arg5.view.read (Elt F) (arg5.view.writes (Elt F) f (runMid0 c i arg2 harg2 arg3 harg3 arg4 harg4 arg5 harg5 h1 h2 a x acc).1) = k0_pay2 acc a x := by
  unfold runMid0
  dsimp only
  rw [read_writes_whole0]
  simp only [View.readAt_eq_ld, harg2.read_unread, harg3.read_unread, harg5.read_unread,
    View.ld_unit_zero (S := S1536x512) hz0, View.ld_unit_zero (S := S1536x1536) hz0]

/-- The first point leaves the accumulate payload of the zero block and the two input blocks. -/
theorem scratchFirst0 (c : Dev nD) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : isFirst0 i) (h2 : ¬ isLast0 i)
    (a : Vec F S1536x1536 .bf16) (x : Vec F S1536x512 .bf16) (acc : Vec F S1536x512 .f32) (f : arg5.view.ty.Contents (Elt F)) :
    arg5.view.read (Elt F) (arg5.view.writes (Elt F) f (runFirst0 c i arg2 harg2 arg3 harg3 arg4 harg4 arg5 harg5 h1 h2 a x acc).1) = k0_pay2 k0_pay1 a x := by
  unfold runFirst0
  dsimp only
  rw [read_writes_whole0]
  sl_unfold_words
  rw [View.readCov_unit_zero (S := S1536x512) _ hz0]
  simp only [View.readAt_eq_ld, harg2.read_unread, harg3.read_unread,
    View.ld_unit_zero (S := S1536x512) hz0, View.ld_unit_zero (S := S1536x1536) hz0]

/-- The last point leaves the same accumulate payload in the scratch -/
theorem scratchLast0 (c : Dev nD) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : ¬ isFirst0 i) (h2 : isLast0 i)
    (a : Vec F S1536x1536 .bf16) (x : Vec F S1536x512 .bf16) (acc : Vec F S1536x512 .f32) (f : arg5.view.ty.Contents (Elt F)) :
    arg5.view.read (Elt F) (arg5.view.writes (Elt F) f (runLast0 c i arg2 harg2 arg3 harg3 arg4 harg4 arg5 harg5 h1 h2 a x acc).1.2) = k0_pay2 acc a x := by
  unfold runLast0
  dsimp only
  sl_unfold_words
  rw [read_writes_whole0]
  simp only [View.readAt_eq_ld, harg2.read_unread, harg3.read_unread, harg5.read_unread,
    View.ld_unit_zero (S := S1536x512) hz0, View.ld_unit_zero (S := S1536x1536) hz0]

/-- and copies it to the output block. -/
theorem outLast0 (c : Dev nD) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : ¬ isFirst0 i) (h2 : isLast0 i)
    (a : Vec F S1536x1536 .bf16) (x : Vec F S1536x512 .bf16) (acc : Vec F S1536x512 .f32) (f : arg4.view.ty.Contents (Elt F)) :
    arg4.view.read (Elt F) (arg4.view.writes (Elt F) f (runLast0 c i arg2 harg2 arg3 harg3 arg4 harg4 arg5 harg5 h1 h2 a x acc).1.1) = k0_pay2 acc a x := by
  unfold runLast0
  dsimp only
  rw [read_writes_whole0]
  sl_unfold_words
  rw [View.readCov_unit_zero (S := S1536x512) _ hz0]
  simp only [View.readAt_eq_ld, harg2.read_unread, harg3.read_unread, harg5.read_unread,
    View.ld_unit_zero (S := S1536x512) hz0, View.ld_unit_zero (S := S1536x1536) hz0]

/-! ## The body's triple in each case, at named contents -/

/-- A middle point: the scratch at `acc` ends at the accumulate payload; the inputs' buffers are as they were; the output
    block's buffer is not touched. -/
theorem kernelMid0 (c : Dev nD) (E : Set ℕ) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : ¬ isFirst0 i) (h2 : ¬ isLast0 i)
    (a : Vec F S1536x1536 .bf16) (x : Vec F S1536x512 .bf16) (acc : Vec F S1536x512 .f32) (K : PUnit → sProp 𝕄) :
    iprop(owns (c : Thread nD τ) arg2 fullShare a ∗ owns (c : Thread nD τ) arg3 fullShare x ∗ owns (c : Thread nD τ) arg5 fullShare acc
        ∗ (iprop(owns (c : Thread nD τ) arg2 fullShare a ∗ owns (c : Thread nD τ) arg3 fullShare x
            ∗ owns (c : Thread nD τ) arg5 fullShare (k0_pay2 acc a x)) -∗ K ⟨⟩))
      ⊢ wp frame (wpE (defs₀ (F := F)) Variants.none c none) E (cc0__gcn_propagate_kernel i arg2 harg2 arg3 harg3 arg4 harg4 arg5 harg5) K := by
  iintro ⟨H2, H3, H5, Hk⟩
  iapply ((runMid0 c i arg2 harg2 arg3 harg3 arg4 harg4 arg5 harg5 h1 h2 a x acc).2 E K)
  isplitl [H2]; · iexact H2
  isplitl [H3]; · iexact H3
  isplitl [H5]; · iexact H5
  iintro ⟨H2, H3, ⟨%f, H5⟩⟩
  iapply Hk
  isplitl [H2]; · iexact H2
  isplitl [H3]; · iexact H3
  unfold owns; iexists _; isplitr
  swap; · iexact H5
  ipureintro; exact scratchMid0 c i arg2 harg2 arg3 harg3 arg4 harg4 arg5 harg5 h1 h2 a x acc f

/-- The first point: the scratch, at anything, ends at the accumulate payload of the zero block. -/
theorem kernelFirst0 (c : Dev nD) (E : Set ℕ) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : isFirst0 i) (h2 : ¬ isLast0 i)
    (a : Vec F S1536x1536 .bf16) (x : Vec F S1536x512 .bf16) (K : PUnit → sProp 𝕄) :
    iprop(owns (c : Thread nD τ) arg2 fullShare a ∗ owns (c : Thread nD τ) arg3 fullShare x ∗ (∃ d, owns (c : Thread nD τ) arg5 fullShare d)
        ∗ (iprop(owns (c : Thread nD τ) arg2 fullShare a ∗ owns (c : Thread nD τ) arg3 fullShare x
            ∗ owns (c : Thread nD τ) arg5 fullShare (k0_pay2 k0_pay1 a x)) -∗ K ⟨⟩))
      ⊢ wp frame (wpE (defs₀ (F := F)) Variants.none c none) E (cc0__gcn_propagate_kernel i arg2 harg2 arg3 harg3 arg4 harg4 arg5 harg5) K := by
  iintro ⟨H2, H3, ⟨%acc, H5⟩, Hk⟩
  iapply ((runFirst0 c i arg2 harg2 arg3 harg3 arg4 harg4 arg5 harg5 h1 h2 a x acc).2 E K)
  isplitl [H2]; · iexact H2
  isplitl [H3]; · iexact H3
  isplitl [H5]; · iexact H5
  iintro ⟨H2, H3, ⟨%f, H5⟩⟩
  iapply Hk
  isplitl [H2]; · iexact H2
  isplitl [H3]; · iexact H3
  unfold owns; iexists _; isplitr
  swap; · iexact H5
  ipureintro; exact scratchFirst0 c i arg2 harg2 arg3 harg3 arg4 harg4 arg5 harg5 h1 h2 a x acc f

/-- The last point: the scratch at `acc` ends at the accumulate payload, and so does the output block's buffer, whatever it
    held. -/
theorem kernelLast0 (c : Dev nD) (E : Set ℕ) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : ¬ isFirst0 i) (h2 : isLast0 i)
    (a : Vec F S1536x1536 .bf16) (x : Vec F S1536x512 .bf16) (acc : Vec F S1536x512 .f32) (K : PUnit → sProp 𝕄) :
    iprop(owns (c : Thread nD τ) arg2 fullShare a ∗ owns (c : Thread nD τ) arg3 fullShare x ∗ (∃ d, owns (c : Thread nD τ) arg4 fullShare d)
        ∗ owns (c : Thread nD τ) arg5 fullShare acc
        ∗ (iprop(owns (c : Thread nD τ) arg2 fullShare a ∗ owns (c : Thread nD τ) arg3 fullShare x
            ∗ owns (c : Thread nD τ) arg4 fullShare (k0_pay2 acc a x)
            ∗ owns (c : Thread nD τ) arg5 fullShare (k0_pay2 acc a x)) -∗ K ⟨⟩))
      ⊢ wp frame (wpE (defs₀ (F := F)) Variants.none c none) E (cc0__gcn_propagate_kernel i arg2 harg2 arg3 harg3 arg4 harg4 arg5 harg5) K := by
  iintro ⟨H2, H3, H4, H5, Hk⟩
  iapply ((runLast0 c i arg2 harg2 arg3 harg3 arg4 harg4 arg5 harg5 h1 h2 a x acc).2 E K)
  isplitl [H2]; · iexact H2
  isplitl [H3]; · iexact H3
  isplitl [H4]; · iexact H4
  isplitl [H5]; · iexact H5
  iintro ⟨H2, H3, ⟨%f4, H4⟩, ⟨%f5, H5⟩⟩
  iapply Hk
  isplitl [H2]; · iexact H2
  isplitl [H3]; · iexact H3
  isplitl [H4]
  · unfold owns; iexists _; isplitr
    swap; · iexact H4
    ipureintro; exact outLast0 c i arg2 harg2 arg3 harg3 arg4 harg4 arg5 harg5 h1 h2 a x acc f4
  unfold owns; iexists _; isplitr
  swap; · iexact H5
  ipureintro; exact scratchLast0 c i arg2 harg2 arg3 harg3 arg4 harg4 arg5 harg5 h1 h2 a x acc f5

/-! ## The conditions and the output window's idle points, in closed form over the grid -/

/-- The scratch is zero-filled at the points ≡ 0 (mod 10). -/
theorem hfirst0 : ∀ t : Fin cfg0.N, isFirst0 (grid0.coords t) ↔ t.val % 10 = 0 :=
  (by decide +kernel : ∀ t : Fin grid0.N, isFirst0 (grid0.coords t) ↔ t.val % 10 = 0)
/-- The scratch is copied out at the points ≡ 9 (mod 10). -/
theorem hlast0 : ∀ t : Fin cfg0.N, isLast0 (grid0.coords t) ↔ t.val % 10 = 9 :=
  (by decide +kernel : ∀ t : Fin grid0.N, isLast0 (grid0.coords t) ↔ t.val % 10 = 9)
/-- The output window is idle exactly where the scratch is not copied out. -/
theorem idleAt0 : ∀ t : Fin cfg0.N, ¬ isLast0 (grid0.coords t) → cfg0.idle 2 (grid0.coords t) = true := by decide +kernel
theorem liveAt0 : ∀ t : Fin cfg0.N, isLast0 (grid0.coords t) → cfg0.idle 2 (grid0.coords t) = false := by decide +kernel

/-! ## The proof data -/

section Data

variable (V : (c : Dev nD) → (b : Ref sig .tc) → Buf (Elt F) ((c : Thread nD τ).loc b))

/-- The scratch accumulator: a whole scoped buffer of the kernel's own. -/
abbrev scM0 : Memref sig .tc .vmem S1536x512 .f32 := Memref.whole cc0_scratch0

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- THE RUNNING ACCUMULATOR: what the scratch holds after the body at position `n`. At a position ≡ 0 (mod 10) the zero
    block plus the block product; elsewhere what the position before left plus the block product. -/
def acc0 (c : Dev nD) : (n : ℕ) → n < cfg0.N → Vec F S1536x512 .f32
  | 0, h => k0_pay2 k0_pay1 (iblk0 V c 0 ⟨0, h⟩) (iblk0 V c 1 ⟨0, h⟩)
  | n + 1, h =>
    if (n + 1) % 10 = 0 then k0_pay2 k0_pay1 (iblk0 V c 0 ⟨n + 1, h⟩) (iblk0 V c 1 ⟨n + 1, h⟩)
    else k0_pay2 (acc0 c n (Nat.lt_of_succ_lt h)) (iblk0 V c 0 ⟨n + 1, h⟩) (iblk0 V c 1 ⟨n + 1, h⟩)

theorem acc0_first (c : Dev nD) (t : Fin cfg0.N) (h : t.val % 10 = 0) :
    acc0 V c t.val t.isLt = k0_pay2 k0_pay1 (iblk0 V c 0 t) (iblk0 V c 1 t) := by
  obtain ⟨n, hn⟩ := t
  cases n with
  | zero => rfl
  | succ n => exact (if_pos h).trans rfl

theorem acc0_step (c : Dev nD) (t : Fin cfg0.N) (h : ¬ t.val % 10 = 0) :
    acc0 V c t.val t.isLt
      = k0_pay2 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h
  | succ n => exact (if_neg h).trans rfl

/-- The scoped buffers no window of this region stages, split at the scratch accumulator: the scratch at some contents,
    and every other one unopened. -/
theorem scopedRest_split0 (c : Dev nD) :
    (Pipeline.scopedRest (Ix := Unit) (Name := ℕ) (U := UR sig nD τ) (Lvl := ℕ) (Val := Elt F) spec0 c : sProp 𝕄)
      = iprop((∃ d, owns (c : Thread nD τ) scM0 fullShare d)
          ∗ Pipeline.scopedRestBut (Ix := Unit) (Name := ℕ) (U := UR sig nD τ) (Lvl := ℕ) (Val := Elt F) spec0 c [cc0_scratch0]) := by
  rw [Pipeline.scopedRest_split_of_list spec0 c [cc0_scratch0] (by decide) (by decide)]
  simp only [scM0, owns_whole]; rfl

/-- The region invariant before position `n`: the scratch at what the position before left in it (before the first
    position: at anything), and every other scoped buffer no window stages, unopened. -/
def Phi0 (c : Dev nD) : (n : ℕ) → n ≤ cfg0.N → sProp 𝕄
  | 0, _ => iprop((∃ d, owns (c : Thread nD τ) scM0 fullShare d)
      ∗ Pipeline.scopedRestBut (Ix := Unit) (Name := ℕ) (U := UR sig nD τ) (Lvl := ℕ) (Val := Elt F) spec0 c [cc0_scratch0])
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0])

theorem Phi0_succ (c : Dev nD) (n : ℕ) (hn : n < cfg0.N) :
    Phi0 V c (n + 1) hn = iprop(owns (c : Thread nD τ) scM0 fullShare (acc0 V c n hn)
      ∗ Pipeline.scopedRestBut (Ix := Unit) (Name := ℕ) (U := UR sig nD τ) (Lvl := ℕ) (Val := Elt F) spec0 c [cc0_scratch0]) := rfl

theorem Phi0_pos (c : Dev nD) (n : ℕ) (h : n ≤ cfg0.N) (hz : n ≠ 0) :
    Phi0 V c n h = iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) := by
  cases n with
  | zero => exact absurd rfl hz
  | succ n => rfl

/-- At any position the invariant holds the scratch at SOME contents. -/
theorem Phi0_any (c : Dev nD) (n : ℕ) (h : n ≤ cfg0.N) :
    Phi0 V c n h ⊢ iprop((∃ d, owns (c : Thread nD τ) scM0 fullShare d)
      ∗ Pipeline.scopedRestBut (Ix := Unit) (Name := ℕ) (U := UR sig nD τ) (Lvl := ℕ) (Val := Elt F) spec0 c [cc0_scratch0]) := by
  cases n with
  | zero => exact .rfl
  | succ n =>
    rw [Phi0_succ]
    iintro ⟨HS, HR⟩
    isplitl [HS]; · iexists _; iexact HS
    iexact HR

/-- The proof data of this region on core `c`, at the entry contents `V`: the arrays as the region finds them; after
    the body each input's buffer at its block and the output's at the running accumulator (consulted at the points
    ≡ 9 (mod 10) only: elsewhere the window is idle); the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

/-- Each input is fetched at every point, so its current staging buffer holds its block there. -/
theorem before0_0 (c : Dev nD) (t : Fin cfg0.N) (d) : (dat0 V c).before 0 t d = iblk0 V c 0 t := by
  rw [Dat.before_fetched _ 0 t (fetch0_0 t)]
  unfold Dat.fetched Dat.blockOf iblk0; rw [A_eq0]; rfl
theorem before0_1 (c : Dev nD) (t : Fin cfg0.N) (d) : (dat0 V c).before 1 t d = iblk0 V c 1 t := by
  rw [Dat.before_fetched _ 1 t (fetch0_1 t)]
  unfold Dat.fetched Dat.blockOf iblk0; rw [A_eq0]; rfl

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The output window's block is not written back at a point where the scratch is not copied out. -/
theorem noFlush0 (t : Fin cfg0.N) (h : ¬ t.val % 10 = 9) : (cfg0.win 2).flush t = false :=
  Bool.eq_false_iff.mpr fun hf => h ((flush0_2 t).mp hf)

set_option maxHeartbeats 1600000 in
/-- The body at any point. The inputs' buffers hold their blocks. By the inner coordinate: at `0` the scratch (at anything)
    is zero-filled and ends at the zero block plus the product; at `1 … 8` it goes from what the point before left to that
    plus the product; at `9` the same, and the output block's buffer ends at the scratch's contents. Where the scratch is not
    copied out the output window is idle and its buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from rfl, after0_0]
  rw [show (dat0 V c).leavesExact 1 t = owns (c : Thread nD τ) (st0_1 t) fullShare ((dat0 V c).after 1 t) from rfl, after0_1]
  rw [Phi0_castSucc]
  have hN : t.val < 100 := lt_of_lt_of_eq t.isLt (show cfg0.N = 100 from N_0)
  by_cases h9 : t.val % 10 = 9
  · have hl : isLast0 (grid0.coords t) := (hlast0 t).mpr h9
    have hf : ¬ isFirst0 (grid0.coords t) := fun h => by have := (hfirst0 t).mp h; omega
    have hz : t.val ≠ 0 := by omega
    rw [show (dat0 V c).leavesExact 2 t = owns (c : Thread nD τ) (st0_2 t) fullShare ((dat0 V c).after 2 t) from by
      unfold Dat.leavesExact; rw [liveAt0 t hl], after0_2]
    rw [acc0_step V c t (by omega), Phi0_pos V c _ _ hz]
    iintro ⟨⟨HS, HR⟩, Ho, ⟨%d0, H0⟩, ⟨%d1, H1⟩, ⟨%d2, H2⟩⟩
    iapply (kernelLast0 c Set.univ (grid0.coords t) _ _ _ _ _ _ _ _ hf hl (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    iexact H2
  · have hl : ¬ isLast0 (grid0.coords t) := fun h => h9 ((hlast0 t).mp h)
    rw [Dat.leavesExact_idle (dat0 V c) 2 t (idleAt0 t hl) (noFlush0 t h9)]
    by_cases h0 : t.val % 10 = 0
    · have hf : isFirst0 (grid0.coords t) := (hfirst0 t).mpr h0
      rw [acc0_first V c t h0]
      iintro ⟨HΦ, Ho, ⟨%d0, H0⟩, ⟨%d1, H1⟩, ⟨%d2, H2⟩⟩
      ihave HΦ' := (Phi0_any V c _ _) $$ HΦ
      icases HΦ' with ⟨HS, HR⟩
      iapply (kernelFirst0 c Set.univ (grid0.coords t) _ _ _ _ (st0_2 t) (hstage0_2 ((cfg0.slots t 2).cast nbuf0_2)) _ _ hf hl (iblk0 V c 0 t) (iblk0 V c 1 t) _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexists _; iexact H2
    · have hf : ¬ isFirst0 (grid0.coords t) := fun h => h0 ((hfirst0 t).mp h)
      have hz : t.val ≠ 0 := by omega
      rw [acc0_step V c t h0, Phi0_pos V c _ _ hz]
      iintro ⟨⟨HS, HR⟩, Ho, ⟨%d0, H0⟩, ⟨%d1, H1⟩, ⟨%d2, H2⟩⟩
      iapply (kernelMid0 c Set.univ (grid0.coords t) _ _ _ _ (st0_2 t) (hstage0_2 ((cfg0.slots t 2).cast nbuf0_2)) _ _ hf hl (iblk0 V c 0 t) (iblk0 V c 1 t) _ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The scoped buffers no window stages yield the invariant before the first point: the scratch at anything. -/
theorem Φ0_first (c : Dev nD) :
    (Pipeline.scopedRest (Ix := Unit) (Name := ℕ) (U := UR sig nD τ) (Lvl := ℕ) (Val := Elt F) spec0 c : sProp 𝕄) ⊢ (dat0 V c).Φ 0 := by
  rw [show (dat0 V c).Φ 0 = Phi0 V c 0 (Nat.zero_le _) from rfl, scopedRest_split0]
  exact .rfl

/-- After the last point the invariant gives them back: the scratch's named contents are forgotten. -/
theorem Φ0_last (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = Phi0 V c (Fin.last cfg0.N).val (Nat.le_of_lt_succ (Fin.last cfg0.N).isLt) from rfl, scopedRest_split0]
  exact Phi0_any V c _ _

end Data

end Cert.Kernel.Hand

end
-- ==== Proof.RegionK1.lean ====
import proofs.«150125_j89541478187016_2_alg».proof.Proof.Gen.Kernel.Skeleton
import proofs.«150125_j89541478187016_2_alg».proof.Proof.Gen.Kernel.Launch
import proofs.«150125_j89541478187016_2_alg».proof.Proof.Gen.Kernel.Points
import Idealize.ShloMosaic.Lib.Tactic
import Idealize.ShloMosaic.Lib.Pipeline.Frame
import Idealize.ShloMosaic.Lib.Pipeline.FrameBody
import Idealize.ShloMosaic.Lib.Pipeline.Value

/-!
  Region 1: a block product accumulated over the inner grid axis.

  The grid is 10 x 10; point `t` has row block `t / 10` and inner coordinate `k = t % 10`. The body keeps a running
  accumulator in a scratch buffer: at `k = 0` it is zero-filled, at every `k` the product of the two input blocks is
  added to it, and at `k = 9` it is copied to the output block. This file states what the scratch holds after every
  point (`acc1`), the pipeline's proof data over it (`dat1`), and proves the body obligation.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body in its three control cases -/

/-- The inner coordinate is `0`: the scratch is zero-filled before the block product is added. -/
abbrev isFirst1 (i : grid1.Coords) : Prop :=
  Scalar.cmpi .ne (Scalar.extui (Scalar.cmpi .eq (BitVec.ofNat 32 (i 1).val) 0#32) : BitVec 32) 0#32 = 1#1

/-- The inner coordinate is `9`: the scratch is copied to the output block after the block product is added. -/
abbrev isLast1 (i : grid1.Coords) : Prop := k1_cond2 i = 1#1

/-- The zero offsets of a whole-block access, as a constant function. -/
theorem hz1 : (![0, 0] : Fin 2 → Nat) = fun _ => 0 := funext fun a => by fin_cases a <;> rfl

/-- Writes whose LAST one stores the whole block leave that store's payload, whatever the buffer held and whatever the
    earlier writes were. -/
theorem read_writes_whole1 {κ : Kind} {sp : Space} (v : View sig κ sp S1536x1024 .f32) (f : v.ty.Contents (Elt F))
    (inb : ∀ a, (![0, 0] : Fin 2 → Nat) a + S1536x1024.size a ≤ S1536x1024.size a) (w : Vec F S1536x1024 .f32)
    (L : List (View.Piece (Elt F) S1536x1024 .f32)) :
    v.read (Elt F) (v.writes (Elt F) f (⟨Rect.unit ![0, 0] S1536x1024.size inb, w⟩ :: L)) = w := by
  rw [View.read_writes_eq_canon _ _ _ (fun y => ⟨_, List.mem_cons_self .., View.mem_set_unit_zero hz1 inb y⟩),
    View.canon_cons_unit_zero hz1]

set_option maxHeartbeats 1000000 in
/-- A middle point (inner coordinate neither `0` nor `9`): the body's run, with the pieces the scratch ends with. -/
noncomputable def runMid1 (c : Dev nD) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst1 i) (h2 : ¬ isLast1 i)
    (a : Vec F S1536x1536 .bf16) (x : Vec F S1536x1024 .bf16) (acc : Vec F S1536x1024 .f32) :
    { L5 : List (View.Piece (Elt F) S1536x1024 .f32) //
      ∀ (E : Set ℕ) (K : PUnit → sProp 𝕄),
        iprop(owns (c : Thread nD τ) arg2 fullShare a ∗ owns (c : Thread nD τ) arg3 fullShare x ∗ owns (c : Thread nD τ) arg5 fullShare acc
            ∗ (iprop(owns (c : Thread nD τ) arg2 fullShare a ∗ owns (c : Thread nD τ) arg3 fullShare x
                ∗ (∃ f, arg5.view.loc (c : Thread nD τ) ↦[arg5.view.set]{fullShare} arg5.view.writes (Elt F) f L5)) -∗ K ⟨⟩))
          ⊢ wp frame (wpE (defs₀ (F := F)) Variants.none c none) E (cc1__gcn_propagate_kernel i arg2 harg2 arg3 harg3 arg4 harg4 arg5 harg5) K } := by
  refine ⟨?_, fun E K => ?run⟩
  case run =>
    simp only [cc1__gcn_propagate_kernel_eq_skeleton]; unfold cc1__gcn_propagate_kernel_skel
    unfold owns
    iintro ⟨⟨%f2, %hf2, H2⟩, ⟨%f3, %hf3, H3⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    iexists _; iexact H5

set_option maxHeartbeats 1000000 in
/-- The first inner coordinate: the scratch is zero-filled, then the block product is added to it. -/
noncomputable def runFirst1 (c : Dev nD) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : isFirst1 i) (h2 : ¬ isLast1 i)
    (a : Vec F S1536x1536 .bf16) (x : Vec F S1536x1024 .bf16) (acc : Vec F S1536x1024 .f32) :
    { L5 : List (View.Piece (Elt F) S1536x1024 .f32) //
      ∀ (E : Set ℕ) (K : PUnit → sProp 𝕄),
        iprop(owns (c : Thread nD τ) arg2 fullShare a ∗ owns (c : Thread nD τ) arg3 fullShare x ∗ owns (c : Thread nD τ) arg5 fullShare acc
            ∗ (iprop(owns (c : Thread nD τ) arg2 fullShare a ∗ owns (c : Thread nD τ) arg3 fullShare x
                ∗ (∃ f, arg5.view.loc (c : Thread nD τ) ↦[arg5.view.set]{fullShare} arg5.view.writes (Elt F) f L5)) -∗ K ⟨⟩))
          ⊢ wp frame (wpE (defs₀ (F := F)) Variants.none c none) E (cc1__gcn_propagate_kernel i arg2 harg2 arg3 harg3 arg4 harg4 arg5 harg5) K } := by
  refine ⟨?_, fun E K => ?run⟩
  case run =>
    simp only [cc1__gcn_propagate_kernel_eq_skeleton]; unfold cc1__gcn_propagate_kernel_skel
    unfold owns
    iintro ⟨⟨%f2, %hf2, H2⟩, ⟨%f3, %hf3, H3⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    iexists _; iexact H5

set_option maxHeartbeats 1000000 in
/-- The last inner coordinate: the block product is added to the scratch, and the scratch is copied to the output block. -/
noncomputable def runLast1 (c : Dev nD) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst1 i) (h2 : isLast1 i)
    (a : Vec F S1536x1536 .bf16) (x : Vec F S1536x1024 .bf16) (acc : Vec F S1536x1024 .f32) :
    { L : List (View.Piece (Elt F) S1536x1024 .f32) × List (View.Piece (Elt F) S1536x1024 .f32) //
      ∀ (E : Set ℕ) (K : PUnit → sProp 𝕄),
        iprop(owns (c : Thread nD τ) arg2 fullShare a ∗ owns (c : Thread nD τ) arg3 fullShare x ∗ (∃ d, owns (c : Thread nD τ) arg4 fullShare d)
            ∗ owns (c : Thread nD τ) arg5 fullShare acc
            ∗ (iprop(owns (c : Thread nD τ) arg2 fullShare a ∗ owns (c : Thread nD τ) arg3 fullShare x
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc1__gcn_propagate_kernel i arg2 harg2 arg3 harg3 arg4 harg4 arg5 harg5) K } := by
  refine ⟨(?_, ?_), fun E K => ?run⟩
  case run =>
    simp only [cc1__gcn_propagate_kernel_eq_skeleton]; unfold cc1__gcn_propagate_kernel_skel
    unfold owns
    iintro ⟨⟨%f2, %hf2, H2⟩, ⟨%f3, %hf3, H3⟩, ⟨%d4, %f4, -, H4⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact H5

/-! ## What each case leaves, as values -/

/-- A middle point leaves the accumulate payload of the scratch's old contents and the two input blocks. -/
theorem scratchMid1 (c : Dev nD) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst1 i) (h2 : ¬ isLast1 i)
    (a : Vec F S1536x1536 .bf16) (x : Vec F S1536x1024 .bf16) (acc : Vec F S1536x1024 .f32) (f : arg5.view.ty.Contents (Elt F)) :
    arg5.view.read (Elt F) (arg5.view.writes (Elt F) f (runMid1 c i arg2 harg2 arg3 harg3 arg4 harg4 arg5 harg5 h1 h2 a x acc).1) = k1_pay2 acc a x := by
  unfold runMid1
  dsimp only
  rw [read_writes_whole1]
  simp only [View.readAt_eq_ld, harg2.read_unread, harg3.read_unread, harg5.read_unread,
    View.ld_unit_zero (S := S1536x1024) hz1, View.ld_unit_zero (S := S1536x1536) hz1]

/-- The first point leaves the accumulate payload of the zero block and the two input blocks. -/
theorem scratchFirst1 (c : Dev nD) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : isFirst1 i) (h2 : ¬ isLast1 i)
    (a : Vec F S1536x1536 .bf16) (x : Vec F S1536x1024 .bf16) (acc : Vec F S1536x1024 .f32) (f : arg5.view.ty.Contents (Elt F)) :
    arg5.view.read (Elt F) (arg5.view.writes (Elt F) f (runFirst1 c i arg2 harg2 arg3 harg3 arg4 harg4 arg5 harg5 h1 h2 a x acc).1) = k1_pay2 k1_pay1 a x := by
  unfold runFirst1
  dsimp only
  rw [read_writes_whole1]
  sl_unfold_words
  rw [View.readCov_unit_zero (S := S1536x1024) _ hz1]
  simp only [View.readAt_eq_ld, harg2.read_unread, harg3.read_unread,
    View.ld_unit_zero (S := S1536x1024) hz1, View.ld_unit_zero (S := S1536x1536) hz1]

/-- The last point leaves the same accumulate payload in the scratch -/
theorem scratchLast1 (c : Dev nD) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst1 i) (h2 : isLast1 i)
    (a : Vec F S1536x1536 .bf16) (x : Vec F S1536x1024 .bf16) (acc : Vec F S1536x1024 .f32) (f : arg5.view.ty.Contents (Elt F)) :
    arg5.view.read (Elt F) (arg5.view.writes (Elt F) f (runLast1 c i arg2 harg2 arg3 harg3 arg4 harg4 arg5 harg5 h1 h2 a x acc).1.2) = k1_pay2 acc a x := by
  unfold runLast1
  dsimp only
  sl_unfold_words
  rw [read_writes_whole1]
  simp only [View.readAt_eq_ld, harg2.read_unread, harg3.read_unread, harg5.read_unread,
    View.ld_unit_zero (S := S1536x1024) hz1, View.ld_unit_zero (S := S1536x1536) hz1]

/-- and copies it to the output block. -/
theorem outLast1 (c : Dev nD) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst1 i) (h2 : isLast1 i)
    (a : Vec F S1536x1536 .bf16) (x : Vec F S1536x1024 .bf16) (acc : Vec F S1536x1024 .f32) (f : arg4.view.ty.Contents (Elt F)) :
    arg4.view.read (Elt F) (arg4.view.writes (Elt F) f (runLast1 c i arg2 harg2 arg3 harg3 arg4 harg4 arg5 harg5 h1 h2 a x acc).1.1) = k1_pay2 acc a x := by
  unfold runLast1
  dsimp only
  rw [read_writes_whole1]
  sl_unfold_words
  rw [View.readCov_unit_zero (S := S1536x1024) _ hz1]
  simp only [View.readAt_eq_ld, harg2.read_unread, harg3.read_unread, harg5.read_unread,
    View.ld_unit_zero (S := S1536x1024) hz1, View.ld_unit_zero (S := S1536x1536) hz1]

/-! ## The body's triple in each case, at named contents -/

/-- A middle point: the scratch at `acc` ends at the accumulate payload; the inputs' buffers are as they were; the output
    block's buffer is not touched. -/
theorem kernelMid1 (c : Dev nD) (E : Set ℕ) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst1 i) (h2 : ¬ isLast1 i)
    (a : Vec F S1536x1536 .bf16) (x : Vec F S1536x1024 .bf16) (acc : Vec F S1536x1024 .f32) (K : PUnit → sProp 𝕄) :
    iprop(owns (c : Thread nD τ) arg2 fullShare a ∗ owns (c : Thread nD τ) arg3 fullShare x ∗ owns (c : Thread nD τ) arg5 fullShare acc
        ∗ (iprop(owns (c : Thread nD τ) arg2 fullShare a ∗ owns (c : Thread nD τ) arg3 fullShare x
            ∗ owns (c : Thread nD τ) arg5 fullShare (k1_pay2 acc a x)) -∗ K ⟨⟩))
      ⊢ wp frame (wpE (defs₀ (F := F)) Variants.none c none) E (cc1__gcn_propagate_kernel i arg2 harg2 arg3 harg3 arg4 harg4 arg5 harg5) K := by
  iintro ⟨H2, H3, H5, Hk⟩
  iapply ((runMid1 c i arg2 harg2 arg3 harg3 arg4 harg4 arg5 harg5 h1 h2 a x acc).2 E K)
  isplitl [H2]; · iexact H2
  isplitl [H3]; · iexact H3
  isplitl [H5]; · iexact H5
  iintro ⟨H2, H3, ⟨%f, H5⟩⟩
  iapply Hk
  isplitl [H2]; · iexact H2
  isplitl [H3]; · iexact H3
  unfold owns; iexists _; isplitr
  swap; · iexact H5
  ipureintro; exact scratchMid1 c i arg2 harg2 arg3 harg3 arg4 harg4 arg5 harg5 h1 h2 a x acc f

/-- The first point: the scratch, at anything, ends at the accumulate payload of the zero block. -/
theorem kernelFirst1 (c : Dev nD) (E : Set ℕ) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : isFirst1 i) (h2 : ¬ isLast1 i)
    (a : Vec F S1536x1536 .bf16) (x : Vec F S1536x1024 .bf16) (K : PUnit → sProp 𝕄) :
    iprop(owns (c : Thread nD τ) arg2 fullShare a ∗ owns (c : Thread nD τ) arg3 fullShare x ∗ (∃ d, owns (c : Thread nD τ) arg5 fullShare d)
        ∗ (iprop(owns (c : Thread nD τ) arg2 fullShare a ∗ owns (c : Thread nD τ) arg3 fullShare x
            ∗ owns (c : Thread nD τ) arg5 fullShare (k1_pay2 k1_pay1 a x)) -∗ K ⟨⟩))
      ⊢ wp frame (wpE (defs₀ (F := F)) Variants.none c none) E (cc1__gcn_propagate_kernel i arg2 harg2 arg3 harg3 arg4 harg4 arg5 harg5) K := by
  iintro ⟨H2, H3, ⟨%acc, H5⟩, Hk⟩
  iapply ((runFirst1 c i arg2 harg2 arg3 harg3 arg4 harg4 arg5 harg5 h1 h2 a x acc).2 E K)
  isplitl [H2]; · iexact H2
  isplitl [H3]; · iexact H3
  isplitl [H5]; · iexact H5
  iintro ⟨H2, H3, ⟨%f, H5⟩⟩
  iapply Hk
  isplitl [H2]; · iexact H2
  isplitl [H3]; · iexact H3
  unfold owns; iexists _; isplitr
  swap; · iexact H5
  ipureintro; exact scratchFirst1 c i arg2 harg2 arg3 harg3 arg4 harg4 arg5 harg5 h1 h2 a x acc f

/-- The last point: the scratch at `acc` ends at the accumulate payload, and so does the output block's buffer, whatever it
    held. -/
theorem kernelLast1 (c : Dev nD) (E : Set ℕ) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst1 i) (h2 : isLast1 i)
    (a : Vec F S1536x1536 .bf16) (x : Vec F S1536x1024 .bf16) (acc : Vec F S1536x1024 .f32) (K : PUnit → sProp 𝕄) :
    iprop(owns (c : Thread nD τ) arg2 fullShare a ∗ owns (c : Thread nD τ) arg3 fullShare x ∗ (∃ d, owns (c : Thread nD τ) arg4 fullShare d)
        ∗ owns (c : Thread nD τ) arg5 fullShare acc
        ∗ (iprop(owns (c : Thread nD τ) arg2 fullShare a ∗ owns (c : Thread nD τ) arg3 fullShare x
            ∗ owns (c : Thread nD τ) arg4 fullShare (k1_pay2 acc a x)
            ∗ owns (c : Thread nD τ) arg5 fullShare (k1_pay2 acc a x)) -∗ K ⟨⟩))
      ⊢ wp frame (wpE (defs₀ (F := F)) Variants.none c none) E (cc1__gcn_propagate_kernel i arg2 harg2 arg3 harg3 arg4 harg4 arg5 harg5) K := by
  iintro ⟨H2, H3, H4, H5, Hk⟩
  iapply ((runLast1 c i arg2 harg2 arg3 harg3 arg4 harg4 arg5 harg5 h1 h2 a x acc).2 E K)
  isplitl [H2]; · iexact H2
  isplitl [H3]; · iexact H3
  isplitl [H4]; · iexact H4
  isplitl [H5]; · iexact H5
  iintro ⟨H2, H3, ⟨%f4, H4⟩, ⟨%f5, H5⟩⟩
  iapply Hk
  isplitl [H2]; · iexact H2
  isplitl [H3]; · iexact H3
  isplitl [H4]
  · unfold owns; iexists _; isplitr
    swap; · iexact H4
    ipureintro; exact outLast1 c i arg2 harg2 arg3 harg3 arg4 harg4 arg5 harg5 h1 h2 a x acc f4
  unfold owns; iexists _; isplitr
  swap; · iexact H5
  ipureintro; exact scratchLast1 c i arg2 harg2 arg3 harg3 arg4 harg4 arg5 harg5 h1 h2 a x acc f5

/-! ## The conditions and the output window's idle points, in closed form over the grid -/

/-- The scratch is zero-filled at the points ≡ 0 (mod 10). -/
theorem hfirst1 : ∀ t : Fin cfg1.N, isFirst1 (grid1.coords t) ↔ t.val % 10 = 0 :=
  (by decide +kernel : ∀ t : Fin grid1.N, isFirst1 (grid1.coords t) ↔ t.val % 10 = 0)
/-- The scratch is copied out at the points ≡ 9 (mod 10). -/
theorem hlast1 : ∀ t : Fin cfg1.N, isLast1 (grid1.coords t) ↔ t.val % 10 = 9 :=
  (by decide +kernel : ∀ t : Fin grid1.N, isLast1 (grid1.coords t) ↔ t.val % 10 = 9)
/-- The output window is idle exactly where the scratch is not copied out. -/
theorem idleAt1 : ∀ t : Fin cfg1.N, ¬ isLast1 (grid1.coords t) → cfg1.idle 2 (grid1.coords t) = true := by decide +kernel
theorem liveAt1 : ∀ t : Fin cfg1.N, isLast1 (grid1.coords t) → cfg1.idle 2 (grid1.coords t) = false := by decide +kernel

/-! ## The proof data -/

section Data

variable (V : (c : Dev nD) → (b : Ref sig .tc) → Buf (Elt F) ((c : Thread nD τ).loc b))

/-- The scratch accumulator: a whole scoped buffer of the kernel's own. -/
abbrev scM1 : Memref sig .tc .vmem S1536x1024 .f32 := Memref.whole cc1_scratch0

/-- Window `w`'s block at point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE RUNNING ACCUMULATOR: what the scratch holds after the body at position `n`. At a position ≡ 0 (mod 10) the zero
    block plus the block product; elsewhere what the position before left plus the block product. -/
def acc1 (c : Dev nD) : (n : ℕ) → n < cfg1.N → Vec F S1536x1024 .f32
  | 0, h => k1_pay2 k1_pay1 (iblk1 V c 0 ⟨0, h⟩) (iblk1 V c 1 ⟨0, h⟩)
  | n + 1, h =>
    if (n + 1) % 10 = 0 then k1_pay2 k1_pay1 (iblk1 V c 0 ⟨n + 1, h⟩) (iblk1 V c 1 ⟨n + 1, h⟩)
    else k1_pay2 (acc1 c n (Nat.lt_of_succ_lt h)) (iblk1 V c 0 ⟨n + 1, h⟩) (iblk1 V c 1 ⟨n + 1, h⟩)

theorem acc1_first (c : Dev nD) (t : Fin cfg1.N) (h : t.val % 10 = 0) :
    acc1 V c t.val t.isLt = k1_pay2 k1_pay1 (iblk1 V c 0 t) (iblk1 V c 1 t) := by
  obtain ⟨n, hn⟩ := t
  cases n with
  | zero => rfl
  | succ n => exact (if_pos h).trans rfl

theorem acc1_step (c : Dev nD) (t : Fin cfg1.N) (h : ¬ t.val % 10 = 0) :
    acc1 V c t.val t.isLt
      = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact (if_neg h).trans rfl

/-- The scoped buffers no window of this region stages, split at the scratch accumulator: the scratch at some contents,
    and every other one unopened. -/
theorem scopedRest_split1 (c : Dev nD) :
    (Pipeline.scopedRest (Ix := Unit) (Name := ℕ) (U := UR sig nD τ) (Lvl := ℕ) (Val := Elt F) spec1 c : sProp 𝕄)
      = iprop((∃ d, owns (c : Thread nD τ) scM1 fullShare d)
          ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide)]
  simp only [scM1, owns_whole]; rfl

/-- The region invariant before position `n`: the scratch at what the position before left in it (before the first
    position: at anything), and every other scoped buffer no window stages, unopened. -/
def Phi1 (c : Dev nD) : (n : ℕ) → n ≤ cfg1.N → sProp 𝕄
  | 0, _ => iprop((∃ d, owns (c : Thread nD τ) scM1 fullShare d)
      ∗ Pipeline.scopedRestBut (Ix := Unit) (Name := ℕ) (U := UR sig nD τ) (Lvl := ℕ) (Val := Elt F) spec1 c [cc1_scratch0])
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0])

theorem Phi1_succ (c : Dev nD) (n : ℕ) (hn : n < cfg1.N) :
    Phi1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]) := rfl

theorem Phi1_pos (c : Dev nD) (n : ℕ) (h : n ≤ cfg1.N) (hz : n ≠ 0) :
    Phi1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) := by
  cases n with
  | zero => exact absurd rfl hz
  | succ n => rfl

/-- At any position the invariant holds the scratch at SOME contents. -/
theorem Phi1_any (c : Dev nD) (n : ℕ) (h : n ≤ cfg1.N) :
    Phi1 V c n h ⊢ iprop((∃ d, owns (c : Thread nD τ) scM1 fullShare d)
      ∗ Pipeline.scopedRestBut (Ix := Unit) (Name := ℕ) (U := UR sig nD τ) (Lvl := ℕ) (Val := Elt F) spec1 c [cc1_scratch0]) := by
  cases n with
  | zero => exact .rfl
  | succ n =>
    rw [Phi1_succ]
    iintro ⟨HS, HR⟩
    isplitl [HS]; · iexists _; iexact HS
    iexact HR

/-- The proof data of this region on core `c`, at the entry contents `V`: the arrays as the region finds them; after
    the body each input's buffer at its block and the output's at the running accumulator (consulted at the points
    ≡ 9 (mod 10) only: elsewhere the window is idle); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

/-- Each input is fetched at every point, so its current staging buffer holds its block there. -/
theorem before1_0 (c : Dev nD) (t : Fin cfg1.N) (d) : (dat1 V c).before 0 t d = iblk1 V c 0 t := by
  rw [Dat.before_fetched _ 0 t (fetch1_0 t)]
  unfold Dat.fetched Dat.blockOf iblk1; rw [A_eq1]; rfl
theorem before1_1 (c : Dev nD) (t : Fin cfg1.N) (d) : (dat1 V c).before 1 t d = iblk1 V c 1 t := by
  rw [Dat.before_fetched _ 1 t (fetch1_1 t)]
  unfold Dat.fetched Dat.blockOf iblk1; rw [A_eq1]; rfl

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The output window's block is not written back at a point where the scratch is not copied out. -/
theorem noFlush1 (t : Fin cfg1.N) (h : ¬ t.val % 10 = 9) : (cfg1.win 2).flush t = false :=
  Bool.eq_false_iff.mpr fun hf => h ((flush1_2 t).mp hf)

set_option maxHeartbeats 1600000 in
/-- The body at any point. The inputs' buffers hold their blocks. By the inner coordinate: at `0` the scratch (at anything)
    is zero-filled and ends at the zero block plus the product; at `1 … 8` it goes from what the point before left to that
    plus the product; at `9` the same, and the output block's buffer ends at the scratch's contents. Where the scratch is not
    copied out the output window is idle and its buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [Phi1_castSucc]
  have hN : t.val < 100 := lt_of_lt_of_eq t.isLt (show cfg1.N = 100 from N_1)
  by_cases h9 : t.val % 10 = 9
  · have hl : isLast1 (grid1.coords t) := (hlast1 t).mpr h9
    have hf : ¬ isFirst1 (grid1.coords t) := fun h => by have := (hfirst1 t).mp h; omega
    have hz : t.val ≠ 0 := by omega
    rw [show (dat1 V c).leavesExact 2 t = owns (c : Thread nD τ) (st1_2 t) fullShare ((dat1 V c).after 2 t) from by
      unfold Dat.leavesExact; rw [liveAt1 t hl], after1_2]
    rw [acc1_step V c t (by omega), Phi1_pos V c _ _ hz]
    iintro ⟨⟨HS, HR⟩, Ho, ⟨%d0, H0⟩, ⟨%d1, H1⟩, ⟨%d2, H2⟩⟩
    iapply (kernelLast1 c Set.univ (grid1.coords t) _ _ _ _ _ _ _ _ hf hl (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    iexact H2
  · have hl : ¬ isLast1 (grid1.coords t) := fun h => h9 ((hlast1 t).mp h)
    rw [Dat.leavesExact_idle (dat1 V c) 2 t (idleAt1 t hl) (noFlush1 t h9)]
    by_cases h0 : t.val % 10 = 0
    · have hf : isFirst1 (grid1.coords t) := (hfirst1 t).mpr h0
      rw [acc1_first V c t h0]
      iintro ⟨HΦ, Ho, ⟨%d0, H0⟩, ⟨%d1, H1⟩, ⟨%d2, H2⟩⟩
      ihave HΦ' := (Phi1_any V c _ _) $$ HΦ
      icases HΦ' with ⟨HS, HR⟩
      iapply (kernelFirst1 c Set.univ (grid1.coords t) _ _ _ _ (st1_2 t) (hstage1_2 ((cfg1.slots t 2).cast nbuf1_2)) _ _ hf hl (iblk1 V c 0 t) (iblk1 V c 1 t) _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexists _; iexact H2
    · have hf : ¬ isFirst1 (grid1.coords t) := fun h => h0 ((hfirst1 t).mp h)
      have hz : t.val ≠ 0 := by omega
      rw [acc1_step V c t h0, Phi1_pos V c _ _ hz]
      iintro ⟨⟨HS, HR⟩, Ho, ⟨%d0, H0⟩, ⟨%d1, H1⟩, ⟨%d2, H2⟩⟩
      iapply (kernelMid1 c Set.univ (grid1.coords t) _ _ _ _ (st1_2 t) (hstage1_2 ((cfg1.slots t 2).cast nbuf1_2)) _ _ hf hl (iblk1 V c 0 t) (iblk1 V c 1 t) _ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The scoped buffers no window stages yield the invariant before the first point: the scratch at anything. -/
theorem Φ1_first (c : Dev nD) :
    (Pipeline.scopedRest (Ix := Unit) (Name := ℕ) (U := UR sig nD τ) (Lvl := ℕ) (Val := Elt F) spec1 c : sProp 𝕄) ⊢ (dat1 V c).Φ 0 := by
  rw [show (dat1 V c).Φ 0 = Phi1 V c 0 (Nat.zero_le _) from rfl, scopedRest_split1]
  exact .rfl

/-- After the last point the invariant gives them back: the scratch's named contents are forgotten. -/
theorem Φ1_last (c : Dev nD) :
    (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = Phi1 V c (Fin.last cfg1.N).val (Nat.le_of_lt_succ (Fin.last cfg1.N).isLt) from rfl, scopedRest_split1]
  exact Phi1_any V c _ _

end Data

end Cert.Kernel.Hand

end
-- ==== Proof.RegionK2.lean ====
import proofs.«150125_j89541478187016_2_alg».proof.Proof.Gen.Kernel.Skeleton
import proofs.«150125_j89541478187016_2_alg».proof.Proof.Gen.Kernel.Launch
import proofs.«150125_j89541478187016_2_alg».proof.Proof.Gen.Kernel.Points
import Idealize.ShloMosaic.Lib.Tactic
import Idealize.ShloMosaic.Lib.Pipeline.Frame
import Idealize.ShloMosaic.Lib.Pipeline.FrameBody
import Idealize.ShloMosaic.Lib.Pipeline.Value

/-!
  Region 2: a block product accumulated over the inner grid axis.

  The grid is 10 x 10; point `t` has row block `t / 10` and inner coordinate `k = t % 10`. The body keeps a running
  accumulator in a scratch buffer: at `k = 0` it is zero-filled, at every `k` the product of the two input blocks is
  added to it, and at `k = 9` it is copied to the output block. This file states what the scratch holds after every
  point (`acc2`), the pipeline's proof data over it (`dat2`), and proves the body obligation.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body in its three control cases -/

/-- The inner coordinate is `0`: the scratch is zero-filled before the block product is added. -/
abbrev isFirst2 (i : grid2.Coords) : Prop :=
  Scalar.cmpi .ne (Scalar.extui (Scalar.cmpi .eq (BitVec.ofNat 32 (i 1).val) 0#32) : BitVec 32) 0#32 = 1#1

/-- The inner coordinate is `9`: the scratch is copied to the output block after the block product is added. -/
abbrev isLast2 (i : grid2.Coords) : Prop := k2_cond2 i = 1#1

/-- The zero offsets of a whole-block access, as a constant function. -/
theorem hz2 : (![0, 0] : Fin 2 → Nat) = fun _ => 0 := funext fun a => by fin_cases a <;> rfl

/-- Writes whose LAST one stores the whole block leave that store's payload, whatever the buffer held and whatever the
    earlier writes were. -/
theorem read_writes_whole2 {κ : Kind} {sp : Space} (v : View sig κ sp S1536x1024 .f32) (f : v.ty.Contents (Elt F))
    (inb : ∀ a, (![0, 0] : Fin 2 → Nat) a + S1536x1024.size a ≤ S1536x1024.size a) (w : Vec F S1536x1024 .f32)
    (L : List (View.Piece (Elt F) S1536x1024 .f32)) :
    v.read (Elt F) (v.writes (Elt F) f (⟨Rect.unit ![0, 0] S1536x1024.size inb, w⟩ :: L)) = w := by
  rw [View.read_writes_eq_canon _ _ _ (fun y => ⟨_, List.mem_cons_self .., View.mem_set_unit_zero hz2 inb y⟩),
    View.canon_cons_unit_zero hz2]

set_option maxHeartbeats 1000000 in
/-- A middle point (inner coordinate neither `0` nor `9`): the body's run, with the pieces the scratch ends with. -/
noncomputable def runMid2 (c : Dev nD) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst2 i) (h2 : ¬ isLast2 i)
    (a : Vec F S1536x1536 .bf16) (x : Vec F S1536x1024 .bf16) (acc : Vec F S1536x1024 .f32) :
    { L5 : List (View.Piece (Elt F) S1536x1024 .f32) //
      ∀ (E : Set ℕ) (K : PUnit → sProp 𝕄),
        iprop(owns (c : Thread nD τ) arg2 fullShare a ∗ owns (c : Thread nD τ) arg3 fullShare x ∗ owns (c : Thread nD τ) arg5 fullShare acc
            ∗ (iprop(owns (c : Thread nD τ) arg2 fullShare a ∗ owns (c : Thread nD τ) arg3 fullShare x
                ∗ (∃ f, arg5.view.loc (c : Thread nD τ) ↦[arg5.view.set]{fullShare} arg5.view.writes (Elt F) f L5)) -∗ K ⟨⟩))
          ⊢ wp frame (wpE (defs₀ (F := F)) Variants.none c none) E (cc2__gcn_propagate_kernel i arg2 harg2 arg3 harg3 arg4 harg4 arg5 harg5) K } := by
  refine ⟨?_, fun E K => ?run⟩
  case run =>
    simp only [cc2__gcn_propagate_kernel_eq_skeleton]; unfold cc2__gcn_propagate_kernel_skel
    unfold owns
    iintro ⟨⟨%f2, %hf2, H2⟩, ⟨%f3, %hf3, H3⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    iexists _; iexact H5

set_option maxHeartbeats 1000000 in
/-- The first inner coordinate: the scratch is zero-filled, then the block product is added to it. -/
noncomputable def runFirst2 (c : Dev nD) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : isFirst2 i) (h2 : ¬ isLast2 i)
    (a : Vec F S1536x1536 .bf16) (x : Vec F S1536x1024 .bf16) (acc : Vec F S1536x1024 .f32) :
    { L5 : List (View.Piece (Elt F) S1536x1024 .f32) //
      ∀ (E : Set ℕ) (K : PUnit → sProp 𝕄),
        iprop(owns (c : Thread nD τ) arg2 fullShare a ∗ owns (c : Thread nD τ) arg3 fullShare x ∗ owns (c : Thread nD τ) arg5 fullShare acc
            ∗ (iprop(owns (c : Thread nD τ) arg2 fullShare a ∗ owns (c : Thread nD τ) arg3 fullShare x
                ∗ (∃ f, arg5.view.loc (c : Thread nD τ) ↦[arg5.view.set]{fullShare} arg5.view.writes (Elt F) f L5)) -∗ K ⟨⟩))
          ⊢ wp frame (wpE (defs₀ (F := F)) Variants.none c none) E (cc2__gcn_propagate_kernel i arg2 harg2 arg3 harg3 arg4 harg4 arg5 harg5) K } := by
  refine ⟨?_, fun E K => ?run⟩
  case run =>
    simp only [cc2__gcn_propagate_kernel_eq_skeleton]; unfold cc2__gcn_propagate_kernel_skel
    unfold owns
    iintro ⟨⟨%f2, %hf2, H2⟩, ⟨%f3, %hf3, H3⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    iexists _; iexact H5

set_option maxHeartbeats 1000000 in
/-- The last inner coordinate: the block product is added to the scratch, and the scratch is copied to the output block. -/
noncomputable def runLast2 (c : Dev nD) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst2 i) (h2 : isLast2 i)
    (a : Vec F S1536x1536 .bf16) (x : Vec F S1536x1024 .bf16) (acc : Vec F S1536x1024 .f32) :
    { L : List (View.Piece (Elt F) S1536x1024 .f32) × List (View.Piece (Elt F) S1536x1024 .f32) //
      ∀ (E : Set ℕ) (K : PUnit → sProp 𝕄),
        iprop(owns (c : Thread nD τ) arg2 fullShare a ∗ owns (c : Thread nD τ) arg3 fullShare x ∗ (∃ d, owns (c : Thread nD τ) arg4 fullShare d)
            ∗ owns (c : Thread nD τ) arg5 fullShare acc
            ∗ (iprop(owns (c : Thread nD τ) arg2 fullShare a ∗ owns (c : Thread nD τ) arg3 fullShare x
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc2__gcn_propagate_kernel i arg2 harg2 arg3 harg3 arg4 harg4 arg5 harg5) K } := by
  refine ⟨(?_, ?_), fun E K => ?run⟩
  case run =>
    simp only [cc2__gcn_propagate_kernel_eq_skeleton]; unfold cc2__gcn_propagate_kernel_skel
    unfold owns
    iintro ⟨⟨%f2, %hf2, H2⟩, ⟨%f3, %hf3, H3⟩, ⟨%d4, %f4, -, H4⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact H5

/-! ## What each case leaves, as values -/

/-- A middle point leaves the accumulate payload of the scratch's old contents and the two input blocks. -/
theorem scratchMid2 (c : Dev nD) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst2 i) (h2 : ¬ isLast2 i)
    (a : Vec F S1536x1536 .bf16) (x : Vec F S1536x1024 .bf16) (acc : Vec F S1536x1024 .f32) (f : arg5.view.ty.Contents (Elt F)) :
    arg5.view.read (Elt F) (arg5.view.writes (Elt F) f (runMid2 c i arg2 harg2 arg3 harg3 arg4 harg4 arg5 harg5 h1 h2 a x acc).1) = k2_pay2 acc a x := by
  unfold runMid2
  dsimp only
  rw [read_writes_whole2]
  simp only [View.readAt_eq_ld, harg2.read_unread, harg3.read_unread, harg5.read_unread,
    View.ld_unit_zero (S := S1536x1024) hz2, View.ld_unit_zero (S := S1536x1536) hz2]

/-- The first point leaves the accumulate payload of the zero block and the two input blocks. -/
theorem scratchFirst2 (c : Dev nD) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : isFirst2 i) (h2 : ¬ isLast2 i)
    (a : Vec F S1536x1536 .bf16) (x : Vec F S1536x1024 .bf16) (acc : Vec F S1536x1024 .f32) (f : arg5.view.ty.Contents (Elt F)) :
    arg5.view.read (Elt F) (arg5.view.writes (Elt F) f (runFirst2 c i arg2 harg2 arg3 harg3 arg4 harg4 arg5 harg5 h1 h2 a x acc).1) = k2_pay2 k2_pay1 a x := by
  unfold runFirst2
  dsimp only
  rw [read_writes_whole2]
  sl_unfold_words
  rw [View.readCov_unit_zero (S := S1536x1024) _ hz2]
  simp only [View.readAt_eq_ld, harg2.read_unread, harg3.read_unread,
    View.ld_unit_zero (S := S1536x1024) hz2, View.ld_unit_zero (S := S1536x1536) hz2]

/-- The last point leaves the same accumulate payload in the scratch -/
theorem scratchLast2 (c : Dev nD) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst2 i) (h2 : isLast2 i)
    (a : Vec F S1536x1536 .bf16) (x : Vec F S1536x1024 .bf16) (acc : Vec F S1536x1024 .f32) (f : arg5.view.ty.Contents (Elt F)) :
    arg5.view.read (Elt F) (arg5.view.writes (Elt F) f (runLast2 c i arg2 harg2 arg3 harg3 arg4 harg4 arg5 harg5 h1 h2 a x acc).1.2) = k2_pay2 acc a x := by
  unfold runLast2
  dsimp only
  sl_unfold_words
  rw [read_writes_whole2]
  simp only [View.readAt_eq_ld, harg2.read_unread, harg3.read_unread, harg5.read_unread,
    View.ld_unit_zero (S := S1536x1024) hz2, View.ld_unit_zero (S := S1536x1536) hz2]

/-- and copies it to the output block. -/
theorem outLast2 (c : Dev nD) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst2 i) (h2 : isLast2 i)
    (a : Vec F S1536x1536 .bf16) (x : Vec F S1536x1024 .bf16) (acc : Vec F S1536x1024 .f32) (f : arg4.view.ty.Contents (Elt F)) :
    arg4.view.read (Elt F) (arg4.view.writes (Elt F) f (runLast2 c i arg2 harg2 arg3 harg3 arg4 harg4 arg5 harg5 h1 h2 a x acc).1.1) = k2_pay2 acc a x := by
  unfold runLast2
  dsimp only
  rw [read_writes_whole2]
  sl_unfold_words
  rw [View.readCov_unit_zero (S := S1536x1024) _ hz2]
  simp only [View.readAt_eq_ld, harg2.read_unread, harg3.read_unread, harg5.read_unread,
    View.ld_unit_zero (S := S1536x1024) hz2, View.ld_unit_zero (S := S1536x1536) hz2]

/-! ## The body's triple in each case, at named contents -/

/-- A middle point: the scratch at `acc` ends at the accumulate payload; the inputs' buffers are as they were; the output
    block's buffer is not touched. -/
theorem kernelMid2 (c : Dev nD) (E : Set ℕ) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst2 i) (h2 : ¬ isLast2 i)
    (a : Vec F S1536x1536 .bf16) (x : Vec F S1536x1024 .bf16) (acc : Vec F S1536x1024 .f32) (K : PUnit → sProp 𝕄) :
    iprop(owns (c : Thread nD τ) arg2 fullShare a ∗ owns (c : Thread nD τ) arg3 fullShare x ∗ owns (c : Thread nD τ) arg5 fullShare acc
        ∗ (iprop(owns (c : Thread nD τ) arg2 fullShare a ∗ owns (c : Thread nD τ) arg3 fullShare x
            ∗ owns (c : Thread nD τ) arg5 fullShare (k2_pay2 acc a x)) -∗ K ⟨⟩))
      ⊢ wp frame (wpE (defs₀ (F := F)) Variants.none c none) E (cc2__gcn_propagate_kernel i arg2 harg2 arg3 harg3 arg4 harg4 arg5 harg5) K := by
  iintro ⟨H2, H3, H5, Hk⟩
  iapply ((runMid2 c i arg2 harg2 arg3 harg3 arg4 harg4 arg5 harg5 h1 h2 a x acc).2 E K)
  isplitl [H2]; · iexact H2
  isplitl [H3]; · iexact H3
  isplitl [H5]; · iexact H5
  iintro ⟨H2, H3, ⟨%f, H5⟩⟩
  iapply Hk
  isplitl [H2]; · iexact H2
  isplitl [H3]; · iexact H3
  unfold owns; iexists _; isplitr
  swap; · iexact H5
  ipureintro; exact scratchMid2 c i arg2 harg2 arg3 harg3 arg4 harg4 arg5 harg5 h1 h2 a x acc f

/-- The first point: the scratch, at anything, ends at the accumulate payload of the zero block. -/
theorem kernelFirst2 (c : Dev nD) (E : Set ℕ) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : isFirst2 i) (h2 : ¬ isLast2 i)
    (a : Vec F S1536x1536 .bf16) (x : Vec F S1536x1024 .bf16) (K : PUnit → sProp 𝕄) :
    iprop(owns (c : Thread nD τ) arg2 fullShare a ∗ owns (c : Thread nD τ) arg3 fullShare x ∗ (∃ d, owns (c : Thread nD τ) arg5 fullShare d)
        ∗ (iprop(owns (c : Thread nD τ) arg2 fullShare a ∗ owns (c : Thread nD τ) arg3 fullShare x
            ∗ owns (c : Thread nD τ) arg5 fullShare (k2_pay2 k2_pay1 a x)) -∗ K ⟨⟩))
      ⊢ wp frame (wpE (defs₀ (F := F)) Variants.none c none) E (cc2__gcn_propagate_kernel i arg2 harg2 arg3 harg3 arg4 harg4 arg5 harg5) K := by
  iintro ⟨H2, H3, ⟨%acc, H5⟩, Hk⟩
  iapply ((runFirst2 c i arg2 harg2 arg3 harg3 arg4 harg4 arg5 harg5 h1 h2 a x acc).2 E K)
  isplitl [H2]; · iexact H2
  isplitl [H3]; · iexact H3
  isplitl [H5]; · iexact H5
  iintro ⟨H2, H3, ⟨%f, H5⟩⟩
  iapply Hk
  isplitl [H2]; · iexact H2
  isplitl [H3]; · iexact H3
  unfold owns; iexists _; isplitr
  swap; · iexact H5
  ipureintro; exact scratchFirst2 c i arg2 harg2 arg3 harg3 arg4 harg4 arg5 harg5 h1 h2 a x acc f

/-- The last point: the scratch at `acc` ends at the accumulate payload, and so does the output block's buffer, whatever it
    held. -/
theorem kernelLast2 (c : Dev nD) (E : Set ℕ) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst2 i) (h2 : isLast2 i)
    (a : Vec F S1536x1536 .bf16) (x : Vec F S1536x1024 .bf16) (acc : Vec F S1536x1024 .f32) (K : PUnit → sProp 𝕄) :
    iprop(owns (c : Thread nD τ) arg2 fullShare a ∗ owns (c : Thread nD τ) arg3 fullShare x ∗ (∃ d, owns (c : Thread nD τ) arg4 fullShare d)
        ∗ owns (c : Thread nD τ) arg5 fullShare acc
        ∗ (iprop(owns (c : Thread nD τ) arg2 fullShare a ∗ owns (c : Thread nD τ) arg3 fullShare x
            ∗ owns (c : Thread nD τ) arg4 fullShare (k2_pay2 acc a x)
            ∗ owns (c : Thread nD τ) arg5 fullShare (k2_pay2 acc a x)) -∗ K ⟨⟩))
      ⊢ wp frame (wpE (defs₀ (F := F)) Variants.none c none) E (cc2__gcn_propagate_kernel i arg2 harg2 arg3 harg3 arg4 harg4 arg5 harg5) K := by
  iintro ⟨H2, H3, H4, H5, Hk⟩
  iapply ((runLast2 c i arg2 harg2 arg3 harg3 arg4 harg4 arg5 harg5 h1 h2 a x acc).2 E K)
  isplitl [H2]; · iexact H2
  isplitl [H3]; · iexact H3
  isplitl [H4]; · iexact H4
  isplitl [H5]; · iexact H5
  iintro ⟨H2, H3, ⟨%f4, H4⟩, ⟨%f5, H5⟩⟩
  iapply Hk
  isplitl [H2]; · iexact H2
  isplitl [H3]; · iexact H3
  isplitl [H4]
  · unfold owns; iexists _; isplitr
    swap; · iexact H4
    ipureintro; exact outLast2 c i arg2 harg2 arg3 harg3 arg4 harg4 arg5 harg5 h1 h2 a x acc f4
  unfold owns; iexists _; isplitr
  swap; · iexact H5
  ipureintro; exact scratchLast2 c i arg2 harg2 arg3 harg3 arg4 harg4 arg5 harg5 h1 h2 a x acc f5

/-! ## The conditions and the output window's idle points, in closed form over the grid -/

/-- The scratch is zero-filled at the points ≡ 0 (mod 10). -/
theorem hfirst2 : ∀ t : Fin cfg2.N, isFirst2 (grid2.coords t) ↔ t.val % 10 = 0 :=
  (by decide +kernel : ∀ t : Fin grid2.N, isFirst2 (grid2.coords t) ↔ t.val % 10 = 0)
/-- The scratch is copied out at the points ≡ 9 (mod 10). -/
theorem hlast2 : ∀ t : Fin cfg2.N, isLast2 (grid2.coords t) ↔ t.val % 10 = 9 :=
  (by decide +kernel : ∀ t : Fin grid2.N, isLast2 (grid2.coords t) ↔ t.val % 10 = 9)
/-- The output window is idle exactly where the scratch is not copied out. -/
theorem idleAt2 : ∀ t : Fin cfg2.N, ¬ isLast2 (grid2.coords t) → cfg2.idle 2 (grid2.coords t) = true := by decide +kernel
theorem liveAt2 : ∀ t : Fin cfg2.N, isLast2 (grid2.coords t) → cfg2.idle 2 (grid2.coords t) = false := by decide +kernel

/-! ## The proof data -/

section Data

variable (V : (c : Dev nD) → (b : Ref sig .tc) → Buf (Elt F) ((c : Thread nD τ).loc b))

/-- The scratch accumulator: a whole scoped buffer of the kernel's own. -/
abbrev scM2 : Memref sig .tc .vmem S1536x1024 .f32 := Memref.whole cc2_scratch0

/-- Window `w`'s block at point `t`, read off its array at the region's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- THE RUNNING ACCUMULATOR: what the scratch holds after the body at position `n`. At a position ≡ 0 (mod 10) the zero
    block plus the block product; elsewhere what the position before left plus the block product. -/
def acc2 (c : Dev nD) : (n : ℕ) → n < cfg2.N → Vec F S1536x1024 .f32
  | 0, h => k2_pay2 k2_pay1 (iblk2 V c 0 ⟨0, h⟩) (iblk2 V c 1 ⟨0, h⟩)
  | n + 1, h =>
    if (n + 1) % 10 = 0 then k2_pay2 k2_pay1 (iblk2 V c 0 ⟨n + 1, h⟩) (iblk2 V c 1 ⟨n + 1, h⟩)
    else k2_pay2 (acc2 c n (Nat.lt_of_succ_lt h)) (iblk2 V c 0 ⟨n + 1, h⟩) (iblk2 V c 1 ⟨n + 1, h⟩)

theorem acc2_first (c : Dev nD) (t : Fin cfg2.N) (h : t.val % 10 = 0) :
    acc2 V c t.val t.isLt = k2_pay2 k2_pay1 (iblk2 V c 0 t) (iblk2 V c 1 t) := by
  obtain ⟨n, hn⟩ := t
  cases n with
  | zero => rfl
  | succ n => exact (if_pos h).trans rfl

theorem acc2_step (c : Dev nD) (t : Fin cfg2.N) (h : ¬ t.val % 10 = 0) :
    acc2 V c t.val t.isLt
      = k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h
  | succ n => exact (if_neg h).trans rfl

/-- The scoped buffers no window of this region stages, split at the scratch accumulator: the scratch at some contents,
    and every other one unopened. -/
theorem scopedRest_split2 (c : Dev nD) :
    (Pipeline.scopedRest (Ix := Unit) (Name := ℕ) (U := UR sig nD τ) (Lvl := ℕ) (Val := Elt F) spec2 c : sProp 𝕄)
      = iprop((∃ d, owns (c : Thread nD τ) scM2 fullShare d)
          ∗ Pipeline.scopedRestBut (Ix := Unit) (Name := ℕ) (U := UR sig nD τ) (Lvl := ℕ) (Val := Elt F) spec2 c [cc2_scratch0]) := by
  rw [Pipeline.scopedRest_split_of_list spec2 c [cc2_scratch0] (by decide) (by decide)]
  simp only [scM2, owns_whole]; rfl

/-- The region invariant before position `n`: the scratch at what the position before left in it (before the first
    position: at anything), and every other scoped buffer no window stages, unopened. -/
def Phi2 (c : Dev nD) : (n : ℕ) → n ≤ cfg2.N → sProp 𝕄
  | 0, _ => iprop((∃ d, owns (c : Thread nD τ) scM2 fullShare d)
      ∗ Pipeline.scopedRestBut (Ix := Unit) (Name := ℕ) (U := UR sig nD τ) (Lvl := ℕ) (Val := Elt F) spec2 c [cc2_scratch0])
  | n + 1, hn => iprop(owns (c : Thread nD τ) scM2 fullShare (acc2 V c n hn)
      ∗ Pipeline.scopedRestBut (Ix := Unit) (Name := ℕ) (U := UR sig nD τ) (Lvl := ℕ) (Val := Elt F) spec2 c [cc2_scratch0])

theorem Phi2_succ (c : Dev nD) (n : ℕ) (hn : n < cfg2.N) :
    Phi2 V c (n + 1) hn = iprop(owns (c : Thread nD τ) scM2 fullShare (acc2 V c n hn)
      ∗ Pipeline.scopedRestBut (Ix := Unit) (Name := ℕ) (U := UR sig nD τ) (Lvl := ℕ) (Val := Elt F) spec2 c [cc2_scratch0]) := rfl

theorem Phi2_pos (c : Dev nD) (n : ℕ) (h : n ≤ cfg2.N) (hz : n ≠ 0) :
    Phi2 V c n h = iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) := by
  cases n with
  | zero => exact absurd rfl hz
  | succ n => rfl

/-- At any position the invariant holds the scratch at SOME contents. -/
theorem Phi2_any (c : Dev nD) (n : ℕ) (h : n ≤ cfg2.N) :
    Phi2 V c n h ⊢ iprop((∃ d, owns (c : Thread nD τ) scM2 fullShare d)
      ∗ Pipeline.scopedRestBut (Ix := Unit) (Name := ℕ) (U := UR sig nD τ) (Lvl := ℕ) (Val := Elt F) spec2 c [cc2_scratch0]) := by
  cases n with
  | zero => exact .rfl
  | succ n =>
    rw [Phi2_succ]
    iintro ⟨HS, HR⟩
    isplitl [HS]; · iexists _; iexact HS
    iexact HR

/-- The proof data of this region on core `c`, at the entry contents `V`: the arrays as the region finds them; after
    the body each input's buffer at its block and the output's at the running accumulator (consulted at the points
    ≡ 9 (mod 10) only: elsewhere the window is idle); the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

/-- Each input is fetched at every point, so its current staging buffer holds its block there. -/
theorem before2_0 (c : Dev nD) (t : Fin cfg2.N) (d) : (dat2 V c).before 0 t d = iblk2 V c 0 t := by
  rw [Dat.before_fetched _ 0 t (fetch2_0 t)]
  unfold Dat.fetched Dat.blockOf iblk2; rw [A_eq2]; rfl
theorem before2_1 (c : Dev nD) (t : Fin cfg2.N) (d) : (dat2 V c).before 1 t d = iblk2 V c 1 t := by
  rw [Dat.before_fetched _ 1 t (fetch2_1 t)]
  unfold Dat.fetched Dat.blockOf iblk2; rw [A_eq2]; rfl

/-! ## The body obligation, at a generic point -/

/-- What the body is called with at point `t` (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

/-- The output window's block is not written back at a point where the scratch is not copied out. -/
theorem noFlush2 (t : Fin cfg2.N) (h : ¬ t.val % 10 = 9) : (cfg2.win 2).flush t = false :=
  Bool.eq_false_iff.mpr fun hf => h ((flush2_2 t).mp hf)

set_option maxHeartbeats 1600000 in
/-- The body at any point. The inputs' buffers hold their blocks. By the inner coordinate: at `0` the scratch (at anything)
    is zero-filled and ends at the zero block plus the product; at `1 … 8` it goes from what the point before left to that
    plus the product; at `9` the same, and the output block's buffer ends at the scratch's contents. Where the scratch is not
    copied out the output window is idle and its buffer is handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from rfl, after2_0]
  rw [show (dat2 V c).leavesExact 1 t = owns (c : Thread nD τ) (st2_1 t) fullShare ((dat2 V c).after 1 t) from rfl, after2_1]
  rw [Phi2_castSucc]
  have hN : t.val < 100 := lt_of_lt_of_eq t.isLt (show cfg2.N = 100 from N_2)
  by_cases h9 : t.val % 10 = 9
  · have hl : isLast2 (grid2.coords t) := (hlast2 t).mpr h9
    have hf : ¬ isFirst2 (grid2.coords t) := fun h => by have := (hfirst2 t).mp h; omega
    have hz : t.val ≠ 0 := by omega
    rw [show (dat2 V c).leavesExact 2 t = owns (c : Thread nD τ) (st2_2 t) fullShare ((dat2 V c).after 2 t) from by
      unfold Dat.leavesExact; rw [liveAt2 t hl], after2_2]
    rw [acc2_step V c t (by omega), Phi2_pos V c _ _ hz]
    iintro ⟨⟨HS, HR⟩, Ho, ⟨%d0, H0⟩, ⟨%d1, H1⟩, ⟨%d2, H2⟩⟩
    iapply (kernelLast2 c Set.univ (grid2.coords t) _ _ _ _ _ _ _ _ hf hl (iblk2 V c 0 t) (iblk2 V c 1 t) _ _)
    isplitl [H0]; · iexact H0
    isplitl [H1]; · iexact H1
    isplitl [H2]; · iexists _; iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    iexact H2
  · have hl : ¬ isLast2 (grid2.coords t) := fun h => h9 ((hlast2 t).mp h)
    rw [Dat.leavesExact_idle (dat2 V c) 2 t (idleAt2 t hl) (noFlush2 t h9)]
    by_cases h0 : t.val % 10 = 0
    · have hf : isFirst2 (grid2.coords t) := (hfirst2 t).mpr h0
      rw [acc2_first V c t h0]
      iintro ⟨HΦ, Ho, ⟨%d0, H0⟩, ⟨%d1, H1⟩, ⟨%d2, H2⟩⟩
      ihave HΦ' := (Phi2_any V c _ _) $$ HΦ
      icases HΦ' with ⟨HS, HR⟩
      iapply (kernelFirst2 c Set.univ (grid2.coords t) _ _ _ _ (st2_2 t) (hstage2_2 ((cfg2.slots t 2).cast nbuf2_2)) _ _ hf hl (iblk2 V c 0 t) (iblk2 V c 1 t) _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexists _; iexact H2
    · have hf : ¬ isFirst2 (grid2.coords t) := fun h => h0 ((hfirst2 t).mp h)
      have hz : t.val ≠ 0 := by omega
      rw [acc2_step V c t h0, Phi2_pos V c _ _ hz]
      iintro ⟨⟨HS, HR⟩, Ho, ⟨%d0, H0⟩, ⟨%d1, H1⟩, ⟨%d2, H2⟩⟩
      iapply (kernelMid2 c Set.univ (grid2.coords t) _ _ _ _ (st2_2 t) (hstage2_2 ((cfg2.slots t 2).cast nbuf2_2)) _ _ hf hl (iblk2 V c 0 t) (iblk2 V c 1 t) _ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The scoped buffers no window stages yield the invariant before the first point: the scratch at anything. -/
theorem Φ2_first (c : Dev nD) :
    (Pipeline.scopedRest (Ix := Unit) (Name := ℕ) (U := UR sig nD τ) (Lvl := ℕ) (Val := Elt F) spec2 c : sProp 𝕄) ⊢ (dat2 V c).Φ 0 := by
  rw [show (dat2 V c).Φ 0 = Phi2 V c 0 (Nat.zero_le _) from rfl, scopedRest_split2]
  exact .rfl

/-- After the last point the invariant gives them back: the scratch's named contents are forgotten. -/
theorem Φ2_last (c : Dev nD) :
    (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = Phi2 V c (Fin.last cfg2.N).val (Nat.le_of_lt_succ (Fin.last cfg2.N).isLt) from rfl, scopedRest_split2]
  exact Phi2_any V c _ _

end Data

end Cert.Kernel.Hand

end
-- ==== Proof.RunK.lean ====
import proofs.«150125_j89541478187016_2_alg».proof.Proof.Gen.Kernel.Regions

/-!
# Every weakly fair execution of the program ends with every unscoped buffer at the composed valuation

Given one segment record per kernel region, entered from the thread state before it and left at the one after it, the
program runs to the end without a fault and EVERY buffer that outlives a kernel call — the arguments and every
intermediate and result array of the host operations — ends holding the last valuation: the launch contents pushed
through each stretch of host operations in turn and updated, at each region, at what the region leaves in its output.
The frame (arguments unchanged) and the result's value are both read off this one statement.
-/

set_option maxRecDepth 1260

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
/-- The run, with every unscoped buffer read off the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V18 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V18 m outs c))
    (hch := fun c => ⟨.rfl, .rfl, .rfl, hpre0 c, hpost0 c, .rfl, .rfl, hpre1 c, hpost1 c, .rfl, .rfl, hpre2 c, hpost2 c, .rfl, .rfl, .rfl, .rfl, .rfl, sep_mono .rfl (hE3 c)⟩)
    (hinit := ?_) (QY := fun c s => ∀ b ∈ Pipeline.ucRefs τ sig, s.mem ((c : Thread nD τ).1, b) = V18 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V18 m outs c) s') $$ [Hh HSI]
    · isplitl [Hh] <;> iassumption
    icases Hr with ⟨%h, HSI⟩
    imodintro
    isplitr
    · ipureintro
      exact h
    · iexact HSI

end Cert.Kernel.Hand

end
-- ==== Proof.RunAllK.lean ====
import proofs.«150125_j89541478187016_2_alg».proof.Proof.RunK

/-!
# The run at the concrete resource algebra

One copy of the pipeline library's resource algebra serves all three kernel regions (each is entered once). No core
owes another anything and no level is assigned; beside the buffers every segment carries the core's generator
register, at some state, and its record of what it owes, at nothing. What is left open here is exactly the three
region records and their entry and exit entailments.
-/

set_option maxRecDepth 1260

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

abbrev 𝒱n : Variants := Variants.none
abbrev Ln : GSem nD τ sig → Finset Unit := fun _ => ∅
abbrev lvn : GSem nD τ sig → Unit → ℕ := fun _ _ => 0

/-- What rides beside the buffers through every segment. -/
abbrev Rest (c : Dev nD) : sProp 𝕄 := iprop((∃ r, prngReg c r) ∗ ∃ W, owes (c : Thread nD τ) (0 : CellTallies nD τ sig Unit) W)

variable (m : (ℓ : Loc nD τ sig) → Buf (Elt F) ℓ)

set_option backward.isDefEq.respectTransparency.types false in
theorem run_all (ρ : Dev nD → PrngReg) (outs : Outs (F := F))
    (pdats : (p : Fin 3) → (c : Dev nD) → Dat τ (Elt F) Unit ℕ (UR sig nD τ) ℕ (cfgs p) c)
    (R0 : RegionSeg (pcfgs (F := F)) adm pdats () defs₀ 𝒱n Ln lvn 0)
    (hpre0 : ∀ c : Dev nD, iprop(StableHlo.held (c : Thread nD τ) (Pipeline.ucRefs τ sig) (V3 m c) ∗ Rest c) ⊢ R0.pre c)
    (hpost0 : ∀ c : Dev nD, R0.post c ⊢ iprop(StableHlo.held (c : Thread nD τ) (Pipeline.ucRefs τ sig) (V4 m outs c) ∗ Rest c))
    (R1 : RegionSeg (pcfgs (F := F)) adm pdats () defs₀ 𝒱n Ln lvn 1)
    (hpre1 : ∀ c : Dev nD, iprop(StableHlo.held (c : Thread nD τ) (Pipeline.ucRefs τ sig) (V7 m outs c) ∗ Rest c) ⊢ R1.pre c)
    (hpost1 : ∀ c : Dev nD, R1.post c ⊢ iprop(StableHlo.held (c : Thread nD τ) (Pipeline.ucRefs τ sig) (V8 m outs c) ∗ Rest c))
    (R2 : RegionSeg (pcfgs (F := F)) adm pdats () defs₀ 𝒱n Ln lvn 2)
    (hpre2 : ∀ c : Dev nD, iprop(StableHlo.held (c : Thread nD τ) (Pipeline.ucRefs τ sig) (V11 m outs c) ∗ Rest c) ⊢ R2.pre c)
    (hpost2 : ∀ c : Dev nD, R2.post c ⊢ iprop(StableHlo.held (c : Thread nD τ) (Pipeline.ucRefs τ sig) (V12 m outs c) ∗ Rest c)) :
    θ_run defs (onTc (τ := τ) (main (F := F))) ⟨m, fun _ => 0, ρ⟩ (fun r => ∀ c : Dev nD,
      ∀ b ∈ Pipeline.ucRefs τ sig, r.2.mem ((c : Thread nD τ).1, b) = V18 m outs c b) :=
  run_cond m emb₁ () 𝒱n Ln lvn (fun _ _ => rfl) ρ outs pdats 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rest c)
    (by
      have hmono : (bigSep Finset.univ fun c : Dev nD => (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄))
          ⊢ (bigSep Finset.univ fun c : Dev nD => (Rest c : sProp 𝕄)) :=
        bigSep_mono fun c _ => (show (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄) ⊢ Rest c from by
          iintro ⟨-, HO, -, Hp, -⟩
          isplitl [Hp]; · iexists _; iexact Hp
          iexists ∅; iexact HO)
      iintro ⟨H, -⟩
      imodintro
      iapply hmono
      iexact H)
    (fun c => by iintro ⟨-, HO⟩; iexact HO)
    R0 hpre0 hpost0 R1 hpre1 hpost1 R2 hpre2 hpost2

end Cert.Kernel.Hand

end
-- ==== Proof.SegsK.lean ====
import proofs.«150125_j89541478187016_2_alg».proof.Proof.RegionK0
import proofs.«150125_j89541478187016_2_alg».proof.Proof.RegionK1
import proofs.«150125_j89541478187016_2_alg».proof.Proof.RegionK2
import proofs.«150125_j89541478187016_2_alg».proof.Proof.RunAllK
import Idealize.ShloMosaic.Lib.Pipeline.RegionsLoop

/-!
# The three kernel regions as segments of the program, and the run

Each kernel call is entered with every buffer that outlives a call at the valuation the host operations before it
produce, and left with that valuation updated at the call's output array, which then holds what the pipeline's
write-backs leave in it. The two input arrays are split out of the thread state on entry and put back unchanged on
exit; the scratch accumulator lives in the invariant between the two ends; no call has a semaphore of its own and no
core owes anything. The valuations are chained: the second call's entry valuation is computed from the first call's
output, the third's from the second's. With the three records the program runs to the end, every buffer that outlives
a call ending at the last valuation; the arguments are among them and no operation writes one.
-/

set_option maxRecDepth 4096

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The chain of valuations and outputs -/

/-- The valuation before region 0, read at the TensorCore's references. -/
abbrev E3 : (c : Dev nD) → (b : Ref sig .tc) → Buf (Elt F) ((c : Thread nD τ).loc b) := fun c b => V3 m c b

/-- What region 0 leaves in its output array. -/
def O4 (c : Dev nD) : Buf (Elt F) ((c : Thread nD τ).loc main_v52) := (dat0 (E3 m) c).arrAt 2 cfg0.N

/-- The regions' outputs, so far: region 0's. -/
def oA : Outs (F := F) := fun _ r c => Function.update (V3 m c) main_v52 (O4 m c) r

theorem oA_out (c : Dev nD) : oA m 4 main_v52 c = O4 m c := by
  unfold oA; exact Function.update_self _ _ _

/-- The valuation before region 1 (computed from region 0's output), read at the TensorCore's references. -/
abbrev E7 : (c : Dev nD) → (b : Ref sig .tc) → Buf (Elt F) ((c : Thread nD τ).loc b) := fun c b => V7 m (oA m) c b

/-- What region 1 leaves in its output array. -/
def O8 (c : Dev nD) : Buf (Elt F) ((c : Thread nD τ).loc main_v63) := (dat1 (E7 m) c).arrAt 2 cfg1.N

/-- The regions' outputs, so far: regions 0's and 1's. -/
def oB : Outs (F := F) := fun J r c =>
  match J with
  | 8 => Function.update (V7 m (oA m) c) main_v63 (O8 m c) r
  | _ => oA m J r c

theorem oB_4 (c : Dev nD) : oB m 4 main_v52 c = O4 m c := oA_out m c
theorem oB_8 (c : Dev nD) : oB m 8 main_v63 c = O8 m c := by
  show Function.update (V7 m (oA m) c) main_v63 (O8 m c) main_v63 = _
  exact Function.update_self _ _ _

/-- The valuation before region 2 (computed from region 1's output), read at the TensorCore's references. -/
abbrev E11 : (c : Dev nD) → (b : Ref sig .tc) → Buf (Elt F) ((c : Thread nD τ).loc b) := fun c b => V11 m (oB m) c b

/-- What region 2 leaves in its output array. -/
def O12 (c : Dev nD) : Buf (Elt F) ((c : Thread nD τ).loc main_v74) := (dat2 (E11 m) c).arrAt 2 cfg2.N

/-- The three regions' outputs. -/
def oC : Outs (F := F) := fun J r c =>
  match J with
  | 12 => Function.update (V11 m (oB m) c) main_v74 (O12 m c) r
  | _ => oB m J r c

theorem oC_4 (c : Dev nD) : oC m 4 main_v52 c = O4 m c := oA_out m c
theorem oC_8 (c : Dev nD) : oC m 8 main_v63 c = O8 m c := oB_8 m c
theorem oC_12 (c : Dev nD) : oC m 12 main_v74 c = O12 m c := by
  show Function.update (V11 m (oB m) c) main_v74 (O12 m c) main_v74 = _
  exact Function.update_self _ _ _

/-- Each valuation reads the outputs of the regions before it only, so the chain's valuations are the final ones. -/
theorem V4_oA (c : Dev nD) : V4 m (oC m) c = V4 m (oA m) c := by
  show Function.update (V3 m c) main_v52 (oC m 4 main_v52 c) = Function.update (V3 m c) main_v52 (oA m 4 main_v52 c)
  rw [oC_4, oA_out]
theorem V7_oA (c : Dev nD) : V7 m (oC m) c = V7 m (oA m) c := by
  show StableHlo.after hostOps1_2 (StableHlo.after hostOps1_1 (StableHlo.after hostOps1 (V4 m (oC m) c))) = StableHlo.after hostOps1_2 (StableHlo.after hostOps1_1 (StableHlo.after hostOps1 (V4 m (oA m) c)))
  rw [V4_oA]
theorem V7_oB (c : Dev nD) : V7 m (oB m) c = V7 m (oA m) c := by
  show StableHlo.after hostOps1_2 (StableHlo.after hostOps1_1 (StableHlo.after hostOps1 (Function.update (V3 m c) main_v52 (oB m 4 main_v52 c)))) = StableHlo.after hostOps1_2 (StableHlo.after hostOps1_1 (StableHlo.after hostOps1 (Function.update (V3 m c) main_v52 (oA m 4 main_v52 c))))
  rw [oB_4, oA_out]
theorem V8_oB (c : Dev nD) : V8 m (oC m) c = V8 m (oB m) c := by
  show Function.update (V7 m (oC m) c) main_v63 (oC m 8 main_v63 c) = Function.update (V7 m (oB m) c) main_v63 (oB m 8 main_v63 c)
  rw [V7_oA, V7_oB, oC_8, oB_8]
theorem V11_oB (c : Dev nD) : V11 m (oC m) c = V11 m (oB m) c := by
  show StableHlo.after hostOps2_2 (StableHlo.after hostOps2_1 (StableHlo.after hostOps2 (V8 m (oC m) c))) = StableHlo.after hostOps2_2 (StableHlo.after hostOps2_1 (StableHlo.after hostOps2 (V8 m (oB m) c)))
  rw [V8_oB]

/-! ## Each region's arrays at its exit, the other buffers as entered -/

theorem hF0 (c : Dev nD) (w : Fin cfg0.W) : (dat0 (E3 m) c).arrAt w cfg0.N = V4 m (oA m) c (Pipeline.arrRef spec0 w) := by
  fin_cases w
  · exact ((dat0 (E3 m) c).arrAt_in 0 rfl _).trans ((V4_of m (oA m) c main_v42 (by decide)).symm)
  · exact ((dat0 (E3 m) c).arrAt_in 1 rfl _).trans ((V4_of m (oA m) c main_v51 (by decide)).symm)
  · show O4 m c = Function.update (V3 m c) main_v52 (oA m 4 main_v52 c) main_v52
    rw [Function.update_self, oA_out]

theorem hrest0 (c : Dev nD) : ∀ b, b ∉ Finset.univ.image (Pipeline.arrRef spec0) → V4 m (oA m) c b = V3 m c b :=
  fun b hb => V4_of m (oA m) c b (fun h => hb (by
    rw [List.mem_singleton] at h; subst h; exact Finset.mem_image.mpr ⟨2, Finset.mem_univ _, rfl⟩))

theorem hF1 (c : Dev nD) (w : Fin cfg1.W) : (dat1 (E7 m) c).arrAt w cfg1.N = V8 m (oB m) c (Pipeline.arrRef spec1 w) := by
  fin_cases w
  · show (dat1 (E7 m) c).arrAt 0 cfg1.N = V8 m (oB m) c main_v42
    rw [V8_of m (oB m) c main_v42 (by decide), V7_oB]
    exact (dat1 (E7 m) c).arrAt_in 0 rfl _
  · show (dat1 (E7 m) c).arrAt 1 cfg1.N = V8 m (oB m) c main_v62
    rw [V8_of m (oB m) c main_v62 (by decide), V7_oB]
    exact (dat1 (E7 m) c).arrAt_in 1 rfl _
  · show O8 m c = Function.update (V7 m (oB m) c) main_v63 (oB m 8 main_v63 c) main_v63
    rw [Function.update_self, oB_8]

theorem hrest1 (c : Dev nD) : ∀ b, b ∉ Finset.univ.image (Pipeline.arrRef spec1) → V8 m (oB m) c b = V7 m (oA m) c b :=
  fun b hb => (V8_of m (oB m) c b (fun h => hb (by
    rw [List.mem_singleton] at h; subst h; exact Finset.mem_image.mpr ⟨2, Finset.mem_univ _, rfl⟩))).trans (by rw [V7_oB])

theorem hF2 (c : Dev nD) (w : Fin cfg2.W) : (dat2 (E11 m) c).arrAt w cfg2.N = V12 m (oC m) c (Pipeline.arrRef spec2 w) := by
  fin_cases w
  · show (dat2 (E11 m) c).arrAt 0 cfg2.N = V12 m (oC m) c main_v42
    rw [V12_of m (oC m) c main_v42 (by decide), V11_oB]
    exact (dat2 (E11 m) c).arrAt_in 0 rfl _
  · show (dat2 (E11 m) c).arrAt 1 cfg2.N = V12 m (oC m) c main_v73
    rw [V12_of m (oC m) c main_v73 (by decide), V11_oB]
    exact (dat2 (E11 m) c).arrAt_in 1 rfl _
  · show O12 m c = Function.update (V11 m (oC m) c) main_v74 (oC m 12 main_v74 c) main_v74
    rw [Function.update_self, oC_12]

theorem hrest2 (c : Dev nD) : ∀ b, b ∉ Finset.univ.image (Pipeline.arrRef spec2) → V12 m (oC m) c b = V11 m (oB m) c b :=
  fun b hb => (V12_of m (oC m) c b (fun h => hb (by
    rw [List.mem_singleton] at h; subst h; exact Finset.mem_image.mpr ⟨2, Finset.mem_univ _, rfl⟩))).trans (by rw [V11_oB])

/-! ## The proof data family and the three records -/

/-- The proof data of the three regions, each at its entry valuation (a literal match on the region's number). -/
def pdats : (p : Fin 3) → (c : Dev nD) → Dat τ (Elt F) Unit ℕ (UR sig nD τ) ℕ (cfgs p) c
  | ⟨0, _⟩ => fun c => dat0 (E3 m) c
  | ⟨1, _⟩ => fun c => dat1 (E7 m) c
  | ⟨2, _⟩ => fun c => dat2 (E11 m) c

set_option backward.isDefEq.respectTransparency.types false in
/-- Region 0 over the thread state: entered from every buffer that outlives a call at the valuation before it, left at
    that valuation updated at the region's output array. -/
def reg0 : RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ Ln lvn 0 fun _ _ => rfl
  pre c := iprop(StableHlo.held (c : Thread nD τ) (Pipeline.ucRefs τ sig) (V3 m c) ∗ Rest c)
  post c := iprop(StableHlo.held (c : Thread nD τ) (Pipeline.ucRefs τ sig) (V4 m (oA m) c) ∗ Rest c)
  X _ := BI.emp
  Y _ := BI.emp
  Z c := iprop(Pipeline.unscopedRest (Ix := Unit) (Name := ℕ) (U := UR sig nD τ) (Lvl := ℕ) spec0 c (E3 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (dat0 (E3 m) c).Φ 0 from rfl]
    iintro ⟨-, -, Hr⟩
    iapply (Φ0_first (E3 m) c); iexact Hr
  hout c := by
    rw [Pipeline.ownSems0_none, show (pdats m 0 c).Φ (Fin.last _) = (dat0 (E3 m) c).Φ (Fin.last cfg0.N) from rfl]
    iintro Hr
    isplitr; · iempintro
    isplitr; · iempintro
    iapply (Φ0_last (E3 m) c); iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (fun b => V4 m (oA m) c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 1 over the thread state: entered from every buffer that outlives a call at the valuation before it, left at
    that valuation updated at the region's output array. -/
def reg1 : RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ Ln lvn 1 fun _ _ => rfl
  pre c := iprop(StableHlo.held (c : Thread nD τ) (Pipeline.ucRefs τ sig) (V7 m (oA m) c) ∗ Rest c)
  post c := iprop(StableHlo.held (c : Thread nD τ) (Pipeline.ucRefs τ sig) (V8 m (oB m) c) ∗ Rest c)
  X _ := BI.emp
  Y _ := BI.emp
  Z c := iprop(Pipeline.unscopedRest (Ix := Unit) (Name := ℕ) (U := UR sig nD τ) (Lvl := ℕ) spec1 c (E7 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (dat1 (E7 m) c).Φ 0 from rfl]
    iintro ⟨-, -, Hr⟩
    iapply (Φ1_first (E7 m) c); iexact Hr
  hout c := by
    rw [Pipeline.ownSems0_none, show (pdats m 1 c).Φ (Fin.last _) = (dat1 (E7 m) c).Φ (Fin.last cfg1.N) from rfl]
    iintro Hr
    isplitr; · iempintro
    isplitr; · iempintro
    iapply (Φ1_last (E7 m) c); iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (fun b => V8 m (oB m) c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 2 over the thread state: entered from every buffer that outlives a call at the valuation before it, left at
    that valuation updated at the region's output array. -/
def reg2 : RegionSeg (pcfgs (F := F)) adm (pdats m) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (E11 m) c).loose
  hwaits := Pipeline.hwaits_of_owed_zero _ _ _ _ Ln lvn 2 fun _ _ => rfl
  pre c := iprop(StableHlo.held (c : Thread nD τ) (Pipeline.ucRefs τ sig) (V11 m (oB m) c) ∗ Rest c)
  post c := iprop(StableHlo.held (c : Thread nD τ) (Pipeline.ucRefs τ sig) (V12 m (oC m) c) ∗ Rest c)
  X _ := BI.emp
  Y _ := BI.emp
  Z c := iprop(Pipeline.unscopedRest (Ix := Unit) (Name := ℕ) (U := UR sig nD τ) (Lvl := ℕ) spec2 c (E11 m c) ∗ ∃ r, prngReg c r)
  hentry c := by
    rw [Pipeline.ownSems0_none]
    have hsplit := Pipeline.arrays_of_unscopedBufs (p := 2) (pcfgs (F := F)) adm (pdats m) launch2.win launch2.arr_whole c
      ((pdats m 2 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = (dat2 (E11 m) c).Φ 0 from rfl]
    iintro ⟨-, -, Hr⟩
    iapply (Φ2_first (E11 m) c); iexact Hr
  hout c := by
    rw [Pipeline.ownSems0_none, show (pdats m 2 c).Φ (Fin.last _) = (dat2 (E11 m) c).Φ (Fin.last cfg2.N) from rfl]
    iintro Hr
    isplitr; · iempintro
    isplitr; · iempintro
    iapply (Φ2_last (E11 m) c); iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E11 m c) (fun b => V12 m (oC m) c b) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The run -/

/-- Every weakly fair execution of the program terminates without a fault, and every buffer that outlives a call ends
    at the last valuation of the chain. -/
theorem run_K (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V18 m (oC m) c b) :=
  run_all m ρ (oC m) (pdats m)
    (reg0 m) (fun c => .rfl) (fun c => by rw [V4_oA]; exact .rfl)
    (reg1 m) (fun c => by rw [V7_oA]; exact .rfl) (fun c => by rw [V8_oB]; exact .rfl)
    (reg2 m) (fun c => by rw [V11_oB]; exact .rfl) (fun c => .rfl)

/-- The frame: the program runs and its argument arrays end unchanged. -/
theorem frame_K (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c (Proc.devRef .tc main_arg0) (Finset.mem_filter.mpr ⟨StableHlo.devRef_mem_tcRefs main_arg0, by decide⟩)).trans (V18_main_arg0 m (oC m) c),
      (h c (Proc.devRef .tc main_arg1) (Finset.mem_filter.mpr ⟨StableHlo.devRef_mem_tcRefs main_arg1, by decide⟩)).trans (V18_main_arg1 m (oC m) c),
      (h c (Proc.devRef .tc main_arg2) (Finset.mem_filter.mpr ⟨StableHlo.devRef_mem_tcRefs main_arg2, by decide⟩)).trans (V18_main_arg2 m (oC m) c),
      (h c (Proc.devRef .tc main_arg3) (Finset.mem_filter.mpr ⟨StableHlo.devRef_mem_tcRefs main_arg3, by decide⟩)).trans (V18_main_arg3 m (oC m) c),
      (h c (Proc.devRef .tc main_arg4) (Finset.mem_filter.mpr ⟨StableHlo.devRef_mem_tcRefs main_arg4, by decide⟩)).trans (V18_main_arg4 m (oC m) c),
      (h c (Proc.devRef .tc main_arg5) (Finset.mem_filter.mpr ⟨StableHlo.devRef_mem_tcRefs main_arg5, by decide⟩)).trans (V18_main_arg5 m (oC m) c),
      (h c (Proc.devRef .tc main_arg6) (Finset.mem_filter.mpr ⟨StableHlo.devRef_mem_tcRefs main_arg6, by decide⟩)).trans (V18_main_arg6 m (oC m) c),
      (h c (Proc.devRef .tc main_arg7) (Finset.mem_filter.mpr ⟨StableHlo.devRef_mem_tcRefs main_arg7, by decide⟩)).trans (V18_main_arg7 m (oC m) c),
      (h c (Proc.devRef .tc main_arg8) (Finset.mem_filter.mpr ⟨StableHlo.devRef_mem_tcRefs main_arg8, by decide⟩)).trans (V18_main_arg8 m (oC m) c),
      (h c (Proc.devRef .tc main_arg9) (Finset.mem_filter.mpr ⟨StableHlo.devRef_mem_tcRefs main_arg9, by decide⟩)).trans (V18_main_arg9 m (oC m) c),
      (h c (Proc.devRef .tc main_arg10) (Finset.mem_filter.mpr ⟨StableHlo.devRef_mem_tcRefs main_arg10, by decide⟩)).trans (V18_main_arg10 m (oC m) c),
      (h c (Proc.devRef .tc main_arg11) (Finset.mem_filter.mpr ⟨StableHlo.devRef_mem_tcRefs main_arg11, by decide⟩)).trans (V18_main_arg11 m (oC m) c),
      (h c (Proc.devRef .tc main_arg12) (Finset.mem_filter.mpr ⟨StableHlo.devRef_mem_tcRefs main_arg12, by decide⟩)).trans (V18_main_arg12 m (oC m) c),
      (h c (Proc.devRef .tc main_arg13) (Finset.mem_filter.mpr ⟨StableHlo.devRef_mem_tcRefs main_arg13, by decide⟩)).trans (V18_main_arg13 m (oC m) c)⟩) (run_K m ρ)

/-- The result array ends at the last valuation's contents, and the argument arrays end unchanged. -/
theorem result_K (ρ : Dev nD → PrngReg) :
    θ_run defs (onTc (τ := τ) (main (F := F))) ⟨m, fun _ => 0, ρ⟩ (fun r => ∀ c : Dev nD,
      r.2.mem ((c.tc : Thread nD τ).loc main_v115) = V18 m (oC m) c main_v115
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c (Proc.devRef .tc main_v115) (Finset.mem_filter.mpr ⟨StableHlo.devRef_mem_tcRefs main_v115, by decide⟩),
      (h c (Proc.devRef .tc main_arg0) (Finset.mem_filter.mpr ⟨StableHlo.devRef_mem_tcRefs main_arg0, by decide⟩)).trans (V18_main_arg0 m (oC m) c),
      (h c (Proc.devRef .tc main_arg1) (Finset.mem_filter.mpr ⟨StableHlo.devRef_mem_tcRefs main_arg1, by decide⟩)).trans (V18_main_arg1 m (oC m) c),
      (h c (Proc.devRef .tc main_arg2) (Finset.mem_filter.mpr ⟨StableHlo.devRef_mem_tcRefs main_arg2, by decide⟩)).trans (V18_main_arg2 m (oC m) c),
      (h c (Proc.devRef .tc main_arg3) (Finset.mem_filter.mpr ⟨StableHlo.devRef_mem_tcRefs main_arg3, by decide⟩)).trans (V18_main_arg3 m (oC m) c),
      (h c (Proc.devRef .tc main_arg4) (Finset.mem_filter.mpr ⟨StableHlo.devRef_mem_tcRefs main_arg4, by decide⟩)).trans (V18_main_arg4 m (oC m) c),
      (h c (Proc.devRef .tc main_arg5) (Finset.mem_filter.mpr ⟨StableHlo.devRef_mem_tcRefs main_arg5, by decide⟩)).trans (V18_main_arg5 m (oC m) c),
      (h c (Proc.devRef .tc main_arg6) (Finset.mem_filter.mpr ⟨StableHlo.devRef_mem_tcRefs main_arg6, by decide⟩)).trans (V18_main_arg6 m (oC m) c),
      (h c (Proc.devRef .tc main_arg7) (Finset.mem_filter.mpr ⟨StableHlo.devRef_mem_tcRefs main_arg7, by decide⟩)).trans (V18_main_arg7 m (oC m) c),
      (h c (Proc.devRef .tc main_arg8) (Finset.mem_filter.mpr ⟨StableHlo.devRef_mem_tcRefs main_arg8, by decide⟩)).trans (V18_main_arg8 m (oC m) c),
      (h c (Proc.devRef .tc main_arg9) (Finset.mem_filter.mpr ⟨StableHlo.devRef_mem_tcRefs main_arg9, by decide⟩)).trans (V18_main_arg9 m (oC m) c),
      (h c (Proc.devRef .tc main_arg10) (Finset.mem_filter.mpr ⟨StableHlo.devRef_mem_tcRefs main_arg10, by decide⟩)).trans (V18_main_arg10 m (oC m) c),
      (h c (Proc.devRef .tc main_arg11) (Finset.mem_filter.mpr ⟨StableHlo.devRef_mem_tcRefs main_arg11, by decide⟩)).trans (V18_main_arg11 m (oC m) c),
      (h c (Proc.devRef .tc main_arg12) (Finset.mem_filter.mpr ⟨StableHlo.devRef_mem_tcRefs main_arg12, by decide⟩)).trans (V18_main_arg12 m (oC m) c),
      (h c (Proc.devRef .tc main_arg13) (Finset.mem_filter.mpr ⟨StableHlo.devRef_mem_tcRefs main_arg13, by decide⟩)).trans (V18_main_arg13 m (oC m) c)⟩) (run_K m ρ)

end Cert.Kernel.Hand

end
-- ==== Proof.RegionKI0.lean ====
import proofs.«150125_j89541478187016_2_alg».proof.Proof.Gen.KernelIdeal.Skeleton
import proofs.«150125_j89541478187016_2_alg».proof.Proof.Gen.KernelIdeal.Launch
import proofs.«150125_j89541478187016_2_alg».proof.Proof.Gen.KernelIdeal.Points
import Idealize.ShloMosaic.Lib.Tactic
import Idealize.ShloMosaic.Lib.Pipeline.Frame
import Idealize.ShloMosaic.Lib.Pipeline.FrameBody
import Idealize.ShloMosaic.Lib.Pipeline.Value

/-!
  Region 0: a block product accumulated over the inner grid axis.

  The grid is 10 x 10; point `t` has row block `t / 10` and inner coordinate `k = t % 10`. The body keeps a running
  accumulator in a scratch buffer: at `k = 0` it is zero-filled, at every `k` the product of the two input blocks is
  added to it, and at `k = 9` it is copied to the output block. This file states what the scratch holds after every
  point (`acc0`), the pipeline's proof data over it (`dat0`), and proves the body obligation.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body in its three control cases -/

/-- The inner coordinate is `0`: the scratch is zero-filled before the block product is added. -/
abbrev isFirst0 (i : grid0.Coords) : Prop :=
  Scalar.cmpi .ne (Scalar.extui (Scalar.cmpi .eq (BitVec.ofNat 32 (i 1).val) 0#32) : BitVec 32) 0#32 = 1#1

/-- The inner coordinate is `9`: the scratch is copied to the output block after the block product is added. -/
abbrev isLast0 (i : grid0.Coords) : Prop := k0_cond2 i = 1#1

/-- The zero offsets of a whole-block access, as a constant function. -/
theorem hz0 : (![0, 0] : Fin 2 → Nat) = fun _ => 0 := funext fun a => by fin_cases a <;> rfl

/-- Writes whose LAST one stores the whole block leave that store's payload, whatever the buffer held and whatever the
    earlier writes were. -/
theorem read_writes_whole0 {κ : Kind} {sp : Space} (v : View sig κ sp S1536x512 .f32) (f : v.ty.Contents (Elt F))
    (inb : ∀ a, (![0, 0] : Fin 2 → Nat) a + S1536x512.size a ≤ S1536x512.size a) (w : Vec F S1536x512 .f32)
    (L : List (View.Piece (Elt F) S1536x512 .f32)) :
    v.read (Elt F) (v.writes (Elt F) f (⟨Rect.unit ![0, 0] S1536x512.size inb, w⟩ :: L)) = w := by
  rw [View.read_writes_eq_canon _ _ _ (fun y => ⟨_, List.mem_cons_self .., View.mem_set_unit_zero hz0 inb y⟩),
    View.canon_cons_unit_zero hz0]

set_option maxHeartbeats 1000000 in
/-- A middle point (inner coordinate neither `0` nor `9`): the body's run, with the pieces the scratch ends with. -/
noncomputable def runMid0 (c : Dev nD) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : ¬ isFirst0 i) (h2 : ¬ isLast0 i)
    (a : Vec F S1536x1536 .bf16) (x : Vec F S1536x512 .bf16) (acc : Vec F S1536x512 .f32) :
    { L5 : List (View.Piece (Elt F) S1536x512 .f32) //
      ∀ (E : Set ℕ) (K : PUnit → sProp 𝕄),
        iprop(owns (c : Thread nD τ) arg2 fullShare a ∗ owns (c : Thread nD τ) arg3 fullShare x ∗ owns (c : Thread nD τ) arg5 fullShare acc
            ∗ (iprop(owns (c : Thread nD τ) arg2 fullShare a ∗ owns (c : Thread nD τ) arg3 fullShare x
                ∗ (∃ f, arg5.view.loc (c : Thread nD τ) ↦[arg5.view.set]{fullShare} arg5.view.writes (Elt F) f L5)) -∗ K ⟨⟩))
          ⊢ wp frame (wpE (defs₀ (F := F)) Variants.none c none) E (cc0__gcn_propagate_kernel i arg2 harg2 arg3 harg3 arg4 harg4 arg5 harg5) K } := by
  refine ⟨?_, fun E K => ?run⟩
  case run =>
    simp only [cc0__gcn_propagate_kernel_eq_skeleton]; unfold cc0__gcn_propagate_kernel_skel
    unfold owns
    iintro ⟨⟨%f2, %hf2, H2⟩, ⟨%f3, %hf3, H3⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    iexists _; iexact H5

set_option maxHeartbeats 1000000 in
/-- The first inner coordinate: the scratch is zero-filled, then the block product is added to it. -/
noncomputable def runFirst0 (c : Dev nD) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : isFirst0 i) (h2 : ¬ isLast0 i)
    (a : Vec F S1536x1536 .bf16) (x : Vec F S1536x512 .bf16) (acc : Vec F S1536x512 .f32) :
    { L5 : List (View.Piece (Elt F) S1536x512 .f32) //
      ∀ (E : Set ℕ) (K : PUnit → sProp 𝕄),
        iprop(owns (c : Thread nD τ) arg2 fullShare a ∗ owns (c : Thread nD τ) arg3 fullShare x ∗ owns (c : Thread nD τ) arg5 fullShare acc
            ∗ (iprop(owns (c : Thread nD τ) arg2 fullShare a ∗ owns (c : Thread nD τ) arg3 fullShare x
                ∗ (∃ f, arg5.view.loc (c : Thread nD τ) ↦[arg5.view.set]{fullShare} arg5.view.writes (Elt F) f L5)) -∗ K ⟨⟩))
          ⊢ wp frame (wpE (defs₀ (F := F)) Variants.none c none) E (cc0__gcn_propagate_kernel i arg2 harg2 arg3 harg3 arg4 harg4 arg5 harg5) K } := by
  refine ⟨?_, fun E K => ?run⟩
  case run =>
    simp only [cc0__gcn_propagate_kernel_eq_skeleton]; unfold cc0__gcn_propagate_kernel_skel
    unfold owns
    iintro ⟨⟨%f2, %hf2, H2⟩, ⟨%f3, %hf3, H3⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    iexists _; iexact H5

set_option maxHeartbeats 1000000 in
/-- The last inner coordinate: the block product is added to the scratch, and the scratch is copied to the output block. -/
noncomputable def runLast0 (c : Dev nD) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : ¬ isFirst0 i) (h2 : isLast0 i)
    (a : Vec F S1536x1536 .bf16) (x : Vec F S1536x512 .bf16) (acc : Vec F S1536x512 .f32) :
    { L : List (View.Piece (Elt F) S1536x512 .f32) × List (View.Piece (Elt F) S1536x512 .f32) //
      ∀ (E : Set ℕ) (K : PUnit → sProp 𝕄),
        iprop(owns (c : Thread nD τ) arg2 fullShare a ∗ owns (c : Thread nD τ) arg3 fullShare x ∗ (∃ d, owns (c : Thread nD τ) arg4 fullShare d)
            ∗ owns (c : Thread nD τ) arg5 fullShare acc
            ∗ (iprop(owns (c : Thread nD τ) arg2 fullShare a ∗ owns (c : Thread nD τ) arg3 fullShare x
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__gcn_propagate_kernel i arg2 harg2 arg3 harg3 arg4 harg4 arg5 harg5) K } := by
  refine ⟨(?_, ?_), fun E K => ?run⟩
  case run =>
    simp only [cc0__gcn_propagate_kernel_eq_skeleton]; unfold cc0__gcn_propagate_kernel_skel
    unfold owns
    iintro ⟨⟨%f2, %hf2, H2⟩, ⟨%f3, %hf3, H3⟩, ⟨%d4, %f4, -, H4⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact H5

/-! ## What each case leaves, as values -/

/-- A middle point leaves the accumulate payload of the scratch's old contents and the two input blocks. -/
theorem scratchMid0 (c : Dev nD) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : ¬ isFirst0 i) (h2 : ¬ isLast0 i)
    (a : Vec F S1536x1536 .bf16) (x : Vec F S1536x512 .bf16) (acc : Vec F S1536x512 .f32) (f : arg5.view.ty.Contents (Elt F)) :
    arg5.view.read (Elt F) (arg5.view.writes (Elt F) f (runMid0 c i arg2 harg2 arg3 harg3 arg4 harg4 arg5 harg5 h1 h2 a x acc).1) = k0_pay2 acc a x := by
  unfold runMid0
  dsimp only
  rw [read_writes_whole0]
  simp only [View.readAt_eq_ld, harg2.read_unread, harg3.read_unread, harg5.read_unread,
    View.ld_unit_zero (S := S1536x512) hz0, View.ld_unit_zero (S := S1536x1536) hz0]

/-- The first point leaves the accumulate payload of the zero block and the two input blocks. -/
theorem scratchFirst0 (c : Dev nD) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : isFirst0 i) (h2 : ¬ isLast0 i)
    (a : Vec F S1536x1536 .bf16) (x : Vec F S1536x512 .bf16) (acc : Vec F S1536x512 .f32) (f : arg5.view.ty.Contents (Elt F)) :
    arg5.view.read (Elt F) (arg5.view.writes (Elt F) f (runFirst0 c i arg2 harg2 arg3 harg3 arg4 harg4 arg5 harg5 h1 h2 a x acc).1) = k0_pay2 k0_pay1 a x := by
  unfold runFirst0
  dsimp only
  rw [read_writes_whole0]
  sl_unfold_words
  rw [View.readCov_unit_zero (S := S1536x512) _ hz0]
  simp only [View.readAt_eq_ld, harg2.read_unread, harg3.read_unread,
    View.ld_unit_zero (S := S1536x512) hz0, View.ld_unit_zero (S := S1536x1536) hz0]

/-- The last point leaves the same accumulate payload in the scratch -/
theorem scratchLast0 (c : Dev nD) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : ¬ isFirst0 i) (h2 : isLast0 i)
    (a : Vec F S1536x1536 .bf16) (x : Vec F S1536x512 .bf16) (acc : Vec F S1536x512 .f32) (f : arg5.view.ty.Contents (Elt F)) :
    arg5.view.read (Elt F) (arg5.view.writes (Elt F) f (runLast0 c i arg2 harg2 arg3 harg3 arg4 harg4 arg5 harg5 h1 h2 a x acc).1.2) = k0_pay2 acc a x := by
  unfold runLast0
  dsimp only
  sl_unfold_words
  rw [read_writes_whole0]
  simp only [View.readAt_eq_ld, harg2.read_unread, harg3.read_unread, harg5.read_unread,
    View.ld_unit_zero (S := S1536x512) hz0, View.ld_unit_zero (S := S1536x1536) hz0]

/-- and copies it to the output block. -/
theorem outLast0 (c : Dev nD) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : ¬ isFirst0 i) (h2 : isLast0 i)
    (a : Vec F S1536x1536 .bf16) (x : Vec F S1536x512 .bf16) (acc : Vec F S1536x512 .f32) (f : arg4.view.ty.Contents (Elt F)) :
    arg4.view.read (Elt F) (arg4.view.writes (Elt F) f (runLast0 c i arg2 harg2 arg3 harg3 arg4 harg4 arg5 harg5 h1 h2 a x acc).1.1) = k0_pay2 acc a x := by
  unfold runLast0
  dsimp only
  rw [read_writes_whole0]
  sl_unfold_words
  rw [View.readCov_unit_zero (S := S1536x512) _ hz0]
  simp only [View.readAt_eq_ld, harg2.read_unread, harg3.read_unread, harg5.read_unread,
    View.ld_unit_zero (S := S1536x512) hz0, View.ld_unit_zero (S := S1536x1536) hz0]

/-! ## The body's triple in each case, at named contents -/

/-- A middle point: the scratch at `acc` ends at the accumulate payload; the inputs' buffers are as they were; the output
    block's buffer is not touched. -/
theorem kernelMid0 (c : Dev nD) (E : Set ℕ) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : ¬ isFirst0 i) (h2 : ¬ isLast0 i)
    (a : Vec F S1536x1536 .bf16) (x : Vec F S1536x512 .bf16) (acc : Vec F S1536x512 .f32) (K : PUnit → sProp 𝕄) :
    iprop(owns (c : Thread nD τ) arg2 fullShare a ∗ owns (c : Thread nD τ) arg3 fullShare x ∗ owns (c : Thread nD τ) arg5 fullShare acc
        ∗ (iprop(owns (c : Thread nD τ) arg2 fullShare a ∗ owns (c : Thread nD τ) arg3 fullShare x
            ∗ owns (c : Thread nD τ) arg5 fullShare (k0_pay2 acc a x)) -∗ K ⟨⟩))
      ⊢ wp frame (wpE (defs₀ (F := F)) Variants.none c none) E (cc0__gcn_propagate_kernel i arg2 harg2 arg3 harg3 arg4 harg4 arg5 harg5) K := by
  iintro ⟨H2, H3, H5, Hk⟩
  iapply ((runMid0 c i arg2 harg2 arg3 harg3 arg4 harg4 arg5 harg5 h1 h2 a x acc).2 E K)
  isplitl [H2]; · iexact H2
  isplitl [H3]; · iexact H3
  isplitl [H5]; · iexact H5
  iintro ⟨H2, H3, ⟨%f, H5⟩⟩
  iapply Hk
  isplitl [H2]; · iexact H2
  isplitl [H3]; · iexact H3
  unfold owns; iexists _; isplitr
  swap; · iexact H5
  ipureintro; exact scratchMid0 c i arg2 harg2 arg3 harg3 arg4 harg4 arg5 harg5 h1 h2 a x acc f

/-- The first point: the scratch, at anything, ends at the accumulate payload of the zero block. -/
theorem kernelFirst0 (c : Dev nD) (E : Set ℕ) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : isFirst0 i) (h2 : ¬ isLast0 i)
    (a : Vec F S1536x1536 .bf16) (x : Vec F S1536x512 .bf16) (K : PUnit → sProp 𝕄) :
    iprop(owns (c : Thread nD τ) arg2 fullShare a ∗ owns (c : Thread nD τ) arg3 fullShare x ∗ (∃ d, owns (c : Thread nD τ) arg5 fullShare d)
        ∗ (iprop(owns (c : Thread nD τ) arg2 fullShare a ∗ owns (c : Thread nD τ) arg3 fullShare x
            ∗ owns (c : Thread nD τ) arg5 fullShare (k0_pay2 k0_pay1 a x)) -∗ K ⟨⟩))
      ⊢ wp frame (wpE (defs₀ (F := F)) Variants.none c none) E (cc0__gcn_propagate_kernel i arg2 harg2 arg3 harg3 arg4 harg4 arg5 harg5) K := by
  iintro ⟨H2, H3, ⟨%acc, H5⟩, Hk⟩
  iapply ((runFirst0 c i arg2 harg2 arg3 harg3 arg4 harg4 arg5 harg5 h1 h2 a x acc).2 E K)
  isplitl [H2]; · iexact H2
  isplitl [H3]; · iexact H3
  isplitl [H5]; · iexact H5
  iintro ⟨H2, H3, ⟨%f, H5⟩⟩
  iapply Hk
  isplitl [H2]; · iexact H2
  isplitl [H3]; · iexact H3
  unfold owns; iexists _; isplitr
  swap; · iexact H5
  ipureintro; exact scratchFirst0 c i arg2 harg2 arg3 harg3 arg4 harg4 arg5 harg5 h1 h2 a x acc f

/-- The last point: the scratch at `acc` ends at the accumulate payload, and so does the output block's buffer, whatever it
    held. -/
theorem kernelLast0 (c : Dev nD) (E : Set ℕ) (i : grid0.Coords)
    (arg2 : Memref sig .tc .vmem S1536x1536 .bf16) (harg2 : arg2.IsWhole) (arg3 : Memref sig .tc .vmem S1536x512 .bf16) (harg3 : arg3.IsWhole)
    (arg4 : Memref sig .tc .vmem S1536x512 .f32) (harg4 : arg4.IsWhole) (arg5 : Memref sig .tc .vmem S1536x512 .f32) (harg5 : arg5.IsWhole)
    (h1 : ¬ isFirst0 i) (h2 : isLast0 i)
    (a : Vec F S1536x1536 .bf16) (x : Vec F S1536x512 .bf16) (acc : Vec F S1536x512 .f32) (K : PUnit → sProp 𝕄) :
    iprop(owns (c : Thread nD τ) arg2 fullShare a ∗ owns (c : Thread nD τ) arg3 fullShare x ∗ (∃ d, owns (c : Thread nD τ) arg4 fullShare d)
        ∗ owns (c : Thread nD τ) arg5 fullShare acc
        ∗ (iprop(owns (c : Thread nD τ) arg2 fullShare a ∗ owns (c : Thread nD τ) arg3 fullShare x
            ∗ owns (c : Thread nD τ) arg4 fullShare (k0_pay2 acc a x)
            ∗ owns (c : Thread nD τ) arg5 fullShare (k0_pay2 acc a x)) -∗ K ⟨⟩))
      ⊢ wp frame (wpE (defs₀ (F := F)) Variants.none c none) E (cc0__gcn_propagate_kernel i arg2 harg2 arg3 harg3 arg4 harg4 arg5 harg5) K := by
  iintro ⟨H2, H3, H4, H5, Hk⟩
  iapply ((runLast0 c i arg2 harg2 arg3 harg3 arg4 harg4 arg5 harg5 h1 h2 a x acc).2 E K)
  isplitl [H2]; · iexact H2
  isplitl [H3]; · iexact H3
  isplitl [H4]; · iexact H4
  isplitl [H5]; · iexact H5
  iintro ⟨H2, H3, ⟨%f4, H4⟩, ⟨%f5, H5⟩⟩
  iapply Hk
  isplitl [H2]; · iexact H2
  isplitl [H3]; · iexact H3
  isplitl [H4]
  · unfold owns; iexists _; isplitr
    swap; · iexact H4
    ipureintro; exact outLast0 c i arg2 harg2 arg3 harg3 arg4 harg4 arg5 harg5 h1 h2 a x acc f4
  unfold owns; iexists _; isplitr
  swap; · iexact H5
  ipureintro; exact scratchLast0 c i arg2 harg2 arg3 harg3 arg4 harg4 arg5 harg5 h1 h2 a x acc f5

/-! ## The conditions and the output window's idle points, in closed form over the grid -/

/-- The scratch is zero-filled at the points ≡ 0 (mod 10). -/
theorem hfirst0 : ∀ t : Fin cfg0.N, isFirst0 (grid0.coords t) ↔ t.val % 10 = 0 :=
  (by decide +kernel : ∀ t : Fin grid0.N, isFirst0 (grid0.coords t) ↔ t.val % 10 = 0)
/-- The scratch is copied out at the points ≡ 9 (mod 10). -/
theorem hlast0 : ∀ t : Fin cfg0.N, isLast0 (grid0.coords t) ↔ t.val % 10 = 9 :=
  (by decide +kernel : ∀ t : Fin grid0.N, isLast0 (grid0.coords t) ↔ t.val % 10 = 9)
/-- The output window is idle exactly where the scratch is not copied out. -/
theorem idleAt0 : ∀ t : Fin cfg0.N, ¬ isLast0 (grid0.coords t) → cfg0.idle 2 (grid0.coords t) = true := by decide +kernel
theorem liveAt0 : ∀ t : Fin cfg0.N, isLast0 (grid0.coords t) → cfg0.idle 2 (grid0.coords t) = false := by decide +kernel

/-! ## The proof data -/

section Data

variable (V : (c : Dev nD) → (b : Ref sig .tc) → Buf (Elt F) ((c : Thread nD τ).loc b))

/-- The scratch accumulator: a whole scoped buffer of the kernel's own. -/
abbrev scM0 : Memref sig .tc .vmem S1536x512 .f32 := Memref.whole cc0_scratch0

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- THE RUNNING ACCUMULATOR: what the scratch holds after the body at position `n`. At a position ≡ 0 (mod 10) the zero
    block plus the block product; elsewhere what the position before left plus the block product. -/
def acc0 (c : Dev nD) : (n : ℕ) → n < cfg0.N → Vec F S1536x512 .f32
  | 0, h => k0_pay2 k0_pay1 (iblk0 V c 0 ⟨0, h⟩) (iblk0 V c 1 ⟨0, h⟩)
  | n + 1, h =>
    if (n + 1) % 10 = 0 then k0_pay2 k0_pay1 (iblk0 V c 0 ⟨n + 1, h⟩) (iblk0 V c 1 ⟨n + 1, h⟩)
    else k0_pay2 (acc0 c n (Nat.lt_of_succ_lt h)) (iblk0 V c 0 ⟨n + 1, h⟩) (iblk0 V c 1 ⟨n + 1, h⟩)

theorem acc0_first (c : Dev nD) (t : Fin cfg0.N) (h : t.val % 10 = 0) :
    acc0 V c t.val t.isLt = k0_pay2 k0_pay1 (iblk0 V c 0 t) (iblk0 V c 1 t) := by
  obtain ⟨n, hn⟩ := t
  cases n with
  | zero => rfl
  | succ n => exact (if_pos h).trans rfl

theorem acc0_step (c : Dev nD) (t : Fin cfg0.N) (h : ¬ t.val % 10 = 0) :
    acc0 V c t.val t.isLt
      = k0_pay2 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h
  | succ n => exact (if_neg h).trans rfl

/-- The scoped buffers no window of this region stages, split at the scratch accumulator: the scratch at some contents,
    and every other one unopened. -/
theorem scopedRest_split0 (c : Dev nD) :
    (Pipeline.scopedRest (Ix := Unit) (Name := ℕ) (U := UR sig nD τ) (Lvl := ℕ) (Val := Elt F) spec0 c : sProp 𝕄)
      = iprop((∃ d, owns (c : Thread nD τ) scM0 fullShare d)
          ∗ Pipeline.scopedRestBut (Ix := Unit) (Name := ℕ) (U := UR sig nD τ) (Lvl := ℕ) (Val := Elt F) spec0 c [cc0_scratch0]) := by
  rw [Pipeline.scopedRest_split_of_list spec0 c [cc0_scratch0] (by decide) (by decide)]
  simp only [scM0, owns_whole]; rfl

/-- The region invariant before position `n`: the scratch at what the position before left in it (before the first
    position: at anything), and every other scoped buffer no window stages, unopened. -/
def Phi0 (c : Dev nD) : (n : ℕ) → n ≤ cfg0.N → sProp 𝕄
  | 0, _ => iprop((∃ d, owns (c : Thread nD τ) scM0 fullShare d)
      ∗ Pipeline.scopedRestBut (Ix := Unit) (Name := ℕ) (U := UR sig nD τ) (Lvl := ℕ) (Val := Elt F) spec0 c [cc0_scratch0])
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0])

theorem Phi0_succ (c : Dev nD) (n : ℕ) (hn : n < cfg0.N) :
    Phi0 V c (n + 1) hn = iprop(owns (c : Thread nD τ) scM0 fullShare (acc0 V c n hn)
      ∗ Pipeline.scopedRestBut (Ix := Unit) (Name := ℕ) (U := UR sig nD τ) (Lvl := ℕ) (Val := Elt F) spec0 c [cc0_scratch0]) := rfl

theorem Phi0_pos (c : Dev nD) (n : ℕ) (h : n ≤ cfg0.N) (hz : n ≠ 0) :
    Phi0 V c n h = iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) := by
  cases n with
  | zero => exact absurd rfl hz
  | succ n => rfl

/-- At any position the invariant holds the scratch at SOME contents. -/
theorem Phi0_any (c : Dev nD) (n : ℕ) (h : n ≤ cfg0.N) :
    Phi0 V c n h ⊢ iprop((∃ d, owns (c : Thread nD τ) scM0 fullShare d)
      ∗ Pipeline.scopedRestBut (Ix := Unit) (Name := ℕ) (U := UR sig nD τ) (Lvl := ℕ) (Val := Elt F) spec0 c [cc0_scratch0]) := by
  cases n with
  | zero => exact .rfl
  | succ n =>
    rw [Phi0_succ]
    iintro ⟨HS, HR⟩
    isplitl [HS]; · iexists _; iexact HS
    iexact HR

/-- The proof data of this region on core `c`, at the entry contents `V`: the arrays as the region finds them; after
    the body each input's buffer at its block and the output's at the running accumulator (consulted at the points
    ≡ 9 (mod 10) only: elsewhere the window is idle); the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

/-- Each input is fetched at every point, so its current staging buffer holds its block there. -/
theorem before0_0 (c : Dev nD) (t : Fin cfg0.N) (d) : (dat0 V c).before 0 t d = iblk0 V c 0 t := by
  rw [Dat.before_fetched _ 0 t (fetch0_0 t)]
  unfold Dat.fetched Dat.blockOf iblk0; rw [A_eq0]; rfl
theorem before0_1 (c : Dev nD) (t : Fin cfg0.N) (d) : (dat0 V c).before 1 t d = iblk0 V c 1 t := by
  rw [Dat.before_fetched _ 1 t (fetch0_1 t)]
  unfold Dat.fetched Dat.blockOf iblk0; rw [A_eq0]; rfl

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The output window's block is not written back at a point where the scratch is not copied out. -/
theorem noFlush0 (t : Fin cfg0.N) (h : ¬ t.val % 10 = 9) : (cfg0.win 2).flush t = false :=
  Bool.eq_false_iff.mpr fun hf => h ((flush0_2 t).mp hf)

set_option maxHeartbeats 1600000 in
/-- The body at any point. The inputs' buffers hold their blocks. By the inner coordinate: at `0` the scratch (at anything)
    is zero-filled and ends at the zero block plus the product; at `1 … 8` it goes from what the point before left to that
    plus the product; at `9` the same, and the output block's buffer ends at the scratch's contents. Where the scratch is not
    copied out the output window is idle and its buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from rfl, after0_0]
  rw [show (dat0 V c).leavesExact 1 t = owns (c : Thread nD τ) (st0_1 t) fullShare ((dat0 V c).after 1 t) from rfl, after0_1]
  rw [Phi0_castSucc]
  have hN : t.val < 100 := lt_of_lt_of_eq t.isLt (show cfg0.N = 100 from N_0)
  by_cases h9 : t.val % 10 = 9
  · have hl : isLast0 (grid0.coords t) := (hlast0 t).mpr h9
    have hf : ¬ isFirst0 (grid0.coords t) := fun h => by have := (hfirst0 t).mp h; omega
    have hz : t.val ≠ 0 := by omega
    rw [show (dat0 V c).leavesExact 2 t = owns (c : Thread nD τ) (st0_2 t) fullShare ((dat0 V c).after 2 t) from by
      unfold Dat.leavesExact; rw [liveAt0 t hl], after0_2]
    rw [acc0_step V c t (by omega), Phi0_pos V c _ _ hz]
    iintro ⟨⟨HS, HR⟩, Ho, ⟨%d0, H0⟩, ⟨%d1, H1⟩, ⟨%d2, H2⟩⟩
    iapply (kernelLast0 c Set.univ (grid0.coords t) _ _ _ _ _ _ _ _ hf hl (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    iexact H2
  · have hl : ¬ isLast0 (grid0.coords t) := fun h => h9 ((hlast0 t).mp h)
    rw [Dat.leavesExact_idle (dat0 V c) 2 t (idleAt0 t hl) (noFlush0 t h9)]
    by_cases h0 : t.val % 10 = 0
    · have hf : isFirst0 (grid0.coords t) := (hfirst0 t).mpr h0
      rw [acc0_first V c t h0]
      iintro ⟨HΦ, Ho, ⟨%d0, H0⟩, ⟨%d1, H1⟩, ⟨%d2, H2⟩⟩
      ihave HΦ' := (Phi0_any V c _ _) $$ HΦ
      icases HΦ' with ⟨HS, HR⟩
      iapply (kernelFirst0 c Set.univ (grid0.coords t) _ _ _ _ (st0_2 t) (hstage0_2 ((cfg0.slots t 2).cast nbuf0_2)) _ _ hf hl (iblk0 V c 0 t) (iblk0 V c 1 t) _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexists _; iexact H2
    · have hf : ¬ isFirst0 (grid0.coords t) := fun h => h0 ((hfirst0 t).mp h)
      have hz : t.val ≠ 0 := by omega
      rw [acc0_step V c t h0, Phi0_pos V c _ _ hz]
      iintro ⟨⟨HS, HR⟩, Ho, ⟨%d0, H0⟩, ⟨%d1, H1⟩, ⟨%d2, H2⟩⟩
      iapply (kernelMid0 c Set.univ (grid0.coords t) _ _ _ _ (st0_2 t) (hstage0_2 ((cfg0.slots t 2).cast nbuf0_2)) _ _ hf hl (iblk0 V c 0 t) (iblk0 V c 1 t) _ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The scoped buffers no window stages yield the invariant before the first point: the scratch at anything. -/
theorem Φ0_first (c : Dev nD) :
    (Pipeline.scopedRest (Ix := Unit) (Name := ℕ) (U := UR sig nD τ) (Lvl := ℕ) (Val := Elt F) spec0 c : sProp 𝕄) ⊢ (dat0 V c).Φ 0 := by
  rw [show (dat0 V c).Φ 0 = Phi0 V c 0 (Nat.zero_le _) from rfl, scopedRest_split0]
  exact .rfl

/-- After the last point the invariant gives them back: the scratch's named contents are forgotten. -/
theorem Φ0_last (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = Phi0 V c (Fin.last cfg0.N).val (Nat.le_of_lt_succ (Fin.last cfg0.N).isLt) from rfl, scopedRest_split0]
  exact Phi0_any V c _ _

end Data

end Cert.KernelIdeal.Hand

end
-- ==== Proof.RegionKI1.lean ====
import proofs.«150125_j89541478187016_2_alg».proof.Proof.Gen.KernelIdeal.Skeleton
import proofs.«150125_j89541478187016_2_alg».proof.Proof.Gen.KernelIdeal.Launch
import proofs.«150125_j89541478187016_2_alg».proof.Proof.Gen.KernelIdeal.Points
import Idealize.ShloMosaic.Lib.Tactic
import Idealize.ShloMosaic.Lib.Pipeline.Frame
import Idealize.ShloMosaic.Lib.Pipeline.FrameBody
import Idealize.ShloMosaic.Lib.Pipeline.Value

/-!
  Region 1: a block product accumulated over the inner grid axis.

  The grid is 10 x 10; point `t` has row block `t / 10` and inner coordinate `k = t % 10`. The body keeps a running
  accumulator in a scratch buffer: at `k = 0` it is zero-filled, at every `k` the product of the two input blocks is
  added to it, and at `k = 9` it is copied to the output block. This file states what the scratch holds after every
  point (`acc1`), the pipeline's proof data over it (`dat1`), and proves the body obligation.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body in its three control cases -/

/-- The inner coordinate is `0`: the scratch is zero-filled before the block product is added. -/
abbrev isFirst1 (i : grid1.Coords) : Prop :=
  Scalar.cmpi .ne (Scalar.extui (Scalar.cmpi .eq (BitVec.ofNat 32 (i 1).val) 0#32) : BitVec 32) 0#32 = 1#1

/-- The inner coordinate is `9`: the scratch is copied to the output block after the block product is added. -/
abbrev isLast1 (i : grid1.Coords) : Prop := k1_cond2 i = 1#1

/-- The zero offsets of a whole-block access, as a constant function. -/
theorem hz1 : (![0, 0] : Fin 2 → Nat) = fun _ => 0 := funext fun a => by fin_cases a <;> rfl

/-- Writes whose LAST one stores the whole block leave that store's payload, whatever the buffer held and whatever the
    earlier writes were. -/
theorem read_writes_whole1 {κ : Kind} {sp : Space} (v : View sig κ sp S1536x1024 .f32) (f : v.ty.Contents (Elt F))
    (inb : ∀ a, (![0, 0] : Fin 2 → Nat) a + S1536x1024.size a ≤ S1536x1024.size a) (w : Vec F S1536x1024 .f32)
    (L : List (View.Piece (Elt F) S1536x1024 .f32)) :
    v.read (Elt F) (v.writes (Elt F) f (⟨Rect.unit ![0, 0] S1536x1024.size inb, w⟩ :: L)) = w := by
  rw [View.read_writes_eq_canon _ _ _ (fun y => ⟨_, List.mem_cons_self .., View.mem_set_unit_zero hz1 inb y⟩),
    View.canon_cons_unit_zero hz1]

set_option maxHeartbeats 1000000 in
/-- A middle point (inner coordinate neither `0` nor `9`): the body's run, with the pieces the scratch ends with. -/
noncomputable def runMid1 (c : Dev nD) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst1 i) (h2 : ¬ isLast1 i)
    (a : Vec F S1536x1536 .bf16) (x : Vec F S1536x1024 .bf16) (acc : Vec F S1536x1024 .f32) :
    { L5 : List (View.Piece (Elt F) S1536x1024 .f32) //
      ∀ (E : Set ℕ) (K : PUnit → sProp 𝕄),
        iprop(owns (c : Thread nD τ) arg2 fullShare a ∗ owns (c : Thread nD τ) arg3 fullShare x ∗ owns (c : Thread nD τ) arg5 fullShare acc
            ∗ (iprop(owns (c : Thread nD τ) arg2 fullShare a ∗ owns (c : Thread nD τ) arg3 fullShare x
                ∗ (∃ f, arg5.view.loc (c : Thread nD τ) ↦[arg5.view.set]{fullShare} arg5.view.writes (Elt F) f L5)) -∗ K ⟨⟩))
          ⊢ wp frame (wpE (defs₀ (F := F)) Variants.none c none) E (cc1__gcn_propagate_kernel i arg2 harg2 arg3 harg3 arg4 harg4 arg5 harg5) K } := by
  refine ⟨?_, fun E K => ?run⟩
  case run =>
    simp only [cc1__gcn_propagate_kernel_eq_skeleton]; unfold cc1__gcn_propagate_kernel_skel
    unfold owns
    iintro ⟨⟨%f2, %hf2, H2⟩, ⟨%f3, %hf3, H3⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    iexists _; iexact H5

set_option maxHeartbeats 1000000 in
/-- The first inner coordinate: the scratch is zero-filled, then the block product is added to it. -/
noncomputable def runFirst1 (c : Dev nD) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : isFirst1 i) (h2 : ¬ isLast1 i)
    (a : Vec F S1536x1536 .bf16) (x : Vec F S1536x1024 .bf16) (acc : Vec F S1536x1024 .f32) :
    { L5 : List (View.Piece (Elt F) S1536x1024 .f32) //
      ∀ (E : Set ℕ) (K : PUnit → sProp 𝕄),
        iprop(owns (c : Thread nD τ) arg2 fullShare a ∗ owns (c : Thread nD τ) arg3 fullShare x ∗ owns (c : Thread nD τ) arg5 fullShare acc
            ∗ (iprop(owns (c : Thread nD τ) arg2 fullShare a ∗ owns (c : Thread nD τ) arg3 fullShare x
                ∗ (∃ f, arg5.view.loc (c : Thread nD τ) ↦[arg5.view.set]{fullShare} arg5.view.writes (Elt F) f L5)) -∗ K ⟨⟩))
          ⊢ wp frame (wpE (defs₀ (F := F)) Variants.none c none) E (cc1__gcn_propagate_kernel i arg2 harg2 arg3 harg3 arg4 harg4 arg5 harg5) K } := by
  refine ⟨?_, fun E K => ?run⟩
  case run =>
    simp only [cc1__gcn_propagate_kernel_eq_skeleton]; unfold cc1__gcn_propagate_kernel_skel
    unfold owns
    iintro ⟨⟨%f2, %hf2, H2⟩, ⟨%f3, %hf3, H3⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    iexists _; iexact H5

set_option maxHeartbeats 1000000 in
/-- The last inner coordinate: the block product is added to the scratch, and the scratch is copied to the output block. -/
noncomputable def runLast1 (c : Dev nD) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst1 i) (h2 : isLast1 i)
    (a : Vec F S1536x1536 .bf16) (x : Vec F S1536x1024 .bf16) (acc : Vec F S1536x1024 .f32) :
    { L : List (View.Piece (Elt F) S1536x1024 .f32) × List (View.Piece (Elt F) S1536x1024 .f32) //
      ∀ (E : Set ℕ) (K : PUnit → sProp 𝕄),
        iprop(owns (c : Thread nD τ) arg2 fullShare a ∗ owns (c : Thread nD τ) arg3 fullShare x ∗ (∃ d, owns (c : Thread nD τ) arg4 fullShare d)
            ∗ owns (c : Thread nD τ) arg5 fullShare acc
            ∗ (iprop(owns (c : Thread nD τ) arg2 fullShare a ∗ owns (c : Thread nD τ) arg3 fullShare x
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc1__gcn_propagate_kernel i arg2 harg2 arg3 harg3 arg4 harg4 arg5 harg5) K } := by
  refine ⟨(?_, ?_), fun E K => ?run⟩
  case run =>
    simp only [cc1__gcn_propagate_kernel_eq_skeleton]; unfold cc1__gcn_propagate_kernel_skel
    unfold owns
    iintro ⟨⟨%f2, %hf2, H2⟩, ⟨%f3, %hf3, H3⟩, ⟨%d4, %f4, -, H4⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact H5

/-! ## What each case leaves, as values -/

/-- A middle point leaves the accumulate payload of the scratch's old contents and the two input blocks. -/
theorem scratchMid1 (c : Dev nD) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst1 i) (h2 : ¬ isLast1 i)
    (a : Vec F S1536x1536 .bf16) (x : Vec F S1536x1024 .bf16) (acc : Vec F S1536x1024 .f32) (f : arg5.view.ty.Contents (Elt F)) :
    arg5.view.read (Elt F) (arg5.view.writes (Elt F) f (runMid1 c i arg2 harg2 arg3 harg3 arg4 harg4 arg5 harg5 h1 h2 a x acc).1) = k1_pay2 acc a x := by
  unfold runMid1
  dsimp only
  rw [read_writes_whole1]
  simp only [View.readAt_eq_ld, harg2.read_unread, harg3.read_unread, harg5.read_unread,
    View.ld_unit_zero (S := S1536x1024) hz1, View.ld_unit_zero (S := S1536x1536) hz1]

/-- The first point leaves the accumulate payload of the zero block and the two input blocks. -/
theorem scratchFirst1 (c : Dev nD) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : isFirst1 i) (h2 : ¬ isLast1 i)
    (a : Vec F S1536x1536 .bf16) (x : Vec F S1536x1024 .bf16) (acc : Vec F S1536x1024 .f32) (f : arg5.view.ty.Contents (Elt F)) :
    arg5.view.read (Elt F) (arg5.view.writes (Elt F) f (runFirst1 c i arg2 harg2 arg3 harg3 arg4 harg4 arg5 harg5 h1 h2 a x acc).1) = k1_pay2 k1_pay1 a x := by
  unfold runFirst1
  dsimp only
  rw [read_writes_whole1]
  sl_unfold_words
  rw [View.readCov_unit_zero (S := S1536x1024) _ hz1]
  simp only [View.readAt_eq_ld, harg2.read_unread, harg3.read_unread,
    View.ld_unit_zero (S := S1536x1024) hz1, View.ld_unit_zero (S := S1536x1536) hz1]

/-- The last point leaves the same accumulate payload in the scratch -/
theorem scratchLast1 (c : Dev nD) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst1 i) (h2 : isLast1 i)
    (a : Vec F S1536x1536 .bf16) (x : Vec F S1536x1024 .bf16) (acc : Vec F S1536x1024 .f32) (f : arg5.view.ty.Contents (Elt F)) :
    arg5.view.read (Elt F) (arg5.view.writes (Elt F) f (runLast1 c i arg2 harg2 arg3 harg3 arg4 harg4 arg5 harg5 h1 h2 a x acc).1.2) = k1_pay2 acc a x := by
  unfold runLast1
  dsimp only
  sl_unfold_words
  rw [read_writes_whole1]
  simp only [View.readAt_eq_ld, harg2.read_unread, harg3.read_unread, harg5.read_unread,
    View.ld_unit_zero (S := S1536x1024) hz1, View.ld_unit_zero (S := S1536x1536) hz1]

/-- and copies it to the output block. -/
theorem outLast1 (c : Dev nD) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst1 i) (h2 : isLast1 i)
    (a : Vec F S1536x1536 .bf16) (x : Vec F S1536x1024 .bf16) (acc : Vec F S1536x1024 .f32) (f : arg4.view.ty.Contents (Elt F)) :
    arg4.view.read (Elt F) (arg4.view.writes (Elt F) f (runLast1 c i arg2 harg2 arg3 harg3 arg4 harg4 arg5 harg5 h1 h2 a x acc).1.1) = k1_pay2 acc a x := by
  unfold runLast1
  dsimp only
  rw [read_writes_whole1]
  sl_unfold_words
  rw [View.readCov_unit_zero (S := S1536x1024) _ hz1]
  simp only [View.readAt_eq_ld, harg2.read_unread, harg3.read_unread, harg5.read_unread,
    View.ld_unit_zero (S := S1536x1024) hz1, View.ld_unit_zero (S := S1536x1536) hz1]

/-! ## The body's triple in each case, at named contents -/

/-- A middle point: the scratch at `acc` ends at the accumulate payload; the inputs' buffers are as they were; the output
    block's buffer is not touched. -/
theorem kernelMid1 (c : Dev nD) (E : Set ℕ) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst1 i) (h2 : ¬ isLast1 i)
    (a : Vec F S1536x1536 .bf16) (x : Vec F S1536x1024 .bf16) (acc : Vec F S1536x1024 .f32) (K : PUnit → sProp 𝕄) :
    iprop(owns (c : Thread nD τ) arg2 fullShare a ∗ owns (c : Thread nD τ) arg3 fullShare x ∗ owns (c : Thread nD τ) arg5 fullShare acc
        ∗ (iprop(owns (c : Thread nD τ) arg2 fullShare a ∗ owns (c : Thread nD τ) arg3 fullShare x
            ∗ owns (c : Thread nD τ) arg5 fullShare (k1_pay2 acc a x)) -∗ K ⟨⟩))
      ⊢ wp frame (wpE (defs₀ (F := F)) Variants.none c none) E (cc1__gcn_propagate_kernel i arg2 harg2 arg3 harg3 arg4 harg4 arg5 harg5) K := by
  iintro ⟨H2, H3, H5, Hk⟩
  iapply ((runMid1 c i arg2 harg2 arg3 harg3 arg4 harg4 arg5 harg5 h1 h2 a x acc).2 E K)
  isplitl [H2]; · iexact H2
  isplitl [H3]; · iexact H3
  isplitl [H5]; · iexact H5
  iintro ⟨H2, H3, ⟨%f, H5⟩⟩
  iapply Hk
  isplitl [H2]; · iexact H2
  isplitl [H3]; · iexact H3
  unfold owns; iexists _; isplitr
  swap; · iexact H5
  ipureintro; exact scratchMid1 c i arg2 harg2 arg3 harg3 arg4 harg4 arg5 harg5 h1 h2 a x acc f

/-- The first point: the scratch, at anything, ends at the accumulate payload of the zero block. -/
theorem kernelFirst1 (c : Dev nD) (E : Set ℕ) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : isFirst1 i) (h2 : ¬ isLast1 i)
    (a : Vec F S1536x1536 .bf16) (x : Vec F S1536x1024 .bf16) (K : PUnit → sProp 𝕄) :
    iprop(owns (c : Thread nD τ) arg2 fullShare a ∗ owns (c : Thread nD τ) arg3 fullShare x ∗ (∃ d, owns (c : Thread nD τ) arg5 fullShare d)
        ∗ (iprop(owns (c : Thread nD τ) arg2 fullShare a ∗ owns (c : Thread nD τ) arg3 fullShare x
            ∗ owns (c : Thread nD τ) arg5 fullShare (k1_pay2 k1_pay1 a x)) -∗ K ⟨⟩))
      ⊢ wp frame (wpE (defs₀ (F := F)) Variants.none c none) E (cc1__gcn_propagate_kernel i arg2 harg2 arg3 harg3 arg4 harg4 arg5 harg5) K := by
  iintro ⟨H2, H3, ⟨%acc, H5⟩, Hk⟩
  iapply ((runFirst1 c i arg2 harg2 arg3 harg3 arg4 harg4 arg5 harg5 h1 h2 a x acc).2 E K)
  isplitl [H2]; · iexact H2
  isplitl [H3]; · iexact H3
  isplitl [H5]; · iexact H5
  iintro ⟨H2, H3, ⟨%f, H5⟩⟩
  iapply Hk
  isplitl [H2]; · iexact H2
  isplitl [H3]; · iexact H3
  unfold owns; iexists _; isplitr
  swap; · iexact H5
  ipureintro; exact scratchFirst1 c i arg2 harg2 arg3 harg3 arg4 harg4 arg5 harg5 h1 h2 a x acc f

/-- The last point: the scratch at `acc` ends at the accumulate payload, and so does the output block's buffer, whatever it
    held. -/
theorem kernelLast1 (c : Dev nD) (E : Set ℕ) (i : grid1.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst1 i) (h2 : isLast1 i)
    (a : Vec F S1536x1536 .bf16) (x : Vec F S1536x1024 .bf16) (acc : Vec F S1536x1024 .f32) (K : PUnit → sProp 𝕄) :
    iprop(owns (c : Thread nD τ) arg2 fullShare a ∗ owns (c : Thread nD τ) arg3 fullShare x ∗ (∃ d, owns (c : Thread nD τ) arg4 fullShare d)
        ∗ owns (c : Thread nD τ) arg5 fullShare acc
        ∗ (iprop(owns (c : Thread nD τ) arg2 fullShare a ∗ owns (c : Thread nD τ) arg3 fullShare x
            ∗ owns (c : Thread nD τ) arg4 fullShare (k1_pay2 acc a x)
            ∗ owns (c : Thread nD τ) arg5 fullShare (k1_pay2 acc a x)) -∗ K ⟨⟩))
      ⊢ wp frame (wpE (defs₀ (F := F)) Variants.none c none) E (cc1__gcn_propagate_kernel i arg2 harg2 arg3 harg3 arg4 harg4 arg5 harg5) K := by
  iintro ⟨H2, H3, H4, H5, Hk⟩
  iapply ((runLast1 c i arg2 harg2 arg3 harg3 arg4 harg4 arg5 harg5 h1 h2 a x acc).2 E K)
  isplitl [H2]; · iexact H2
  isplitl [H3]; · iexact H3
  isplitl [H4]; · iexact H4
  isplitl [H5]; · iexact H5
  iintro ⟨H2, H3, ⟨%f4, H4⟩, ⟨%f5, H5⟩⟩
  iapply Hk
  isplitl [H2]; · iexact H2
  isplitl [H3]; · iexact H3
  isplitl [H4]
  · unfold owns; iexists _; isplitr
    swap; · iexact H4
    ipureintro; exact outLast1 c i arg2 harg2 arg3 harg3 arg4 harg4 arg5 harg5 h1 h2 a x acc f4
  unfold owns; iexists _; isplitr
  swap; · iexact H5
  ipureintro; exact scratchLast1 c i arg2 harg2 arg3 harg3 arg4 harg4 arg5 harg5 h1 h2 a x acc f5

/-! ## The conditions and the output window's idle points, in closed form over the grid -/

/-- The scratch is zero-filled at the points ≡ 0 (mod 10). -/
theorem hfirst1 : ∀ t : Fin cfg1.N, isFirst1 (grid1.coords t) ↔ t.val % 10 = 0 :=
  (by decide +kernel : ∀ t : Fin grid1.N, isFirst1 (grid1.coords t) ↔ t.val % 10 = 0)
/-- The scratch is copied out at the points ≡ 9 (mod 10). -/
theorem hlast1 : ∀ t : Fin cfg1.N, isLast1 (grid1.coords t) ↔ t.val % 10 = 9 :=
  (by decide +kernel : ∀ t : Fin grid1.N, isLast1 (grid1.coords t) ↔ t.val % 10 = 9)
/-- The output window is idle exactly where the scratch is not copied out. -/
theorem idleAt1 : ∀ t : Fin cfg1.N, ¬ isLast1 (grid1.coords t) → cfg1.idle 2 (grid1.coords t) = true := by decide +kernel
theorem liveAt1 : ∀ t : Fin cfg1.N, isLast1 (grid1.coords t) → cfg1.idle 2 (grid1.coords t) = false := by decide +kernel

/-! ## The proof data -/

section Data

variable (V : (c : Dev nD) → (b : Ref sig .tc) → Buf (Elt F) ((c : Thread nD τ).loc b))

/-- The scratch accumulator: a whole scoped buffer of the kernel's own. -/
abbrev scM1 : Memref sig .tc .vmem S1536x1024 .f32 := Memref.whole cc1_scratch0

/-- Window `w`'s block at point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE RUNNING ACCUMULATOR: what the scratch holds after the body at position `n`. At a position ≡ 0 (mod 10) the zero
    block plus the block product; elsewhere what the position before left plus the block product. -/
def acc1 (c : Dev nD) : (n : ℕ) → n < cfg1.N → Vec F S1536x1024 .f32
  | 0, h => k1_pay2 k1_pay1 (iblk1 V c 0 ⟨0, h⟩) (iblk1 V c 1 ⟨0, h⟩)
  | n + 1, h =>
    if (n + 1) % 10 = 0 then k1_pay2 k1_pay1 (iblk1 V c 0 ⟨n + 1, h⟩) (iblk1 V c 1 ⟨n + 1, h⟩)
    else k1_pay2 (acc1 c n (Nat.lt_of_succ_lt h)) (iblk1 V c 0 ⟨n + 1, h⟩) (iblk1 V c 1 ⟨n + 1, h⟩)

theorem acc1_first (c : Dev nD) (t : Fin cfg1.N) (h : t.val % 10 = 0) :
    acc1 V c t.val t.isLt = k1_pay2 k1_pay1 (iblk1 V c 0 t) (iblk1 V c 1 t) := by
  obtain ⟨n, hn⟩ := t
  cases n with
  | zero => rfl
  | succ n => exact (if_pos h).trans rfl

theorem acc1_step (c : Dev nD) (t : Fin cfg1.N) (h : ¬ t.val % 10 = 0) :
    acc1 V c t.val t.isLt
      = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact (if_neg h).trans rfl

/-- The scoped buffers no window of this region stages, split at the scratch accumulator: the scratch at some contents,
    and every other one unopened. -/
theorem scopedRest_split1 (c : Dev nD) :
    (Pipeline.scopedRest (Ix := Unit) (Name := ℕ) (U := UR sig nD τ) (Lvl := ℕ) (Val := Elt F) spec1 c : sProp 𝕄)
      = iprop((∃ d, owns (c : Thread nD τ) scM1 fullShare d)
          ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide)]
  simp only [scM1, owns_whole]; rfl

/-- The region invariant before position `n`: the scratch at what the position before left in it (before the first
    position: at anything), and every other scoped buffer no window stages, unopened. -/
def Phi1 (c : Dev nD) : (n : ℕ) → n ≤ cfg1.N → sProp 𝕄
  | 0, _ => iprop((∃ d, owns (c : Thread nD τ) scM1 fullShare d)
      ∗ Pipeline.scopedRestBut (Ix := Unit) (Name := ℕ) (U := UR sig nD τ) (Lvl := ℕ) (Val := Elt F) spec1 c [cc1_scratch0])
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0])

theorem Phi1_succ (c : Dev nD) (n : ℕ) (hn : n < cfg1.N) :
    Phi1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]) := rfl

theorem Phi1_pos (c : Dev nD) (n : ℕ) (h : n ≤ cfg1.N) (hz : n ≠ 0) :
    Phi1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) := by
  cases n with
  | zero => exact absurd rfl hz
  | succ n => rfl

/-- At any position the invariant holds the scratch at SOME contents. -/
theorem Phi1_any (c : Dev nD) (n : ℕ) (h : n ≤ cfg1.N) :
    Phi1 V c n h ⊢ iprop((∃ d, owns (c : Thread nD τ) scM1 fullShare d)
      ∗ Pipeline.scopedRestBut (Ix := Unit) (Name := ℕ) (U := UR sig nD τ) (Lvl := ℕ) (Val := Elt F) spec1 c [cc1_scratch0]) := by
  cases n with
  | zero => exact .rfl
  | succ n =>
    rw [Phi1_succ]
    iintro ⟨HS, HR⟩
    isplitl [HS]; · iexists _; iexact HS
    iexact HR

/-- The proof data of this region on core `c`, at the entry contents `V`: the arrays as the region finds them; after
    the body each input's buffer at its block and the output's at the running accumulator (consulted at the points
    ≡ 9 (mod 10) only: elsewhere the window is idle); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

/-- Each input is fetched at every point, so its current staging buffer holds its block there. -/
theorem before1_0 (c : Dev nD) (t : Fin cfg1.N) (d) : (dat1 V c).before 0 t d = iblk1 V c 0 t := by
  rw [Dat.before_fetched _ 0 t (fetch1_0 t)]
  unfold Dat.fetched Dat.blockOf iblk1; rw [A_eq1]; rfl
theorem before1_1 (c : Dev nD) (t : Fin cfg1.N) (d) : (dat1 V c).before 1 t d = iblk1 V c 1 t := by
  rw [Dat.before_fetched _ 1 t (fetch1_1 t)]
  unfold Dat.fetched Dat.blockOf iblk1; rw [A_eq1]; rfl

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The output window's block is not written back at a point where the scratch is not copied out. -/
theorem noFlush1 (t : Fin cfg1.N) (h : ¬ t.val % 10 = 9) : (cfg1.win 2).flush t = false :=
  Bool.eq_false_iff.mpr fun hf => h ((flush1_2 t).mp hf)

set_option maxHeartbeats 1600000 in
/-- The body at any point. The inputs' buffers hold their blocks. By the inner coordinate: at `0` the scratch (at anything)
    is zero-filled and ends at the zero block plus the product; at `1 … 8` it goes from what the point before left to that
    plus the product; at `9` the same, and the output block's buffer ends at the scratch's contents. Where the scratch is not
    copied out the output window is idle and its buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [Phi1_castSucc]
  have hN : t.val < 100 := lt_of_lt_of_eq t.isLt (show cfg1.N = 100 from N_1)
  by_cases h9 : t.val % 10 = 9
  · have hl : isLast1 (grid1.coords t) := (hlast1 t).mpr h9
    have hf : ¬ isFirst1 (grid1.coords t) := fun h => by have := (hfirst1 t).mp h; omega
    have hz : t.val ≠ 0 := by omega
    rw [show (dat1 V c).leavesExact 2 t = owns (c : Thread nD τ) (st1_2 t) fullShare ((dat1 V c).after 2 t) from by
      unfold Dat.leavesExact; rw [liveAt1 t hl], after1_2]
    rw [acc1_step V c t (by omega), Phi1_pos V c _ _ hz]
    iintro ⟨⟨HS, HR⟩, Ho, ⟨%d0, H0⟩, ⟨%d1, H1⟩, ⟨%d2, H2⟩⟩
    iapply (kernelLast1 c Set.univ (grid1.coords t) _ _ _ _ _ _ _ _ hf hl (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    iexact H2
  · have hl : ¬ isLast1 (grid1.coords t) := fun h => h9 ((hlast1 t).mp h)
    rw [Dat.leavesExact_idle (dat1 V c) 2 t (idleAt1 t hl) (noFlush1 t h9)]
    by_cases h0 : t.val % 10 = 0
    · have hf : isFirst1 (grid1.coords t) := (hfirst1 t).mpr h0
      rw [acc1_first V c t h0]
      iintro ⟨HΦ, Ho, ⟨%d0, H0⟩, ⟨%d1, H1⟩, ⟨%d2, H2⟩⟩
      ihave HΦ' := (Phi1_any V c _ _) $$ HΦ
      icases HΦ' with ⟨HS, HR⟩
      iapply (kernelFirst1 c Set.univ (grid1.coords t) _ _ _ _ (st1_2 t) (hstage1_2 ((cfg1.slots t 2).cast nbuf1_2)) _ _ hf hl (iblk1 V c 0 t) (iblk1 V c 1 t) _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexists _; iexact H2
    · have hf : ¬ isFirst1 (grid1.coords t) := fun h => h0 ((hfirst1 t).mp h)
      have hz : t.val ≠ 0 := by omega
      rw [acc1_step V c t h0, Phi1_pos V c _ _ hz]
      iintro ⟨⟨HS, HR⟩, Ho, ⟨%d0, H0⟩, ⟨%d1, H1⟩, ⟨%d2, H2⟩⟩
      iapply (kernelMid1 c Set.univ (grid1.coords t) _ _ _ _ (st1_2 t) (hstage1_2 ((cfg1.slots t 2).cast nbuf1_2)) _ _ hf hl (iblk1 V c 0 t) (iblk1 V c 1 t) _ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The scoped buffers no window stages yield the invariant before the first point: the scratch at anything. -/
theorem Φ1_first (c : Dev nD) :
    (Pipeline.scopedRest (Ix := Unit) (Name := ℕ) (U := UR sig nD τ) (Lvl := ℕ) (Val := Elt F) spec1 c : sProp 𝕄) ⊢ (dat1 V c).Φ 0 := by
  rw [show (dat1 V c).Φ 0 = Phi1 V c 0 (Nat.zero_le _) from rfl, scopedRest_split1]
  exact .rfl

/-- After the last point the invariant gives them back: the scratch's named contents are forgotten. -/
theorem Φ1_last (c : Dev nD) :
    (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = Phi1 V c (Fin.last cfg1.N).val (Nat.le_of_lt_succ (Fin.last cfg1.N).isLt) from rfl, scopedRest_split1]
  exact Phi1_any V c _ _

end Data

end Cert.KernelIdeal.Hand

end
-- ==== Proof.RegionKI2.lean ====
import proofs.«150125_j89541478187016_2_alg».proof.Proof.Gen.KernelIdeal.Skeleton
import proofs.«150125_j89541478187016_2_alg».proof.Proof.Gen.KernelIdeal.Launch
import proofs.«150125_j89541478187016_2_alg».proof.Proof.Gen.KernelIdeal.Points
import Idealize.ShloMosaic.Lib.Tactic
import Idealize.ShloMosaic.Lib.Pipeline.Frame
import Idealize.ShloMosaic.Lib.Pipeline.FrameBody
import Idealize.ShloMosaic.Lib.Pipeline.Value

/-!
  Region 2: a block product accumulated over the inner grid axis.

  The grid is 10 x 10; point `t` has row block `t / 10` and inner coordinate `k = t % 10`. The body keeps a running
  accumulator in a scratch buffer: at `k = 0` it is zero-filled, at every `k` the product of the two input blocks is
  added to it, and at `k = 9` it is copied to the output block. This file states what the scratch holds after every
  point (`acc2`), the pipeline's proof data over it (`dat2`), and proves the body obligation.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body in its three control cases -/

/-- The inner coordinate is `0`: the scratch is zero-filled before the block product is added. -/
abbrev isFirst2 (i : grid2.Coords) : Prop :=
  Scalar.cmpi .ne (Scalar.extui (Scalar.cmpi .eq (BitVec.ofNat 32 (i 1).val) 0#32) : BitVec 32) 0#32 = 1#1

/-- The inner coordinate is `9`: the scratch is copied to the output block after the block product is added. -/
abbrev isLast2 (i : grid2.Coords) : Prop := k2_cond2 i = 1#1

/-- The zero offsets of a whole-block access, as a constant function. -/
theorem hz2 : (![0, 0] : Fin 2 → Nat) = fun _ => 0 := funext fun a => by fin_cases a <;> rfl

/-- Writes whose LAST one stores the whole block leave that store's payload, whatever the buffer held and whatever the
    earlier writes were. -/
theorem read_writes_whole2 {κ : Kind} {sp : Space} (v : View sig κ sp S1536x1024 .f32) (f : v.ty.Contents (Elt F))
    (inb : ∀ a, (![0, 0] : Fin 2 → Nat) a + S1536x1024.size a ≤ S1536x1024.size a) (w : Vec F S1536x1024 .f32)
    (L : List (View.Piece (Elt F) S1536x1024 .f32)) :
    v.read (Elt F) (v.writes (Elt F) f (⟨Rect.unit ![0, 0] S1536x1024.size inb, w⟩ :: L)) = w := by
  rw [View.read_writes_eq_canon _ _ _ (fun y => ⟨_, List.mem_cons_self .., View.mem_set_unit_zero hz2 inb y⟩),
    View.canon_cons_unit_zero hz2]

set_option maxHeartbeats 1000000 in
/-- A middle point (inner coordinate neither `0` nor `9`): the body's run, with the pieces the scratch ends with. -/
noncomputable def runMid2 (c : Dev nD) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst2 i) (h2 : ¬ isLast2 i)
    (a : Vec F S1536x1536 .bf16) (x : Vec F S1536x1024 .bf16) (acc : Vec F S1536x1024 .f32) :
    { L5 : List (View.Piece (Elt F) S1536x1024 .f32) //
      ∀ (E : Set ℕ) (K : PUnit → sProp 𝕄),
        iprop(owns (c : Thread nD τ) arg2 fullShare a ∗ owns (c : Thread nD τ) arg3 fullShare x ∗ owns (c : Thread nD τ) arg5 fullShare acc
            ∗ (iprop(owns (c : Thread nD τ) arg2 fullShare a ∗ owns (c : Thread nD τ) arg3 fullShare x
                ∗ (∃ f, arg5.view.loc (c : Thread nD τ) ↦[arg5.view.set]{fullShare} arg5.view.writes (Elt F) f L5)) -∗ K ⟨⟩))
          ⊢ wp frame (wpE (defs₀ (F := F)) Variants.none c none) E (cc2__gcn_propagate_kernel i arg2 harg2 arg3 harg3 arg4 harg4 arg5 harg5) K } := by
  refine ⟨?_, fun E K => ?run⟩
  case run =>
    simp only [cc2__gcn_propagate_kernel_eq_skeleton]; unfold cc2__gcn_propagate_kernel_skel
    unfold owns
    iintro ⟨⟨%f2, %hf2, H2⟩, ⟨%f3, %hf3, H3⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    iexists _; iexact H5

set_option maxHeartbeats 1000000 in
/-- The first inner coordinate: the scratch is zero-filled, then the block product is added to it. -/
noncomputable def runFirst2 (c : Dev nD) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : isFirst2 i) (h2 : ¬ isLast2 i)
    (a : Vec F S1536x1536 .bf16) (x : Vec F S1536x1024 .bf16) (acc : Vec F S1536x1024 .f32) :
    { L5 : List (View.Piece (Elt F) S1536x1024 .f32) //
      ∀ (E : Set ℕ) (K : PUnit → sProp 𝕄),
        iprop(owns (c : Thread nD τ) arg2 fullShare a ∗ owns (c : Thread nD τ) arg3 fullShare x ∗ owns (c : Thread nD τ) arg5 fullShare acc
            ∗ (iprop(owns (c : Thread nD τ) arg2 fullShare a ∗ owns (c : Thread nD τ) arg3 fullShare x
                ∗ (∃ f, arg5.view.loc (c : Thread nD τ) ↦[arg5.view.set]{fullShare} arg5.view.writes (Elt F) f L5)) -∗ K ⟨⟩))
          ⊢ wp frame (wpE (defs₀ (F := F)) Variants.none c none) E (cc2__gcn_propagate_kernel i arg2 harg2 arg3 harg3 arg4 harg4 arg5 harg5) K } := by
  refine ⟨?_, fun E K => ?run⟩
  case run =>
    simp only [cc2__gcn_propagate_kernel_eq_skeleton]; unfold cc2__gcn_propagate_kernel_skel
    unfold owns
    iintro ⟨⟨%f2, %hf2, H2⟩, ⟨%f3, %hf3, H3⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    iexists _; iexact H5

set_option maxHeartbeats 1000000 in
/-- The last inner coordinate: the block product is added to the scratch, and the scratch is copied to the output block. -/
noncomputable def runLast2 (c : Dev nD) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst2 i) (h2 : isLast2 i)
    (a : Vec F S1536x1536 .bf16) (x : Vec F S1536x1024 .bf16) (acc : Vec F S1536x1024 .f32) :
    { L : List (View.Piece (Elt F) S1536x1024 .f32) × List (View.Piece (Elt F) S1536x1024 .f32) //
      ∀ (E : Set ℕ) (K : PUnit → sProp 𝕄),
        iprop(owns (c : Thread nD τ) arg2 fullShare a ∗ owns (c : Thread nD τ) arg3 fullShare x ∗ (∃ d, owns (c : Thread nD τ) arg4 fullShare d)
            ∗ owns (c : Thread nD τ) arg5 fullShare acc
            ∗ (iprop(owns (c : Thread nD τ) arg2 fullShare a ∗ owns (c : Thread nD τ) arg3 fullShare x
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc2__gcn_propagate_kernel i arg2 harg2 arg3 harg3 arg4 harg4 arg5 harg5) K } := by
  refine ⟨(?_, ?_), fun E K => ?run⟩
  case run =>
    simp only [cc2__gcn_propagate_kernel_eq_skeleton]; unfold cc2__gcn_propagate_kernel_skel
    unfold owns
    iintro ⟨⟨%f2, %hf2, H2⟩, ⟨%f3, %hf3, H3⟩, ⟨%d4, %f4, -, H4⟩, ⟨%f5, %hf5, H5⟩, Hk⟩
    obtain rfl := harg2.eq_unread hf2
    obtain rfl := harg3.eq_unread hf3
    obtain rfl := harg5.eq_unread hf5
    sl_exec (disch := first | exact h1 | exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact H5

/-! ## What each case leaves, as values -/

/-- A middle point leaves the accumulate payload of the scratch's old contents and the two input blocks. -/
theorem scratchMid2 (c : Dev nD) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst2 i) (h2 : ¬ isLast2 i)
    (a : Vec F S1536x1536 .bf16) (x : Vec F S1536x1024 .bf16) (acc : Vec F S1536x1024 .f32) (f : arg5.view.ty.Contents (Elt F)) :
    arg5.view.read (Elt F) (arg5.view.writes (Elt F) f (runMid2 c i arg2 harg2 arg3 harg3 arg4 harg4 arg5 harg5 h1 h2 a x acc).1) = k2_pay2 acc a x := by
  unfold runMid2
  dsimp only
  rw [read_writes_whole2]
  simp only [View.readAt_eq_ld, harg2.read_unread, harg3.read_unread, harg5.read_unread,
    View.ld_unit_zero (S := S1536x1024) hz2, View.ld_unit_zero (S := S1536x1536) hz2]

/-- The first point leaves the accumulate payload of the zero block and the two input blocks. -/
theorem scratchFirst2 (c : Dev nD) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : isFirst2 i) (h2 : ¬ isLast2 i)
    (a : Vec F S1536x1536 .bf16) (x : Vec F S1536x1024 .bf16) (acc : Vec F S1536x1024 .f32) (f : arg5.view.ty.Contents (Elt F)) :
    arg5.view.read (Elt F) (arg5.view.writes (Elt F) f (runFirst2 c i arg2 harg2 arg3 harg3 arg4 harg4 arg5 harg5 h1 h2 a x acc).1) = k2_pay2 k2_pay1 a x := by
  unfold runFirst2
  dsimp only
  rw [read_writes_whole2]
  sl_unfold_words
  rw [View.readCov_unit_zero (S := S1536x1024) _ hz2]
  simp only [View.readAt_eq_ld, harg2.read_unread, harg3.read_unread,
    View.ld_unit_zero (S := S1536x1024) hz2, View.ld_unit_zero (S := S1536x1536) hz2]

/-- The last point leaves the same accumulate payload in the scratch -/
theorem scratchLast2 (c : Dev nD) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst2 i) (h2 : isLast2 i)
    (a : Vec F S1536x1536 .bf16) (x : Vec F S1536x1024 .bf16) (acc : Vec F S1536x1024 .f32) (f : arg5.view.ty.Contents (Elt F)) :
    arg5.view.read (Elt F) (arg5.view.writes (Elt F) f (runLast2 c i arg2 harg2 arg3 harg3 arg4 harg4 arg5 harg5 h1 h2 a x acc).1.2) = k2_pay2 acc a x := by
  unfold runLast2
  dsimp only
  sl_unfold_words
  rw [read_writes_whole2]
  simp only [View.readAt_eq_ld, harg2.read_unread, harg3.read_unread, harg5.read_unread,
    View.ld_unit_zero (S := S1536x1024) hz2, View.ld_unit_zero (S := S1536x1536) hz2]

/-- and copies it to the output block. -/
theorem outLast2 (c : Dev nD) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst2 i) (h2 : isLast2 i)
    (a : Vec F S1536x1536 .bf16) (x : Vec F S1536x1024 .bf16) (acc : Vec F S1536x1024 .f32) (f : arg4.view.ty.Contents (Elt F)) :
    arg4.view.read (Elt F) (arg4.view.writes (Elt F) f (runLast2 c i arg2 harg2 arg3 harg3 arg4 harg4 arg5 harg5 h1 h2 a x acc).1.1) = k2_pay2 acc a x := by
  unfold runLast2
  dsimp only
  rw [read_writes_whole2]
  sl_unfold_words
  rw [View.readCov_unit_zero (S := S1536x1024) _ hz2]
  simp only [View.readAt_eq_ld, harg2.read_unread, harg3.read_unread, harg5.read_unread,
    View.ld_unit_zero (S := S1536x1024) hz2, View.ld_unit_zero (S := S1536x1536) hz2]

/-! ## The body's triple in each case, at named contents -/

/-- A middle point: the scratch at `acc` ends at the accumulate payload; the inputs' buffers are as they were; the output
    block's buffer is not touched. -/
theorem kernelMid2 (c : Dev nD) (E : Set ℕ) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst2 i) (h2 : ¬ isLast2 i)
    (a : Vec F S1536x1536 .bf16) (x : Vec F S1536x1024 .bf16) (acc : Vec F S1536x1024 .f32) (K : PUnit → sProp 𝕄) :
    iprop(owns (c : Thread nD τ) arg2 fullShare a ∗ owns (c : Thread nD τ) arg3 fullShare x ∗ owns (c : Thread nD τ) arg5 fullShare acc
        ∗ (iprop(owns (c : Thread nD τ) arg2 fullShare a ∗ owns (c : Thread nD τ) arg3 fullShare x
            ∗ owns (c : Thread nD τ) arg5 fullShare (k2_pay2 acc a x)) -∗ K ⟨⟩))
      ⊢ wp frame (wpE (defs₀ (F := F)) Variants.none c none) E (cc2__gcn_propagate_kernel i arg2 harg2 arg3 harg3 arg4 harg4 arg5 harg5) K := by
  iintro ⟨H2, H3, H5, Hk⟩
  iapply ((runMid2 c i arg2 harg2 arg3 harg3 arg4 harg4 arg5 harg5 h1 h2 a x acc).2 E K)
  isplitl [H2]; · iexact H2
  isplitl [H3]; · iexact H3
  isplitl [H5]; · iexact H5
  iintro ⟨H2, H3, ⟨%f, H5⟩⟩
  iapply Hk
  isplitl [H2]; · iexact H2
  isplitl [H3]; · iexact H3
  unfold owns; iexists _; isplitr
  swap; · iexact H5
  ipureintro; exact scratchMid2 c i arg2 harg2 arg3 harg3 arg4 harg4 arg5 harg5 h1 h2 a x acc f

/-- The first point: the scratch, at anything, ends at the accumulate payload of the zero block. -/
theorem kernelFirst2 (c : Dev nD) (E : Set ℕ) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : isFirst2 i) (h2 : ¬ isLast2 i)
    (a : Vec F S1536x1536 .bf16) (x : Vec F S1536x1024 .bf16) (K : PUnit → sProp 𝕄) :
    iprop(owns (c : Thread nD τ) arg2 fullShare a ∗ owns (c : Thread nD τ) arg3 fullShare x ∗ (∃ d, owns (c : Thread nD τ) arg5 fullShare d)
        ∗ (iprop(owns (c : Thread nD τ) arg2 fullShare a ∗ owns (c : Thread nD τ) arg3 fullShare x
            ∗ owns (c : Thread nD τ) arg5 fullShare (k2_pay2 k2_pay1 a x)) -∗ K ⟨⟩))
      ⊢ wp frame (wpE (defs₀ (F := F)) Variants.none c none) E (cc2__gcn_propagate_kernel i arg2 harg2 arg3 harg3 arg4 harg4 arg5 harg5) K := by
  iintro ⟨H2, H3, ⟨%acc, H5⟩, Hk⟩
  iapply ((runFirst2 c i arg2 harg2 arg3 harg3 arg4 harg4 arg5 harg5 h1 h2 a x acc).2 E K)
  isplitl [H2]; · iexact H2
  isplitl [H3]; · iexact H3
  isplitl [H5]; · iexact H5
  iintro ⟨H2, H3, ⟨%f, H5⟩⟩
  iapply Hk
  isplitl [H2]; · iexact H2
  isplitl [H3]; · iexact H3
  unfold owns; iexists _; isplitr
  swap; · iexact H5
  ipureintro; exact scratchFirst2 c i arg2 harg2 arg3 harg3 arg4 harg4 arg5 harg5 h1 h2 a x acc f

/-- The last point: the scratch at `acc` ends at the accumulate payload, and so does the output block's buffer, whatever it
    held. -/
theorem kernelLast2 (c : Dev nD) (E : Set ℕ) (i : grid2.Coords)
    (arg2 : Memref sig .tc .vmem S1536x1536 .bf16) (harg2 : arg2.IsWhole) (arg3 : Memref sig .tc .vmem S1536x1024 .bf16) (harg3 : arg3.IsWhole)
    (arg4 : Memref sig .tc .vmem S1536x1024 .f32) (harg4 : arg4.IsWhole) (arg5 : Memref sig .tc .vmem S1536x1024 .f32) (harg5 : arg5.IsWhole)
    (h1 : ¬ isFirst2 i) (h2 : isLast2 i)
    (a : Vec F S1536x1536 .bf16) (x : Vec F S1536x1024 .bf16) (acc : Vec F S1536x1024 .f32) (K : PUnit → sProp 𝕄) :
    iprop(owns (c : Thread nD τ) arg2 fullShare a ∗ owns (c : Thread nD τ) arg3 fullShare x ∗ (∃ d, owns (c : Thread nD τ) arg4 fullShare d)
        ∗ owns (c : Thread nD τ) arg5 fullShare acc
        ∗ (iprop(owns (c : Thread nD τ) arg2 fullShare a ∗ owns (c : Thread nD τ) arg3 fullShare x
            ∗ owns (c : Thread nD τ) arg4 fullShare (k2_pay2 acc a x)
            ∗ owns (c : Thread nD τ) arg5 fullShare (k2_pay2 acc a x)) -∗ K ⟨⟩))
      ⊢ wp frame (wpE (defs₀ (F := F)) Variants.none c none) E (cc2__gcn_propagate_kernel i arg2 harg2 arg3 harg3 arg4 harg4 arg5 harg5) K := by
  iintro ⟨H2, H3, H4, H5, Hk⟩
  iapply ((runLast2 c i arg2 harg2 arg3 harg3 arg4 harg4 arg5 harg5 h1 h2 a x acc).2 E K)
  isplitl [H2]; · iexact H2
  isplitl [H3]; · iexact H3
  isplitl [H4]; · iexact H4
  isplitl [H5]; · iexact H5
  iintro ⟨H2, H3, ⟨%f4, H4⟩, ⟨%f5, H5⟩⟩
  iapply Hk
  isplitl [H2]; · iexact H2
  isplitl [H3]; · iexact H3
  isplitl [H4]
  · unfold owns; iexists _; isplitr
    swap; · iexact H4
    ipureintro; exact outLast2 c i arg2 harg2 arg3 harg3 arg4 harg4 arg5 harg5 h1 h2 a x acc f4
  unfold owns; iexists _; isplitr
  swap; · iexact H5
  ipureintro; exact scratchLast2 c i arg2 harg2 arg3 harg3 arg4 harg4 arg5 harg5 h1 h2 a x acc f5

/-! ## The conditions and the output window's idle points, in closed form over the grid -/

/-- The scratch is zero-filled at the points ≡ 0 (mod 10). -/
theorem hfirst2 : ∀ t : Fin cfg2.N, isFirst2 (grid2.coords t) ↔ t.val % 10 = 0 :=
  (by decide +kernel : ∀ t : Fin grid2.N, isFirst2 (grid2.coords t) ↔ t.val % 10 = 0)
/-- The scratch is copied out at the points ≡ 9 (mod 10). -/
theorem hlast2 : ∀ t : Fin cfg2.N, isLast2 (grid2.coords t) ↔ t.val % 10 = 9 :=
  (by decide +kernel : ∀ t : Fin grid2.N, isLast2 (grid2.coords t) ↔ t.val % 10 = 9)
/-- The output window is idle exactly where the scratch is not copied out. -/
theorem idleAt2 : ∀ t : Fin cfg2.N, ¬ isLast2 (grid2.coords t) → cfg2.idle 2 (grid2.coords t) = true := by decide +kernel
theorem liveAt2 : ∀ t : Fin cfg2.N, isLast2 (grid2.coords t) → cfg2.idle 2 (grid2.coords t) = false := by decide +kernel

/-! ## The proof data -/

section Data

variable (V : (c : Dev nD) → (b : Ref sig .tc) → Buf (Elt F) ((c : Thread nD τ).loc b))

/-- The scratch accumulator: a whole scoped buffer of the kernel's own. -/
abbrev scM2 : Memref sig .tc .vmem S1536x1024 .f32 := Memref.whole cc2_scratch0

/-- Window `w`'s block at point `t`, read off its array at the region's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- THE RUNNING ACCUMULATOR: what the scratch holds after the body at position `n`. At a position ≡ 0 (mod 10) the zero
    block plus the block product; elsewhere what the position before left plus the block product. -/
def acc2 (c : Dev nD) : (n : ℕ) → n < cfg2.N → Vec F S1536x1024 .f32
  | 0, h => k2_pay2 k2_pay1 (iblk2 V c 0 ⟨0, h⟩) (iblk2 V c 1 ⟨0, h⟩)
  | n + 1, h =>
    if (n + 1) % 10 = 0 then k2_pay2 k2_pay1 (iblk2 V c 0 ⟨n + 1, h⟩) (iblk2 V c 1 ⟨n + 1, h⟩)
    else k2_pay2 (acc2 c n (Nat.lt_of_succ_lt h)) (iblk2 V c 0 ⟨n + 1, h⟩) (iblk2 V c 1 ⟨n + 1, h⟩)

theorem acc2_first (c : Dev nD) (t : Fin cfg2.N) (h : t.val % 10 = 0) :
    acc2 V c t.val t.isLt = k2_pay2 k2_pay1 (iblk2 V c 0 t) (iblk2 V c 1 t) := by
  obtain ⟨n, hn⟩ := t
  cases n with
  | zero => rfl
  | succ n => exact (if_pos h).trans rfl

theorem acc2_step (c : Dev nD) (t : Fin cfg2.N) (h : ¬ t.val % 10 = 0) :
    acc2 V c t.val t.isLt
      = k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h
  | succ n => exact (if_neg h).trans rfl

/-- The scoped buffers no window of this region stages, split at the scratch accumulator: the scratch at some contents,
    and every other one unopened. -/
theorem scopedRest_split2 (c : Dev nD) :
    (Pipeline.scopedRest (Ix := Unit) (Name := ℕ) (U := UR sig nD τ) (Lvl := ℕ) (Val := Elt F) spec2 c : sProp 𝕄)
      = iprop((∃ d, owns (c : Thread nD τ) scM2 fullShare d)
          ∗ Pipeline.scopedRestBut (Ix := Unit) (Name := ℕ) (U := UR sig nD τ) (Lvl := ℕ) (Val := Elt F) spec2 c [cc2_scratch0]) := by
  rw [Pipeline.scopedRest_split_of_list spec2 c [cc2_scratch0] (by decide) (by decide)]
  simp only [scM2, owns_whole]; rfl

/-- The region invariant before position `n`: the scratch at what the position before left in it (before the first
    position: at anything), and every other scoped buffer no window stages, unopened. -/
def Phi2 (c : Dev nD) : (n : ℕ) → n ≤ cfg2.N → sProp 𝕄
  | 0, _ => iprop((∃ d, owns (c : Thread nD τ) scM2 fullShare d)
      ∗ Pipeline.scopedRestBut (Ix := Unit) (Name := ℕ) (U := UR sig nD τ) (Lvl := ℕ) (Val := Elt F) spec2 c [cc2_scratch0])
  | n + 1, hn => iprop(owns (c : Thread nD τ) scM2 fullShare (acc2 V c n hn)
      ∗ Pipeline.scopedRestBut (Ix := Unit) (Name := ℕ) (U := UR sig nD τ) (Lvl := ℕ) (Val := Elt F) spec2 c [cc2_scratch0])

theorem Phi2_succ (c : Dev nD) (n : ℕ) (hn : n < cfg2.N) :
    Phi2 V c (n + 1) hn = iprop(owns (c : Thread nD τ) scM2 fullShare (acc2 V c n hn)
      ∗ Pipeline.scopedRestBut (Ix := Unit) (Name := ℕ) (U := UR sig nD τ) (Lvl := ℕ) (Val := Elt F) spec2 c [cc2_scratch0]) := rfl

theorem Phi2_pos (c : Dev nD) (n : ℕ) (h : n ≤ cfg2.N) (hz : n ≠ 0) :
    Phi2 V c n h = iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) := by
  cases n with
  | zero => exact absurd rfl hz
  | succ n => rfl

/-- At any position the invariant holds the scratch at SOME contents. -/
theorem Phi2_any (c : Dev nD) (n : ℕ) (h : n ≤ cfg2.N) :
    Phi2 V c n h ⊢ iprop((∃ d, owns (c : Thread nD τ) scM2 fullShare d)
      ∗ Pipeline.scopedRestBut (Ix := Unit) (Name := ℕ) (U := UR sig nD τ) (Lvl := ℕ) (Val := Elt F) spec2 c [cc2_scratch0]) := by
  cases n with
  | zero => exact .rfl
  | succ n =>
    rw [Phi2_succ]
    iintro ⟨HS, HR⟩
    isplitl [HS]; · iexists _; iexact HS
    iexact HR

/-- The proof data of this region on core `c`, at the entry contents `V`: the arrays as the region finds them; after
    the body each input's buffer at its block and the output's at the running accumulator (consulted at the points
    ≡ 9 (mod 10) only: elsewhere the window is idle); the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

/-- Each input is fetched at every point, so its current staging buffer holds its block there. -/
theorem before2_0 (c : Dev nD) (t : Fin cfg2.N) (d) : (dat2 V c).before 0 t d = iblk2 V c 0 t := by
  rw [Dat.before_fetched _ 0 t (fetch2_0 t)]
  unfold Dat.fetched Dat.blockOf iblk2; rw [A_eq2]; rfl
theorem before2_1 (c : Dev nD) (t : Fin cfg2.N) (d) : (dat2 V c).before 1 t d = iblk2 V c 1 t := by
  rw [Dat.before_fetched _ 1 t (fetch2_1 t)]
  unfold Dat.fetched Dat.blockOf iblk2; rw [A_eq2]; rfl

/-! ## The body obligation, at a generic point -/

/-- What the body is called with at point `t` (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

/-- The output window's block is not written back at a point where the scratch is not copied out. -/
theorem noFlush2 (t : Fin cfg2.N) (h : ¬ t.val % 10 = 9) : (cfg2.win 2).flush t = false :=
  Bool.eq_false_iff.mpr fun hf => h ((flush2_2 t).mp hf)

set_option maxHeartbeats 1600000 in
/-- The body at any point. The inputs' buffers hold their blocks. By the inner coordinate: at `0` the scratch (at anything)
    is zero-filled and ends at the zero block plus the product; at `1 … 8` it goes from what the point before left to that
    plus the product; at `9` the same, and the output block's buffer ends at the scratch's contents. Where the scratch is not
    copied out the output window is idle and its buffer is handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from rfl, after2_0]
  rw [show (dat2 V c).leavesExact 1 t = owns (c : Thread nD τ) (st2_1 t) fullShare ((dat2 V c).after 1 t) from rfl, after2_1]
  rw [Phi2_castSucc]
  have hN : t.val < 100 := lt_of_lt_of_eq t.isLt (show cfg2.N = 100 from N_2)
  by_cases h9 : t.val % 10 = 9
  · have hl : isLast2 (grid2.coords t) := (hlast2 t).mpr h9
    have hf : ¬ isFirst2 (grid2.coords t) := fun h => by have := (hfirst2 t).mp h; omega
    have hz : t.val ≠ 0 := by omega
    rw [show (dat2 V c).leavesExact 2 t = owns (c : Thread nD τ) (st2_2 t) fullShare ((dat2 V c).after 2 t) from by
      unfold Dat.leavesExact; rw [liveAt2 t hl], after2_2]
    rw [acc2_step V c t (by omega), Phi2_pos V c _ _ hz]
    iintro ⟨⟨HS, HR⟩, Ho, ⟨%d0, H0⟩, ⟨%d1, H1⟩, ⟨%d2, H2⟩⟩
    iapply (kernelLast2 c Set.univ (grid2.coords t) _ _ _ _ _ _ _ _ hf hl (iblk2 V c 0 t) (iblk2 V c 1 t) _ _)
    isplitl [H0]; · iexact H0
    isplitl [H1]; · iexact H1
    isplitl [H2]; · iexists _; iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    iexact H2
  · have hl : ¬ isLast2 (grid2.coords t) := fun h => h9 ((hlast2 t).mp h)
    rw [Dat.leavesExact_idle (dat2 V c) 2 t (idleAt2 t hl) (noFlush2 t h9)]
    by_cases h0 : t.val % 10 = 0
    · have hf : isFirst2 (grid2.coords t) := (hfirst2 t).mpr h0
      rw [acc2_first V c t h0]
      iintro ⟨HΦ, Ho, ⟨%d0, H0⟩, ⟨%d1, H1⟩, ⟨%d2, H2⟩⟩
      ihave HΦ' := (Phi2_any V c _ _) $$ HΦ
      icases HΦ' with ⟨HS, HR⟩
      iapply (kernelFirst2 c Set.univ (grid2.coords t) _ _ _ _ (st2_2 t) (hstage2_2 ((cfg2.slots t 2).cast nbuf2_2)) _ _ hf hl (iblk2 V c 0 t) (iblk2 V c 1 t) _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexists _; iexact H2
    · have hf : ¬ isFirst2 (grid2.coords t) := fun h => h0 ((hfirst2 t).mp h)
      have hz : t.val ≠ 0 := by omega
      rw [acc2_step V c t h0, Phi2_pos V c _ _ hz]
      iintro ⟨⟨HS, HR⟩, Ho, ⟨%d0, H0⟩, ⟨%d1, H1⟩, ⟨%d2, H2⟩⟩
      iapply (kernelMid2 c Set.univ (grid2.coords t) _ _ _ _ (st2_2 t) (hstage2_2 ((cfg2.slots t 2).cast nbuf2_2)) _ _ hf hl (iblk2 V c 0 t) (iblk2 V c 1 t) _ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The scoped buffers no window stages yield the invariant before the first point: the scratch at anything. -/
theorem Φ2_first (c : Dev nD) :
    (Pipeline.scopedRest (Ix := Unit) (Name := ℕ) (U := UR sig nD τ) (Lvl := ℕ) (Val := Elt F) spec2 c : sProp 𝕄) ⊢ (dat2 V c).Φ 0 := by
  rw [show (dat2 V c).Φ 0 = Phi2 V c 0 (Nat.zero_le _) from rfl, scopedRest_split2]
  exact .rfl

/-- After the last point the invariant gives them back: the scratch's named contents are forgotten. -/
theorem Φ2_last (c : Dev nD) :
    (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = Phi2 V c (Fin.last cfg2.N).val (Nat.le_of_lt_succ (Fin.last cfg2.N).isLt) from rfl, scopedRest_split2]
  exact Phi2_any V c _ _

end Data

end Cert.KernelIdeal.Hand

end
-- ==== Proof.RunKI.lean ====
import proofs.«150125_j89541478187016_2_alg».proof.Proof.Gen.KernelIdeal.Regions

/-!
# Every weakly fair execution of the program ends with every unscoped buffer at the composed valuation

Given one segment record per kernel region, entered from the thread state before it and left at the one after it, the
program runs to the end without a fault and EVERY buffer that outlives a kernel call — the arguments and every
intermediate and result array of the host operations — ends holding the last valuation: the launch contents pushed
through each stretch of host operations in turn and updated, at each region, at what the region leaves in its output.
The frame (arguments unchanged) and the result's value are both read off this one statement.
-/

set_option maxRecDepth 1260

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
/-- The run, with every unscoped buffer read off the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V18 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V18 m outs c))
    (hch := fun c => ⟨.rfl, .rfl, .rfl, hpre0 c, hpost0 c, .rfl, .rfl, hpre1 c, hpost1 c, .rfl, .rfl, hpre2 c, hpost2 c, .rfl, .rfl, .rfl, .rfl, .rfl, sep_mono .rfl (hE3 c)⟩)
    (hinit := ?_) (QY := fun c s => ∀ b ∈ Pipeline.ucRefs τ sig, s.mem ((c : Thread nD τ).1, b) = V18 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V18 m outs c) s') $$ [Hh HSI]
    · isplitl [Hh] <;> iassumption
    icases Hr with ⟨%h, HSI⟩
    imodintro
    isplitr
    · ipureintro
      exact h
    · iexact HSI

end Cert.KernelIdeal.Hand

end
-- ==== Proof.RunAllKI.lean ====
import proofs.«150125_j89541478187016_2_alg».proof.Proof.RunKI

/-!
# The run at the concrete resource algebra

One copy of the pipeline library's resource algebra serves all three kernel regions (each is entered once). No core
owes another anything and no level is assigned; beside the buffers every segment carries the core's generator
register, at some state, and its record of what it owes, at nothing. What is left open here is exactly the three
region records and their entry and exit entailments.
-/

set_option maxRecDepth 1260

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

abbrev 𝒱n : Variants := Variants.none
abbrev Ln : GSem nD τ sig → Finset Unit := fun _ => ∅
abbrev lvn : GSem nD τ sig → Unit → ℕ := fun _ _ => 0

/-- What rides beside the buffers through every segment. -/
abbrev Rest (c : Dev nD) : sProp 𝕄 := iprop((∃ r, prngReg c r) ∗ ∃ W, owes (c : Thread nD τ) (0 : CellTallies nD τ sig Unit) W)

variable (m : (ℓ : Loc nD τ sig) → Buf (Elt F) ℓ)

set_option backward.isDefEq.respectTransparency.types false in
theorem run_all (ρ : Dev nD → PrngReg) (outs : Outs (F := F))
    (pdats : (p : Fin 3) → (c : Dev nD) → Dat τ (Elt F) Unit ℕ (UR sig nD τ) ℕ (cfgs p) c)
    (R0 : RegionSeg (pcfgs (F := F)) adm pdats () defs₀ 𝒱n Ln lvn 0)
    (hpre0 : ∀ c : Dev nD, iprop(StableHlo.held (c : Thread nD τ) (Pipeline.ucRefs τ sig) (V3 m c) ∗ Rest c) ⊢ R0.pre c)
    (hpost0 : ∀ c : Dev nD, R0.post c ⊢ iprop(StableHlo.held (c : Thread nD τ) (Pipeline.ucRefs τ sig) (V4 m outs c) ∗ Rest c))
    (R1 : RegionSeg (pcfgs (F := F)) adm pdats () defs₀ 𝒱n Ln lvn 1)
    (hpre1 : ∀ c : Dev nD, iprop(StableHlo.held (c : Thread nD τ) (Pipeline.ucRefs τ sig) (V7 m outs c) ∗ Rest c) ⊢ R1.pre c)
    (hpost1 : ∀ c : Dev nD, R1.post c ⊢ iprop(StableHlo.held (c : Thread nD τ) (Pipeline.ucRefs τ sig) (V8 m outs c) ∗ Rest c))
    (R2 : RegionSeg (pcfgs (F := F)) adm pdats () defs₀ 𝒱n Ln lvn 2)
    (hpre2 : ∀ c : Dev nD, iprop(StableHlo.held (c : Thread nD τ) (Pipeline.ucRefs τ sig) (V11 m outs c) ∗ Rest c) ⊢ R2.pre c)
    (hpost2 : ∀ c : Dev nD, R2.post c ⊢ iprop(StableHlo.held (c : Thread nD τ) (Pipeline.ucRefs τ sig) (V12 m outs c) ∗ Rest c)) :
    θ_run defs (onTc (τ := τ) (main (F := F))) ⟨m, fun _ => 0, ρ⟩ (fun r => ∀ c : Dev nD,
      ∀ b ∈ Pipeline.ucRefs τ sig, r.2.mem ((c : Thread nD τ).1, b) = V18 m outs c b) :=
  run_cond m emb₁ () 𝒱n Ln lvn (fun _ _ => rfl) ρ outs pdats 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rest c)
    (by
      have hmono : (bigSep Finset.univ fun c : Dev nD => (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄))
          ⊢ (bigSep Finset.univ fun c : Dev nD => (Rest c : sProp 𝕄)) :=
        bigSep_mono fun c _ => (show (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄) ⊢ Rest c from by
          iintro ⟨-, HO, -, Hp, -⟩
          isplitl [Hp]; · iexists _; iexact Hp
          iexists ∅; iexact HO)
      iintro ⟨H, -⟩
      imodintro
      iapply hmono
      iexact H)
    (fun c => by iintro ⟨-, HO⟩; iexact HO)
    R0 hpre0 hpost0 R1 hpre1 hpost1 R2 hpre2 hpost2

end Cert.KernelIdeal.Hand

end
-- ==== Proof.SegsKI.lean ====
import proofs.«150125_j89541478187016_2_alg».proof.Proof.RegionKI0
import proofs.«150125_j89541478187016_2_alg».proof.Proof.RegionKI1
import proofs.«150125_j89541478187016_2_alg».proof.Proof.RegionKI2
import proofs.«150125_j89541478187016_2_alg».proof.Proof.RunAllKI
import Idealize.ShloMosaic.Lib.Pipeline.RegionsLoop

/-!
# The three kernel regions as segments of the program, and the run

Each kernel call is entered with every buffer that outlives a call at the valuation the host operations before it
produce, and left with that valuation updated at the call's output array, which then holds what the pipeline's
write-backs leave in it. The two input arrays are split out of the thread state on entry and put back unchanged on
exit; the scratch accumulator lives in the invariant between the two ends; no call has a semaphore of its own and no
core owes anything. The valuations are chained: the second call's entry valuation is computed from the first call's
output, the third's from the second's. With the three records the program runs to the end, every buffer that outlives
a call ending at the last valuation; the arguments are among them and no operation writes one.
-/

set_option maxRecDepth 4096

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The chain of valuations and outputs -/

/-- The valuation before region 0, read at the TensorCore's references. -/
abbrev E3 : (c : Dev nD) → (b : Ref sig .tc) → Buf (Elt F) ((c : Thread nD τ).loc b) := fun c b => V3 m c b

/-- What region 0 leaves in its output array. -/
def O4 (c : Dev nD) : Buf (Elt F) ((c : Thread nD τ).loc main_v52) := (dat0 (E3 m) c).arrAt 2 cfg0.N

/-- The regions' outputs, so far: region 0's. -/
def oA : Outs (F := F) := fun _ r c => Function.update (V3 m c) main_v52 (O4 m c) r

theorem oA_out (c : Dev nD) : oA m 4 main_v52 c = O4 m c := by
  unfold oA; exact Function.update_self _ _ _

/-- The valuation before region 1 (computed from region 0's output), read at the TensorCore's references. -/
abbrev E7 : (c : Dev nD) → (b : Ref sig .tc) → Buf (Elt F) ((c : Thread nD τ).loc b) := fun c b => V7 m (oA m) c b

/-- What region 1 leaves in its output array. -/
def O8 (c : Dev nD) : Buf (Elt F) ((c : Thread nD τ).loc main_v63) := (dat1 (E7 m) c).arrAt 2 cfg1.N

/-- The regions' outputs, so far: regions 0's and 1's. -/
def oB : Outs (F := F) := fun J r c =>
  match J with
  | 8 => Function.update (V7 m (oA m) c) main_v63 (O8 m c) r
  | _ => oA m J r c

theorem oB_4 (c : Dev nD) : oB m 4 main_v52 c = O4 m c := oA_out m c
theorem oB_8 (c : Dev nD) : oB m 8 main_v63 c = O8 m c := by
  show Function.update (V7 m (oA m) c) main_v63 (O8 m c) main_v63 = _
  exact Function.update_self _ _ _

/-- The valuation before region 2 (computed from region 1's output), read at the TensorCore's references. -/
abbrev E11 : (c : Dev nD) → (b : Ref sig .tc) → Buf (Elt F) ((c : Thread nD τ).loc b) := fun c b => V11 m (oB m) c b

/-- What region 2 leaves in its output array. -/
def O12 (c : Dev nD) : Buf (Elt F) ((c : Thread nD τ).loc main_v74) := (dat2 (E11 m) c).arrAt 2 cfg2.N

/-- The three regions' outputs. -/
def oC : Outs (F := F) := fun J r c =>
  match J with
  | 12 => Function.update (V11 m (oB m) c) main_v74 (O12 m c) r
  | _ => oB m J r c

theorem oC_4 (c : Dev nD) : oC m 4 main_v52 c = O4 m c := oA_out m c
theorem oC_8 (c : Dev nD) : oC m 8 main_v63 c = O8 m c := oB_8 m c
theorem oC_12 (c : Dev nD) : oC m 12 main_v74 c = O12 m c := by
  show Function.update (V11 m (oB m) c) main_v74 (O12 m c) main_v74 = _
  exact Function.update_self _ _ _

/-- Each valuation reads the outputs of the regions before it only, so the chain's valuations are the final ones. -/
theorem V4_oA (c : Dev nD) : V4 m (oC m) c = V4 m (oA m) c := by
  show Function.update (V3 m c) main_v52 (oC m 4 main_v52 c) = Function.update (V3 m c) main_v52 (oA m 4 main_v52 c)
  rw [oC_4, oA_out]
theorem V7_oA (c : Dev nD) : V7 m (oC m) c = V7 m (oA m) c := by
  show StableHlo.after hostOps1_2 (StableHlo.after hostOps1_1 (StableHlo.after hostOps1 (V4 m (oC m) c))) = StableHlo.after hostOps1_2 (StableHlo.after hostOps1_1 (StableHlo.after hostOps1 (V4 m (oA m) c)))
  rw [V4_oA]
theorem V7_oB (c : Dev nD) : V7 m (oB m) c = V7 m (oA m) c := by
  show StableHlo.after hostOps1_2 (StableHlo.after hostOps1_1 (StableHlo.after hostOps1 (Function.update (V3 m c) main_v52 (oB m 4 main_v52 c)))) = StableHlo.after hostOps1_2 (StableHlo.after hostOps1_1 (StableHlo.after hostOps1 (Function.update (V3 m c) main_v52 (oA m 4 main_v52 c))))
  rw [oB_4, oA_out]
theorem V8_oB (c : Dev nD) : V8 m (oC m) c = V8 m (oB m) c := by
  show Function.update (V7 m (oC m) c) main_v63 (oC m 8 main_v63 c) = Function.update (V7 m (oB m) c) main_v63 (oB m 8 main_v63 c)
  rw [V7_oA, V7_oB, oC_8, oB_8]
theorem V11_oB (c : Dev nD) : V11 m (oC m) c = V11 m (oB m) c := by
  show StableHlo.after hostOps2_2 (StableHlo.after hostOps2_1 (StableHlo.after hostOps2 (V8 m (oC m) c))) = StableHlo.after hostOps2_2 (StableHlo.after hostOps2_1 (StableHlo.after hostOps2 (V8 m (oB m) c)))
  rw [V8_oB]

/-! ## Each region's arrays at its exit, the other buffers as entered -/

theorem hF0 (c : Dev nD) (w : Fin cfg0.W) : (dat0 (E3 m) c).arrAt w cfg0.N = V4 m (oA m) c (Pipeline.arrRef spec0 w) := by
  fin_cases w
  · exact ((dat0 (E3 m) c).arrAt_in 0 rfl _).trans ((V4_of m (oA m) c main_v42 (by decide)).symm)
  · exact ((dat0 (E3 m) c).arrAt_in 1 rfl _).trans ((V4_of m (oA m) c main_v51 (by decide)).symm)
  · show O4 m c = Function.update (V3 m c) main_v52 (oA m 4 main_v52 c) main_v52
    rw [Function.update_self, oA_out]

theorem hrest0 (c : Dev nD) : ∀ b, b ∉ Finset.univ.image (Pipeline.arrRef spec0) → V4 m (oA m) c b = V3 m c b :=
  fun b hb => V4_of m (oA m) c b (fun h => hb (by
    rw [List.mem_singleton] at h; subst h; exact Finset.mem_image.mpr ⟨2, Finset.mem_univ _, rfl⟩))

theorem hF1 (c : Dev nD) (w : Fin cfg1.W) : (dat1 (E7 m) c).arrAt w cfg1.N = V8 m (oB m) c (Pipeline.arrRef spec1 w) := by
  fin_cases w
  · show (dat1 (E7 m) c).arrAt 0 cfg1.N = V8 m (oB m) c main_v42
    rw [V8_of m (oB m) c main_v42 (by decide), V7_oB]
    exact (dat1 (E7 m) c).arrAt_in 0 rfl _
  · show (dat1 (E7 m) c).arrAt 1 cfg1.N = V8 m (oB m) c main_v62
    rw [V8_of m (oB m) c main_v62 (by decide), V7_oB]
    exact (dat1 (E7 m) c).arrAt_in 1 rfl _
  · show O8 m c = Function.update (V7 m (oB m) c) main_v63 (oB m 8 main_v63 c) main_v63
    rw [Function.update_self, oB_8]

theorem hrest1 (c : Dev nD) : ∀ b, b ∉ Finset.univ.image (Pipeline.arrRef spec1) → V8 m (oB m) c b = V7 m (oA m) c b :=
  fun b hb => (V8_of m (oB m) c b (fun h => hb (by
    rw [List.mem_singleton] at h; subst h; exact Finset.mem_image.mpr ⟨2, Finset.mem_univ _, rfl⟩))).trans (by rw [V7_oB])

theorem hF2 (c : Dev nD) (w : Fin cfg2.W) : (dat2 (E11 m) c).arrAt w cfg2.N = V12 m (oC m) c (Pipeline.arrRef spec2 w) := by
  fin_cases w
  · show (dat2 (E11 m) c).arrAt 0 cfg2.N = V12 m (oC m) c main_v42
    rw [V12_of m (oC m) c main_v42 (by decide), V11_oB]
    exact (dat2 (E11 m) c).arrAt_in 0 rfl _
  · show (dat2 (E11 m) c).arrAt 1 cfg2.N = V12 m (oC m) c main_v73
    rw [V12_of m (oC m) c main_v73 (by decide), V11_oB]
    exact (dat2 (E11 m) c).arrAt_in 1 rfl _
  · show O12 m c = Function.update (V11 m (oC m) c) main_v74 (oC m 12 main_v74 c) main_v74
    rw [Function.update_self, oC_12]

theorem hrest2 (c : Dev nD) : ∀ b, b ∉ Finset.univ.image (Pipeline.arrRef spec2) → V12 m (oC m) c b = V11 m (oB m) c b :=
  fun b hb => (V12_of m (oC m) c b (fun h => hb (by
    rw [List.mem_singleton] at h; subst h; exact Finset.mem_image.mpr ⟨2, Finset.mem_univ _, rfl⟩))).trans (by rw [V11_oB])

/-! ## The proof data family and the three records -/

/-- The proof data of the three regions, each at its entry valuation (a literal match on the region's number). -/
def pdats : (p : Fin 3) → (c : Dev nD) → Dat τ (Elt F) Unit ℕ (UR sig nD τ) ℕ (cfgs p) c
  | ⟨0, _⟩ => fun c => dat0 (E3 m) c
  | ⟨1, _⟩ => fun c => dat1 (E7 m) c
  | ⟨2, _⟩ => fun c => dat2 (E11 m) c

set_option backward.isDefEq.respectTransparency.types false in
/-- Region 0 over the thread state: entered from every buffer that outlives a call at the valuation before it, left at
    that valuation updated at the region's output array. -/
def reg0 : RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ Ln lvn 0 fun _ _ => rfl
  pre c := iprop(StableHlo.held (c : Thread nD τ) (Pipeline.ucRefs τ sig) (V3 m c) ∗ Rest c)
  post c := iprop(StableHlo.held (c : Thread nD τ) (Pipeline.ucRefs τ sig) (V4 m (oA m) c) ∗ Rest c)
  X _ := BI.emp
  Y _ := BI.emp
  Z c := iprop(Pipeline.unscopedRest (Ix := Unit) (Name := ℕ) (U := UR sig nD τ) (Lvl := ℕ) spec0 c (E3 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (dat0 (E3 m) c).Φ 0 from rfl]
    iintro ⟨-, -, Hr⟩
    iapply (Φ0_first (E3 m) c); iexact Hr
  hout c := by
    rw [Pipeline.ownSems0_none, show (pdats m 0 c).Φ (Fin.last _) = (dat0 (E3 m) c).Φ (Fin.last cfg0.N) from rfl]
    iintro Hr
    isplitr; · iempintro
    isplitr; · iempintro
    iapply (Φ0_last (E3 m) c); iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (fun b => V4 m (oA m) c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 1 over the thread state: entered from every buffer that outlives a call at the valuation before it, left at
    that valuation updated at the region's output array. -/
def reg1 : RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ Ln lvn 1 fun _ _ => rfl
  pre c := iprop(StableHlo.held (c : Thread nD τ) (Pipeline.ucRefs τ sig) (V7 m (oA m) c) ∗ Rest c)
  post c := iprop(StableHlo.held (c : Thread nD τ) (Pipeline.ucRefs τ sig) (V8 m (oB m) c) ∗ Rest c)
  X _ := BI.emp
  Y _ := BI.emp
  Z c := iprop(Pipeline.unscopedRest (Ix := Unit) (Name := ℕ) (U := UR sig nD τ) (Lvl := ℕ) spec1 c (E7 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (dat1 (E7 m) c).Φ 0 from rfl]
    iintro ⟨-, -, Hr⟩
    iapply (Φ1_first (E7 m) c); iexact Hr
  hout c := by
    rw [Pipeline.ownSems0_none, show (pdats m 1 c).Φ (Fin.last _) = (dat1 (E7 m) c).Φ (Fin.last cfg1.N) from rfl]
    iintro Hr
    isplitr; · iempintro
    isplitr; · iempintro
    iapply (Φ1_last (E7 m) c); iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (fun b => V8 m (oB m) c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 2 over the thread state: entered from every buffer that outlives a call at the valuation before it, left at
    that valuation updated at the region's output array. -/
def reg2 : RegionSeg (pcfgs (F := F)) adm (pdats m) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (E11 m) c).loose
  hwaits := Pipeline.hwaits_of_owed_zero _ _ _ _ Ln lvn 2 fun _ _ => rfl
  pre c := iprop(StableHlo.held (c : Thread nD τ) (Pipeline.ucRefs τ sig) (V11 m (oB m) c) ∗ Rest c)
  post c := iprop(StableHlo.held (c : Thread nD τ) (Pipeline.ucRefs τ sig) (V12 m (oC m) c) ∗ Rest c)
  X _ := BI.emp
  Y _ := BI.emp
  Z c := iprop(Pipeline.unscopedRest (Ix := Unit) (Name := ℕ) (U := UR sig nD τ) (Lvl := ℕ) spec2 c (E11 m c) ∗ ∃ r, prngReg c r)
  hentry c := by
    rw [Pipeline.ownSems0_none]
    have hsplit := Pipeline.arrays_of_unscopedBufs (p := 2) (pcfgs (F := F)) adm (pdats m) launch2.win launch2.arr_whole c
      ((pdats m 2 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = (dat2 (E11 m) c).Φ 0 from rfl]
    iintro ⟨-, -, Hr⟩
    iapply (Φ2_first (E11 m) c); iexact Hr
  hout c := by
    rw [Pipeline.ownSems0_none, show (pdats m 2 c).Φ (Fin.last _) = (dat2 (E11 m) c).Φ (Fin.last cfg2.N) from rfl]
    iintro Hr
    isplitr; · iempintro
    isplitr; · iempintro
    iapply (Φ2_last (E11 m) c); iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E11 m c) (fun b => V12 m (oC m) c b) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The run -/

/-- Every weakly fair execution of the program terminates without a fault, and every buffer that outlives a call ends
    at the last valuation of the chain. -/
theorem run_KI (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V18 m (oC m) c b) :=
  run_all m ρ (oC m) (pdats m)
    (reg0 m) (fun c => .rfl) (fun c => by rw [V4_oA]; exact .rfl)
    (reg1 m) (fun c => by rw [V7_oA]; exact .rfl) (fun c => by rw [V8_oB]; exact .rfl)
    (reg2 m) (fun c => by rw [V11_oB]; exact .rfl) (fun c => .rfl)

/-- The frame: the program runs and its argument arrays end unchanged. -/
theorem frame_KI (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c (Proc.devRef .tc main_arg0) (Finset.mem_filter.mpr ⟨StableHlo.devRef_mem_tcRefs main_arg0, by decide⟩)).trans (V18_main_arg0 m (oC m) c),
      (h c (Proc.devRef .tc main_arg1) (Finset.mem_filter.mpr ⟨StableHlo.devRef_mem_tcRefs main_arg1, by decide⟩)).trans (V18_main_arg1 m (oC m) c),
      (h c (Proc.devRef .tc main_arg2) (Finset.mem_filter.mpr ⟨StableHlo.devRef_mem_tcRefs main_arg2, by decide⟩)).trans (V18_main_arg2 m (oC m) c),
      (h c (Proc.devRef .tc main_arg3) (Finset.mem_filter.mpr ⟨StableHlo.devRef_mem_tcRefs main_arg3, by decide⟩)).trans (V18_main_arg3 m (oC m) c),
      (h c (Proc.devRef .tc main_arg4) (Finset.mem_filter.mpr ⟨StableHlo.devRef_mem_tcRefs main_arg4, by decide⟩)).trans (V18_main_arg4 m (oC m) c),
      (h c (Proc.devRef .tc main_arg5) (Finset.mem_filter.mpr ⟨StableHlo.devRef_mem_tcRefs main_arg5, by decide⟩)).trans (V18_main_arg5 m (oC m) c),
      (h c (Proc.devRef .tc main_arg6) (Finset.mem_filter.mpr ⟨StableHlo.devRef_mem_tcRefs main_arg6, by decide⟩)).trans (V18_main_arg6 m (oC m) c),
      (h c (Proc.devRef .tc main_arg7) (Finset.mem_filter.mpr ⟨StableHlo.devRef_mem_tcRefs main_arg7, by decide⟩)).trans (V18_main_arg7 m (oC m) c),
      (h c (Proc.devRef .tc main_arg8) (Finset.mem_filter.mpr ⟨StableHlo.devRef_mem_tcRefs main_arg8, by decide⟩)).trans (V18_main_arg8 m (oC m) c),
      (h c (Proc.devRef .tc main_arg9) (Finset.mem_filter.mpr ⟨StableHlo.devRef_mem_tcRefs main_arg9, by decide⟩)).trans (V18_main_arg9 m (oC m) c),
      (h c (Proc.devRef .tc main_arg10) (Finset.mem_filter.mpr ⟨StableHlo.devRef_mem_tcRefs main_arg10, by decide⟩)).trans (V18_main_arg10 m (oC m) c),
      (h c (Proc.devRef .tc main_arg11) (Finset.mem_filter.mpr ⟨StableHlo.devRef_mem_tcRefs main_arg11, by decide⟩)).trans (V18_main_arg11 m (oC m) c),
      (h c (Proc.devRef .tc main_arg12) (Finset.mem_filter.mpr ⟨StableHlo.devRef_mem_tcRefs main_arg12, by decide⟩)).trans (V18_main_arg12 m (oC m) c),
      (h c (Proc.devRef .tc main_arg13) (Finset.mem_filter.mpr ⟨StableHlo.devRef_mem_tcRefs main_arg13, by decide⟩)).trans (V18_main_arg13 m (oC m) c)⟩) (run_KI m ρ)

/-- The result array ends at the last valuation's contents, and the argument arrays end unchanged. -/
theorem result_KI (ρ : Dev nD → PrngReg) :
    θ_run defs (onTc (τ := τ) (main (F := F))) ⟨m, fun _ => 0, ρ⟩ (fun r => ∀ c : Dev nD,
      r.2.mem ((c.tc : Thread nD τ).loc main_v115) = V18 m (oC m) c main_v115
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c (Proc.devRef .tc main_v115) (Finset.mem_filter.mpr ⟨StableHlo.devRef_mem_tcRefs main_v115, by decide⟩),
      (h c (Proc.devRef .tc main_arg0) (Finset.mem_filter.mpr ⟨StableHlo.devRef_mem_tcRefs main_arg0, by decide⟩)).trans (V18_main_arg0 m (oC m) c),
      (h c (Proc.devRef .tc main_arg1) (Finset.mem_filter.mpr ⟨StableHlo.devRef_mem_tcRefs main_arg1, by decide⟩)).trans (V18_main_arg1 m (oC m) c),
      (h c (Proc.devRef .tc main_arg2) (Finset.mem_filter.mpr ⟨StableHlo.devRef_mem_tcRefs main_arg2, by decide⟩)).trans (V18_main_arg2 m (oC m) c),
      (h c (Proc.devRef .tc main_arg3) (Finset.mem_filter.mpr ⟨StableHlo.devRef_mem_tcRefs main_arg3, by decide⟩)).trans (V18_main_arg3 m (oC m) c),
      (h c (Proc.devRef .tc main_arg4) (Finset.mem_filter.mpr ⟨StableHlo.devRef_mem_tcRefs main_arg4, by decide⟩)).trans (V18_main_arg4 m (oC m) c),
      (h c (Proc.devRef .tc main_arg5) (Finset.mem_filter.mpr ⟨StableHlo.devRef_mem_tcRefs main_arg5, by decide⟩)).trans (V18_main_arg5 m (oC m) c),
      (h c (Proc.devRef .tc main_arg6) (Finset.mem_filter.mpr ⟨StableHlo.devRef_mem_tcRefs main_arg6, by decide⟩)).trans (V18_main_arg6 m (oC m) c),
      (h c (Proc.devRef .tc main_arg7) (Finset.mem_filter.mpr ⟨StableHlo.devRef_mem_tcRefs main_arg7, by decide⟩)).trans (V18_main_arg7 m (oC m) c),
      (h c (Proc.devRef .tc main_arg8) (Finset.mem_filter.mpr ⟨StableHlo.devRef_mem_tcRefs main_arg8, by decide⟩)).trans (V18_main_arg8 m (oC m) c),
      (h c (Proc.devRef .tc main_arg9) (Finset.mem_filter.mpr ⟨StableHlo.devRef_mem_tcRefs main_arg9, by decide⟩)).trans (V18_main_arg9 m (oC m) c),
      (h c (Proc.devRef .tc main_arg10) (Finset.mem_filter.mpr ⟨StableHlo.devRef_mem_tcRefs main_arg10, by decide⟩)).trans (V18_main_arg10 m (oC m) c),
      (h c (Proc.devRef .tc main_arg11) (Finset.mem_filter.mpr ⟨StableHlo.devRef_mem_tcRefs main_arg11, by decide⟩)).trans (V18_main_arg11 m (oC m) c),
      (h c (Proc.devRef .tc main_arg12) (Finset.mem_filter.mpr ⟨StableHlo.devRef_mem_tcRefs main_arg12, by decide⟩)).trans (V18_main_arg12 m (oC m) c),
      (h c (Proc.devRef .tc main_arg13) (Finset.mem_filter.mpr ⟨StableHlo.devRef_mem_tcRefs main_arg13, by decide⟩)).trans (V18_main_arg13 m (oC m) c)⟩) (run_KI m ρ)

end Cert.KernelIdeal.Hand

end
-- ==== Proof.KerSide.lean ====
import proofs.«150125_j89541478187016_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.Lib.DynamicIndex
import Idealize.ShloMosaic.Lib.KernelVsHost
import Mathlib.Tactic

/-!
# The host operations around the three propagation regions, read as functions of the arguments

The program computes, before the first region: the source and target lists (the edge list's two rows, each followed by
the self loops 0 … 15134), the degrees (a scatter-add of ones at the targets), their reciprocal square roots, the edge
weights (the product of the two gathered reciprocal square roots), the dense 15360 × 15360 adjacency (a scatter-add of
the edge weights at (target, source)), the row mask (row < 15135) and the first region's right operand (the node
features, node-major, padded with zero rows, eight batches side by side). After each region: a product with the
layer's weights, the bias, a maximum with zero, the row mask. At the end: the three layers' contractions with the
three columns of the last weight vector, their sum, and two dense layers with a log-softmax.

Everything here is at the extended reals (every operation exact, narrowing conversions the identity).
-/

set_option maxRecDepth 16384

noncomputable section

namespace Cert.KernelIdeal.KerSide

open Cert.KernelIdeal Cert.KernelIdeal.Gen
open Idealize.ShloMosaic Idealize.ShloMosaic.TcCoe Idealize.ShloMosaic.StableHlo Idealize.ShloMosaic.ValueIdx
open scoped BigOperators

/-- The fold of a line of operations, one rewrite at a time: an operation's result at its own buffer is its function of
    its operands' contents, at any other buffer what was there (also inside the list of pieces of a concatenation). -/
macro "results_rw" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

/-- Reads a fold at a buffer: one simplification pass, then the rewrites for what a pass leaves under a list. -/
macro "read_after" : tactic => `(tactic| (after_results_simp; try results_rw))

abbrev E := Idealize.ShloMosaic.Ideal

/-! ## The shared prefix: sources, targets, degrees, edge weights -/

section Prefix
variable (ei : IVec S2x242160 32)

/-- The sources: row 0 of the edge list, then the self loops 0 … 15134. -/
def srcRaw : IVec S257295 32 :=
  concatenate S257295 0
    [⟨S242160, shapeCast S242160 (extractStridedSlice S1x242160 ![0, 0] ei slices_S2x242160_S1x242160_0_0) shapeCasts_S1x242160_S242160⟩,
     ⟨S15135, iotaInDim S15135 32 0⟩] concatenates_S242160_S15135_S257295_d0

/-- The targets: row 1 of the edge list, then the self loops 0 … 15134. -/
def dstRaw : IVec S257295 32 :=
  concatenate S257295 0
    [⟨S242160, shapeCast S242160 (extractStridedSlice S1x242160 ![1, 0] ei slices_S2x242160_S1x242160_1_0) shapeCasts_S1x242160_S242160⟩,
     ⟨S15135, iotaInDim S15135 32 0⟩] concatenates_S242160_S15135_S257295_d0

/-- A negative index wrapped by adding `k` (the extent of the axis it indexes). -/
def wrapBy (k : BitVec 32) (v : IVec S257295 32) : IVec S257295 32 :=
  select (cmpi .slt v (broadcastInDim S257295 ![] bcast_S_S257295 (constantI S_ 32 0#32)))
    (addi v (broadcastInDim S257295 ![] bcast_S_S257295 (constantI S_ 32 k))) v

/-- The wrapped sources (extent 15135). -/
def srcK : IVec S257295 32 := wrapBy 15135#32 (srcRaw ei)
/-- The wrapped targets (extent 15135). -/
def dstK : IVec S257295 32 := wrapBy 15135#32 (dstRaw ei)

/-- The degrees: ones scatter-added into zeros at the (unwrapped) targets. -/
def degK : FVec E S15135 .f32 :=
  Host.scatterAdd scatter_S15135_S257295x1_S257295_n_0_0_1
    (broadcastInDim S15135 ![] bcast_S_S15135 (constant (F := E) S_ .f32 0x00000000#32))
    (broadcastInDim S257295x1 ![0] bcast_S257295_S257295x1_0 (dstRaw ei))
    (broadcastInDim S257295 ![] bcast_S_S257295 (constant (F := E) S_ .f32 0x3F800000#32))

/-- The reciprocal square roots of the degrees. -/
def dinvK : FVec E S15135 .f32 := Host.rsqrt (degK ei)

/-- The edge weights: the reciprocal square roots gathered at the wrapped sources times those at the wrapped targets. -/
def normK : FVec E S257295 .f32 :=
  mulf (Host.gather gather_S15135_S257295x1_S257295_n_0_n_n_0_1_1 (dinvK ei) (broadcastInDim S257295x1 ![0] bcast_S257295_S257295x1_0 (srcK ei)))
       (Host.gather gather_S15135_S257295x1_S257295_n_0_n_n_0_1_1 (dinvK ei) (broadcastInDim S257295x1 ![0] bcast_S257295_S257295x1_0 (dstK ei)))

/-- The adjacency's index pairs: (target, source), each wrapped by the adjacency's extent 15360. -/
def adjIdxK : IVec S257295x2 32 :=
  concatenate S257295x2 1
    [⟨S257295x1, broadcastInDim S257295x1 ![0] bcast_S257295_S257295x1_0 (wrapBy 15360#32 (dstRaw ei))⟩,
     ⟨S257295x1, broadcastInDim S257295x1 ![0] bcast_S257295_S257295x1_0 (wrapBy 15360#32 (srcRaw ei))⟩]
    concatenates_S257295x1_S257295x1_S257295x2_d1

/-- The dense adjacency: the edge weights scatter-added into zeros at (target, source). -/
def adjK : FVec E S15360x15360 .f32 :=
  Host.scatterAdd scatter_S15360x15360_S257295x2_S257295_n_01_01_1
    (broadcastInDim S15360x15360 ![] bcast_S_S15360x15360 (constant (F := E) S_ .f32 0x00000000#32))
    (adjIdxK ei) (normK ei)

end Prefix

/-- The row mask as a column: 1 on rows below 15135, 0 on the padding rows. -/
def maskK : FVec E S15360x1 .f32 :=
  broadcastInDim S15360x1 ![0] bcast_S15360_S15360x1_0
    (uitofp (F := E) .f32 (cmpi .slt (iotaInDim S15360 32 0) (broadcastInDim S15360 ![] bcast_S_S15360 (constantI S_ 32 15135#32))))

/-- The first region's right operand: the features node-major, 225 zero rows appended, the eight batches side by side. -/
def cols0K (x : FVec E S8x15135x64 .f32) : FVec E S15360x512 .f32 :=
  shapeCast S15360x512
    (pad S15360x8x64 ![0, 0, 0] ![225, 0, 0] ![0, 0, 0] (transpose S15135x8x64 [1, 0, 2] x transposes_S8x15135x64_S15135x8x64_1_0_2)
      (sitofp (F := E) .f32 (constantI S_ 32 0#32)) pads_S15135x8x64_S15360x8x64_02250_000_000 h_S_)
    shapeCasts_S15360x8x64_S15360x512

/-! ## One layer after a region: weights, bias, maximum with zero, row mask -/

/-- The layer after the first region (feature width 64): the region's result regrouped to rows (node, batch), times the
    weights, plus the bias, maximum with zero, regrouped to rows by node, times the row mask. -/
def layer64K (R : FVec E S15360x512 .f32) (W : FVec E S64x128 .f32) (b : FVec E S128 .f32) (mk : FVec E S15360x1 .f32) :
    FVec E S15360x1024 .f32 :=
  mulf
    (shapeCast S15360x1024
      (maximumf
        (addf
          (Host.dotGeneral dot_S122880x64_S64x128_S122880x128_1_0_0_1_n_n none (shapeCast S122880x64 R shapeCasts_S15360x512_S122880x64) W)
          (broadcastInDim S122880x128 ![0, 1] bcast_S1x128_S122880x128_0_1 (broadcastInDim S1x128 ![1] bcast_S128_S1x128_1 b)))
        (broadcastInDim S122880x128 ![] bcast_S_S122880x128 (constant (F := E) S_ .f32 0x00000000#32)))
      shapeCasts_S122880x128_S15360x1024)
    (broadcastInDim S15360x1024 ![0, 1] bcast_S15360x1_S15360x1024_0_1 mk)

/-- The layer after the second and the third region (feature width 128). -/
def layer128K (R : FVec E S15360x1024 .f32) (W : FVec E S128x128 .f32) (b : FVec E S128 .f32) (mk : FVec E S15360x1 .f32) :
    FVec E S15360x1024 .f32 :=
  mulf
    (shapeCast S15360x1024
      (maximumf
        (addf
          (Host.dotGeneral dot_S122880x128_S128x128_S122880x128_1_0_0_1_n_n none (shapeCast S122880x128 R shapeCasts_S15360x1024_S122880x128) W)
          (broadcastInDim S122880x128 ![0, 1] bcast_S1x128_S122880x128_0_1 (broadcastInDim S1x128 ![1] bcast_S128_S1x128_1 b)))
        (broadcastInDim S122880x128 ![] bcast_S_S122880x128 (constant (F := E) S_ .f32 0x00000000#32)))
      shapeCasts_S122880x128_S15360x1024)
    (broadcastInDim S15360x1024 ![0, 1] bcast_S15360x1_S15360x1024_0_1 mk)

/-! ## The readout: the three layers against the three columns of the last weights -/

/-- Column `l` of the last weights read as a 128 × 3 matrix. -/
def wfcCol (Wfc : FVec E S384x1 .f32) (off : Fin 2 → ℕ) (h : S128x3.Slices off S128x1) : FVec E S128x1 .f32 :=
  extractStridedSlice S128x1 off (shapeCast S128x3 Wfc shapeCasts_S384x1_S128x3) h

/-- One layer's activations (rows by node, eight batches side by side) against one column: a value per node and batch. -/
def gPart (H : FVec E S15360x1024 .f32) (col : FVec E S128x1 .f32) : FVec E S15360x8 .f32 :=
  shapeCast S15360x8
    (Host.dotGeneral dot_S122880x128_S128x1_S122880x1_1_0_0_1_n_n none (shapeCast S122880x128 H shapeCasts_S15360x1024_S122880x128) col)
    shapeCasts_S122880x1_S15360x8

/-- The readout per batch and node (padding rows cut): ((g₁ + g₂) + g₃) + the bias. -/
def gK (H1 H2 H3 : FVec E S15360x1024 .f32) (Wfc : FVec E S384x1 .f32) (bfc : FVec E S1 .f32) : FVec E S8x15135 .f32 :=
  extractStridedSlice S8x15135 ![0, 0]
    (transpose S8x15360 [1, 0]
      (addf
        (addf
          (addf (gPart H1 (wfcCol Wfc ![0, 0] slices_S128x3_S128x1_0_0)) (gPart H2 (wfcCol Wfc ![0, 1] slices_S128x3_S128x1_0_1)))
          (gPart H3 (wfcCol Wfc ![0, 2] slices_S128x3_S128x1_0_2)))
        (broadcastInDim S15360x8 ![] bcast_S_S15360x8 (shapeCast S_ bfc shapeCasts_S1_S_)))
      transposes_S15360x8_S8x15360_1_0)
    slices_S8x15360_S8x15135_0_0

/-! ## The last two dense layers and the log-softmax, as one function of the readout -/

/-- From the readout `g` (batch by node): `g` times the first dense weights plus its bias, maximum with zero, times the
    second dense weights plus its bias, then the log-softmax along the ten classes (the row maximum subtracted, minus
    the logarithm of the sum of the exponentials). -/
def tailK (g : FVec E S8x15135 .f32) (Wl1 : FVec E S15135x512 .f32) (bl1 : FVec E S512 .f32)
    (Wl2 : FVec E S512x10 .f32) (bl2 : FVec E S10 .f32) : FVec E S8x10 .f32 :=
  let z2 : FVec E S8x10 .f32 :=
    addf
      (Host.dotGeneral dot_S8x512_S512x10_S8x10_1_0_0_1_n_n none
        (maximumf
          (addf (Host.dotGeneral dot_S8x15135_S15135x512_S8x512_1_0_0_1_n_n none g Wl1)
            (broadcastInDim S8x512 ![0, 1] bcast_S1x512_S8x512_0_1 (broadcastInDim S1x512 ![1] bcast_S512_S1x512_1 bl1)))
          (broadcastInDim S8x512 ![] bcast_S_S8x512 (constant (F := E) S_ .f32 0x00000000#32)))
        Wl2)
      (broadcastInDim S8x10 ![0, 1] bcast_S1x10_S8x10_0_1 (broadcastInDim S1x10 ![1] bcast_S10_S1x10_1 bl2))
  let sh : FVec E S8x10 .f32 :=
    subf z2
      (broadcastInDim S8x10 ![0, 1] bcast_S8x1_S8x10_0_1
        (broadcastInDim S8x1 ![0] bcast_S8_S8x1_0
          (maximumf (broadcastInDim S8 ![] bcast_S_S8 (constant (F := E) S_ .f32 0xFF800000#32))
            (Host.reduce FloatOps.maximumf z2 (constant (F := E) S_ .f32 0xFF800000#32) reducesTo_S8x10_S8_d1 h_S_))))
  subf sh
    (broadcastInDim S8x10 ![0, 1] bcast_S8x1_S8x10_0_1
      (Host.log
        (broadcastInDim S8x1 ![0] bcast_S8_S8x1_0
          (Host.reduceAdd (Host.exp sh) (constant (F := E) S_ .f32 0x00000000#32) reducesTo_S8x10_S8_d1 h_S_))))

/-! ## The adjacency at an entry -/

section Landing

/-- An update lands at `i` exactly when on every axis its start plus its window coordinate is `i`'s coordinate. -/
theorem resultIdx?_eq_some_iff {s si u : Shape} {w : Nat} (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show _ = ((Int.toNat _ : Nat) : Int)
      omega
    · intro hh
      funext a
      apply Fin.ext
      have := hh a
      show Int.toNat _ = _
      omega
  · rename_i h
    constructor
    · intro hh; cases hh
    · intro hh
      exact absurd (fun a => by have := hh a; have := (i a).isLt; omega) h

/-- The adjacency scatter's dimension numbers: both axes inserted, the index pair along axis 1. -/
abbrev d2 := scatter_S15360x15360_S257295x2_S257295_n_01_01_1

variable (idx : IVec S257295x2 32) (j : S257295.Idx)

theorem d2_start0 : d2.start j idx 0 = (idx (ix2 (j 0) 0)).toInt := by
  unfold ScatterDims.start
  rw [dif_pos (by decide)]
  refine congrArg (fun k => (idx k).toInt) (funext fun b => ?_)
  match b with
  | ⟨0, _⟩ => rfl
  | ⟨1, _⟩ => rfl
theorem d2_start1 : d2.start j idx 1 = (idx (ix2 (j 0) 1)).toInt := by
  unfold ScatterDims.start
  rw [dif_pos (by decide)]
  refine congrArg (fun k => (idx k).toInt) (funext fun b => ?_)
  match b with
  | ⟨0, _⟩ => rfl
  | ⟨1, _⟩ => rfl

/-- Update `j` lands at entry (r, s) exactly when its index pair, read signed, is (r, s). -/
theorem d2_lands_iff (r s : Fin 15360) :
    d2.resultIdx? j idx = some (ix2 r s) ↔ (idx (ix2 (j 0) 0)).toInt = (r.val : Int) ∧ (idx (ix2 (j 0) 1)).toInt = (s.val : Int) := by
  rw [resultIdx?_eq_some_iff]
  have hw0 : d2.window j 0 = 0 := rfl
  have hw1 : d2.window j 1 = 0 := rfl
  constructor
  · intro h
    have h0 : d2.start j idx 0 + ((d2.window j 0 : ℕ) : ℤ) = ((r.val : ℕ) : ℤ) := h (0 : Fin 2)
    have h1 : d2.start j idx 1 + ((d2.window j 1 : ℕ) : ℤ) = ((s.val : ℕ) : ℤ) := h (1 : Fin 2)
    rw [d2_start0, hw0] at h0; rw [d2_start1, hw1] at h1
    exact ⟨by simpa using h0, by simpa using h1⟩
  · rintro ⟨h0, h1⟩ a
    match a with
    | ⟨0, _⟩ =>
      show d2.start j idx 0 + ((d2.window j 0 : ℕ) : ℤ) = ((r.val : ℕ) : ℤ)
      rw [d2_start0, hw0]; simpa using h0
    | ⟨1, _⟩ =>
      show d2.start j idx 1 + ((d2.window j 1 : ℕ) : ℤ) = ((s.val : ℕ) : ℤ)
      rw [d2_start1, hw1]; simpa using h1

end Landing

section Adj
variable (ei : IVec S2x242160 32)

/-- The adjacency at an entry: zero plus the weights of the edges whose index pair lands there. -/
theorem adjK_apply (i : S15360x15360.Idx) :
    adjK ei i = 0 + ∑ j ∈ Finset.univ.filter (fun j => d2.resultIdx? j (adjIdxK ei) = some i), normK ei j := by
  show Idealize.ShloMosaic.Ideal.ofBits .f32 0x00000000#32 + _ = _
  rw [Idealize.ShloMosaic.Ideal.ofBits_zero_f32]

/-- The index pair's first component is the wrapped target. -/
theorem adjIdxK_apply0 (j : S257295.Idx) : adjIdxK ei (ix2 (j 0) 0) = wrapBy 15360#32 (dstRaw ei) j := by
  unfold adjIdxK
  refine (concatenate_pair_apply_left (t := S257295x2) (s₁ := S257295x1) (s₂ := S257295x1) (1 : Fin 2) _ _ _
    (ix2 (j 0) (0 : Fin 2)) rfl (ix2 (j 0) (0 : Fin 1)) (fun b => ?_)).trans ?_
  · match b with
    | ⟨0, _⟩ => rfl
    | ⟨1, _⟩ => rfl
  refine broadcastInDim_apply _ _ _ (ix2 (j 0) (0 : Fin 1)) j (fun a => ?_)
  match a with
  | ⟨0, _⟩ => rfl

/-- The index pair's second component is the wrapped source. -/
theorem adjIdxK_apply1 (j : S257295.Idx) : adjIdxK ei (ix2 (j 0) 1) = wrapBy 15360#32 (srcRaw ei) j := by
  unfold adjIdxK
  refine (concatenate_pair_apply_right (t := S257295x2) (s₁ := S257295x1) (s₂ := S257295x1) (1 : Fin 2) _ _ _
    (ix2 (j 0) (1 : Fin 2)) rfl rfl (ix2 (j 0) (0 : Fin 1)) (fun b hb => ?_) rfl).trans ?_
  · match b with
    | ⟨0, _⟩ => rfl
    | ⟨1, _⟩ => exact absurd rfl hb
  refine broadcastInDim_apply _ _ _ (ix2 (j 0) (0 : Fin 1)) j (fun a => ?_)
  match a with
  | ⟨0, _⟩ => rfl

/-- A wrapped index that is not negative is the index itself. -/
theorem wrapBy_of_nonneg (k : BitVec 32) (v : IVec S257295 32) (j : S257295.Idx) (h : 0 ≤ (v j).toInt) : wrapBy k v j = v j :=
  select_slt_zero_of_nonneg v _ _ j h

/-- The sources below the edge count are row 0 of the edge list. -/
theorem srcRaw_apply_lt (j : S257295.Idx) (h : (j 0).val < 242160) :
    srcRaw ei j = ei (ix2 (0 : Fin 2) (⟨(j 0).val, h⟩ : Fin 242160)) := by
  unfold srcRaw
  refine (concatenate_pair_apply_left (t := S257295) (s₁ := S242160) (s₂ := S15135) (0 : Fin 1) _ _ _ j rfl
    (ix1 (⟨(j 0).val, h⟩ : Fin 242160)) (fun b => ?_)).trans ?_
  · match b with
    | ⟨0, _⟩ => rfl
  refine (shapeCast_apply _ _ (ix1 (⟨(j 0).val, h⟩ : Fin 242160)) (ix2 (0 : Fin 1) (⟨(j 0).val, h⟩ : Fin 242160)) ?_).trans ?_
  · rw [Shape.rowMajor_val_two, Shape.rowMajor_val_one]; show 0 * 242160 + (j 0).val = (j 0).val; omega
  refine extractStridedSlice_apply _ _ _ (ix2 (0 : Fin 1) (⟨(j 0).val, h⟩ : Fin 242160))
    (ix2 (0 : Fin 2) (⟨(j 0).val, h⟩ : Fin 242160)) (fun a => ?_)
  match a with
  | ⟨0, _⟩ => rfl
  | ⟨1, _⟩ => show (j 0).val = 0 + (j 0).val; omega

/-- The targets below the edge count are row 1 of the edge list. -/
theorem dstRaw_apply_lt (j : S257295.Idx) (h : (j 0).val < 242160) :
    dstRaw ei j = ei (ix2 (1 : Fin 2) (⟨(j 0).val, h⟩ : Fin 242160)) := by
  unfold dstRaw
  refine (concatenate_pair_apply_left (t := S257295) (s₁ := S242160) (s₂ := S15135) (0 : Fin 1) _ _ _ j rfl
    (ix1 (⟨(j 0).val, h⟩ : Fin 242160)) (fun b => ?_)).trans ?_
  · match b with
    | ⟨0, _⟩ => rfl
  refine (shapeCast_apply _ _ (ix1 (⟨(j 0).val, h⟩ : Fin 242160)) (ix2 (0 : Fin 1) (⟨(j 0).val, h⟩ : Fin 242160)) ?_).trans ?_
  · rw [Shape.rowMajor_val_two, Shape.rowMajor_val_one]; show 0 * 242160 + (j 0).val = (j 0).val; omega
  refine extractStridedSlice_apply _ _ _ (ix2 (0 : Fin 1) (⟨(j 0).val, h⟩ : Fin 242160))
    (ix2 (1 : Fin 2) (⟨(j 0).val, h⟩ : Fin 242160)) (fun a => ?_)
  match a with
  | ⟨0, _⟩ => rfl
  | ⟨1, _⟩ => show (j 0).val = 0 + (j 0).val; omega

/-- From the edge count on, the sources are the self loops 0, 1, …. -/
theorem srcRaw_apply_ge (j : S257295.Idx) (h : 242160 ≤ (j 0).val) : srcRaw ei j = BitVec.ofNat 32 ((j 0).val - 242160) := by
  unfold srcRaw
  have hj : (j 0).val < 257295 := (j 0).isLt
  refine (concatenate_pair_apply_right (t := S257295) (s₁ := S242160) (s₂ := S15135) (0 : Fin 1) _ _ _ j rfl rfl
    (ix1 (⟨(j 0).val - 242160, by omega⟩ : Fin 15135)) (fun b hb => ?_) ?_).trans rfl
  · match b with
    | ⟨0, _⟩ => exact absurd rfl hb
  · show (j 0).val - 242160 + 242160 = (j 0).val; omega

/-- From the edge count on, the targets are the self loops 0, 1, …. -/
theorem dstRaw_apply_ge (j : S257295.Idx) (h : 242160 ≤ (j 0).val) : dstRaw ei j = BitVec.ofNat 32 ((j 0).val - 242160) := by
  unfold dstRaw
  have hj : (j 0).val < 257295 := (j 0).isLt
  refine (concatenate_pair_apply_right (t := S257295) (s₁ := S242160) (s₂ := S15135) (0 : Fin 1) _ _ _ j rfl rfl
    (ix1 (⟨(j 0).val - 242160, by omega⟩ : Fin 15135)) (fun b hb => ?_) ?_).trans rfl
  · match b with
    | ⟨0, _⟩ => exact absurd rfl hb
  · show (j 0).val - 242160 + 242160 = (j 0).val; omega

variable (hr : ∀ i : S2x242160.Idx, 0 ≤ (ei i).toInt ∧ (ei i).toInt < 15135)
include hr

/-- With every edge index a node, every source is a node. -/
theorem srcRaw_range (j : S257295.Idx) : 0 ≤ (srcRaw ei j).toInt ∧ (srcRaw ei j).toInt < 15135 := by
  by_cases h : (j 0).val < 242160
  · rw [srcRaw_apply_lt ei j h]; exact hr _
  · have hj := (j 0).isLt
    have hj' : (j 0).val < 257295 := hj
    rw [srcRaw_apply_ge ei j (by omega), toInt_ofNat_of_lt (by omega)]
    omega

/-- With every edge index a node, every target is a node. -/
theorem dstRaw_range (j : S257295.Idx) : 0 ≤ (dstRaw ei j).toInt ∧ (dstRaw ei j).toInt < 15135 := by
  by_cases h : (j 0).val < 242160
  · rw [dstRaw_apply_lt ei j h]; exact hr _
  · have hj := (j 0).isLt
    have hj' : (j 0).val < 257295 := hj
    rw [dstRaw_apply_ge ei j (by omega), toInt_ofNat_of_lt (by omega)]
    omega

/-- With every edge index a node, the wrapped sources and targets are the sources and targets. -/
theorem srcK_eq_raw (j : S257295.Idx) : srcK ei j = srcRaw ei j := wrapBy_of_nonneg _ _ j (srcRaw_range ei hr j).1
theorem dstK_eq_raw (j : S257295.Idx) : dstK ei j = dstRaw ei j := wrapBy_of_nonneg _ _ j (dstRaw_range ei hr j).1

/-- With every edge index a node: the adjacency at (r, s) is zero plus the weights of the edges from `s` to `r`. -/
theorem adjK_apply_of_range (r s : Fin 15360) :
    adjK ei (ix2 r s)
      = 0 + ∑ j ∈ Finset.univ.filter (fun j : S257295.Idx => (dstRaw ei j).toInt = (r.val : Int) ∧ (srcRaw ei j).toInt = (s.val : Int)),
          normK ei j := by
  rw [adjK_apply]
  refine congrArg (0 + ·) (Finset.sum_congr (Finset.filter_congr fun j _ => ?_) fun _ _ => rfl)
  rw [d2_lands_iff, adjIdxK_apply0, adjIdxK_apply1, wrapBy_of_nonneg _ _ j (dstRaw_range ei hr j).1,
    wrapBy_of_nonneg _ _ j (srcRaw_range ei hr j).1]

end Adj

/-! ## The first region's right operand and the row mask at an entry -/

section Cols
variable (x : FVec E S8x15135x64 .f32)

/-- Column 64·b + f of row n is feature f of node n in batch b, and zero on the padding rows. -/
theorem cols0K_apply (n : Fin 15360) (b : Fin 8) (f : Fin 64) :
    cols0K x (ix2 n (⟨64 * b.val + f.val, by omega⟩ : Fin 512))
      = if h : n.val < 15135 then x (ix3 b (⟨n.val, h⟩ : Fin 15135) f) else 0 := by
  unfold cols0K
  refine (shapeCast_apply _ _ (ix2 n (⟨64 * b.val + f.val, by omega⟩ : Fin 512)) (ix3 n b f) ?_).trans ?_
  · rw [Shape.rowMajor_val_three, Shape.rowMajor_val_two]
    show (n.val * 8 + b.val) * 64 + f.val = n.val * 512 + (64 * b.val + f.val)
    omega
  split
  · rename_i h
    refine (pad_apply_of_inside _ _ _ _ _ _ _ (ix3 n b f) (ix3 (⟨n.val, h⟩ : Fin 15135) b f) (fun a => ?_)).trans ?_
    · match a with
      | ⟨0, _⟩ => show n.val = 0 + n.val * (0 + 1); omega
      | ⟨1, _⟩ => show b.val = 0 + b.val * (0 + 1); omega
      | ⟨2, _⟩ => show f.val = 0 + f.val * (0 + 1); omega
    refine transpose_apply _ _ _ (ix3 (⟨n.val, h⟩ : Fin 15135) b f) (ix3 b (⟨n.val, h⟩ : Fin 15135) f) (fun a => ?_)
    match a with
    | ⟨0, _⟩ => rfl
    | ⟨1, _⟩ => rfl
    | ⟨2, _⟩ => rfl
  · rename_i h
    refine (pad_apply_of_not_inside _ _ _ _ _ _ _ (ix3 n b f) (0 : Fin 3) (fun hh => ?_)).trans ?_
    · have h3 : (n.val - 0) / (0 + 1) < 15135 := hh.2.2
      simp at h3; omega
    show ((((0#32 : BitVec 32).toInt : ℝ)) : EReal) = 0
    simp

end Cols

/-- The row mask: one on the rows below 15135, zero on the padding rows. -/
theorem maskK_apply (n : Fin 15360) : maskK (ix2 n (0 : Fin 1)) = if n.val < 15135 then 1 else 0 := by
  unfold maskK
  refine (broadcastInDim_apply _ _ _ (ix2 n (0 : Fin 1)) (ix1 n) (fun a => ?_)).trans ?_
  · match a with
    | ⟨0, _⟩ => rfl
  show ((((BitVec.ofBool ((BitVec.ofNat 32 n.val).slt 15135#32)).toNat : ℝ)) : EReal) = _
  have hn : (BitVec.ofNat 32 n.val).toInt = n.val := toInt_ofNat_of_lt (by have := n.isLt; omega)
  have hc : (15135#32 : BitVec 32).toInt = 15135 := by decide
  by_cases h : n.val < 15135
  · rw [if_pos h]
    have : (BitVec.ofNat 32 n.val).slt 15135#32 = true := by
      simp only [BitVec.slt, hn, hc, decide_eq_true_eq]; omega
    rw [this]; simp
  · rw [if_neg h]
    have : (BitVec.ofNat 32 n.val).slt 15135#32 = false := by
      simp only [BitVec.slt, hn, hc, decide_eq_false_iff_not]; omega
    rw [this]; simp

/-! ## One layer at an entry -/

section Layer64
variable (R : FVec E S15360x512 .f32) (W : FVec E S64x128 .f32) (bb : FVec E S128 .f32) (mk : FVec E S15360x1 .f32)

/-- The layer at node n, batch b, output feature h: the region's row n, columns 64·b + f, against the weights' column h,
    plus the bias, maximum with zero, times the row mask (in this order of factors). -/
theorem layer64K_apply (n : Fin 15360) (b : Fin 8) (h : Fin 128) :
    layer64K R W bb mk (ix2 n (⟨128 * b.val + h.val, by omega⟩ : Fin 1024))
      = max ((∑ f : Fin 64, R (ix2 n (⟨64 * b.val + f.val, by omega⟩ : Fin 512)) * W (ix2 f h)) + bb (ix1 h)) 0
          * mk (ix2 n (0 : Fin 1)) := by
  unfold layer64K
  have hq : 8 * n.val + b.val < 122880 := by omega
  have e3 : broadcastInDim S15360x1024 ![0, 1] bcast_S15360x1_S15360x1024_0_1 mk (ix2 n (⟨128 * b.val + h.val, by omega⟩ : Fin 1024))
      = mk (ix2 n (0 : Fin 1)) := by
    refine broadcastInDim_apply _ _ _ _ (ix2 n (0 : Fin 1)) (fun a => ?_)
    match a with
    | ⟨0, _⟩ => rfl
    | ⟨1, _⟩ => rfl
  have eb : broadcastInDim S122880x128 ![0, 1] bcast_S1x128_S122880x128_0_1 (broadcastInDim S1x128 ![1] bcast_S128_S1x128_1 bb)
      (ix2 (⟨8 * n.val + b.val, hq⟩ : Fin 122880) h) = bb (ix1 h) := by
    refine (broadcastInDim_apply _ _ _ _ (ix2 (0 : Fin 1) h) (fun a => ?_)).trans ?_
    · match a with
      | ⟨0, _⟩ => rfl
      | ⟨1, _⟩ => rfl
    refine broadcastInDim_apply _ _ _ _ (ix1 h) (fun a => ?_)
    match a with
    | ⟨0, _⟩ => rfl
  have ed : Host.dotGeneral dot_S122880x64_S64x128_S122880x128_1_0_0_1_n_n none (shapeCast S122880x64 R shapeCasts_S15360x512_S122880x64) W (ix2 (⟨8 * n.val + b.val, hq⟩ : Fin 122880) h)
      = ∑ f : Fin 64, R (ix2 n (⟨64 * b.val + f.val, by omega⟩ : Fin 512)) * W (ix2 f h) := by
    show FloatOps.dotGeneral dot_S122880x64_S64x128_S122880x128_1_0_0_1_n_n none .single _ _ _ = _
    rw [Idealize.ShloMosaic.Ideal.dotGeneral_apply]
    refine Fintype.sum_equiv (contrEquiv1 dot_S122880x64_S64x128_S122880x128_1_0_0_1_n_n 64 rfl rfl) _ _ (fun k => ?_)
    have hk : (k ⟨0, by decide⟩).val < 64 := (k ⟨0, by decide⟩).isLt
    have el : shapeCast S122880x64 R shapeCasts_S15360x512_S122880x64 (dot_S122880x64_S64x128_S122880x128_1_0_0_1_n_n.lhsIdx (ix2 (⟨8 * n.val + b.val, hq⟩ : Fin 122880) h) k)
        = R (ix2 n (⟨64 * b.val + (k ⟨0, by decide⟩).val, by omega⟩ : Fin 512)) := by
      refine shapeCast_apply _ _ _ _ ?_
      rw [Shape.rowMajor_val_two, Shape.rowMajor_val_two]
      show n.val * 512 + (64 * b.val + (k ⟨0, by decide⟩).val) = (8 * n.val + b.val) * 64 + (k ⟨0, by decide⟩).val
      omega
    have er : dot_S122880x64_S64x128_S122880x128_1_0_0_1_n_n.rhsIdx (ix2 (⟨8 * n.val + b.val, hq⟩ : Fin 122880) h) k
        = ix2 ((k ⟨0, by decide⟩).cast rfl : Fin 64) h := by
      funext a
      match a with
      | ⟨0, _⟩ => rfl
      | ⟨1, _⟩ => rfl
    rw [el, er]
    rfl
  show shapeCast S15360x1024 _ shapeCasts_S122880x128_S15360x1024 _ * _ = _
  rw [e3]
  refine congrArg (· * mk (ix2 n (0 : Fin 1))) ?_
  refine (shapeCast_apply _ _ _ (ix2 (⟨8 * n.val + b.val, hq⟩ : Fin 122880) h) ?_).trans ?_
  · rw [Shape.rowMajor_val_two, Shape.rowMajor_val_two]
    show (8 * n.val + b.val) * 128 + h.val = n.val * 1024 + (128 * b.val + h.val)
    omega
  show max (Host.dotGeneral _ none _ W _ + _) (Idealize.ShloMosaic.Ideal.ofBits .f32 0x00000000#32) = _
  rw [ed, eb, Idealize.ShloMosaic.Ideal.ofBits_zero_f32]

end Layer64

section Layer128
variable (R : FVec E S15360x1024 .f32) (W : FVec E S128x128 .f32) (bb : FVec E S128 .f32) (mk : FVec E S15360x1 .f32)

/-- The layer at node n, batch b, output feature h: the region's row n, columns 128·b + f, against the weights' column h,
    plus the bias, maximum with zero, times the row mask (in this order of factors). -/
theorem layer128K_apply (n : Fin 15360) (b : Fin 8) (h : Fin 128) :
    layer128K R W bb mk (ix2 n (⟨128 * b.val + h.val, by omega⟩ : Fin 1024))
      = max ((∑ f : Fin 128, R (ix2 n (⟨128 * b.val + f.val, by omega⟩ : Fin 1024)) * W (ix2 f h)) + bb (ix1 h)) 0
          * mk (ix2 n (0 : Fin 1)) := by
  unfold layer128K
  have hq : 8 * n.val + b.val < 122880 := by omega
  have e3 : broadcastInDim S15360x1024 ![0, 1] bcast_S15360x1_S15360x1024_0_1 mk (ix2 n (⟨128 * b.val + h.val, by omega⟩ : Fin 1024))
      = mk (ix2 n (0 : Fin 1)) := by
    refine broadcastInDim_apply _ _ _ _ (ix2 n (0 : Fin 1)) (fun a => ?_)
    match a with
    | ⟨0, _⟩ => rfl
    | ⟨1, _⟩ => rfl
  have eb : broadcastInDim S122880x128 ![0, 1] bcast_S1x128_S122880x128_0_1 (broadcastInDim S1x128 ![1] bcast_S128_S1x128_1 bb)
      (ix2 (⟨8 * n.val + b.val, hq⟩ : Fin 122880) h) = bb (ix1 h) := by
    refine (broadcastInDim_apply _ _ _ _ (ix2 (0 : Fin 1) h) (fun a => ?_)).trans ?_
    · match a with
      | ⟨0, _⟩ => rfl
      | ⟨1, _⟩ => rfl
    refine broadcastInDim_apply _ _ _ _ (ix1 h) (fun a => ?_)
    match a with
    | ⟨0, _⟩ => rfl
  have ed : Host.dotGeneral dot_S122880x128_S128x128_S122880x128_1_0_0_1_n_n none (shapeCast S122880x128 R shapeCasts_S15360x1024_S122880x128) W (ix2 (⟨8 * n.val + b.val, hq⟩ : Fin 122880) h)
      = ∑ f : Fin 128, R (ix2 n (⟨128 * b.val + f.val, by omega⟩ : Fin 1024)) * W (ix2 f h) := by
    show FloatOps.dotGeneral dot_S122880x128_S128x128_S122880x128_1_0_0_1_n_n none .single _ _ _ = _
    rw [Idealize.ShloMosaic.Ideal.dotGeneral_apply]
    refine Fintype.sum_equiv (contrEquiv1 dot_S122880x128_S128x128_S122880x128_1_0_0_1_n_n 128 rfl rfl) _ _ (fun k => ?_)
    have hk : (k ⟨0, by decide⟩).val < 128 := (k ⟨0, by decide⟩).isLt
    have el : shapeCast S122880x128 R shapeCasts_S15360x1024_S122880x128 (dot_S122880x128_S128x128_S122880x128_1_0_0_1_n_n.lhsIdx (ix2 (⟨8 * n.val + b.val, hq⟩ : Fin 122880) h) k)
        = R (ix2 n (⟨128 * b.val + (k ⟨0, by decide⟩).val, by omega⟩ : Fin 1024)) := by
      refine shapeCast_apply _ _ _ _ ?_
      rw [Shape.rowMajor_val_two, Shape.rowMajor_val_two]
      show n.val * 1024 + (128 * b.val + (k ⟨0, by decide⟩).val) = (8 * n.val + b.val) * 128 + (k ⟨0, by decide⟩).val
      omega
    have er : dot_S122880x128_S128x128_S122880x128_1_0_0_1_n_n.rhsIdx (ix2 (⟨8 * n.val + b.val, hq⟩ : Fin 122880) h) k
        = ix2 ((k ⟨0, by decide⟩).cast rfl : Fin 128) h := by
      funext a
      match a with
      | ⟨0, _⟩ => rfl
      | ⟨1, _⟩ => rfl
    rw [el, er]
    rfl
  show shapeCast S15360x1024 _ shapeCasts_S122880x128_S15360x1024 _ * _ = _
  rw [e3]
  refine congrArg (· * mk (ix2 n (0 : Fin 1))) ?_
  refine (shapeCast_apply _ _ _ (ix2 (⟨8 * n.val + b.val, hq⟩ : Fin 122880) h) ?_).trans ?_
  · rw [Shape.rowMajor_val_two, Shape.rowMajor_val_two]
    show (8 * n.val + b.val) * 128 + h.val = n.val * 1024 + (128 * b.val + h.val)
    omega
  show max (Host.dotGeneral _ none _ W _ + _) (Idealize.ShloMosaic.Ideal.ofBits .f32 0x00000000#32) = _
  rw [ed, eb, Idealize.ShloMosaic.Ideal.ofBits_zero_f32]

end Layer128

/-! ## The readout at an entry -/

section Readout
variable (H H1 H2 H3 : FVec E S15360x1024 .f32) (Wfc : FVec E S384x1 .f32) (bfc : FVec E S1 .f32)

/-- One layer against column l of the last weights, at node n and batch b: the layer's row n, columns 128·b + h, against
    the weights' entries 3·h + l. -/
theorem gPart_wfcCol_apply (l : ℕ) (hl : l < 3) (hs : S128x3.Slices ![0, l] S128x1) (n : Fin 15360) (b : Fin 8) :
    gPart H (wfcCol Wfc ![0, l] hs) (ix2 n b)
      = ∑ h : Fin 128, H (ix2 n (⟨128 * b.val + h.val, by omega⟩ : Fin 1024)) * Wfc (ix2 (⟨3 * h.val + l, by omega⟩ : Fin 384) (0 : Fin 1)) := by
  unfold gPart
  have hq : 8 * n.val + b.val < 122880 := by omega
  refine (shapeCast_apply _ _ (ix2 n b) (ix2 (⟨8 * n.val + b.val, hq⟩ : Fin 122880) (0 : Fin 1)) ?_).trans ?_
  · rw [Shape.rowMajor_val_two, Shape.rowMajor_val_two]
    show (8 * n.val + b.val) * 1 + 0 = n.val * 8 + b.val
    omega
  show FloatOps.dotGeneral dot_S122880x128_S128x1_S122880x1_1_0_0_1_n_n none .single _ _ _ = _
  rw [Idealize.ShloMosaic.Ideal.dotGeneral_apply]
  refine Fintype.sum_equiv (contrEquiv1 dot_S122880x128_S128x1_S122880x1_1_0_0_1_n_n 128 rfl rfl) _ _ (fun k => ?_)
  have hk : (k ⟨0, by decide⟩).val < 128 := (k ⟨0, by decide⟩).isLt
  have el : shapeCast S122880x128 H shapeCasts_S15360x1024_S122880x128
        (dot_S122880x128_S128x1_S122880x1_1_0_0_1_n_n.lhsIdx (ix2 (⟨8 * n.val + b.val, hq⟩ : Fin 122880) (0 : Fin 1)) k)
      = H (ix2 n (⟨128 * b.val + (k ⟨0, by decide⟩).val, by omega⟩ : Fin 1024)) := by
    refine shapeCast_apply _ _ _ _ ?_
    rw [Shape.rowMajor_val_two, Shape.rowMajor_val_two]
    show n.val * 1024 + (128 * b.val + (k ⟨0, by decide⟩).val) = (8 * n.val + b.val) * 128 + (k ⟨0, by decide⟩).val
    omega
  have er : wfcCol Wfc ![0, l] hs
        (dot_S122880x128_S128x1_S122880x1_1_0_0_1_n_n.rhsIdx (ix2 (⟨8 * n.val + b.val, hq⟩ : Fin 122880) (0 : Fin 1)) k)
      = Wfc (ix2 (⟨3 * (k ⟨0, by decide⟩).val + l, by omega⟩ : Fin 384) (0 : Fin 1)) := by
    unfold wfcCol
    refine (extractStridedSlice_apply _ _ _ _ (ix2 ((k ⟨0, by decide⟩).cast rfl : Fin 128) (⟨l, hl⟩ : Fin 3)) (fun a => ?_)).trans ?_
    · match a with
      | ⟨0, _⟩ => show (k ⟨0, by decide⟩).val = 0 + (k ⟨0, by decide⟩).val; omega
      | ⟨1, _⟩ => show l = l + 0; omega
    refine shapeCast_apply _ _ _ _ ?_
    rw [Shape.rowMajor_val_two, Shape.rowMajor_val_two]
    show (3 * (k ⟨0, by decide⟩).val + l) * 1 + 0 = (k ⟨0, by decide⟩).val * 3 + l
    omega
  rw [el, er]
  rfl

/-- The readout at batch b and node n: the three layers' contractions, summed in the program's order, plus the bias. -/
theorem gK_apply (b : Fin 8) (n : Fin 15135) :
    gK H1 H2 H3 Wfc bfc (ix2 b n)
      = (((∑ h : Fin 128, H1 (ix2 (⟨n.val, by omega⟩ : Fin 15360) (⟨128 * b.val + h.val, by omega⟩ : Fin 1024))
              * Wfc (ix2 (⟨3 * h.val + 0, by omega⟩ : Fin 384) (0 : Fin 1)))
          + (∑ h : Fin 128, H2 (ix2 (⟨n.val, by omega⟩ : Fin 15360) (⟨128 * b.val + h.val, by omega⟩ : Fin 1024))
              * Wfc (ix2 (⟨3 * h.val + 1, by omega⟩ : Fin 384) (0 : Fin 1))))
          + (∑ h : Fin 128, H3 (ix2 (⟨n.val, by omega⟩ : Fin 15360) (⟨128 * b.val + h.val, by omega⟩ : Fin 1024))
              * Wfc (ix2 (⟨3 * h.val + 2, by omega⟩ : Fin 384) (0 : Fin 1))))
        + bfc (ix1 (0 : Fin 1)) := by
  unfold gK
  have hn : n.val < 15360 := by omega
  refine (extractStridedSlice_apply _ _ _ (ix2 b n) (ix2 b (⟨n.val, hn⟩ : Fin 15360)) (fun a => ?_)).trans ?_
  · match a with
    | ⟨0, _⟩ => show b.val = 0 + b.val; omega
    | ⟨1, _⟩ => show n.val = 0 + n.val; omega
  refine (transpose_apply _ _ _ (ix2 b (⟨n.val, hn⟩ : Fin 15360)) (ix2 (⟨n.val, hn⟩ : Fin 15360) b) (fun a => ?_)).trans ?_
  · match a with
    | ⟨0, _⟩ => rfl
    | ⟨1, _⟩ => rfl
  have ebias : broadcastInDim S15360x8 ![] bcast_S_S15360x8 (shapeCast S_ bfc shapeCasts_S1_S_) (ix2 (⟨n.val, hn⟩ : Fin 15360) b)
      = bfc (ix1 (0 : Fin 1)) := by
    refine (broadcastInDim_scalar_apply _ _ _).trans ?_
    refine shapeCast_apply _ _ _ _ ?_
    rw [Shape.rowMajor_val_one]
    have := (S_.rowMajor ix0).isLt
    show 0 = (S_.rowMajor ix0).val
    have h1 : S_.numel = 1 := by decide
    omega
  show ((gPart H1 _ _ + gPart H2 _ _) + gPart H3 _ _) + _ = _
  rw [ebias, gPart_wfcCol_apply H1 Wfc 0 (by omega), gPart_wfcCol_apply H2 Wfc 1 (by omega), gPart_wfcCol_apply H3 Wfc 2 (by omega)]

end Readout

/-! ## The stretches read over any contents before them -/

section Reads
variable (W : Valuation τ sig (Elt E))

set_option maxHeartbeats 4000000 in
theorem read_cols0 : after hostOps0_2 (after hostOps0_1 (after hostOps0 W)) (Proc.devRef .tc main_v51)
    = truncf .bf16 (cols0K (W (Proc.devRef .tc main_arg0))) bitsLt_bf16_f32 := by
  read_after
  rfl

set_option maxHeartbeats 4000000 in
theorem read_layer1 : after hostOps1_2 (after hostOps1_1 (after hostOps1 W)) (Proc.devRef .tc main_v61)
    = layer64K (W (Proc.devRef .tc main_v52)) (W (Proc.devRef .tc main_arg2)) (W (Proc.devRef .tc main_arg3)) (W (Proc.devRef .tc main_v47)) := by
  read_after
  rfl

set_option maxHeartbeats 4000000 in
theorem read_layer1b : after hostOps1_2 (after hostOps1_1 (after hostOps1 W)) (Proc.devRef .tc main_v62)
    = truncf .bf16 (layer64K (W (Proc.devRef .tc main_v52)) (W (Proc.devRef .tc main_arg2)) (W (Proc.devRef .tc main_arg3)) (W (Proc.devRef .tc main_v47))) bitsLt_bf16_f32 := by
  read_after
  rfl

set_option maxHeartbeats 4000000 in
theorem read_layer2 : after hostOps2_2 (after hostOps2_1 (after hostOps2 W)) (Proc.devRef .tc main_v72)
    = layer128K (W (Proc.devRef .tc main_v63)) (W (Proc.devRef .tc main_arg4)) (W (Proc.devRef .tc main_arg5)) (W (Proc.devRef .tc main_v47)) := by
  read_after
  rfl

set_option maxHeartbeats 4000000 in
theorem read_layer2b : after hostOps2_2 (after hostOps2_1 (after hostOps2 W)) (Proc.devRef .tc main_v73)
    = truncf .bf16 (layer128K (W (Proc.devRef .tc main_v63)) (W (Proc.devRef .tc main_arg4)) (W (Proc.devRef .tc main_arg5)) (W (Proc.devRef .tc main_v47))) bitsLt_bf16_f32 := by
  read_after
  rfl

set_option maxHeartbeats 4000000 in
theorem read_layer3 : after hostOps3_2 (after hostOps3_1 (after hostOps3 W)) (Proc.devRef .tc main_v83)
    = layer128K (W (Proc.devRef .tc main_v74)) (W (Proc.devRef .tc main_arg6)) (W (Proc.devRef .tc main_arg7)) (W (Proc.devRef .tc main_v47)) := by
  read_after
  rfl

set_option maxHeartbeats 4000000 in
theorem read_g : after hostOps3_2 (after hostOps3_1 (after hostOps3 W)) (Proc.devRef .tc main_v105)
    = gK (W (Proc.devRef .tc main_v61)) (W (Proc.devRef .tc main_v72))
        (layer128K (W (Proc.devRef .tc main_v74)) (W (Proc.devRef .tc main_arg6)) (W (Proc.devRef .tc main_arg7)) (W (Proc.devRef .tc main_v47)))
        (W (Proc.devRef .tc main_arg8)) (W (Proc.devRef .tc main_arg9)) := by
  read_after
  rfl

set_option maxHeartbeats 4000000 in
/-- The operations after the readout (the last four of their stretch, then the three stretches that follow). -/
theorem read_tail : after hostOps3_5 (after hostOps3_4 (after hostOps3_3 (after (hostOps3_2.drop 25) W))) (Proc.devRef .tc main_v115)
    = tailK (W (Proc.devRef .tc main_v105)) (W (Proc.devRef .tc main_arg10)) (W (Proc.devRef .tc main_arg11))
        (W (Proc.devRef .tc main_arg12)) (W (Proc.devRef .tc main_arg13)) := by
  simp only [hostOps3_2, List.drop_succ_cons, List.drop_zero]
  read_after
  rfl

set_option maxHeartbeats 4000000 in
/-- The readout's buffer and the arguments are not written by the last four operations of the readout's stretch. -/
theorem drop_keep (r : Ref sig .tc) (h : r ∉ ([main_v106, main_v107, main_v108, main_v109] : List (Ref sig .tc))) :
    after (hostOps3_2.drop 25) W (Proc.devRef .tc r) = W (Proc.devRef .tc r) := by
  refine after_of_forall_not_mem _ W fun op hop => ?_
  simp only [hostOps3_2, List.drop_succ_cons, List.drop_zero, List.mem_cons, List.not_mem_nil, or_false] at hop
  simp only [List.mem_cons, List.not_mem_nil, or_false, not_or] at h
  rcases hop with rfl | rfl | rfl | rfl <;>
    simp only [binary_writes, unary_writes, Finset.mem_singleton] <;>
    intro hh <;> have := Proc.devRef_injective _ hh <;> simp_all

/-- Nor by the operations up to the readout, unless it is one of their results. -/
theorem take_keep (r : Ref sig .tc) (h : r ∉ hostOps3_2_W) :
    after (hostOps3_2.take 25) W (Proc.devRef .tc r) = W (Proc.devRef .tc r) := by
  refine after_of_writes_sub (W := hostOps3_2_W) _ W ?_ h
  have := (hostOps3_2_writes (F := E))
  rw [List.forall_iff_forall_mem] at this ⊢
  exact fun op hop => this op (List.mem_of_mem_take hop)

end Reads

/-! ## The program's buffers at each point between the regions -/

section Buffers
variable (m : (ℓ : Loc nD τ sig) → Buf (Elt E) ℓ) (outs : Outs (F := E)) (c : Dev nD)

set_option maxHeartbeats 4000000 in
theorem V1_main_v16 : V1 m c main_v16 = srcK (m ((c : Thread nD τ).loc main_arg1)) := by
  show StableHlo.after hostOps0 _ (Proc.devRef .tc main_v16) = _
  read_after
  rfl

set_option maxHeartbeats 4000000 in
theorem V1_main_v23 : V1 m c main_v23 = dstK (m ((c : Thread nD τ).loc main_arg1)) := by
  show StableHlo.after hostOps0 _ (Proc.devRef .tc main_v23) = _
  read_after
  rfl

set_option maxHeartbeats 4000000 in
theorem V1_main_v26 : V1 m c main_v26 = normK (m ((c : Thread nD τ).loc main_arg1)) := by
  show StableHlo.after hostOps0 _ (Proc.devRef .tc main_v26) = _
  read_after
  rfl

set_option maxHeartbeats 4000000 in
theorem V1_main_v42 : V1 m c main_v42 = truncf .bf16 (adjK (m ((c : Thread nD τ).loc main_arg1))) bitsLt_bf16_f32 := by
  show StableHlo.after hostOps0 _ (Proc.devRef .tc main_v42) = _
  read_after
  rfl

set_option maxHeartbeats 4000000 in
theorem V1_main_v47 : V1 m c main_v47 = maskK := by
  show StableHlo.after hostOps0 _ (Proc.devRef .tc main_v47) = _
  read_after
  rfl

/-! ### What each stretch leaves alone -/

theorem V3_V1 (r : Ref sig .tc) (h1 : r ∉ hostOps0_1_W) (h2 : r ∉ hostOps0_2_W) : V3 m c r = V1 m c r :=
  (V3_of m c r h2).trans (V2_of m c r h1)
theorem V3_V0 (r : Ref sig .tc) (h0 : r ∉ hostOps0_W) (h1 : r ∉ hostOps0_1_W) (h2 : r ∉ hostOps0_2_W) :
    V3 m c r = m ((c : Thread nD τ).loc r) :=
  (V3_V1 m c r h1 h2).trans (V1_of m c r h0)
theorem V7_V3 (r : Ref sig .tc) (h4 : r ∉ ([main_v52] : List (Ref sig .tc))) (h5 : r ∉ hostOps1_W) (h6 : r ∉ hostOps1_1_W)
    (h7 : r ∉ hostOps1_2_W) : V7 m outs c r = V3 m c r :=
  (V7_of m outs c r h7).trans <| (V6_of m outs c r h6).trans <| (V5_of m outs c r h5).trans (V4_of m outs c r h4)
theorem V11_V7 (r : Ref sig .tc) (h8 : r ∉ ([main_v63] : List (Ref sig .tc))) (h9 : r ∉ hostOps2_W) (h10 : r ∉ hostOps2_1_W)
    (h11 : r ∉ hostOps2_2_W) : V11 m outs c r = V7 m outs c r :=
  (V11_of m outs c r h11).trans <| (V10_of m outs c r h10).trans <| (V9_of m outs c r h9).trans (V8_of m outs c r h8)
theorem V14_V11 (r : Ref sig .tc) (h12 : r ∉ ([main_v74] : List (Ref sig .tc))) (h13 : r ∉ hostOps3_W) (h14 : r ∉ hostOps3_1_W) :
    V14 m outs c r = V11 m outs c r :=
  (V14_of m outs c r h14).trans <| (V13_of m outs c r h13).trans (V12_of m outs c r h12)
theorem V18_V15 (r : Ref sig .tc) (h16 : r ∉ hostOps3_3_W) (h17 : r ∉ hostOps3_4_W) (h18 : r ∉ hostOps3_5_W) :
    V18 m outs c r = V15 m outs c r :=
  (V18_of m outs c r h18).trans <| (V17_of m outs c r h17).trans (V16_of m outs c r h16)

/-- An argument is as launched at every point. -/
theorem V3_arg (r : Ref sig .tc) (h0 : r ∉ hostOps0_W) (h1 : r ∉ hostOps0_1_W) (h2 : r ∉ hostOps0_2_W) :
    V3 m c r = m ((c : Thread nD τ).loc r) := V3_V0 m c r h0 h1 h2

/-! ### Before the first region -/

theorem V3_main_v16 : V3 m c main_v16 = srcK (m ((c : Thread nD τ).loc main_arg1)) :=
  (V3_V1 m c _ (by decide) (by decide)).trans (V1_main_v16 m c)
theorem V3_main_v23 : V3 m c main_v23 = dstK (m ((c : Thread nD τ).loc main_arg1)) :=
  (V3_V1 m c _ (by decide) (by decide)).trans (V1_main_v23 m c)
theorem V3_main_v26 : V3 m c main_v26 = normK (m ((c : Thread nD τ).loc main_arg1)) :=
  (V3_V1 m c _ (by decide) (by decide)).trans (V1_main_v26 m c)
theorem V3_main_v42 : V3 m c main_v42 = truncf .bf16 (adjK (m ((c : Thread nD τ).loc main_arg1))) bitsLt_bf16_f32 :=
  (V3_V1 m c _ (by decide) (by decide)).trans (V1_main_v42 m c)
theorem V3_main_v47 : V3 m c main_v47 = maskK :=
  (V3_V1 m c _ (by decide) (by decide)).trans (V1_main_v47 m c)
theorem V3_main_v51 : V3 m c main_v51 = truncf .bf16 (cols0K (m ((c : Thread nD τ).loc main_arg0))) bitsLt_bf16_f32 :=
  read_cols0 (V0 m c)

/-- The adjacency is the regions' left operand at each of the three launches. -/
theorem V7_main_v42 : V7 m outs c main_v42 = V3 m c main_v42 := V7_V3 m outs c _ (by decide) (by decide) (by decide) (by decide)
theorem V11_main_v42 : V11 m outs c main_v42 = V3 m c main_v42 :=
  (V11_V7 m outs c _ (by decide) (by decide) (by decide) (by decide)).trans (V7_main_v42 m outs c)

/-! ### After the first region -/

theorem V4_main_v52 : V4 m outs c main_v52 = outs 4 main_v52 c := Function.update_self ..
theorem V8_main_v63 : V8 m outs c main_v63 = outs 8 main_v63 c := Function.update_self ..
theorem V12_main_v74 : V12 m outs c main_v74 = outs 12 main_v74 c := Function.update_self ..

theorem V4_keep (r : Ref sig .tc) (h4 : r ∉ ([main_v52] : List (Ref sig .tc))) (h0 : r ∉ hostOps0_W) (h1 : r ∉ hostOps0_1_W)
    (h2 : r ∉ hostOps0_2_W) : V4 m outs c r = m ((c : Thread nD τ).loc r) :=
  (V4_of m outs c r h4).trans (V3_V0 m c r h0 h1 h2)

theorem V7_main_v61 : V7 m outs c main_v61
    = layer64K (outs 4 main_v52 c) (m ((c : Thread nD τ).loc main_arg2)) (m ((c : Thread nD τ).loc main_arg3)) maskK := by
  refine (read_layer1 (V4 m outs c)).trans ?_
  have e1 := V4_main_v52 m outs c
  have e2 := V4_keep m outs c main_arg2 (by decide) (by decide) (by decide) (by decide)
  have e3 := V4_keep m outs c main_arg3 (by decide) (by decide) (by decide) (by decide)
  have e4 := (V4_of m outs c main_v47 (by decide)).trans (V3_main_v47 m c)
  rw [e1, e2, e3, e4]

theorem V7_main_v62 : V7 m outs c main_v62
    = truncf .bf16 (layer64K (outs 4 main_v52 c) (m ((c : Thread nD τ).loc main_arg2)) (m ((c : Thread nD τ).loc main_arg3)) maskK) bitsLt_bf16_f32 := by
  refine (read_layer1b (V4 m outs c)).trans ?_
  have e1 := V4_main_v52 m outs c
  have e2 := V4_keep m outs c main_arg2 (by decide) (by decide) (by decide) (by decide)
  have e3 := V4_keep m outs c main_arg3 (by decide) (by decide) (by decide) (by decide)
  have e4 := (V4_of m outs c main_v47 (by decide)).trans (V3_main_v47 m c)
  rw [e1, e2, e3, e4]

/-! ### After the second region -/

theorem V8_keep0 (r : Ref sig .tc) (h8 : r ∉ ([main_v63] : List (Ref sig .tc))) (h4 : r ∉ ([main_v52] : List (Ref sig .tc)))
    (h5 : r ∉ hostOps1_W) (h6 : r ∉ hostOps1_1_W) (h7 : r ∉ hostOps1_2_W) : V8 m outs c r = V3 m c r :=
  (V8_of m outs c r h8).trans (V7_V3 m outs c r h4 h5 h6 h7)

theorem V11_main_v72 : V11 m outs c main_v72
    = layer128K (outs 8 main_v63 c) (m ((c : Thread nD τ).loc main_arg4)) (m ((c : Thread nD τ).loc main_arg5)) maskK := by
  refine (read_layer2 (V8 m outs c)).trans ?_
  have e1 := V8_main_v63 m outs c
  have e2 := (V8_keep0 m outs c main_arg4 (by decide) (by decide) (by decide) (by decide) (by decide)).trans
    (V3_V0 m c main_arg4 (by decide) (by decide) (by decide))
  have e3 := (V8_keep0 m outs c main_arg5 (by decide) (by decide) (by decide) (by decide) (by decide)).trans
    (V3_V0 m c main_arg5 (by decide) (by decide) (by decide))
  have e4 := (V8_keep0 m outs c main_v47 (by decide) (by decide) (by decide) (by decide) (by decide)).trans (V3_main_v47 m c)
  rw [e1, e2, e3, e4]

theorem V11_main_v73 : V11 m outs c main_v73
    = truncf .bf16 (layer128K (outs 8 main_v63 c) (m ((c : Thread nD τ).loc main_arg4)) (m ((c : Thread nD τ).loc main_arg5)) maskK) bitsLt_bf16_f32 := by
  refine (read_layer2b (V8 m outs c)).trans ?_
  have e1 := V8_main_v63 m outs c
  have e2 := (V8_keep0 m outs c main_arg4 (by decide) (by decide) (by decide) (by decide) (by decide)).trans
    (V3_V0 m c main_arg4 (by decide) (by decide) (by decide))
  have e3 := (V8_keep0 m outs c main_arg5 (by decide) (by decide) (by decide) (by decide) (by decide)).trans
    (V3_V0 m c main_arg5 (by decide) (by decide) (by decide))
  have e4 := (V8_keep0 m outs c main_v47 (by decide) (by decide) (by decide) (by decide) (by decide)).trans (V3_main_v47 m c)
  rw [e1, e2, e3, e4]

/-! ### After the third region -/

theorem V12_keep0 (r : Ref sig .tc) (h12 : r ∉ ([main_v74] : List (Ref sig .tc))) (h8 : r ∉ ([main_v63] : List (Ref sig .tc)))
    (h9 : r ∉ hostOps2_W) (h10 : r ∉ hostOps2_1_W) (h11 : r ∉ hostOps2_2_W) : V12 m outs c r = V7 m outs c r :=
  (V12_of m outs c r h12).trans (V11_V7 m outs c r h8 h9 h10 h11)

theorem V12_arg (r : Ref sig .tc) (h12 : r ∉ ([main_v74] : List (Ref sig .tc))) (h8 : r ∉ ([main_v63] : List (Ref sig .tc)))
    (h9 : r ∉ hostOps2_W) (h10 : r ∉ hostOps2_1_W) (h11 : r ∉ hostOps2_2_W)
    (h4 : r ∉ ([main_v52] : List (Ref sig .tc))) (h5 : r ∉ hostOps1_W) (h6 : r ∉ hostOps1_1_W) (h7 : r ∉ hostOps1_2_W)
    (h0 : r ∉ hostOps0_W) (h1 : r ∉ hostOps0_1_W) (h2 : r ∉ hostOps0_2_W) : V12 m outs c r = m ((c : Thread nD τ).loc r) :=
  (V12_keep0 m outs c r h12 h8 h9 h10 h11).trans <| (V7_V3 m outs c r h4 h5 h6 h7).trans (V3_V0 m c r h0 h1 h2)

theorem V12_main_v47 : V12 m outs c main_v47 = maskK :=
  (V12_keep0 m outs c _ (by decide) (by decide) (by decide) (by decide) (by decide)).trans <|
    (V7_V3 m outs c _ (by decide) (by decide) (by decide) (by decide)).trans (V3_main_v47 m c)

theorem V15_main_v83 : V15 m outs c main_v83
    = layer128K (outs 12 main_v74 c) (m ((c : Thread nD τ).loc main_arg6)) (m ((c : Thread nD τ).loc main_arg7)) maskK := by
  refine (read_layer3 (V12 m outs c)).trans ?_
  have e1 := V12_main_v74 m outs c
  have e2 := V12_arg m outs c main_arg6 (by decide) (by decide) (by decide) (by decide) (by decide) (by decide) (by decide)
    (by decide) (by decide) (by decide) (by decide) (by decide)
  have e3 := V12_arg m outs c main_arg7 (by decide) (by decide) (by decide) (by decide) (by decide) (by decide) (by decide)
    (by decide) (by decide) (by decide) (by decide) (by decide)
  rw [e1, e2, e3, V12_main_v47]

/-- The readout, from the three layers' activations. -/
theorem V15_main_v105 : V15 m outs c main_v105
    = gK (V7 m outs c main_v61) (V11 m outs c main_v72) (V15 m outs c main_v83)
        (m ((c : Thread nD τ).loc main_arg8)) (m ((c : Thread nD τ).loc main_arg9)) := by
  rw [V15_main_v83]
  refine (read_g (V12 m outs c)).trans ?_
  have e1 := V12_main_v74 m outs c
  have e2 := V12_arg m outs c main_arg6 (by decide) (by decide) (by decide) (by decide) (by decide) (by decide) (by decide)
    (by decide) (by decide) (by decide) (by decide) (by decide)
  have e3 := V12_arg m outs c main_arg7 (by decide) (by decide) (by decide) (by decide) (by decide) (by decide) (by decide)
    (by decide) (by decide) (by decide) (by decide) (by decide)
  have e8 := V12_arg m outs c main_arg8 (by decide) (by decide) (by decide) (by decide) (by decide) (by decide) (by decide)
    (by decide) (by decide) (by decide) (by decide) (by decide)
  have e9 := V12_arg m outs c main_arg9 (by decide) (by decide) (by decide) (by decide) (by decide) (by decide) (by decide)
    (by decide) (by decide) (by decide) (by decide) (by decide)
  have e61 := V12_keep0 m outs c main_v61 (by decide) (by decide) (by decide) (by decide) (by decide)
  have e72 := V12_of m outs c main_v72 (by decide)
  rw [e1, e2, e3, e8, e9, e61, e72, V12_main_v47]

theorem V18_main_v105 : V18 m outs c main_v105
    = gK (V7 m outs c main_v61) (V11 m outs c main_v72) (V15 m outs c main_v83)
        (m ((c : Thread nD τ).loc main_arg8)) (m ((c : Thread nD τ).loc main_arg9)) :=
  (V18_V15 m outs c _ (by decide) (by decide) (by decide)).trans (V15_main_v105 m outs c)

/-! ### The end -/

/-- Folding a line cut in two is folding the second part over the first part's fold. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

theorem V15_split : V15 m outs c = after (hostOps3_2.drop 25) (after (hostOps3_2.take 25) (V14 m outs c)) := by
  show after hostOps3_2 _ = _
  exact (congrArg (fun l => after l (V14 m outs c)) (List.take_append_drop 25 hostOps3_2).symm).trans (after_append _ _ _)

theorem V14_arg (r : Ref sig .tc) (h14 : r ∉ hostOps3_1_W) (h13 : r ∉ hostOps3_W)
    (h12 : r ∉ ([main_v74] : List (Ref sig .tc))) (h8 : r ∉ ([main_v63] : List (Ref sig .tc)))
    (h9 : r ∉ hostOps2_W) (h10 : r ∉ hostOps2_1_W) (h11 : r ∉ hostOps2_2_W)
    (h4 : r ∉ ([main_v52] : List (Ref sig .tc))) (h5 : r ∉ hostOps1_W) (h6 : r ∉ hostOps1_1_W) (h7 : r ∉ hostOps1_2_W)
    (h0 : r ∉ hostOps0_W) (h1 : r ∉ hostOps0_1_W) (h2 : r ∉ hostOps0_2_W) : V14 m outs c r = m ((c : Thread nD τ).loc r) :=
  (V14_of m outs c r h14).trans <| (V13_of m outs c r h13).trans (V12_arg m outs c r h12 h8 h9 h10 h11 h4 h5 h6 h7 h0 h1 h2)

/-- The output: the tail of the readout. -/
theorem V18_main_v115 : V18 m outs c main_v115
    = tailK (V18 m outs c main_v105) (m ((c : Thread nD τ).loc main_arg10)) (m ((c : Thread nD τ).loc main_arg11))
        (m ((c : Thread nD τ).loc main_arg12)) (m ((c : Thread nD τ).loc main_arg13)) := by
  have h := read_tail (after (hostOps3_2.take 25) (V14 m outs c))
  rw [← V15_split] at h
  refine h.trans ?_
  have e105 : after (hostOps3_2.take 25) (V14 m outs c) (Proc.devRef .tc main_v105) = V18 m outs c main_v105 := by
    rw [V18_V15 m outs c _ (by decide) (by decide) (by decide), V15_split]
    exact (drop_keep _ main_v105 (by decide)).symm
  have ea : ∀ r : Ref sig .tc, r ∉ hostOps3_2_W → V14 m outs c r = m ((c : Thread nD τ).loc r) →
      after (hostOps3_2.take 25) (V14 m outs c) (Proc.devRef .tc r) = m ((c : Thread nD τ).loc r) :=
    fun r hr hv => (take_keep _ r hr).trans hv
  rw [e105,
    ea main_arg10 (by decide) (V14_arg m outs c _ (by decide) (by decide) (by decide) (by decide) (by decide) (by decide) (by decide) (by decide) (by decide) (by decide) (by decide) (by decide) (by decide) (by decide)),
    ea main_arg11 (by decide) (V14_arg m outs c _ (by decide) (by decide) (by decide) (by decide) (by decide) (by decide) (by decide) (by decide) (by decide) (by decide) (by decide) (by decide) (by decide) (by decide)),
    ea main_arg12 (by decide) (V14_arg m outs c _ (by decide) (by decide) (by decide) (by decide) (by decide) (by decide) (by decide) (by decide) (by decide) (by decide) (by decide) (by decide) (by decide) (by decide)),
    ea main_arg13 (by decide) (V14_arg m outs c _ (by decide) (by decide) (by decide) (by decide) (by decide) (by decide) (by decide) (by decide) (by decide) (by decide) (by decide) (by decide) (by decide) (by decide))]

end Buffers

/-! ## The buffers the regions read, and the readout, at an entry -/

/-- A buffer's contents read as an array of extended reals of the buffer's shape. -/
abbrev asF (s : Shape) (φ : FTy) (v : FVec E s φ) : FVec E s φ := v
/-- A buffer's contents read as an array of words of the buffer's shape. -/
abbrev asI (s : Shape) (w : ℕ) (v : IVec s w) : IVec s w := v

section AtEntries
variable (m : (ℓ : Loc nD τ sig) → Buf (Elt E) ℓ) (outs : Outs (F := E)) (c : Dev nD)

/-- The adjacency handed to the regions, at an entry. -/
theorem V3_main_v42_apply (i : S15360x15360.Idx) :
    asF S15360x15360 .bf16 (V3 m c main_v42) i
      = 0 + ∑ j ∈ Finset.univ.filter (fun j => d2.resultIdx? j (adjIdxK (m ((c : Thread nD τ).loc main_arg1))) = some i),
          normK (m ((c : Thread nD τ).loc main_arg1)) j := by
  rw [V3_main_v42]
  exact adjK_apply _ i

/-- The same with every edge index a node: the weights of the edges from s to r. -/
theorem V3_main_v42_apply_of_range
    (hr : ∀ i : S2x242160.Idx, 0 ≤ (asI S2x242160 32 (m ((c : Thread nD τ).loc main_arg1)) i).toInt
      ∧ (asI S2x242160 32 (m ((c : Thread nD τ).loc main_arg1)) i).toInt < 15135) (r s : Fin 15360) :
    asF S15360x15360 .bf16 (V3 m c main_v42) (ix2 r s)
      = 0 + ∑ j ∈ Finset.univ.filter (fun j : S257295.Idx =>
            (dstRaw (m ((c : Thread nD τ).loc main_arg1)) j).toInt = (r.val : Int)
              ∧ (srcRaw (m ((c : Thread nD τ).loc main_arg1)) j).toInt = (s.val : Int)),
          normK (m ((c : Thread nD τ).loc main_arg1)) j := by
  rw [V3_main_v42]
  exact adjK_apply_of_range _ hr r s

/-- The first region's right operand, at an entry. -/
theorem V3_main_v51_apply (n : Fin 15360) (b : Fin 8) (f : Fin 64) :
    asF S15360x512 .bf16 (V3 m c main_v51) (ix2 n (⟨64 * b.val + f.val, by omega⟩ : Fin 512))
      = if h : n.val < 15135 then asF S8x15135x64 .f32 (m ((c : Thread nD τ).loc main_arg0)) (ix3 b (⟨n.val, h⟩ : Fin 15135) f) else 0 := by
  rw [V3_main_v51]
  exact cols0K_apply _ n b f

/-- The row mask, at an entry. -/
theorem V3_main_v47_apply (n : Fin 15360) :
    asF S15360x1 .f32 (V3 m c main_v47) (ix2 n (0 : Fin 1)) = if n.val < 15135 then 1 else 0 := by
  rw [V3_main_v47]
  exact maskK_apply n

/-- The second region's right operand, at an entry. -/
theorem V7_main_v62_apply (n : Fin 15360) (b : Fin 8) (h : Fin 128) :
    asF S15360x1024 .bf16 (V7 m outs c main_v62) (ix2 n (⟨128 * b.val + h.val, by omega⟩ : Fin 1024))
      = max ((∑ f : Fin 64, asF S15360x512 .f32 (outs 4 main_v52 c) (ix2 n (⟨64 * b.val + f.val, by omega⟩ : Fin 512))
                * asF S64x128 .f32 (m ((c : Thread nD τ).loc main_arg2)) (ix2 f h))
              + asF S128 .f32 (m ((c : Thread nD τ).loc main_arg3)) (ix1 h)) 0
          * (if n.val < 15135 then 1 else 0) := by
  rw [V7_main_v62]
  show layer64K _ _ _ _ _ = _
  rw [layer64K_apply, maskK_apply]

/-- The first layer's activations (they also feed the readout), at an entry. -/
theorem V7_main_v61_apply (n : Fin 15360) (b : Fin 8) (h : Fin 128) :
    asF S15360x1024 .f32 (V7 m outs c main_v61) (ix2 n (⟨128 * b.val + h.val, by omega⟩ : Fin 1024))
      = max ((∑ f : Fin 64, asF S15360x512 .f32 (outs 4 main_v52 c) (ix2 n (⟨64 * b.val + f.val, by omega⟩ : Fin 512))
                * asF S64x128 .f32 (m ((c : Thread nD τ).loc main_arg2)) (ix2 f h))
              + asF S128 .f32 (m ((c : Thread nD τ).loc main_arg3)) (ix1 h)) 0
          * (if n.val < 15135 then 1 else 0) := by
  rw [V7_main_v61]
  show layer64K _ _ _ _ _ = _
  rw [layer64K_apply, maskK_apply]

/-- The third region's right operand, at an entry. -/
theorem V11_main_v73_apply (n : Fin 15360) (b : Fin 8) (h : Fin 128) :
    asF S15360x1024 .bf16 (V11 m outs c main_v73) (ix2 n (⟨128 * b.val + h.val, by omega⟩ : Fin 1024))
      = max ((∑ f : Fin 128, asF S15360x1024 .f32 (outs 8 main_v63 c) (ix2 n (⟨128 * b.val + f.val, by omega⟩ : Fin 1024))
                * asF S128x128 .f32 (m ((c : Thread nD τ).loc main_arg4)) (ix2 f h))
              + asF S128 .f32 (m ((c : Thread nD τ).loc main_arg5)) (ix1 h)) 0
          * (if n.val < 15135 then 1 else 0) := by
  rw [V11_main_v73]
  show layer128K _ _ _ _ _ = _
  rw [layer128K_apply, maskK_apply]

/-- The second layer's activations, at an entry. -/
theorem V11_main_v72_apply (n : Fin 15360) (b : Fin 8) (h : Fin 128) :
    asF S15360x1024 .f32 (V11 m outs c main_v72) (ix2 n (⟨128 * b.val + h.val, by omega⟩ : Fin 1024))
      = max ((∑ f : Fin 128, asF S15360x1024 .f32 (outs 8 main_v63 c) (ix2 n (⟨128 * b.val + f.val, by omega⟩ : Fin 1024))
                * asF S128x128 .f32 (m ((c : Thread nD τ).loc main_arg4)) (ix2 f h))
              + asF S128 .f32 (m ((c : Thread nD τ).loc main_arg5)) (ix1 h)) 0
          * (if n.val < 15135 then 1 else 0) := by
  rw [V11_main_v72]
  show layer128K _ _ _ _ _ = _
  rw [layer128K_apply, maskK_apply]

/-- The third layer's activations, at an entry. -/
theorem V15_main_v83_apply (n : Fin 15360) (b : Fin 8) (h : Fin 128) :
    asF S15360x1024 .f32 (V15 m outs c main_v83) (ix2 n (⟨128 * b.val + h.val, by omega⟩ : Fin 1024))
      = max ((∑ f : Fin 128, asF S15360x1024 .f32 (outs 12 main_v74 c) (ix2 n (⟨128 * b.val + f.val, by omega⟩ : Fin 1024))
                * asF S128x128 .f32 (m ((c : Thread nD τ).loc main_arg6)) (ix2 f h))
              + asF S128 .f32 (m ((c : Thread nD τ).loc main_arg7)) (ix1 h)) 0
          * (if n.val < 15135 then 1 else 0) := by
  rw [V15_main_v83]
  show layer128K _ _ _ _ _ = _
  rw [layer128K_apply, maskK_apply]

/-- The readout, at an entry, over the three layers' activations. -/
theorem V18_main_v105_apply (b : Fin 8) (n : Fin 15135) :
    asF S8x15135 .f32 (V18 m outs c main_v105) (ix2 b n)
      = (((∑ h : Fin 128, asF S15360x1024 .f32 (V7 m outs c main_v61) (ix2 (⟨n.val, by omega⟩ : Fin 15360) (⟨128 * b.val + h.val, by omega⟩ : Fin 1024))
              * asF S384x1 .f32 (m ((c : Thread nD τ).loc main_arg8)) (ix2 (⟨3 * h.val + 0, by omega⟩ : Fin 384) (0 : Fin 1)))
          + (∑ h : Fin 128, asF S15360x1024 .f32 (V11 m outs c main_v72) (ix2 (⟨n.val, by omega⟩ : Fin 15360) (⟨128 * b.val + h.val, by omega⟩ : Fin 1024))
              * asF S384x1 .f32 (m ((c : Thread nD τ).loc main_arg8)) (ix2 (⟨3 * h.val + 1, by omega⟩ : Fin 384) (0 : Fin 1))))
          + (∑ h : Fin 128, asF S15360x1024 .f32 (V15 m outs c main_v83) (ix2 (⟨n.val, by omega⟩ : Fin 15360) (⟨128 * b.val + h.val, by omega⟩ : Fin 1024))
              * asF S384x1 .f32 (m ((c : Thread nD τ).loc main_arg8)) (ix2 (⟨3 * h.val + 2, by omega⟩ : Fin 384) (0 : Fin 1))))
        + asF S1 .f32 (m ((c : Thread nD τ).loc main_arg9)) (ix1 (0 : Fin 1)) := by
  rw [V18_main_v105]
  exact gK_apply _ _ _ _ _ b n

end AtEntries

end Cert.KernelIdeal.KerSide
end
-- ==== Proof.LibRealClosed.lean ====
import Idealize.ShloMosaic.Lib.IdealHost
import Mathlib.Tactic

/-!
# Extended reals that are real numbers, and operations that keep them so

An extended real is REAL when it is the coercion of a real number, equivalently when it is neither
of the two infinities. Sums, differences, products, quotients by a nonzero real, finite sums, maxima
and minima of reals are real; the reciprocal square root of a positive real is a positive real. The
same is then said of ARRAYS (functions from an index type to the extended reals) every entry of which
is real: the pointwise operations, a matrix product (a finite sum of products), a sum along axes (a
finite sum, plus the initial value on the host), a gather (a re-indexing) and an accumulating scatter
(each entry plus a finite sum of updates) of all-real arrays are all-real, and an accumulating scatter
of nonnegative arrays is nonnegative. Last, the four f32 bit patterns 0.0, 1.0, 50000.0 and 1e-5 are
read as extended reals: 0, 1, 50000 exactly, and a positive real.
-/

namespace Cert.Lib

open Idealize.ShloMosaic
open scoped BigOperators

/-! ## One extended real -/

/-- An extended real is REAL when it is the coercion of a real number. -/
def IsReal (x : EReal) : Prop := ∃ r : ℝ, x = (r : EReal)

/-- The coercion of a real number is real. -/
theorem isReal_coe (r : ℝ) : IsReal (r : EReal) := ⟨r, rfl⟩

/-- A real extended real is not the top element. -/
theorem IsReal.ne_top {x : EReal} (h : IsReal x) : x ≠ ⊤ := by
  obtain ⟨r, rfl⟩ := h; exact EReal.coe_ne_top r

/-- A real extended real is not the bottom element. -/
theorem IsReal.ne_bot {x : EReal} (h : IsReal x) : x ≠ ⊥ := by
  obtain ⟨r, rfl⟩ := h; exact EReal.coe_ne_bot r

/-- Real means: neither infinity. -/
theorem isReal_iff_ne (x : EReal) : IsReal x ↔ x ≠ ⊤ ∧ x ≠ ⊥ :=
  ⟨fun h => ⟨h.ne_top, h.ne_bot⟩, fun ⟨ht, hb⟩ => ⟨x.toReal, (EReal.coe_toReal ht hb).symm⟩⟩

/-- A real extended real is the coercion of its real part. -/
theorem IsReal.coe_toReal {x : EReal} (h : IsReal x) : ((x.toReal : ℝ) : EReal) = x :=
  EReal.coe_toReal h.ne_top h.ne_bot

/-- Zero is real. -/
theorem isReal_zero : IsReal (0 : EReal) := ⟨0, EReal.coe_zero.symm⟩
/-- One is real. -/
theorem isReal_one : IsReal (1 : EReal) := ⟨1, EReal.coe_one.symm⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The maximum of two reals is real: it is one of them. -/
theorem IsReal.max {x y : EReal} (hx : IsReal x) (hy : IsReal y) : IsReal (max x y) := by
  rcases max_choice x y with h | h <;> rw [h] <;> assumption

/-- The minimum of two reals is real: it is one of them. -/
theorem IsReal.min {x y : EReal} (hx : IsReal x) (hy : IsReal y) : IsReal (min x y) := by
  rcases min_choice x y with h | h <;> rw [h] <;> assumption

/-- The quotient of two reals, the divisor nonzero, is the real quotient. -/
theorem div_coe_coe (a n : ℝ) (hn : n ≠ 0) :
    Ideal.div (a : EReal) (n : EReal) = ((a / n : ℝ) : EReal) := by
  have h0 : (n : EReal) ≠ 0 := by
    intro h; exact hn (by exact_mod_cast h)
  rw [Ideal.div, if_neg h0, ← EReal.coe_inv, ← EReal.coe_mul, div_eq_mul_inv]

/-- The quotient of a real by a nonzero real number is real. -/
theorem IsReal.div_coe {x : EReal} (hx : IsReal x) {n : ℝ} (hn : n ≠ 0) :
    IsReal (Ideal.div x (n : EReal)) := by
  obtain ⟨a, rfl⟩ := hx; exact ⟨a / n, div_coe_coe a n hn⟩

/-- The quotient of a real by a real extended real other than zero is real. -/
theorem IsReal.div {x y : EReal} (hx : IsReal x) (hy : IsReal y) (hy0 : y ≠ 0) :
    IsReal (Ideal.div x y) := by
  obtain ⟨b, rfl⟩ := hy
  exact hx.div_coe (fun h => hy0 (by rw [h, EReal.coe_zero]))

/-- A finite sum of reals is real. -/
theorem isReal_sum {ι : Type*} (s : Finset ι) (f : ι → EReal) (h : ∀ i ∈ s, IsReal (f i)) :
    IsReal (∑ i ∈ s, f i) :=
  Finset.sum_induction f IsReal (fun _ _ => IsReal.add) isReal_zero h

/-- Coercion of reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real: the real (√r)⁻¹, which is positive. -/
theorem rsqrt_coe_of_pos {r : ℝ} (hr : 0 < r) :
    Ideal.rsqrt (r : EReal) = (((Real.sqrt r)⁻¹ : ℝ) : EReal) := by
  rw [Ideal.rsqrt_coe, if_neg (not_lt.mpr hr.le), if_neg hr.ne']

/-- The reciprocal of the square root of a positive real number is positive. -/
theorem inv_sqrt_pos {r : ℝ} (hr : 0 < r) : 0 < (Real.sqrt r)⁻¹ :=
  inv_pos.mpr (Real.sqrt_pos.mpr hr)

/-- The reciprocal square root of a positive real extended real is a positive real. -/
theorem IsReal.rsqrt_pos {x : EReal} (hx : IsReal x) (hpos : 0 < x) :
    ∃ r : ℝ, 0 < r ∧ Ideal.rsqrt x = (r : EReal) := by
  obtain ⟨a, rfl⟩ := hx
  have ha : 0 < a := EReal.coe_pos.mp hpos
  exact ⟨(Real.sqrt a)⁻¹, inv_sqrt_pos ha, rsqrt_coe_of_pos ha⟩

/-- The reciprocal square root of a positive real extended real is real. -/
theorem IsReal.rsqrt {x : EReal} (hx : IsReal x) (hpos : 0 < x) : IsReal (Ideal.rsqrt x) := by
  obtain ⟨r, _, h⟩ := hx.rsqrt_pos hpos; exact ⟨r, h⟩

/-- The reciprocal square root of a positive real extended real is positive. -/
theorem rsqrt_pos_of_isReal {x : EReal} (hx : IsReal x) (hpos : 0 < x) : 0 < Ideal.rsqrt x := by
  obtain ⟨r, hr, h⟩ := hx.rsqrt_pos hpos; rw [h]; exact EReal.coe_pos.mpr hr

/-- A nonnegative extended real plus one is positive (a degree count plus the self loop). -/
theorem pos_of_nonneg_add_one {x : EReal} (h : 0 ≤ x) : 0 < x + 1 :=
  lt_of_lt_of_le (by exact_mod_cast zero_lt_one) (le_add_of_nonneg_left h)

/-- A nonnegative real plus a positive real is positive, and the reciprocal square root of the sum
is a positive real (a variance plus the stabilising constant). -/
theorem rsqrt_add_pos {v e : ℝ} (hv : 0 ≤ v) (he : 0 < e) :
    Ideal.rsqrt ((v : EReal) + (e : EReal)) = (((Real.sqrt (v + e))⁻¹ : ℝ) : EReal)
      ∧ 0 < (Real.sqrt (v + e))⁻¹ := by
  have h : 0 < v + e := add_pos_of_nonneg_of_pos hv he
  rw [← EReal.coe_add]
  exact ⟨rsqrt_coe_of_pos h, inv_sqrt_pos h⟩

/-! ## Arrays -/

/-- Every entry of the array is real. -/
def AllReal {ι : Type*} (x : ι → EReal) : Prop := ∀ i, IsReal (x i)

/-- An all-real array is the coercion of an array of reals. -/
theorem AllReal.exists_real {ι : Type*} {x : ι → EReal} (h : AllReal x) :
    ∃ r : ι → ℝ, x = fun i => (r i : EReal) := by
  choose r hr using h; exact ⟨r, funext hr⟩

/-- Re-indexing (a gather, a broadcast, a reshape, a slice, a transpose) keeps an array all-real. -/
theorem AllReal.comp {ι κ : Type*} {x : ι → EReal} (h : AllReal x) (f : κ → ι) :
    AllReal (fun k => x (f k)) := fun k => h (f k)

/-- A constant array with a real value is all-real. -/
theorem allReal_const {ι : Type*} {c : EReal} (h : IsReal c) : AllReal (fun _ : ι => c) := fun _ => h

section Pointwise
variable {s : Shape} {φ : FTy}

/-- The pointwise sum of all-real arrays is all-real. -/
theorem allReal_addf {x y : FVec Ideal s φ} (hx : AllReal x) (hy : AllReal y) : AllReal (addf x y) :=
  fun i => show IsReal (x i + y i) from (hx i).add (hy i)

/-- The pointwise difference of all-real arrays is all-real. -/
theorem allReal_subf {x y : FVec Ideal s φ} (hx : AllReal x) (hy : AllReal y) : AllReal (subf x y) :=
  fun i => show IsReal (x i - y i) from (hx i).sub (hy i)

/-- The pointwise product of all-real arrays is all-real. -/
theorem allReal_mulf {x y : FVec Ideal s φ} (hx : AllReal x) (hy : AllReal y) : AllReal (mulf x y) :=
  fun i => show IsReal (x i * y i) from (hx i).mul (hy i)

/-- The pointwise maximum of all-real arrays is all-real. -/
theorem allReal_maximumf {x y : FVec Ideal s φ} (hx : AllReal x) (hy : AllReal y) :
    AllReal (maximumf x y) :=
  fun i => show IsReal (max (x i) (y i)) from (hx i).max (hy i)

/-- Pointwise quotient by an array of nonzero reals (the kernel's divf and the host's). -/
theorem allReal_divf {x y : FVec Ideal s φ} (hx : AllReal x) (hy : AllReal y) (hy0 : ∀ i, y i ≠ 0) :
    AllReal (divf x y) :=
  fun i => show IsReal (Ideal.div (x i) (y i)) from (hx i).div (hy i) (hy0 i)

/-- The same for the host's quotient. -/
theorem allReal_host_divf {x y : FVec Ideal s φ} (hx : AllReal x) (hy : AllReal y)
    (hy0 : ∀ i, y i ≠ 0) : AllReal (Host.divf x y) :=
  fun i => show IsReal (Ideal.div (x i) (y i)) from (hx i).div (hy i) (hy0 i)

/-- Pointwise reciprocal square root of an array of positive reals (the kernel's rsqrt). -/
theorem allReal_rsqrt {x : FVec Ideal s φ} (hx : AllReal x) (hpos : ∀ i, 0 < x i) :
    AllReal (rsqrt x) :=
  fun i => show IsReal (Ideal.rsqrt (x i)) from (hx i).rsqrt (hpos i)

/-- The same for the host's rsqrt. -/
theorem allReal_host_rsqrt {x : FVec Ideal s φ} (hx : AllReal x) (hpos : ∀ i, 0 < x i) :
    AllReal (Host.rsqrt x) :=
  fun i => show IsReal (Ideal.rsqrt (x i)) from (hx i).rsqrt (hpos i)

/-- The host's pointwise reciprocal square root of an array of positive reals is positive at every index. -/
theorem host_rsqrt_pos {x : FVec Ideal s φ} (hx : AllReal x) (hpos : ∀ i, 0 < x i) (i : s.Idx) :
    0 < Host.rsqrt x i :=
  show 0 < Ideal.rsqrt (x i) from rsqrt_pos_of_isReal (hx i) (hpos i)

/-- A splat of a bit pattern that denotes a real. -/
theorem allReal_constant {b : BitVec φ.bits} (h : IsReal (Ideal.ofBits φ b)) :
    AllReal (constant (F := Ideal) s φ b) := fun _ => h

end Pointwise

/-! ## Products and sums -/

section Contractions
variable {sl sr so : Shape} {φ₁ φ₂ : FTy}

/-- The host's matrix product of all-real arrays is all-real: each entry is a finite sum of
products. -/
theorem allReal_host_dotGeneral (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show IsReal (FloatOps.dotGeneral d prec .single lhs rhs j)
  rw [Ideal.dotGeneral_apply]
  exact isReal_sum _ _ fun k _ => (hl _).mul (hr _)

/-- A kernel's matrix product accumulated onto an all-real accumulator is all-real. -/
theorem allReal_matmul (d : DotDims sl sr so) (prec : Option ContractPrecision)
    {lhs : FVec Ideal sl φ₁} {rhs : FVec Ideal sr φ₂} {acc : FVec Ideal so .f32}
    (hl : AllReal lhs) (hr : AllReal rhs) (ha : AllReal acc) :
    AllReal (matmul d prec lhs rhs acc) := fun j => by
  show IsReal (FloatOps.matmul d prec lhs rhs acc j)
  rw [Ideal.matmul_apply]
  exact (ha j).add (isReal_sum _ _ fun k _ => (hl _).mul (hr _))

/-- A kernel's matrix product onto the zero splat is all-real. -/
theorem allReal_matmul_zero (d : DotDims sl sr so) (prec : Option ContractPrecision)
    {lhs : FVec Ideal sl φ₁} {rhs : FVec Ideal sr φ₂} (hl : AllReal lhs) (hr : AllReal rhs) :
    AllReal (matmul d prec lhs rhs (constant so .f32 0x00000000#32)) := fun j => by
  show IsReal (FloatOps.matmul d prec lhs rhs (constant so .f32 0x00000000#32) j)
  rw [Ideal.matmul_constant_zero_apply]
  exact isReal_sum _ _ fun k _ => (hl _).mul (hr _)

end Contractions

section Reductions
variable {s t u : Shape} {φ : FTy} {axes : List (Fin s.rank)}

/-- The host's sum along axes of an all-real array from a real initial value is all-real. -/
theorem allReal_host_reduceAdd {x : FVec Ideal s φ} {init : u.Idx → Ideal φ} (hx : AllReal x)
    (hi : AllReal init) (h : s.ReducesTo axes t) (hu : 0 < u.numel) :
    AllReal (Host.reduceAdd x init h hu) := fun j => by
  show IsReal (Ideal.hostReduceAdd h x (init (Shape.Idx.first hu)) j)
  unfold Ideal.hostReduceAdd
  exact (hi _).add (isReal_sum _ _ fun i _ => hx i)

/-- A kernel's add-reduction along axes of an all-real vector is all-real. -/
theorem allReal_multiReduction_add {src : FVec Ideal s φ} (hx : AllReal src) (acc : BitVec φ.bits)
    (h : s.Reduces axes t) (hφ : FKind.Formats φ) (hacc : acc = FKind.add.neutral φ hφ) :
    AllReal (multiReduction .add axes t src acc h hφ hacc) := fun j => by
  show IsReal (Ideal.reduceAdd h src j)
  unfold Ideal.reduceAdd
  exact isReal_sum _ _ fun i _ => hx i

end Reductions

/-! ## Gather and accumulating scatter -/

section GatherScatter
variable {s si su t : Shape} {φ : FTy} {w : Nat}

/-- A gather only re-indexes its operand. -/
theorem allReal_host_gather (d : GatherDims s si t) {x : FVec Ideal s φ} (hx : AllReal x)
    (idx : IVec si w) : AllReal (Host.gather d x idx) := fun j => hx _

/-- What the host's accumulating scatter is at an index: the operand there plus the sum of the updates
that land there. -/
theorem host_scatterAdd_apply (d : ScatterDims s si su) (x : FVec Ideal s φ) (idx : IVec si w)
    (upd : FVec Ideal su φ) (i : s.Idx) :
    Host.scatterAdd d x idx upd i
      = x i + ∑ j ∈ Finset.univ.filter (fun j => d.resultIdx? j idx = some i), upd j := rfl

/-- An accumulating scatter of all-real updates into an all-real operand is all-real, whatever the
indices (an update that lands outside contributes nothing, one that lands inside adds a real). -/
theorem allReal_host_scatterAdd (d : ScatterDims s si su) {x : FVec Ideal s φ} (idx : IVec si w)
    {upd : FVec Ideal su φ} (hx : AllReal x) (hu : AllReal upd) :
    AllReal (Host.scatterAdd d x idx upd) := fun i => by
  rw [host_scatterAdd_apply]
  exact (hx i).add (isReal_sum _ _ fun j _ => hu j)

/-- An accumulating scatter of nonnegative updates into a nonnegative operand is nonnegative. -/
theorem host_scatterAdd_nonneg (d : ScatterDims s si su) {x : FVec Ideal s φ} (idx : IVec si w)
    {upd : FVec Ideal su φ} (hx : ∀ i, 0 ≤ x i) (hu : ∀ j, 0 ≤ upd j) (i : s.Idx) :
    0 ≤ Host.scatterAdd d x idx upd i := by
  rw [host_scatterAdd_apply]
  exact add_nonneg (hx i) (Finset.sum_nonneg fun j _ => hu j)

/-- It is also at least the operand: the updates only add. -/
theorem host_scatterAdd_ge (d : ScatterDims s si su) {x : FVec Ideal s φ} (idx : IVec si w)
    {upd : FVec Ideal su φ} (hu : ∀ j, 0 ≤ upd j) (i : s.Idx) :
    x i ≤ Host.scatterAdd d x idx upd i := by
  rw [host_scatterAdd_apply]
  exact le_add_of_nonneg_right (Finset.sum_nonneg fun j _ => hu j)

end GatherScatter

/-! ## Four f32 bit patterns -/

/-- 0.0 -/
theorem ofBits_f32_zero : Ideal.ofBits .f32 0x00000000#32 = 0 := Ideal.ofBits_zero_f32

/-- 1.0 -/
theorem ofBits_f32_one : Ideal.ofBits .f32 0x3F800000#32 = 1 := Ideal.ofBits_one_f32

/-- 50000.0: exponent field 142, fraction field 4411392, so (2^23 + 4411392) · 2^(142-127-23)
= 12800000 / 256 = 50000. -/
theorem ofBits_f32_50000 : Ideal.ofBits .f32 0x47435000#32 = ((50000 : ℝ) : EReal) := by
  simp [Ideal.ofBits, Ideal.ieee, -EReal.coe_mul]; norm_num

/-- The real the f32 nearest to 1e-5 denotes: exponent field 110, fraction field 2606508, so
(2^23 + 2606508) · 2^(110-127-23) = 10995116 / 2^40. -/
noncomputable def epsF32 : ℝ := 10995116 / 1099511627776

/-- That real is positive. -/
theorem epsF32_pos : 0 < epsF32 := by unfold epsF32; norm_num

/-- The f32 pattern 0x3727C5AC denotes that real. -/
theorem ofBits_f32_eps : Ideal.ofBits .f32 0x3727C5AC#32 = ((epsF32 : ℝ) : EReal) := by
  unfold epsF32
  simp [Ideal.ofBits, Ideal.ieee, -EReal.coe_mul]; norm_num

/-- The pattern of 0.0 denotes a real. -/
theorem isReal_ofBits_f32_zero : IsReal (Ideal.ofBits .f32 0x00000000#32) :=
  ofBits_f32_zero ▸ isReal_zero
/-- The pattern of 1.0 denotes a real. -/
theorem isReal_ofBits_f32_one : IsReal (Ideal.ofBits .f32 0x3F800000#32) :=
  ofBits_f32_one ▸ isReal_one
/-- The pattern of 50000.0 denotes a real. -/
theorem isReal_ofBits_f32_50000 : IsReal (Ideal.ofBits .f32 0x47435000#32) :=
  ⟨50000, ofBits_f32_50000⟩
/-- The pattern of the f32 nearest to 1e-5 denotes a real. -/
theorem isReal_ofBits_f32_eps : IsReal (Ideal.ofBits .f32 0x3727C5AC#32) :=
  ⟨epsF32, ofBits_f32_eps⟩

end Cert.Lib
-- ==== Proof.LibRowGatherScatter.lean ====
import Idealize.ShloMosaic.Lib.ValueIdx
import Idealize.ShloMosaic.Lib.IdealHost
import Mathlib.Tactic

/-!
# A gather of rows and an accumulating scatter of rows, read at an index

An array `[B, N, H]` gathered along its middle axis at `E` start indices (an integer array `[E, 1]`)
is the array `[B, E, H]` whose entry `(b, e, h)` is the operand's entry `(b, r, h)`, `r` the `e`-th start
index read signed and clamped into `[0, N - 1]`. The accumulating scatter of an update array
`[B, E, H]` along the middle axis of an array `[B, N, H]` adds update `(b, e, h)` at `(b, r, h)`, `r` the
`e`-th scatter index, when that is inside; so, when every scatter index is inside, the sum of the
updates landing at `(b, n, h)` is the sum over the `e` whose index is `n` of update `(b, e, h)`.
The same two facts for vectors: `[N]` gathered at `[E, 1]` indices, and `[E]` updates scattered
into `[N]`.
-/

namespace Cert.Lib

open Idealize.ShloMosaic Idealize.ShloMosaic.ValueIdx
open scoped BigOperators

section Rows
variable {α : Type} {B N E H w : Nat}

/-- Dimension numbers of the gather of rows: offset axes 0 and 2, the middle axis collapsed and
indexed. -/
abbrev rowGatherDims (B N E H : Nat)
    (wf : GatherDims.WF ⟨3, ![B, N, H]⟩ ⟨2, ![E, 1]⟩ ⟨3, ![B, E, H]⟩ [0, 2] [1] [] [1] [] 1 ![B, 1, H]) :
    GatherDims ⟨3, ![B, N, H]⟩ ⟨2, ![E, 1]⟩ ⟨3, ![B, E, H]⟩ where
  offsetDims := [0, 2]
  collapsedSliceDims := [1]
  operandBatchingDims := []
  startIndicesBatchingDims := []
  startIndexMap := [1]
  indexVectorDim := 1
  sliceSizes := ![B, 1, H]
  wf := wf

/-- The gather of rows at `(b, e, h)`: the operand at `(b, r, h)`, `r` the `e`-th start index read
signed and clamped into `[0, N - 1]`. -/
theorem rowGather_apply (hN : 0 < N)
    (wf : GatherDims.WF ⟨3, ![B, N, H]⟩ ⟨2, ![E, 1]⟩ ⟨3, ![B, E, H]⟩ [0, 2] [1] [] [1] [] 1 ![B, 1, H])
    (x : (⟨3, ![B, N, H]⟩ : Shape).Idx → α) (idx : IVec ⟨2, ![E, 1]⟩ w)
    (j : (⟨3, ![B, E, H]⟩ : Shape).Idx) :
    Host.gather (rowGatherDims B N E H wf) x idx j
      = x (ix3 (j 0) ⟨min (idx (ix2 (j 1) ⟨0, Nat.one_pos⟩)).toInt.toNat (N - 1), by omega⟩ (j 2)) := by
  unfold Host.gather
  congr 1
  funext a
  refine Fin.ext ?_
  have hsi : (rowGatherDims B N E H wf).siIdx j ⟨List.idxOf (1 : Fin 3) (rowGatherDims B N E H wf).startIndexMap,
      List.idxOf_lt_length_iff.2 (List.mem_singleton.mpr rfl)⟩ = ix2 (j 1) ⟨0, Nat.one_pos⟩ := by
    funext b; refine Fin.ext ?_
    match b with
    | ⟨0, _⟩ => rfl
    | ⟨1, _⟩ => rfl
  match a with
  | ⟨0, _⟩ =>
    show (rowGatherDims B N E H wf).start j idx 0 + (rowGatherDims B N E H wf).batchCoord j 0
      + (rowGatherDims B N E H wf).offCoord j 0 = (j 0).val
    rw [GatherDims.batchCoord_eq_zero _ _ _ List.not_mem_nil]
    unfold GatherDims.start
    rw [dif_neg (show ¬ (0 : Fin 3) ∈ ([1] : List (Fin 3)) by decide)]
    unfold GatherDims.offCoord
    rw [dif_pos ((GatherDims.mem_sKept _ _).mpr ⟨(show ¬ (0 : Fin 3) ∈ ([1] : List (Fin 3)) by decide), List.not_mem_nil⟩)]
    simp only [Nat.add_zero, Nat.zero_add]
    rfl
  | ⟨1, _⟩ =>
    show (rowGatherDims B N E H wf).start j idx 1 + (rowGatherDims B N E H wf).batchCoord j 1
      + (rowGatherDims B N E H wf).offCoord j 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowGatherDims B N E H wf).startIndexMap from List.mem_singleton.mpr rfl)]
    rw [hsi]
    rfl
  | ⟨2, _⟩ =>
    show (rowGatherDims B N E H wf).start j idx 2 + (rowGatherDims B N E H wf).batchCoord j 2
      + (rowGatherDims B N E H wf).offCoord j 2 = (j 2).val
    rw [GatherDims.batchCoord_eq_zero _ _ _ List.not_mem_nil]
    unfold GatherDims.start
    rw [dif_neg (show ¬ (2 : Fin 3) ∈ ([1] : List (Fin 3)) by decide)]
    unfold GatherDims.offCoord
    rw [dif_pos ((GatherDims.mem_sKept _ _).mpr ⟨(show ¬ (2 : Fin 3) ∈ ([1] : List (Fin 3)) by decide), List.not_mem_nil⟩)]
    simp only [Nat.add_zero, Nat.zero_add]
    rfl

end Rows

/-- Every rank-3 index is `ix3` of three coordinates, each typed by its own extent. -/
theorem exists_ix3 {n0 n1 n2 : Nat} (j : (⟨3, ![n0, n1, n2]⟩ : Shape).Idx) :
    ∃ (a : Fin n0) (b : Fin n1) (c : Fin n2), j = ix3 a b c := ⟨j 0, j 1, j 2, eq_ix3 j⟩

/-- Every rank-1 index is `ix1` of a coordinate typed by its extent. -/
theorem exists_ix1 {n : Nat} (j : (⟨1, ![n]⟩ : Shape).Idx) : ∃ a : Fin n, j = ix1 a := ⟨j 0, eq_ix1 j⟩

section RowsAt
variable {α : Type} {B N E H w : Nat}

/-- The gather of rows at `(b, e, h)`, by coordinates. -/
theorem rowGather_ix3 (hN : 0 < N)
    (wf : GatherDims.WF ⟨3, ![B, N, H]⟩ ⟨2, ![E, 1]⟩ ⟨3, ![B, E, H]⟩ [0, 2] [1] [] [1] [] 1 ![B, 1, H])
    (x : (⟨3, ![B, N, H]⟩ : Shape).Idx → α) (idx : IVec ⟨2, ![E, 1]⟩ w) (b : Fin B) (e : Fin E) (h : Fin H) :
    Host.gather (rowGatherDims B N E H wf) x idx (ix3 b e h)
      = x (ix3 b ⟨min (idx (ix2 e ⟨0, Nat.one_pos⟩)).toInt.toNat (N - 1), by omega⟩ h) :=
  rowGather_apply hN wf x idx (ix3 b e h)

end RowsAt

section RowsScatter
variable {B N E H w : Nat}

/-- Dimension numbers of the accumulating scatter of rows: window axes 0 and 2, the middle axis
inserted and indexed. -/
abbrev rowScatterDims (B N E H : Nat)
    (wf : ScatterDims.WF ⟨3, ![B, N, H]⟩ ⟨2, ![E, 1]⟩ ⟨3, ![B, E, H]⟩ [0, 2] [1] [1] 1) :
    ScatterDims ⟨3, ![B, N, H]⟩ ⟨2, ![E, 1]⟩ ⟨3, ![B, E, H]⟩ where
  updateWindowDims := [0, 2]
  insertedWindowDims := [1]
  scatterDimsToOperandDims := [1]
  indexVectorDim := 1
  wf := wf

/-- Update `(b, e, h)` lands at `(b, r, h)` when the `e`-th scatter index, read signed, is the
natural number `r < N`. -/
theorem rowScatter_resultIdx
    (wf : ScatterDims.WF ⟨3, ![B, N, H]⟩ ⟨2, ![E, 1]⟩ ⟨3, ![B, E, H]⟩ [0, 2] [1] [1] 1)
    (idx : IVec ⟨2, ![E, 1]⟩ w) (b : Fin B) (e : Fin E) (h : Fin H) (r : Fin N)
    (hr : (idx (ix2 e ⟨0, Nat.one_pos⟩)).toInt = (r.val : Int)) :
    (rowScatterDims B N E H wf).resultIdx? (ix3 b e h) idx = some (ix3 b r h) := by
  have hsi : (rowScatterDims B N E H wf).siIdx (ix3 b e h) ⟨List.idxOf (1 : Fin 3) (rowScatterDims B N E H wf).scatterDimsToOperandDims,
      List.idxOf_lt_length_iff.2 (List.mem_singleton.mpr rfl)⟩ = ix2 e ⟨0, Nat.one_pos⟩ := by
    funext c; refine Fin.ext ?_
    match c with
    | ⟨0, _⟩ => rfl
    | ⟨1, _⟩ => rfl
  have hs : ∀ a, (rowScatterDims B N E H wf).start (ix3 b e h) idx a + ((rowScatterDims B N E H wf).window (ix3 b e h) a : Int)
      = ((ix3 b r h a).val : Int) := by
    intro a
    match a with
    | ⟨0, _⟩ =>
      show (rowScatterDims B N E H wf).start (ix3 b e h) idx 0 + ((rowScatterDims B N E H wf).window (ix3 b e h) 0 : Int) = (b.val : Int)
      unfold ScatterDims.start ScatterDims.window
      rw [dif_neg (show ¬ (0 : Fin 3) ∈ ([1] : List (Fin 3)) by decide),
        dif_pos (show (0 : Fin 3) ∈ (rowScatterDims B N E H wf).sKept by
          simp [ScatterDims.sKept, Shape.kept, List.mem_filter, List.mem_finRange])]
      simp only [Int.zero_add]
      rfl
    | ⟨1, _⟩ =>
      show (rowScatterDims B N E H wf).start (ix3 b e h) idx 1 + ((rowScatterDims B N E H wf).window (ix3 b e h) 1 : Int) = (r.val : Int)
      unfold ScatterDims.start ScatterDims.window
      rw [dif_pos (show (1 : Fin 3) ∈ (rowScatterDims B N E H wf).scatterDimsToOperandDims from List.mem_singleton.mpr rfl),
        dif_neg (show ¬ (1 : Fin 3) ∈ (rowScatterDims B N E H wf).sKept by
          simp [ScatterDims.sKept, Shape.kept, List.mem_filter, List.mem_finRange])]
      rw [hsi, hr]
      simp
    | ⟨2, _⟩ =>
      show (rowScatterDims B N E H wf).start (ix3 b e h) idx 2 + ((rowScatterDims B N E H wf).window (ix3 b e h) 2 : Int) = (h.val : Int)
      unfold ScatterDims.start ScatterDims.window
      rw [dif_neg (show ¬ (2 : Fin 3) ∈ ([1] : List (Fin 3)) by decide),
        dif_pos (show (2 : Fin 3) ∈ (rowScatterDims B N E H wf).sKept by
          simp [ScatterDims.sKept, Shape.kept, List.mem_filter, List.mem_finRange])]
      simp only [Int.zero_add]
      rfl
  unfold ScatterDims.resultIdx?
  rw [dif_pos (fun a => by
    rw [hs a]
    exact ⟨Int.natCast_nonneg _, by exact_mod_cast (ix3 b r h a).isLt⟩)]
  congr 1
  funext a
  refine Fin.ext ?_
  show ((rowScatterDims B N E H wf).start (ix3 b e h) idx a + ((rowScatterDims B N E H wf).window (ix3 b e h) a : Int)).toNat = _
  rw [hs a]
  exact Int.toNat_natCast _

/-- When every scatter index, read signed, is a natural number below `N` (`dst e` for update row
`e`), the updates landing at `(b, n, h)` are the updates `(b, e, h)` with `dst e = n`. -/
theorem rowScatter_sum {M : Type*} [AddCommMonoid M]
    (wf : ScatterDims.WF ⟨3, ![B, N, H]⟩ ⟨2, ![E, 1]⟩ ⟨3, ![B, E, H]⟩ [0, 2] [1] [1] 1)
    (idx : IVec ⟨2, ![E, 1]⟩ w) (dst : Fin E → Fin N)
    (hdst : ∀ e : Fin E, (idx (ix2 e ⟨0, Nat.one_pos⟩)).toInt = ((dst e).val : Int))
    (upd : (⟨3, ![B, E, H]⟩ : Shape).Idx → M) (b : Fin B) (n : Fin N) (h : Fin H) :
    ∑ j ∈ Finset.univ.filter (fun j => (rowScatterDims B N E H wf).resultIdx? j idx = some (ix3 b n h)), upd j
      = ∑ e ∈ Finset.univ.filter (fun e => dst e = n), upd (ix3 b e h) := by
  have key : ∀ (b' : Fin B) (e' : Fin E) (h' : Fin H),
      (rowScatterDims B N E H wf).resultIdx? (ix3 b' e' h') idx = some (ix3 b n h) ↔ (b' = b ∧ dst e' = n ∧ h' = h) := by
    intro b' e' h'
    rw [rowScatter_resultIdx wf idx b' e' h' (dst e') (hdst e')]
    constructor
    · intro hh
      have hh' := Option.some.inj hh
      exact ⟨congrFun hh' 0, congrFun hh' 1, congrFun hh' 2⟩
    · rintro ⟨rfl, rfl, rfl⟩
      rfl
  refine Finset.sum_nbij' (fun j => (j 1 : Fin E)) (fun e => ix3 b e h) ?_ ?_ ?_ ?_ ?_
  · intro j hj
    obtain ⟨b', e', h', rfl⟩ := exists_ix3 j
    exact Finset.mem_filter.mpr ⟨Finset.mem_univ _, ((key b' e' h').mp (Finset.mem_filter.mp hj).2).2.1⟩
  · intro e he
    exact Finset.mem_filter.mpr ⟨Finset.mem_univ _, (key b e h).mpr ⟨rfl, (Finset.mem_filter.mp he).2, rfl⟩⟩
  · intro j hj
    obtain ⟨b', e', h', rfl⟩ := exists_ix3 j
    obtain ⟨rfl, _, rfl⟩ := (key b' e' h').mp (Finset.mem_filter.mp hj).2
    rfl
  · intro e _
    rfl
  · intro j hj
    obtain ⟨b', e', h', rfl⟩ := exists_ix3 j
    obtain ⟨rfl, _, rfl⟩ := (key b' e' h').mp (Finset.mem_filter.mp hj).2
    rfl

end RowsScatter

section Vec
variable {α : Type} {N E w : Nat}

/-- Dimension numbers of the gather of entries of a vector `[N]` at `[E, 1]` start indices. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of a vector at `e`: the operand at the `e`-th start index read signed and clamped
into `[0, N - 1]`. -/
theorem vecGather_ix1 (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e ⟨0, Nat.one_pos⟩ := by
    funext c; refine Fin.ext ?_
    match c with
    | ⟨0, _⟩ => rfl
    | ⟨1, _⟩ => rfl
  rw [hsi]
  rfl

/-- Dimension numbers of the accumulating scatter of `[E]` updates into a vector `[N]` at `[E, 1]`
scatter indices. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands at `r` when the `e`-th scatter index, read signed, is the natural number
`r < N`. -/
theorem vecScatter_resultIdx
    (wf : ScatterDims.WF ⟨1, ![N]⟩ ⟨2, ![E, 1]⟩ ⟨1, ![E]⟩ [] [0] [0] 1)
    (idx : IVec ⟨2, ![E, 1]⟩ w) (e : Fin E) (r : Fin N)
    (hr : (idx (ix2 e ⟨0, Nat.one_pos⟩)).toInt = (r.val : Int)) :
    (vecScatterDims N E wf).resultIdx? (ix1 e) idx = some (ix1 r) := by
  have hsi : (vecScatterDims N E wf).siIdx (ix1 e) ⟨List.idxOf (0 : Fin 1) (vecScatterDims N E wf).scatterDimsToOperandDims,
      List.idxOf_lt_length_iff.2 (List.mem_singleton.mpr rfl)⟩ = ix2 e ⟨0, Nat.one_pos⟩ := by
    funext c; refine Fin.ext ?_
    match c with
    | ⟨0, _⟩ => rfl
    | ⟨1, _⟩ => rfl
  have hs : ∀ a, (vecScatterDims N E wf).start (ix1 e) idx a + ((vecScatterDims N E wf).window (ix1 e) a : Int)
      = ((ix1 r a).val : Int) := by
    intro a
    obtain rfl : a = 0 := Subsingleton.elim _ _
    show (vecScatterDims N E wf).start (ix1 e) idx 0 + ((vecScatterDims N E wf).window (ix1 e) 0 : Int) = (r.val : Int)
    unfold ScatterDims.start ScatterDims.window
    rw [dif_pos (show (0 : Fin 1) ∈ (vecScatterDims N E wf).scatterDimsToOperandDims from List.mem_singleton.mpr rfl),
      dif_neg (show ¬ (0 : Fin 1) ∈ (vecScatterDims N E wf).sKept by
        simp [ScatterDims.sKept, Shape.kept, List.mem_filter, List.mem_finRange])]
    rw [hsi, hr]
    simp
  unfold ScatterDims.resultIdx?
  rw [dif_pos (fun a => by
    rw [hs a]
    exact ⟨Int.natCast_nonneg _, by exact_mod_cast (ix1 r a).isLt⟩)]
  congr 1
  funext a
  refine Fin.ext ?_
  show ((vecScatterDims N E wf).start (ix1 e) idx a + ((vecScatterDims N E wf).window (ix1 e) a : Int)).toNat = _
  rw [hs a]
  exact Int.toNat_natCast _

/-- When every scatter index, read signed, is a natural number below `N` (`dst e` for update
`e`), the updates landing at `n` are the updates `e` with `dst e = n`. -/
theorem vecScatter_sum {M : Type*} [AddCommMonoid M]
    (wf : ScatterDims.WF ⟨1, ![N]⟩ ⟨2, ![E, 1]⟩ ⟨1, ![E]⟩ [] [0] [0] 1)
    (idx : IVec ⟨2, ![E, 1]⟩ w) (dst : Fin E → Fin N)
    (hdst : ∀ e : Fin E, (idx (ix2 e ⟨0, Nat.one_pos⟩)).toInt = ((dst e).val : Int))
    (upd : (⟨1, ![E]⟩ : Shape).Idx → M) (n : Fin N) :
    ∑ j ∈ Finset.univ.filter (fun j => (vecScatterDims N E wf).resultIdx? j idx = some (ix1 n)), upd j
      = ∑ e ∈ Finset.univ.filter (fun e => dst e = n), upd (ix1 e) := by
  have key : ∀ e' : Fin E,
      (vecScatterDims N E wf).resultIdx? (ix1 e') idx = some (ix1 n) ↔ dst e' = n := by
    intro e'
    rw [vecScatter_resultIdx wf idx e' (dst e') (hdst e')]
    constructor
    · intro hh
      exact congrFun (Option.some.inj hh) 0
    · rintro rfl
      rfl
  refine Finset.sum_nbij' (fun j => (j 0 : Fin E)) (fun e => ix1 e) ?_ ?_ ?_ ?_ ?_
  · intro j hj
    obtain ⟨e', rfl⟩ := exists_ix1 j
    exact Finset.mem_filter.mpr ⟨Finset.mem_univ _, (key e').mp (Finset.mem_filter.mp hj).2⟩
  · intro e he
    exact Finset.mem_filter.mpr ⟨Finset.mem_univ _, (key e).mpr (Finset.mem_filter.mp he).2⟩
  · intro j _
    obtain ⟨e', rfl⟩ := exists_ix1 j
    rfl
  · intro e _
    rfl
  · intro j _
    obtain ⟨e', rfl⟩ := exists_ix1 j
    rfl

end Vec

end Cert.Lib
-- ==== Proof.RefSide.lean ====
import proofs.«150125_j89541478187016_2_alg».proof.Proof.Gen.ReferenceIdeal.Read
import proofs.«150125_j89541478187016_2_alg».proof.Proof.LibRealClosed
import proofs.«150125_j89541478187016_2_alg».proof.Proof.LibRowGatherScatter

/-!
# The reference network read index by index

The reference is a three-layer graph convolution followed by a dense readout. Its edge list is the
`242160` given edges followed by one self loop per node; an edge `e` has a source `srcF e` and a
destination `dstF e` among the `15135` nodes, and a weight `normR e`, the product of the reciprocal
square roots of the in-degrees (self loop counted) of its two ends. One layer sends an activation
`P` to `max (∑_{e : dstF e = n} (∑_f P[b, srcF e, f] · W[f, h]) · normR e + bias[h]) 0`. The
three activations, interleaved along the feature axis, are contracted with one column, and a dense
tail maps the result to log-probabilities.
-/

noncomputable section

namespace Cert.ReferenceIdeal.RefSide

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.Lib
open scoped BigOperators

/-! ## Words -/

/-- A natural number below 15135, written as a 32-bit word, reads back signed as itself. -/
theorem toInt_ofNat_of_lt (k : Nat) (hk : k < 15135) : (BitVec.ofNat 32 k).toInt = (k : Int) := by
  have h1 : (BitVec.ofNat 32 k).toNat = k := by
    rw [BitVec.toNat_ofNat]; exact Nat.mod_eq_of_lt (by omega)
  rw [BitVec.toInt_eq_toNat_of_lt (by rw [h1]; omega), h1]

/-- Wrapping a nonnegative index (adding the node count when it is negative) leaves it alone. -/
theorem wrap_eq_self (x : BitVec 32) (h : 0 ≤ x.toInt) :
    Scalar.select (IntOp.cmpi .slt x 0#32) (IntOp.addi x 15135#32) x = x := by
  have h0 : IntOp.cmpi .slt x 0#32 = 0#1 := by
    have hs : x.slt 0#32 = false := by
      simp only [BitVec.slt, BitVec.toInt_zero, decide_eq_false_iff_not, not_lt]
      exact h
    simp only [IntOp.cmpi, hs]
    rfl
  rw [h0]
  exact select_zero _ _

/-! ## The edge list: given edges, then one self loop per node -/

/-- Sources before wrapping: an edge below 242160 reads row 0 of the edge array. -/
theorem v3_lt (ei : IVec S2x242160 32) (e : Fin 257295) (h : e.val < 242160) :
    val_main_v3 (F := Ideal) ei (ix1 e) = ei (ix2 (0 : Fin 2) (⟨e.val, h⟩ : Fin 242160)) := by
  unfold val_main_v3
  rw [concatenate_pair_apply_left (t := S257295) (s₁ := S242160) (s₂ := S15135) (0 : Fin 1) _ _ _ (ix1 e) rfl (ix1 (⟨e.val, h⟩ : Fin 242160)) (fun b => by
    match b with
    | ⟨0, _⟩ => rfl)]
  rw [val_main_v2_apply, val_main_v1_apply]
  congr 1
  funext a
  refine Fin.ext ?_
  match a with
  | ⟨0, _⟩ => rfl
  | ⟨1, _⟩ => exact Nat.mod_eq_of_lt h

/-- Sources before wrapping: an edge from 242160 on is the self loop of node `e - 242160`. -/
theorem v3_ge (ei : IVec S2x242160 32) (e : Fin 257295) (h : 242160 ≤ e.val) :
    val_main_v3 (F := Ideal) ei (ix1 e) = BitVec.ofNat 32 (e.val - 242160) := by
  have he := e.isLt
  unfold val_main_v3
  rw [concatenate_pair_apply_right (t := S257295) (s₁ := S242160) (s₂ := S15135) (0 : Fin 1) _ _ _ (ix1 e) rfl rfl
    (ix1 (⟨e.val - 242160, by omega⟩ : Fin 15135))
    (fun b hb => by
      match b, hb with
      | ⟨0, _⟩, hb => exact absurd rfl hb)
    (by show e.val - 242160 + 242160 = e.val; omega)]
  rfl

/-- Destinations before wrapping: an edge below 242160 reads row 1 of the edge array. -/
theorem v6_lt (ei : IVec S2x242160 32) (e : Fin 257295) (h : e.val < 242160) :
    val_main_v6 (F := Ideal) ei (ix1 e) = ei (ix2 (1 : Fin 2) (⟨e.val, h⟩ : Fin 242160)) := by
  unfold val_main_v6
  rw [concatenate_pair_apply_left (t := S257295) (s₁ := S242160) (s₂ := S15135) (0 : Fin 1) _ _ _ (ix1 e) rfl (ix1 (⟨e.val, h⟩ : Fin 242160)) (fun b => by
    match b with
    | ⟨0, _⟩ => rfl)]
  rw [val_main_v5_apply, val_main_v4_apply]
  congr 1
  funext a
  refine Fin.ext ?_
  match a with
  | ⟨0, _⟩ => rfl
  | ⟨1, _⟩ => exact Nat.mod_eq_of_lt h

/-- Destinations before wrapping: an edge from 242160 on is the self loop of node `e - 242160`. -/
theorem v6_ge (ei : IVec S2x242160 32) (e : Fin 257295) (h : 242160 ≤ e.val) :
    val_main_v6 (F := Ideal) ei (ix1 e) = BitVec.ofNat 32 (e.val - 242160) := by
  have he := e.isLt
  unfold val_main_v6
  rw [concatenate_pair_apply_right (t := S257295) (s₁ := S242160) (s₂ := S15135) (0 : Fin 1) _ _ _ (ix1 e) rfl rfl
    (ix1 (⟨e.val - 242160, by omega⟩ : Fin 15135))
    (fun b hb => by
      match b, hb with
      | ⟨0, _⟩, hb => exact absurd rfl hb)
    (by show e.val - 242160 + 242160 = e.val; omega)]
  rfl

/-- When the given edges name nodes, so does every source of the extended list. -/
theorem v3_range (ei : IVec S2x242160 32) (hr : ∀ i : S2x242160.Idx, 0 ≤ (ei i).toInt ∧ (ei i).toInt < 15135) (e : Fin 257295) :
    0 ≤ (val_main_v3 (F := Ideal) ei (ix1 e)).toInt ∧ (val_main_v3 (F := Ideal) ei (ix1 e)).toInt < 15135 := by
  have he := e.isLt
  by_cases h : e.val < 242160
  · rw [v3_lt ei e h]; exact hr _
  · rw [v3_ge ei e (by omega), toInt_ofNat_of_lt _ (by omega)]
    constructor <;> omega

/-- When the given edges name nodes, so does every destination of the extended list. -/
theorem v6_range (ei : IVec S2x242160 32) (hr : ∀ i : S2x242160.Idx, 0 ≤ (ei i).toInt ∧ (ei i).toInt < 15135) (e : Fin 257295) :
    0 ≤ (val_main_v6 (F := Ideal) ei (ix1 e)).toInt ∧ (val_main_v6 (F := Ideal) ei (ix1 e)).toInt < 15135 := by
  have he := e.isLt
  by_cases h : e.val < 242160
  · rw [v6_lt ei e h]; exact hr _
  · rw [v6_ge ei e (by omega), toInt_ofNat_of_lt _ (by omega)]
    constructor <;> omega

/-- The wrapped sources of the extended edge list. -/
def srcW (ei : IVec S2x242160 32) : IVec S257295 32 := val_main_v16 (F := Ideal) ei
/-- The wrapped destinations of the extended edge list. -/
def dstW (ei : IVec S2x242160 32) : IVec S257295 32 := val_main_v23 (F := Ideal) ei

/-- Each layer recomputes the same wrapped sources … -/
theorem val_main_v32_eq (ei : IVec S2x242160 32) : val_main_v32 (F := Ideal) ei = srcW ei := rfl
theorem val_main_v55_eq (ei : IVec S2x242160 32) : val_main_v55 (F := Ideal) ei = srcW ei := rfl
theorem val_main_v78_eq (ei : IVec S2x242160 32) : val_main_v78 (F := Ideal) ei = srcW ei := rfl
/-- … and the same wrapped destinations. -/
theorem val_main_v43_eq (ei : IVec S2x242160 32) : val_main_v43 (F := Ideal) ei = dstW ei := rfl
theorem val_main_v66_eq (ei : IVec S2x242160 32) : val_main_v66 (F := Ideal) ei = dstW ei := rfl
theorem val_main_v89_eq (ei : IVec S2x242160 32) : val_main_v89 (F := Ideal) ei = dstW ei := rfl

/-- On node names the wrap is the identity: wrapped sources are the sources. -/
theorem srcW_eq_v3 (ei : IVec S2x242160 32) (hr : ∀ i : S2x242160.Idx, 0 ≤ (ei i).toInt ∧ (ei i).toInt < 15135) (e : Fin 257295) :
    srcW ei (ix1 e) = val_main_v3 (F := Ideal) ei (ix1 e) := by
  unfold srcW
  rw [val_main_v16_apply, val_main_v13_apply, val_main_v15_apply, val_main_v12_apply, val_main_v14_apply,
    val_main_c_apply, val_main_c_1_apply]
  exact wrap_eq_self _ (v3_range ei hr e).1

/-- On node names the wrap is the identity: wrapped destinations are the destinations. -/
theorem dstW_eq_v6 (ei : IVec S2x242160 32) (hr : ∀ i : S2x242160.Idx, 0 ≤ (ei i).toInt ∧ (ei i).toInt < 15135) (e : Fin 257295) :
    dstW ei (ix1 e) = val_main_v6 (F := Ideal) ei (ix1 e) := by
  unfold dstW
  rw [val_main_v23_apply, val_main_v20_apply, val_main_v22_apply, val_main_v19_apply, val_main_v21_apply,
    val_main_c_2_apply, val_main_c_3_apply]
  exact wrap_eq_self _ (v6_range ei hr e).1

/-- The source node of edge `e`: its wrapped source word read signed and clamped to a node. -/
def srcF (ei : IVec S2x242160 32) (e : Fin 257295) : Fin 15135 :=
  ⟨min (srcW ei (ix1 e)).toInt.toNat (15135 - 1), by omega⟩
/-- The destination node of edge `e`: its wrapped destination word read signed and clamped to a node. -/
def dstF (ei : IVec S2x242160 32) (e : Fin 257295) : Fin 15135 :=
  ⟨min (dstW ei (ix1 e)).toInt.toNat (15135 - 1), by omega⟩

/-- On node names nothing is clamped: the wrapped source word IS the source node. -/
theorem srcW_toInt (ei : IVec S2x242160 32) (hr : ∀ i : S2x242160.Idx, 0 ≤ (ei i).toInt ∧ (ei i).toInt < 15135) (e : Fin 257295) :
    (srcW ei (ix1 e)).toInt = ((srcF ei e).val : Int) := by
  have h := v3_range ei hr e
  rw [← srcW_eq_v3 ei hr e] at h
  show _ = ((min (srcW ei (ix1 e)).toInt.toNat (15135 - 1) : Nat) : Int)
  omega

/-- On node names nothing is clamped: the wrapped destination word IS the destination node. -/
theorem dstW_toInt (ei : IVec S2x242160 32) (hr : ∀ i : S2x242160.Idx, 0 ≤ (ei i).toInt ∧ (ei i).toInt < 15135) (e : Fin 257295) :
    (dstW ei (ix1 e)).toInt = ((dstF ei e).val : Int) := by
  have h := v6_range ei hr e
  rw [← dstW_eq_v6 ei hr e] at h
  show _ = ((min (dstW ei (ix1 e)).toInt.toNat (15135 - 1) : Nat) : Int)
  omega

/-- A given edge's source node is row 0 of the edge array. -/
theorem srcF_lt (ei : IVec S2x242160 32) (hr : ∀ i : S2x242160.Idx, 0 ≤ (ei i).toInt ∧ (ei i).toInt < 15135) (e : Fin 257295) (h : e.val < 242160) :
    (srcF ei e).val = (ei (ix2 (0 : Fin 2) (⟨e.val, h⟩ : Fin 242160))).toInt.toNat := by
  have h1 := hr (ix2 (0 : Fin 2) (⟨e.val, h⟩ : Fin 242160))
  show min (srcW ei (ix1 e)).toInt.toNat (15135 - 1) = _
  rw [srcW_eq_v3 ei hr e, v3_lt ei e h]
  omega
/-- A self loop's source node is its node. -/
theorem srcF_ge (ei : IVec S2x242160 32) (hr : ∀ i : S2x242160.Idx, 0 ≤ (ei i).toInt ∧ (ei i).toInt < 15135) (e : Fin 257295) (h : 242160 ≤ e.val) :
    (srcF ei e).val = e.val - 242160 := by
  have he := e.isLt
  show min (srcW ei (ix1 e)).toInt.toNat (15135 - 1) = _
  rw [srcW_eq_v3 ei hr e, v3_ge ei e h, toInt_ofNat_of_lt _ (by omega)]
  omega
/-- A given edge's destination node is row 1 of the edge array. -/
theorem dstF_lt (ei : IVec S2x242160 32) (hr : ∀ i : S2x242160.Idx, 0 ≤ (ei i).toInt ∧ (ei i).toInt < 15135) (e : Fin 257295) (h : e.val < 242160) :
    (dstF ei e).val = (ei (ix2 (1 : Fin 2) (⟨e.val, h⟩ : Fin 242160))).toInt.toNat := by
  have h1 := hr (ix2 (1 : Fin 2) (⟨e.val, h⟩ : Fin 242160))
  show min (dstW ei (ix1 e)).toInt.toNat (15135 - 1) = _
  rw [dstW_eq_v6 ei hr e, v6_lt ei e h]
  omega
/-- A self loop's destination node is its node. -/
theorem dstF_ge (ei : IVec S2x242160 32) (hr : ∀ i : S2x242160.Idx, 0 ≤ (ei i).toInt ∧ (ei i).toInt < 15135) (e : Fin 257295) (h : 242160 ≤ e.val) :
    (dstF ei e).val = e.val - 242160 := by
  have he := e.isLt
  show min (dstW ei (ix1 e)).toInt.toNat (15135 - 1) = _
  rw [dstW_eq_v6 ei hr e, v6_ge ei e h, toInt_ofNat_of_lt _ (by omega)]
  omega

/-! ## The index arrays the gathers and scatters read -/

/-- The `[E, 1]` start indices of the layers' gathers: the wrapped sources. -/
theorem v33_at (ei : IVec S2x242160 32) (e : Fin 257295) :
    val_main_v33 (F := Ideal) ei (ix2 e (⟨0, Nat.one_pos⟩ : Fin 1)) = srcW ei (ix1 e) := by
  rw [val_main_v33_apply]
  have hi : idx_main_v33 (ix2 e (⟨0, Nat.one_pos⟩ : Fin 1)) = ix1 e := by
    funext a; match a with | ⟨0, _⟩ => rfl
  rw [hi]; rfl
/-- The `[E, 1]` scatter indices of the layers' scatters: the wrapped destinations. -/
theorem v44_at (ei : IVec S2x242160 32) (e : Fin 257295) :
    val_main_v44 (F := Ideal) ei (ix2 e (⟨0, Nat.one_pos⟩ : Fin 1)) = dstW ei (ix1 e) := by
  rw [val_main_v44_apply]
  have hi : idx_main_v44 (ix2 e (⟨0, Nat.one_pos⟩ : Fin 1)) = ix1 e := by
    funext a; match a with | ⟨0, _⟩ => rfl
  rw [hi]; rfl
/-- The `[E, 1]` start indices of the first degree gather: the wrapped sources. -/
theorem v17_at (ei : IVec S2x242160 32) (e : Fin 257295) :
    val_main_v17 (F := Ideal) ei (ix2 e (⟨0, Nat.one_pos⟩ : Fin 1)) = srcW ei (ix1 e) := by
  rw [val_main_v17_apply]
  have hi : idx_main_v17 (ix2 e (⟨0, Nat.one_pos⟩ : Fin 1)) = ix1 e := by
    funext a; match a with | ⟨0, _⟩ => rfl
  rw [hi]; rfl
/-- The `[E, 1]` start indices of the second degree gather: the wrapped destinations. -/
theorem v24_at (ei : IVec S2x242160 32) (e : Fin 257295) :
    val_main_v24 (F := Ideal) ei (ix2 e (⟨0, Nat.one_pos⟩ : Fin 1)) = dstW ei (ix1 e) := by
  rw [val_main_v24_apply]
  have hi : idx_main_v24 (ix2 e (⟨0, Nat.one_pos⟩ : Fin 1)) = ix1 e := by
    funext a; match a with | ⟨0, _⟩ => rfl
  rw [hi]; rfl
/-- The `[E, 1]` scatter indices of the degree count: the destinations, not wrapped. -/
theorem v9_at (ei : IVec S2x242160 32) (e : Fin 257295) :
    val_main_v9 (F := Ideal) ei (ix2 e (⟨0, Nat.one_pos⟩ : Fin 1)) = val_main_v6 (F := Ideal) ei (ix1 e) := by
  rw [val_main_v9_apply]
  have hi : idx_main_v9 (ix2 e (⟨0, Nat.one_pos⟩ : Fin 1)) = ix1 e := by
    funext a; match a with | ⟨0, _⟩ => rfl
  rw [hi]

/-- The layers' gather is the gather of rows. -/
theorem gatherRows_eq : gather_S8x15135x128_S257295x1_S8x257295x128_02_1_n_n_1_1_81128
    = rowGatherDims 8 15135 257295 128 gather_S8x15135x128_S257295x1_S8x257295x128_02_1_n_n_1_1_81128_wf := rfl
/-- The layers' scatter is the accumulating scatter of rows. -/
theorem scatterRows_eq : scatter_S8x15135x128_S257295x1_S8x257295x128_02_1_1_1
    = rowScatterDims 8 15135 257295 128 scatter_S8x15135x128_S257295x1_S8x257295x128_02_1_1_1_wf := rfl
/-- The degree gathers are the gather of a vector. -/
theorem gatherVec_eq : gather_S15135_S257295x1_S257295_n_0_n_n_0_1_1
    = vecGatherDims 15135 257295 gather_S15135_S257295x1_S257295_n_0_n_n_0_1_1_wf := rfl
/-- The degree count is the accumulating scatter into a vector. -/
theorem scatterVec_eq : scatter_S15135_S257295x1_S257295_n_0_0_1
    = vecScatterDims 15135 257295 scatter_S15135_S257295x1_S257295_n_0_0_1_wf := rfl

/-! ## Degrees and edge weights -/

/-- The in-degree of each node, self loop counted. -/
def degR (ei : IVec S2x242160 32) : FVec Ideal S15135 .f32 := val_main_v10 (F := Ideal) ei
/-- Its reciprocal square root. -/
def dinvR (ei : IVec S2x242160 32) : FVec Ideal S15135 .f32 := val_main_v11 (F := Ideal) ei
/-- The weight of each edge of the extended list. -/
def normR (ei : IVec S2x242160 32) : FVec Ideal S257295 .f32 := val_main_v26 (F := Ideal) ei

theorem v7_at (j : S257295.Idx) : val_main_v7 (F := Ideal) j = 1 := by
  rw [val_main_v7_apply, val_main_cst_apply]; exact ofBits_f32_one
theorem v8_at (j : S15135.Idx) : val_main_v8 (F := Ideal) j = 0 := by
  rw [val_main_v8_apply, val_main_cst_0_apply]; exact ofBits_f32_zero

/-- Every degree is a real number … -/
theorem allReal_degR (ei : IVec S2x242160 32) : AllReal (degR ei) := by
  unfold degR val_main_v10
  exact allReal_host_scatterAdd _ _ (fun j => by rw [v8_at]; exact isReal_zero)
    (fun j => by rw [v7_at]; exact isReal_one)

/-- … and at least one: the self loop of node `n` is edge `242160 + n` and lands on `n`. -/
theorem degR_pos (ei : IVec S2x242160 32) (j : S15135.Idx) : 0 < degR ei j := by
  obtain ⟨n, rfl⟩ := exists_ix1 j
  have hn := n.isLt
  unfold degR val_main_v10
  rw [host_scatterAdd_apply, v8_at, zero_add]
  have h01 : (0 : EReal) < 1 := by exact_mod_cast zero_lt_one
  let e0 : Fin 257295 := ⟨242160 + n.val, by omega⟩
  have hres : scatter_S15135_S257295x1_S257295_n_0_0_1.resultIdx? (ix1 e0) (val_main_v9 (F := Ideal) ei) = some (ix1 n) := by
    rw [scatterVec_eq]
    refine vecScatter_resultIdx _ _ e0 n ?_
    rw [v9_at, v6_ge ei e0 (by show 242160 ≤ 242160 + n.val; omega)]
    have : (e0.val - 242160) = n.val := by show 242160 + n.val - 242160 = n.val; omega
    rw [this]
    exact toInt_ofNat_of_lt _ hn
  refine lt_of_lt_of_le h01 ?_
  refine le_trans (le_of_eq (v7_at (ix1 e0)).symm) ?_
  exact Finset.single_le_sum (f := fun j => val_main_v7 (F := Ideal) j)
    (fun j _ => by rw [v7_at]; exact le_of_lt h01) (Finset.mem_filter.mpr ⟨Finset.mem_univ _, hres⟩)

/-- The reciprocal square roots of the degrees are real. -/
theorem allReal_dinvR (ei : IVec S2x242160 32) : AllReal (dinvR ei) := by
  unfold dinvR val_main_v11
  exact allReal_host_rsqrt (allReal_degR ei) (degR_pos ei)

/-- Every edge weight is real. -/
theorem allReal_normR (ei : IVec S2x242160 32) : AllReal (normR ei) := by
  unfold normR val_main_v26 val_main_v18 val_main_v25
  exact allReal_mulf (allReal_host_gather _ (allReal_dinvR ei) _) (allReal_host_gather _ (allReal_dinvR ei) _)

/-- An edge's weight is the product of the reciprocal square roots of the degrees of its two ends, the
source's first. -/
theorem normR_at (ei : IVec S2x242160 32) (e : Fin 257295) :
    normR ei (ix1 e) = dinvR ei (ix1 (srcF ei e)) * dinvR ei (ix1 (dstF ei e)) := by
  unfold normR
  rw [val_main_v26_apply, Ideal.mulf_def]
  unfold val_main_v18 val_main_v25
  rw [gatherVec_eq, vecGather_ix1 (by norm_num), vecGather_ix1 (by norm_num)]
  simp only [v17_at, v24_at]
  rfl

/-- A reciprocal square root of a degree, as a function of the degree. -/
theorem dinvR_at (ei : IVec S2x242160 32) (j : S15135.Idx) : dinvR ei j = Ideal.rsqrt (degR ei j) := by
  unfold dinvR degR
  rw [val_main_v11_apply, Ideal.hostUnary_rsqrt_def]

/-- On node names, the degree of `n` counts the edges of the extended list that end at `n`. -/
theorem degR_at (ei : IVec S2x242160 32) (hr : ∀ i : S2x242160.Idx, 0 ≤ (ei i).toInt ∧ (ei i).toInt < 15135) (n : Fin 15135) :
    degR ei (ix1 n) = 0 + ∑ e ∈ Finset.univ.filter (fun e : Fin 257295 => dstF ei e = n), (1 : EReal) := by
  unfold degR val_main_v10
  rw [host_scatterAdd_apply, v8_at, scatterVec_eq,
    vecScatter_sum _ (val_main_v9 (F := Ideal) ei) (dstF ei)
      (fun e => by rw [v9_at, ← dstW_eq_v6 ei hr e]; exact dstW_toInt ei hr e)]
  simp only [v7_at]

/-! ## One layer -/

/-- The weight array broadcast to `[8, E, 128]` reads the edge's weight. -/
theorem v36_at (ei : IVec S2x242160 32) (b : Fin 8) (e : Fin 257295) (h : Fin 128) :
    val_main_v36 (F := Ideal) ei (ix3 b e h) = normR ei (ix1 e) := by
  rw [val_main_v36_apply, val_main_v35_apply]
  unfold normR
  congr 1
  funext a; match a with | ⟨0, _⟩ => rfl

/-- Gathering rows of `Z` at the wrapped sources reads row `srcF e`. -/
theorem gather_at (Z : FVec Ideal S8x15135x128 .f32) (ei : IVec S2x242160 32) (b : Fin 8) (e : Fin 257295)
    (h : Fin 128) :
    Host.gather gather_S8x15135x128_S257295x1_S8x257295x128_02_1_n_n_1_1_81128 Z (val_main_v33 (F := Ideal) ei) (ix3 b e h) = Z (ix3 b (srcF ei e) h) := by
  rw [gatherRows_eq, rowGather_ix3 (by norm_num)]
  simp only [v33_at]
  rfl

/-- The aggregation every layer applies to its transformed activation `Z`: gather the source rows,
scale by the edge weights, add up at the destinations, add the bias, clip below at zero. -/
def aggR (ei : IVec S2x242160 32) (Z : FVec Ideal S8x15135x128 .f32) (bb : FVec Ideal S128 .f32) :
    FVec Ideal S8x15135x128 .f32 :=
  maximumf
    (addf
      (Host.scatterAdd scatter_S8x15135x128_S257295x1_S8x257295x128_02_1_1_1 (val_main_v38 (F := Ideal)) (val_main_v44 (F := Ideal) ei)
        (mulf (Host.gather gather_S8x15135x128_S257295x1_S8x257295x128_02_1_n_n_1_1_81128 Z (val_main_v33 (F := Ideal) ei)) (val_main_v36 (F := Ideal) ei)))
      (val_main_v47 (F := Ideal) bb))
    (val_main_call0_v0 (F := Ideal))

/-- THE AGGREGATION AT `(b, n, h)`, on node names: the sum over the edges ending at `n` of the source
row's entry times the edge weight (in that order), from zero, plus the bias, clipped at zero. -/
theorem aggR_apply (ei : IVec S2x242160 32) (hr : ∀ i : S2x242160.Idx, 0 ≤ (ei i).toInt ∧ (ei i).toInt < 15135)
    (Z : FVec Ideal S8x15135x128 .f32) (bb : FVec Ideal S128 .f32) (b : Fin 8) (n : Fin 15135) (h : Fin 128) :
    aggR ei Z bb (ix3 b n h)
      = max ((0 + ∑ e ∈ Finset.univ.filter (fun e : Fin 257295 => dstF ei e = n),
          Z (ix3 b (srcF ei e) h) * normR ei (ix1 e)) + bb (ix1 h)) 0 := by
  have h38 : val_main_v38 (F := Ideal) (ix3 b n h) = 0 := by
    rw [val_main_v38_apply, val_main_cst_6_apply]; exact ofBits_f32_zero
  have h0 : val_main_call0_v0 (F := Ideal) (ix3 b n h) = 0 := by
    rw [val_main_call0_v0_apply, val_main_call0_cst_apply]; exact ofBits_f32_zero
  have h47 : val_main_v47 (F := Ideal) bb (ix3 b n h) = bb (ix1 h) := by
    rw [val_main_v47_apply, val_main_v46_apply]
    congr 1
    funext a; match a with | ⟨0, _⟩ => rfl
  have hupd : ∀ e : Fin 257295,
      mulf (Host.gather gather_S8x15135x128_S257295x1_S8x257295x128_02_1_n_n_1_1_81128 Z (val_main_v33 (F := Ideal) ei)) (val_main_v36 (F := Ideal) ei) (ix3 b e h)
        = Z (ix3 b (srcF ei e) h) * normR ei (ix1 e) := by
    intro e
    rw [mulf_apply, gather_at, v36_at]
  unfold aggR
  rw [maximumf_apply, addf_apply, host_scatterAdd_apply, h38, h0, h47, scatterRows_eq,
    rowScatter_sum _ (val_main_v44 (F := Ideal) ei) (dstF ei)
      (fun e => by rw [v44_at]; exact dstW_toInt ei hr e)]
  simp only [hupd]

/-- The product of an activation `[8, 15135, 64]` with a weight matrix `[64, 128]`, at an index. -/
theorem dot64_at (P : FVec Ideal S8x15135x64 .f32) (W : FVec Ideal S64x128 .f32) (b : Fin 8) (m : Fin 15135)
    (h : Fin 128) :
    Host.dotGeneral dot_S8x15135x64_S64x128_S8x15135x128_2_0_01_1_n_n none P W (ix3 b m h) = ∑ f : Fin 64, P (ix3 b m f) * W (ix2 f h) := by
  refine (val_main_v27_apply P W (ix3 b m h)).trans (Finset.sum_congr rfl fun k _ => ?_)
  have hl : lidx_main_v27 (ix3 b m h) k = ix3 b m k := by
    funext a; match a with | ⟨0, _⟩ => rfl | ⟨1, _⟩ => rfl | ⟨2, _⟩ => rfl
  have hr' : ridx_main_v27 (ix3 b m h) k = ix2 k h := by
    funext a; match a with | ⟨0, _⟩ => rfl | ⟨1, _⟩ => rfl
  rw [hl, hr']

/-- The product of an activation `[8, 15135, 128]` with a weight matrix `[128, 128]`, at an index. -/
theorem dot128_at (P : FVec Ideal S8x15135x128 .f32) (W : FVec Ideal S128x128 .f32) (b : Fin 8) (m : Fin 15135)
    (h : Fin 128) :
    Host.dotGeneral dot_S8x15135x128_S128x128_S8x15135x128_2_0_01_1_n_n none P W (ix3 b m h) = ∑ f : Fin 128, P (ix3 b m f) * W (ix2 f h) := by
  simp only [Host.dotGeneral]
  rw [Ideal.dotGeneral_apply, ← Equiv.sum_comp (contrEquiv1 dot_S8x15135x128_S128x128_S8x15135x128_2_0_01_1_n_n 128 rfl rfl).symm]
  refine Finset.sum_congr rfl fun k _ => ?_
  have hk := contrEquiv1_symm_val dot_S8x15135x128_S128x128_S8x15135x128_2_0_01_1_n_n 128 rfl rfl k
  have el : dot_S8x15135x128_S128x128_S8x15135x128_2_0_01_1_n_n.lhsIdx (ix3 b m h) ((contrEquiv1 dot_S8x15135x128_S128x128_S8x15135x128_2_0_01_1_n_n 128 rfl rfl).symm k) = ix3 b m k :=
    funext fun a => Fin.ext (by
      match a with
      | ⟨0, _⟩ => exact lhs_main_v50_0 _ _
      | ⟨1, _⟩ => exact lhs_main_v50_1 _ _
      | ⟨2, _⟩ => exact (lhs_main_v50_2 _ _).trans hk)
  have er : dot_S8x15135x128_S128x128_S8x15135x128_2_0_01_1_n_n.rhsIdx (ix3 b m h) ((contrEquiv1 dot_S8x15135x128_S128x128_S8x15135x128_2_0_01_1_n_n 128 rfl rfl).symm k) = ix2 k h :=
    funext fun a => Fin.ext (by
      match a with
      | ⟨0, _⟩ => exact (rhs_main_v50_0 _ _).trans hk
      | ⟨1, _⟩ => exact rhs_main_v50_1 _ _)
  rw [el, er]

/-- The first layer, from an activation with 64 features. -/
def layer64 (ei : IVec S2x242160 32) (P : FVec Ideal S8x15135x64 .f32) (W : FVec Ideal S64x128 .f32)
    (bb : FVec Ideal S128 .f32) : FVec Ideal S8x15135x128 .f32 :=
  aggR ei (Host.dotGeneral dot_S8x15135x64_S64x128_S8x15135x128_2_0_01_1_n_n none P W) bb
/-- A later layer, from an activation with 128 features. -/
def layer128 (ei : IVec S2x242160 32) (P : FVec Ideal S8x15135x128 .f32) (W : FVec Ideal S128x128 .f32)
    (bb : FVec Ideal S128 .f32) : FVec Ideal S8x15135x128 .f32 :=
  aggR ei (Host.dotGeneral dot_S8x15135x128_S128x128_S8x15135x128_2_0_01_1_n_n none P W) bb

/-- THE FIRST LAYER AT `(b, n, h)`, on node names. -/
theorem layer64_apply (ei : IVec S2x242160 32) (hr : ∀ i : S2x242160.Idx, 0 ≤ (ei i).toInt ∧ (ei i).toInt < 15135)
    (P : FVec Ideal S8x15135x64 .f32) (W : FVec Ideal S64x128 .f32) (bb : FVec Ideal S128 .f32)
    (b : Fin 8) (n : Fin 15135) (h : Fin 128) :
    layer64 ei P W bb (ix3 b n h)
      = max ((0 + ∑ e ∈ Finset.univ.filter (fun e : Fin 257295 => dstF ei e = n),
          (∑ f : Fin 64, P (ix3 b (srcF ei e) f) * W (ix2 f h)) * normR ei (ix1 e)) + bb (ix1 h)) 0 := by
  unfold layer64
  rw [aggR_apply ei hr]
  simp only [dot64_at]

/-- A LATER LAYER AT `(b, n, h)`, on node names. -/
theorem layer128_apply (ei : IVec S2x242160 32) (hr : ∀ i : S2x242160.Idx, 0 ≤ (ei i).toInt ∧ (ei i).toInt < 15135)
    (P : FVec Ideal S8x15135x128 .f32) (W : FVec Ideal S128x128 .f32) (bb : FVec Ideal S128 .f32)
    (b : Fin 8) (n : Fin 15135) (h : Fin 128) :
    layer128 ei P W bb (ix3 b n h)
      = max ((0 + ∑ e ∈ Finset.univ.filter (fun e : Fin 257295 => dstF ei e = n),
          (∑ f : Fin 128, P (ix3 b (srcF ei e) f) * W (ix2 f h)) * normR ei (ix1 e)) + bb (ix1 h)) 0 := by
  unfold layer128
  rw [aggR_apply ei hr]
  simp only [dot128_at]

/-- The three activations of the reference are the three layers. -/
theorem val_main_v49_eq (x0 : FVec Ideal S8x15135x64 .f32) (ei : IVec S2x242160 32) (x2 : FVec Ideal S64x128 .f32)
    (x3 : FVec Ideal S128 .f32) :
    val_main_v49 (F := Ideal) x0 ei x2 x3 = layer64 ei x0 x2 x3 := rfl
theorem val_main_v72_eq (x0 : FVec Ideal S8x15135x64 .f32) (ei : IVec S2x242160 32) (x2 : FVec Ideal S64x128 .f32)
    (x3 : FVec Ideal S128 .f32) (x4 : FVec Ideal S128x128 .f32) (x5 : FVec Ideal S128 .f32) :
    val_main_v72 (F := Ideal) x0 ei x2 x3 x4 x5 = layer128 ei (val_main_v49 (F := Ideal) x0 ei x2 x3) x4 x5 := rfl
theorem val_main_v95_eq (x0 : FVec Ideal S8x15135x64 .f32) (ei : IVec S2x242160 32) (x2 : FVec Ideal S64x128 .f32)
    (x3 : FVec Ideal S128 .f32) (x4 : FVec Ideal S128x128 .f32) (x5 : FVec Ideal S128 .f32)
    (x6 : FVec Ideal S128x128 .f32) (x7 : FVec Ideal S128 .f32) :
    val_main_v95 (F := Ideal) x0 ei x2 x3 x4 x5 x6 x7
      = layer128 ei (val_main_v72 (F := Ideal) x0 ei x2 x3 x4 x5) x6 x7 := rfl

/-! ## The readout -/

/-- The three activations interleaved along the feature axis: feature `3 h + l` is feature `h` of
activation `l`. -/
def hcatR (x0 : FVec Ideal S8x15135x64 .f32) (ei : IVec S2x242160 32) (x2 : FVec Ideal S64x128 .f32) (x3 : FVec Ideal S128 .f32) (x4 : FVec Ideal S128x128 .f32) (x5 : FVec Ideal S128 .f32) (x6 : FVec Ideal S128x128 .f32) (x7 : FVec Ideal S128 .f32) : FVec Ideal S8x15135x384 .f32 :=
  val_main_v100 (F := Ideal) x0 ei x2 x3 x4 x5 x6 x7

theorem hcatR_at0 (x0 : FVec Ideal S8x15135x64 .f32) (ei : IVec S2x242160 32) (x2 : FVec Ideal S64x128 .f32) (x3 : FVec Ideal S128 .f32) (x4 : FVec Ideal S128x128 .f32) (x5 : FVec Ideal S128 .f32) (x6 : FVec Ideal S128x128 .f32) (x7 : FVec Ideal S128 .f32) (b : Fin 8) (n : Fin 15135) (h : Fin 128) :
    hcatR x0 ei x2 x3 x4 x5 x6 x7 (ix3 b n (⟨3 * h.val + 0, by omega⟩ : Fin 384))
      = val_main_v49 (F := Ideal) x0 ei x2 x3 (ix3 b n h) := by
  unfold hcatR
  have hb := b.isLt; have hn := n.isLt; have hh := h.isLt
  rw [val_main_v100_apply]
  have hidx : idx_main_v100 (ix3 b n (⟨3 * h.val + 0, by omega⟩ : Fin 384))
      = ix4 b n h (⟨0, by omega⟩ : Fin 3) := by
    funext a
    refine Fin.ext ?_
    match a with
    | ⟨0, _⟩ => show ((b.val * 15135 + n.val) * 384 + (3 * h.val + 0)) / 5811840 = b.val; omega
    | ⟨1, _⟩ => show ((b.val * 15135 + n.val) * 384 + (3 * h.val + 0)) / 384 % 15135 = n.val; omega
    | ⟨2, _⟩ => show ((b.val * 15135 + n.val) * 384 + (3 * h.val + 0)) / 3 % 128 = h.val; omega
    | ⟨3, _⟩ => show ((b.val * 15135 + n.val) * 384 + (3 * h.val + 0)) % 3 = 0; omega
  rw [hidx]
  unfold val_main_v99
  rw [concatenate_apply_piece (3 : Fin 4) _ _ (ix4 b n h (⟨0, by omega⟩ : Fin 3)) 0 (by simp) S8x15135x128x1
    (val_main_v96 (F := Ideal) x0 ei x2 x3) rfl rfl 0 rfl (ix4 b n h (⟨0, Nat.one_pos⟩ : Fin 1))
    (fun c hc => by
      match c with
      | ⟨0, _⟩ => rfl
      | ⟨1, _⟩ => rfl
      | ⟨2, _⟩ => rfl
      | ⟨3, _⟩ => exact absurd rfl hc)
    rfl]
  rw [val_main_v96_apply]
  congr 1
  funext a; match a with | ⟨0, _⟩ => rfl | ⟨1, _⟩ => rfl | ⟨2, _⟩ => rfl

theorem hcatR_at1 (x0 : FVec Ideal S8x15135x64 .f32) (ei : IVec S2x242160 32) (x2 : FVec Ideal S64x128 .f32) (x3 : FVec Ideal S128 .f32) (x4 : FVec Ideal S128x128 .f32) (x5 : FVec Ideal S128 .f32) (x6 : FVec Ideal S128x128 .f32) (x7 : FVec Ideal S128 .f32) (b : Fin 8) (n : Fin 15135) (h : Fin 128) :
    hcatR x0 ei x2 x3 x4 x5 x6 x7 (ix3 b n (⟨3 * h.val + 1, by omega⟩ : Fin 384))
      = val_main_v72 (F := Ideal) x0 ei x2 x3 x4 x5 (ix3 b n h) := by
  unfold hcatR
  have hb := b.isLt; have hn := n.isLt; have hh := h.isLt
  rw [val_main_v100_apply]
  have hidx : idx_main_v100 (ix3 b n (⟨3 * h.val + 1, by omega⟩ : Fin 384))
      = ix4 b n h (⟨1, by omega⟩ : Fin 3) := by
    funext a
    refine Fin.ext ?_
    match a with
    | ⟨0, _⟩ => show ((b.val * 15135 + n.val) * 384 + (3 * h.val + 1)) / 5811840 = b.val; omega
    | ⟨1, _⟩ => show ((b.val * 15135 + n.val) * 384 + (3 * h.val + 1)) / 384 % 15135 = n.val; omega
    | ⟨2, _⟩ => show ((b.val * 15135 + n.val) * 384 + (3 * h.val + 1)) / 3 % 128 = h.val; omega
    | ⟨3, _⟩ => show ((b.val * 15135 + n.val) * 384 + (3 * h.val + 1)) % 3 = 1; omega
  rw [hidx]
  unfold val_main_v99
  rw [concatenate_apply_piece (3 : Fin 4) _ _ (ix4 b n h (⟨1, by omega⟩ : Fin 3)) 1 (by simp) S8x15135x128x1
    (val_main_v97 (F := Ideal) x0 ei x2 x3 x4 x5) rfl rfl 1 rfl (ix4 b n h (⟨0, Nat.one_pos⟩ : Fin 1))
    (fun c hc => by
      match c with
      | ⟨0, _⟩ => rfl
      | ⟨1, _⟩ => rfl
      | ⟨2, _⟩ => rfl
      | ⟨3, _⟩ => exact absurd rfl hc)
    rfl]
  rw [val_main_v97_apply]
  congr 1
  funext a; match a with | ⟨0, _⟩ => rfl | ⟨1, _⟩ => rfl | ⟨2, _⟩ => rfl

theorem hcatR_at2 (x0 : FVec Ideal S8x15135x64 .f32) (ei : IVec S2x242160 32) (x2 : FVec Ideal S64x128 .f32) (x3 : FVec Ideal S128 .f32) (x4 : FVec Ideal S128x128 .f32) (x5 : FVec Ideal S128 .f32) (x6 : FVec Ideal S128x128 .f32) (x7 : FVec Ideal S128 .f32) (b : Fin 8) (n : Fin 15135) (h : Fin 128) :
    hcatR x0 ei x2 x3 x4 x5 x6 x7 (ix3 b n (⟨3 * h.val + 2, by omega⟩ : Fin 384))
      = val_main_v95 (F := Ideal) x0 ei x2 x3 x4 x5 x6 x7 (ix3 b n h) := by
  unfold hcatR
  have hb := b.isLt; have hn := n.isLt; have hh := h.isLt
  rw [val_main_v100_apply]
  have hidx : idx_main_v100 (ix3 b n (⟨3 * h.val + 2, by omega⟩ : Fin 384))
      = ix4 b n h (⟨2, by omega⟩ : Fin 3) := by
    funext a
    refine Fin.ext ?_
    match a with
    | ⟨0, _⟩ => show ((b.val * 15135 + n.val) * 384 + (3 * h.val + 2)) / 5811840 = b.val; omega
    | ⟨1, _⟩ => show ((b.val * 15135 + n.val) * 384 + (3 * h.val + 2)) / 384 % 15135 = n.val; omega
    | ⟨2, _⟩ => show ((b.val * 15135 + n.val) * 384 + (3 * h.val + 2)) / 3 % 128 = h.val; omega
    | ⟨3, _⟩ => show ((b.val * 15135 + n.val) * 384 + (3 * h.val + 2)) % 3 = 2; omega
  rw [hidx]
  unfold val_main_v99
  rw [concatenate_apply_piece (3 : Fin 4) _ _ (ix4 b n h (⟨2, by omega⟩ : Fin 3)) 2 (by simp) S8x15135x128x1
    (val_main_v98 (F := Ideal) x0 ei x2 x3 x4 x5 x6 x7) rfl rfl 2 rfl (ix4 b n h (⟨0, Nat.one_pos⟩ : Fin 1))
    (fun c hc => by
      match c with
      | ⟨0, _⟩ => rfl
      | ⟨1, _⟩ => rfl
      | ⟨2, _⟩ => rfl
      | ⟨3, _⟩ => exact absurd rfl hc)
    rfl]
  rw [val_main_v98_apply]
  congr 1
  funext a; match a with | ⟨0, _⟩ => rfl | ⟨1, _⟩ => rfl | ⟨2, _⟩ => rfl

/-- The readout `g[b, n]`: the interleaved activations against the one readout column, plus its bias. -/
def gR (x0 : FVec Ideal S8x15135x64 .f32) (ei : IVec S2x242160 32) (x2 : FVec Ideal S64x128 .f32) (x3 : FVec Ideal S128 .f32) (x4 : FVec Ideal S128x128 .f32) (x5 : FVec Ideal S128 .f32) (x6 : FVec Ideal S128x128 .f32) (x7 : FVec Ideal S128 .f32) (x8 : FVec Ideal S384x1 .f32) (x9 : FVec Ideal S1 .f32) : FVec Ideal S8x15135 .f32 :=
  val_main_v105 (F := Ideal) x0 ei x2 x3 x4 x5 x6 x7 x8 x9

/-- THE READOUT AT `(b, n)`. -/
theorem gR_at (x0 : FVec Ideal S8x15135x64 .f32) (ei : IVec S2x242160 32) (x2 : FVec Ideal S64x128 .f32) (x3 : FVec Ideal S128 .f32) (x4 : FVec Ideal S128x128 .f32) (x5 : FVec Ideal S128 .f32) (x6 : FVec Ideal S128x128 .f32) (x7 : FVec Ideal S128 .f32) (x8 : FVec Ideal S384x1 .f32) (x9 : FVec Ideal S1 .f32) (b : Fin 8) (n : Fin 15135) :
    gR x0 ei x2 x3 x4 x5 x6 x7 x8 x9 (ix2 b n)
      = (∑ k : Fin 384, hcatR x0 ei x2 x3 x4 x5 x6 x7 (ix3 b n k) * x8 (ix2 k (⟨0, Nat.one_pos⟩ : Fin 1)))
        + x9 (ix1 (⟨0, Nat.one_pos⟩ : Fin 1)) := by
  have hb := b.isLt; have hn := n.isLt
  unfold gR hcatR
  rw [val_main_v105_apply]
  have hidx : idx_main_v105 (ix2 b n) = ix3 b n (⟨0, Nat.one_pos⟩ : Fin 1) := by
    funext a
    refine Fin.ext ?_
    match a with
    | ⟨0, _⟩ => show (b.val * 15135 + n.val) / 15135 = b.val; omega
    | ⟨1, _⟩ => show (b.val * 15135 + n.val) / 1 % 15135 = n.val; omega
    | ⟨2, _⟩ => rfl
  rw [hidx, val_main_v104_apply, Ideal.addf_def, val_main_v101_apply, val_main_v103_apply, val_main_v102_apply]
  congr 1
  · refine Finset.sum_congr rfl fun k _ => ?_
    have hl : lidx_main_v101 (ix3 b n (⟨0, Nat.one_pos⟩ : Fin 1)) k = ix3 b n k := by
      funext a; match a with | ⟨0, _⟩ => rfl | ⟨1, _⟩ => rfl | ⟨2, _⟩ => rfl
    have hr' : ridx_main_v101 (ix3 b n (⟨0, Nat.one_pos⟩ : Fin 1)) k = ix2 k (⟨0, Nat.one_pos⟩ : Fin 1) := by
      funext a; match a with | ⟨0, _⟩ => rfl | ⟨1, _⟩ => rfl
    rw [hl, hr']
  · congr 1
    funext a; match a with | ⟨0, _⟩ => rfl

/-! ## The dense tail -/

/-- From the readout to the log-probabilities: a dense layer, a clip at zero, a dense layer, and the
logarithm of the softmax along the last axis. -/
def tailR (g : FVec Ideal S8x15135 .f32) (Wl1 : FVec Ideal S15135x512 .f32) (bl1 : FVec Ideal S512 .f32)
    (Wl2 : FVec Ideal S512x10 .f32) (bl2 : FVec Ideal S10 .f32) : FVec Ideal S8x10 .f32 :=
  let z : FVec Ideal S8x10 .f32 :=
    addf (Host.dotGeneral dot_S8x512_S512x10_S8x10_1_0_0_1_n_n none
      (maximumf (addf (Host.dotGeneral dot_S8x15135_S15135x512_S8x512_1_0_0_1_n_n none g Wl1) (val_main_v108 (F := Ideal) bl1))
        (val_main_call3_v0 (F := Ideal))) Wl2) (val_main_v113 (F := Ideal) bl2)
  let s : FVec Ideal S8x10 .f32 :=
    subf z (broadcastInDim S8x10 ![0, 1] bcast_S8x1_S8x10_0_1 (broadcastInDim S8x1 ![0] bcast_S8_S8x1_0
      (maximumf (val_main_call4_v1 (F := Ideal))
        (Host.reduce FloatOps.maximumf z (val_main_call4_cst (F := Ideal)) reducesTo_S8x10_S8_d1 h_S_))))
  subf s (broadcastInDim S8x10 ![0, 1] bcast_S8x1_S8x10_0_1 (Host.log (broadcastInDim S8x1 ![0] bcast_S8_S8x1_0
    (Host.reduceAdd (Host.exp s) (val_main_call4_cst_1 (F := Ideal)) reducesTo_S8x10_S8_d1 h_S_))))

/-- The reference's result is the tail of the readout. -/
theorem val_main_v115_eq_tailR (x0 : FVec Ideal S8x15135x64 .f32) (ei : IVec S2x242160 32) (x2 : FVec Ideal S64x128 .f32) (x3 : FVec Ideal S128 .f32) (x4 : FVec Ideal S128x128 .f32) (x5 : FVec Ideal S128 .f32) (x6 : FVec Ideal S128x128 .f32) (x7 : FVec Ideal S128 .f32) (x8 : FVec Ideal S384x1 .f32) (x9 : FVec Ideal S1 .f32)
    (x10 : FVec Ideal S15135x512 .f32) (x11 : FVec Ideal S512 .f32) (x12 : FVec Ideal S512x10 .f32)
    (x13 : FVec Ideal S10 .f32) :
    val_main_v115 (F := Ideal) x0 ei x2 x3 x4 x5 x6 x7 x8 x9 x10 x11 x12 x13
      = tailR (gR x0 ei x2 x3 x4 x5 x6 x7 x8 x9) x10 x11 x12 x13 := rfl

end Cert.ReferenceIdeal.RefSide

end
-- ==== Proof.LibFiniteInput.lean ====
import Idealize.ShloMosaic.Lib.ReduceAll
import Idealize.ShloMosaic.Lib.IdealHost
import Mathlib.Tactic

/-!
# "Every entry is finite", read back

A finiteness test of an array of extended reals compares the absolute value max x (-x) of each entry
with the f32 pattern of +infinity, which denotes the top element, and reduces the comparisons by
"and". If the reduction is 1 then every entry is strictly between the two infinities, that is, the
coercion of a real number.
-/

namespace Cert.Lib

open Idealize.ShloMosaic

/-- The f32 pattern 0x7F800000 (+infinity) denotes the top extended real. -/
theorem ofBits_f32_inf : Ideal.ofBits .f32 0x7F800000#32 = (⊤ : EReal) := by
  simp [Ideal.ofBits, Ideal.ieee]

/-- An extended real whose absolute value is below the top is a real. -/
theorem exists_real_of_abs_lt_top {x : EReal} (h : max x (-x) < ⊤) : ∃ r : ℝ, x = (r : EReal) := by
  induction x using EReal.rec with
  | bot => simp at h
  | top => simp at h
  | coe r => exact ⟨r, rfl⟩

/-- The comparison "absolute value < +infinity" being 1 says the entry is a real. -/
theorem exists_real_of_cmp_abs_olt_inf {x : EReal}
    (h : Ideal.cmp .olt (max x (-x)) (Ideal.ofBits .f32 0x7F800000#32) = 1#1) :
    ∃ r : ℝ, x = (r : EReal) := by
  rw [ofBits_f32_inf] at h
  apply exists_real_of_abs_lt_top
  by_contra hn
  simp [Ideal.cmp, hn] at h

/-- The array form: where the pointwise comparison of the host's absolute value with an array that is
+infinity everywhere is 1, the entry is a real. -/
theorem exists_real_of_cmpf_absf {s : Shape} (x c : FVec Ideal s .f32)
    (hc : ∀ i, c i = Ideal.ofBits .f32 0x7F800000#32) (i : s.Idx)
    (h : cmpf .olt (Host.absf x) c i = 1#1) : ∃ r : ℝ, x i = (r : EReal) := by
  apply exists_real_of_cmp_abs_olt_inf
  rw [← hc i]
  exact h

/-- **The whole test**: an "and"-reduction, into a result of one index, of the pointwise test
"absolute value < +infinity" that is 1 says every entry of the array is a real. -/
theorem forall_real_of_reduce_andi {s t u : Shape} {axes : List (Fin s.rank)} [Subsingleton t.Idx]
    (x c : FVec Ideal s .f32) (hc : ∀ i, c i = Ideal.ofBits .f32 0x7F800000#32)
    (init : u.Idx → BitVec 1) (h : s.ReducesTo axes t) (hu : 0 < u.numel) (j : t.Idx)
    (e : Host.reduce IntOp.andi (cmpf .olt (Host.absf x) c) init h hu j = 1#1) :
    ∀ i, ∃ r : ℝ, x i = (r : EReal) := fun i =>
  exists_real_of_cmpf_absf x c hc i (Host.reduce_andi_all _ init h hu j e i)

/-- A conjunction of two one-bit words that is 1 has both words 1 (a vector "and" read at an index). -/
theorem andi_apply_eq_one {s : Shape} (a b : IVec s 1) (i : s.Idx) (h : andi a b i = 1#1) :
    a i = 1#1 ∧ b i = 1#1 :=
  IntOp.andi_eq_one.1 h

end Cert.Lib
-- ==== Proof.PreFacts.lean ====
import proofs.«150125_j89541478187016_2_alg».proof.Pre_finite_inputs
import proofs.«150125_j89541478187016_2_alg».proof.Proof.LibRealClosed
import proofs.«150125_j89541478187016_2_alg».proof.Proof.LibFiniteInput

/-!
# The precondition, read back

The precondition is the conjunction, by one-bit "and", of thirteen tests, each an "and"-reduction over
all axes: for each of the twelve float arrays the test "|x| < +infinity" at every entry, and for the
integer array the test "0 ≤ x and x < 15135" at every entry, both comparisons read as signed 32-bit
words. When the conjunction is 1, every float entry is the coercion of a real number and every integer
entry is a natural number below 15135.
-/

namespace Cert.Pre_finite_inputs.Hand

open Idealize.ShloMosaic Cert.Pre_finite_inputs

variable [Facts]

/-- The rank-0 shape has exactly one index. -/
instance subsingleton_S_Idx : Subsingleton S_.Idx := ⟨fun a b => funext fun d => d.elim0⟩

/-- One float conjunct: the and-reduction over all axes of "|x| < +infinity" being 1 makes every
entry of x the coercion of a real number. -/
theorem allReal_of_test {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant (F := Ideal) S_ .f32 0x7F800000#32)))
          (constantI S_ 1 1#1) hr hu j = 1#1) :
    Cert.Lib.AllReal x :=
  Cert.Lib.forall_real_of_reduce_andi x _ (fun _ => rfl) _ hr hu j e

/-- The integer conjunct: the and-reduction over all axes of "(x ≥ lo) and (x < hi)", both compared
as signed words against broadcast constants, being 1 gives the two comparisons at every index. -/
theorem cmp_of_test {s : Shape} {axes : List (Fin s.rank)} (x : IVec s 32) (lo hi : BitVec 32)
    (hb : S_.BroadcastsInDim s (![] : Fin 0 → Fin s.rank)) (hr : s.ReducesTo axes S_) (hu : 0 < S_.numel)
    (j : S_.Idx)
    (e : Host.reduce IntOp.andi
          (andi (cmpi .sge x (broadcastInDim s ![] hb (constantI S_ 32 lo)))
                (cmpi .slt x (broadcastInDim s ![] hb (constantI S_ 32 hi))))
          (constantI S_ 1 1#1) hr hu j = 1#1) (i : s.Idx) :
    IntOp.cmpi .sge (x i) lo = 1#1 ∧ IntOp.cmpi .slt (x i) hi = 1#1 :=
  Cert.Lib.andi_apply_eq_one _ _ i (Host.reduce_andi_all _ _ hr hu j e i)

/-- The two signed comparisons against 0 and 15135, read as integers. -/
theorem toInt_bounds_of_cmp {w : BitVec 32}
    (h : IntOp.cmpi .sge w 0#32 = 1#1 ∧ IntOp.cmpi .slt w 15135#32 = 1#1) :
    0 ≤ w.toInt ∧ w.toInt < 15135 := by
  have h0 := IntOp.cmpi_sge.1 h.1
  have h1 := IntOp.cmpi_slt.1 h.2
  have e0 : (0#32 : BitVec 32).toInt = 0 := by decide
  have e1 : (15135#32 : BitVec 32).toInt = 15135 := by decide
  rw [e0] at h0
  rw [e1] at h1
  exact ⟨h0, h1⟩

/-- A signed 32-bit word between 0 (inclusive) and 15135 (exclusive) is a natural number below 15135. -/
theorem toNat_lt_of_cmp {w : BitVec 32}
    (h : IntOp.cmpi .sge w 0#32 = 1#1 ∧ IntOp.cmpi .slt w 15135#32 = 1#1) : w.toNat < 15135 := by
  obtain ⟨h0, h1⟩ := toInt_bounds_of_cmp h
  have hw := w.isLt
  rw [BitVec.toInt_eq_toNat_cond] at h0 h1
  split at h0 <;> omega

/-- The same, as a word that is the numeral of some k < 15135. -/
theorem exists_fin_of_cmp {w : BitVec 32}
    (h : IntOp.cmpi .sge w 0#32 = 1#1 ∧ IntOp.cmpi .slt w 15135#32 = 1#1) :
    ∃ k : Fin 15135, w = BitVec.ofNat 32 k.val :=
  ⟨⟨w.toNat, toNat_lt_of_cmp h⟩, by simp⟩

variable {a0 : FVec Ideal S8x15135x64 .f32} {a1 : IVec S2x242160 32} {a2 : FVec Ideal S64x128 .f32}
  {a3 : FVec Ideal S128 .f32} {a4 : FVec Ideal S128x128 .f32} {a5 : FVec Ideal S128 .f32}
  {a6 : FVec Ideal S128x128 .f32} {a7 : FVec Ideal S128 .f32} {a8 : FVec Ideal S384x1 .f32}
  {a9 : FVec Ideal S1 .f32} {a10 : FVec Ideal S15135x512 .f32} {a11 : FVec Ideal S512 .f32}
  {a12 : FVec Ideal S512x10 .f32} {a13 : FVec Ideal S10 .f32}

/-- The precondition split into its thirteen tests: twelve "every entry is a real" facts and the
reduction of the integer test, still in its printed form. -/
theorem split_of_pre
    (h : fn (F := Ideal) a0 a1 a2 a3 a4 a5 a6 a7 a8 a9 a10 a11 a12 a13 = fun _ => 1#1) :
    (Cert.Lib.AllReal a0 ∧ Cert.Lib.AllReal a2 ∧ Cert.Lib.AllReal a3 ∧ Cert.Lib.AllReal a4 ∧
      Cert.Lib.AllReal a5 ∧ Cert.Lib.AllReal a6 ∧ Cert.Lib.AllReal a7 ∧ Cert.Lib.AllReal a8 ∧
      Cert.Lib.AllReal a9 ∧ Cert.Lib.AllReal a10 ∧ Cert.Lib.AllReal a11 ∧ Cert.Lib.AllReal a12 ∧
      Cert.Lib.AllReal a13) ∧
    ∀ i, IntOp.cmpi .sge (a1 i) 0#32 = 1#1 ∧ IntOp.cmpi .slt (a1 i) 15135#32 = 1#1 := by
  have h0 := congrFun h ValueIdx.ix0
  dsimp only [fn, fn_part1, fn_part2, fn_part3, fn_part4] at h0
  obtain ⟨h0, hI⟩ := Cert.Lib.andi_apply_eq_one _ _ _ h0
  obtain ⟨h0, h13⟩ := Cert.Lib.andi_apply_eq_one _ _ _ h0
  obtain ⟨h0, h12⟩ := Cert.Lib.andi_apply_eq_one _ _ _ h0
  obtain ⟨h0, h11⟩ := Cert.Lib.andi_apply_eq_one _ _ _ h0
  obtain ⟨h0, h10⟩ := Cert.Lib.andi_apply_eq_one _ _ _ h0
  obtain ⟨h0, h9⟩ := Cert.Lib.andi_apply_eq_one _ _ _ h0
  obtain ⟨h0, h8⟩ := Cert.Lib.andi_apply_eq_one _ _ _ h0
  obtain ⟨h0, h7⟩ := Cert.Lib.andi_apply_eq_one _ _ _ h0
  obtain ⟨h0, h6⟩ := Cert.Lib.andi_apply_eq_one _ _ _ h0
  obtain ⟨h0, h5⟩ := Cert.Lib.andi_apply_eq_one _ _ _ h0
  obtain ⟨h0, h4⟩ := Cert.Lib.andi_apply_eq_one _ _ _ h0
  obtain ⟨h0, h3⟩ := Cert.Lib.andi_apply_eq_one _ _ _ h0
  obtain ⟨h0, h2⟩ := Cert.Lib.andi_apply_eq_one _ _ _ h0
  exact ⟨⟨allReal_of_test a0 _ _ _ _ h0, allReal_of_test a2 _ _ _ _ h2, allReal_of_test a3 _ _ _ _ h3,
    allReal_of_test a4 _ _ _ _ h4, allReal_of_test a5 _ _ _ _ h5, allReal_of_test a6 _ _ _ _ h6,
    allReal_of_test a7 _ _ _ _ h7, allReal_of_test a8 _ _ _ _ h8, allReal_of_test a9 _ _ _ _ h9,
    allReal_of_test a10 _ _ _ _ h10, allReal_of_test a11 _ _ _ _ h11, allReal_of_test a12 _ _ _ _ h12,
    allReal_of_test a13 _ _ _ _ h13⟩, fun i => cmp_of_test a1 0#32 15135#32 _ _ _ _ hI i⟩

/-- Under the precondition every entry of each of the twelve float arrays is the coercion of a
real number. -/
theorem real_of_pre
    (h : fn (F := Ideal) a0 a1 a2 a3 a4 a5 a6 a7 a8 a9 a10 a11 a12 a13 = fun _ => 1#1) :
    Cert.Lib.AllReal a0 ∧ Cert.Lib.AllReal a2 ∧ Cert.Lib.AllReal a3 ∧ Cert.Lib.AllReal a4 ∧
      Cert.Lib.AllReal a5 ∧ Cert.Lib.AllReal a6 ∧ Cert.Lib.AllReal a7 ∧ Cert.Lib.AllReal a8 ∧
      Cert.Lib.AllReal a9 ∧ Cert.Lib.AllReal a10 ∧ Cert.Lib.AllReal a11 ∧ Cert.Lib.AllReal a12 ∧
      Cert.Lib.AllReal a13 :=
  (split_of_pre h).1

/-- (raw form) Under the precondition both printed signed comparisons hold at every entry of the
integer array. -/
theorem range_of_pre
    (h : fn (F := Ideal) a0 a1 a2 a3 a4 a5 a6 a7 a8 a9 a10 a11 a12 a13 = fun _ => 1#1) :
    ∀ i, IntOp.cmpi .sge (a1 i) 0#32 = 1#1 ∧ IntOp.cmpi .slt (a1 i) 15135#32 = 1#1 :=
  (split_of_pre h).2

/-- (as signed integers) 0 ≤ a1 i < 15135. -/
theorem range_toInt_of_pre
    (h : fn (F := Ideal) a0 a1 a2 a3 a4 a5 a6 a7 a8 a9 a10 a11 a12 a13 = fun _ => 1#1) :
    ∀ i, 0 ≤ (a1 i).toInt ∧ (a1 i).toInt < 15135 :=
  fun i => toInt_bounds_of_cmp (range_of_pre h i)

/-- (as natural numbers) every entry of the integer array is below 15135. -/
theorem range_toNat_of_pre
    (h : fn (F := Ideal) a0 a1 a2 a3 a4 a5 a6 a7 a8 a9 a10 a11 a12 a13 = fun _ => 1#1) :
    ∀ i, (a1 i).toNat < 15135 :=
  fun i => toNat_lt_of_cmp (range_of_pre h i)

/-- (as numerals) every entry of the integer array is the 32-bit numeral of some k < 15135. -/
theorem range_fin_of_pre
    (h : fn (F := Ideal) a0 a1 a2 a3 a4 a5 a6 a7 a8 a9 a10 a11 a12 a13 = fun _ => 1#1) :
    ∀ i, ∃ k : Fin 15135, a1 i = BitVec.ofNat 32 k.val :=
  fun i => exists_fin_of_cmp (range_of_pre h i)

/-- (signed reading equals unsigned reading) the signed value of every entry of the integer array
is its natural-number value. -/
theorem toInt_eq_toNat_of_pre
    (h : fn (F := Ideal) a0 a1 a2 a3 a4 a5 a6 a7 a8 a9 a10 a11 a12 a13 = fun _ => 1#1) :
    ∀ i, (a1 i).toInt = ((a1 i).toNat : ℤ) :=
  fun i => BitVec.toInt_eq_toNat_of_lt (by have := range_toNat_of_pre h i; omega)

end Cert.Pre_finite_inputs.Hand
-- ==== Proof.LibGcnDense.lean ====
import proofs.«150125_j89541478187016_2_alg».proof.Proof.LibRealClosed
import Mathlib.Tactic

/-!
# A graph convolution as a dense matrix product

A graph convolution sends a feature array along the edges of a graph: the value at a node `n` is the
sum, over the edges `e` that end at `n`, of the (linearly transformed) feature vector of the edge's
source, times the edge's weight. The same number is obtained from the DENSE adjacency matrix
`A n s = ∑ (edges e from s to n), w e`: first the matrix product `A · C` over all sources `s`, then
the linear map. This file proves that the two agree:

* the regrouping of a sum over sources of (a sum over the edges of a fibre) into one sum over edges,
  in any commutative semiring;
* the identity of the two forms of one layer, over a commutative semiring, and then over the extended
  reals for data that are real numbers (distributivity, which the identity needs, fails on the
  infinities: this is the one place where finiteness is used);
* a sum over `Fin (3 * n)` split into its three residue classes modulo 3, in any additive commutative
  monoid (an interleaved concatenation of three arrays contracted against one weight vector);
* a sum over `Fin N'` whose terms vanish from `N` on is the sum over `Fin N` (rows of padding);
* an AGREEMENT relation between a node-major array with padding rows and a batch-major array
  without, which one layer of graph convolution (dense on one side, edgewise on the other) preserves,
  and under which the two read-outs of three layers are equal.
-/

namespace Cert.Lib

open scoped BigOperators
open Finset

/-! ## Regrouping a sum over the fibres of the source map -/

section Regroup
variable {E S R : Type*} [Fintype E] [Fintype S] [DecidableEq S] [CommSemiring R]

/-- Summing over every source `s` the total weight of the selected edges with source `s`, times a
value `P s` at that source, is summing over the selected edges `e` the weight of `e` times the value at
its source: the selected edges are partitioned by their source. -/
theorem sum_fiber_mul (src : E → S) (p : E → Prop) [DecidablePred p] (w : E → R) (P : S → R) :
    ∑ s, (∑ e ∈ univ.filter (fun e => p e ∧ src e = s), w e) * P s
      = ∑ e ∈ univ.filter p, w e * P (src e) := by
  calc ∑ s, (∑ e ∈ univ.filter (fun e => p e ∧ src e = s), w e) * P s
      = ∑ s, ∑ e ∈ (univ.filter p).filter (fun e => src e = s), w e * P (src e) := by
        refine Finset.sum_congr rfl fun s _ => ?_
        rw [Finset.sum_mul, Finset.filter_filter]
        refine Finset.sum_congr rfl fun e he => ?_
        rw [(Finset.mem_filter.mp he).2.2]
    _ = ∑ e ∈ univ.filter p, w e * P (src e) := Finset.sum_fiberwise _ _ _

/-- The same with the two factors in the other order. -/
theorem sum_mul_fiber (src : E → S) (p : E → Prop) [DecidablePred p] (w : E → R) (P : S → R) :
    ∑ s, P s * (∑ e ∈ univ.filter (fun e => p e ∧ src e = s), w e)
      = ∑ e ∈ univ.filter p, P (src e) * w e := by
  simp only [mul_comm (P _)]
  exact sum_fiber_mul src p w P

end Regroup

/-! ## One layer: the dense form is the edgewise form -/

section LayerSemiring
variable {E S F R : Type*} [Fintype E] [Fintype S] [Fintype F] [DecidableEq S] [CommSemiring R]

/-- With `A s = ∑ (selected edges e with source s), w e`, the dense form
`∑ f, (∑ s, A s * C s f) * W f` (propagate the features `C` through the adjacency row, then apply the
linear map `W`) is the edgewise form `∑ (selected e), (∑ f, C (src e) f * W f) * w e` (apply the linear
map at the source, weigh by the edge, sum over the edges). -/
theorem dense_layer_eq (src : E → S) (p : E → Prop) [DecidablePred p] (w : E → R)
    (C : S → F → R) (W : F → R) :
    ∑ f, (∑ s, (∑ e ∈ univ.filter (fun e => p e ∧ src e = s), w e) * C s f) * W f
      = ∑ e ∈ univ.filter p, (∑ f, C (src e) f * W f) * w e := by
  calc ∑ f, (∑ s, (∑ e ∈ univ.filter (fun e => p e ∧ src e = s), w e) * C s f) * W f
      = ∑ f, (∑ e ∈ univ.filter p, w e * C (src e) f) * W f := by
        refine Finset.sum_congr rfl fun f _ => ?_
        rw [sum_fiber_mul src p w (fun s => C s f)]
    _ = ∑ f, ∑ e ∈ univ.filter p, (C (src e) f * W f) * w e := by
        refine Finset.sum_congr rfl fun f _ => ?_
        rw [Finset.sum_mul]
        refine Finset.sum_congr rfl fun e _ => ?_
        ring
    _ = ∑ e ∈ univ.filter p, ∑ f, (C (src e) f * W f) * w e := Finset.sum_comm
    _ = ∑ e ∈ univ.filter p, (∑ f, C (src e) f * W f) * w e := by
        refine Finset.sum_congr rfl fun e _ => ?_
        rw [Finset.sum_mul]

end LayerSemiring

section LayerEReal
variable {E S F : Type*} [Fintype E] [Fintype S] [Fintype F] [DecidableEq S]

/-- The identity of the dense and the edgewise form over the extended reals, for weights, features
and a linear map that are real numbers: choose real witnesses, prove the identity in ℝ, and push the
coercion through the sums and products. -/
theorem dense_layer_eq_ereal (src : E → S) (p : E → Prop) [DecidablePred p] {w : E → EReal}
    {C : S → F → EReal} {W : F → EReal} (hw : AllReal w) (hC : ∀ s, AllReal (C s))
    (hW : AllReal W) :
    ∑ f, (∑ s, (∑ e ∈ univ.filter (fun e => p e ∧ src e = s), w e) * C s f) * W f
      = ∑ e ∈ univ.filter p, (∑ f, C (src e) f * W f) * w e := by
  obtain ⟨w', rfl⟩ := hw.exists_real
  obtain ⟨W', rfl⟩ := hW.exists_real
  have hC' : AllReal (fun q : S × F => C q.1 q.2) := fun q => hC q.1 q.2
  obtain ⟨C', hC'⟩ := hC'.exists_real
  have hCe : ∀ s f, C s f = (C' (s, f) : EReal) := fun s f => congrFun hC' (s, f)
  have key := congrArg (fun r : ℝ => (r : EReal))
    (dense_layer_eq src p w' (fun s f => C' (s, f)) W')
  simp only [coe_finset_sum, EReal.coe_mul] at key
  simp only [hCe]
  exact key

/-- The same when both accumulations start from an explicit zero: `0 + ∑ …` for every adjacency
entry on the dense side, and `0 + ∑ …` in front of the edgewise sum. -/
theorem dense_layer_eq_ereal_zero_add (src : E → S) (p : E → Prop) [DecidablePred p]
    {w : E → EReal} {C : S → F → EReal} {W : F → EReal} (hw : AllReal w)
    (hC : ∀ s, AllReal (C s)) (hW : AllReal W) :
    ∑ f, (∑ s, (0 + ∑ e ∈ univ.filter (fun e => p e ∧ src e = s), w e) * C s f) * W f
      = 0 + ∑ e ∈ univ.filter p, (∑ f, C (src e) f * W f) * w e := by
  simp only [zero_add]
  exact dense_layer_eq_ereal src p hw hC hW

/-- The output of a layer at a node that is not padding: bias added, the maximum with zero taken,
and the result multiplied by the mask value one, on the dense side; the same without a mask on the
edgewise side. -/
theorem dense_layer_out_eq (src : E → S) (p : E → Prop) [DecidablePred p]
    {w : E → EReal} {C : S → F → EReal} {W : F → EReal} (hw : AllReal w)
    (hC : ∀ s, AllReal (C s)) (hW : AllReal W) (bias : EReal) :
    max ((∑ f, (∑ s, (0 + ∑ e ∈ univ.filter (fun e => p e ∧ src e = s), w e) * C s f) * W f)
        + bias) 0 * 1
      = max ((0 + ∑ e ∈ univ.filter p, (∑ f, C (src e) f * W f) * w e) + bias) 0 := by
  rw [mul_one, dense_layer_eq_ereal_zero_add src p hw hC hW]

/-- The edgewise output of a layer with real data is real. -/
theorem isReal_edge_layer (t : Finset E) {w : E → EReal} {X : E → F → EReal} {W : F → EReal}
    (hw : AllReal w) (hX : ∀ e, AllReal (X e)) (hW : AllReal W) {bias : EReal}
    (hb : IsReal bias) :
    IsReal (max ((0 + ∑ e ∈ t, (∑ f, X e f * W f) * w e) + bias) 0) :=
  (((isReal_zero).add (isReal_sum _ _ fun e _ =>
    (isReal_sum _ _ fun f _ => (hX e f).mul (hW f)).mul (hw e))).add hb).max isReal_zero

end LayerEReal

/-! ## A sum over `Fin (3 * n)` by residue classes modulo 3 -/

section Thirds
variable {M : Type*} [AddCommMonoid M]

/-- A sum over the first `3 * n` natural numbers is the sum of its three subsums over the numbers
`3 * h`, `3 * h + 1` and `3 * h + 2` with `h < n`. Only associativity and commutativity of the addition
are used. -/
theorem sum_range_three_mul (g : ℕ → M) (n : ℕ) :
    ∑ k ∈ range (3 * n), g k
      = (∑ h ∈ range n, g (3 * h) + ∑ h ∈ range n, g (3 * h + 1)) + ∑ h ∈ range n, g (3 * h + 2) := by
  induction n with
  | zero => simp
  | succ n ih =>
    have h3 : 3 * (n + 1) = 3 * n + 1 + 1 + 1 := by ring
    rw [h3, Finset.sum_range_succ, Finset.sum_range_succ, Finset.sum_range_succ, ih,
      Finset.sum_range_succ, Finset.sum_range_succ, Finset.sum_range_succ]
    abel

/-- The same for a function on `Fin (3 * n)`. -/
theorem sum_fin_three_mul (n : ℕ) (f : Fin (3 * n) → M) :
    ∑ k, f k
      = (∑ h : Fin n, f ⟨3 * h, by omega⟩ + ∑ h : Fin n, f ⟨3 * h + 1, by omega⟩)
        + ∑ h : Fin n, f ⟨3 * h + 2, by omega⟩ := by
  let g : ℕ → M := fun k => if hk : k < 3 * n then f ⟨k, hk⟩ else 0
  have hg : ∀ k : Fin (3 * n), f k = g k := fun k => by simp [g]
  have h0 : ∀ h : Fin n, f ⟨3 * h, by omega⟩ = g (3 * h) := fun h => by
    have : 3 * (h : ℕ) < 3 * n := by omega
    simp [g, this]
  have h1 : ∀ h : Fin n, f ⟨3 * h + 1, by omega⟩ = g (3 * h + 1) := fun h => by
    have : 3 * (h : ℕ) + 1 < 3 * n := by omega
    simp [g, this]
  have h2 : ∀ h : Fin n, f ⟨3 * h + 2, by omega⟩ = g (3 * h + 2) := fun h => by
    have : 3 * (h : ℕ) + 2 < 3 * n := by omega
    simp [g, this]
  simp only [hg, h0, h1, h2]
  rw [Fin.sum_univ_eq_sum_range g (3 * n), Fin.sum_univ_eq_sum_range (fun h => g (3 * h)) n,
    Fin.sum_univ_eq_sum_range (fun h => g (3 * h + 1)) n,
    Fin.sum_univ_eq_sum_range (fun h => g (3 * h + 2)) n]
  exact sum_range_three_mul g n

end Thirds

/-! ## Rows of padding -/

section Padding
variable {M : Type*} [AddCommMonoid M]

/-- A sum over `Fin N'` of terms that vanish at every index from `N` on is the sum over `Fin N`. -/
theorem sum_fin_castLE {N N' : ℕ} (hN : N ≤ N') (g : Fin N' → M)
    (hz : ∀ s : Fin N', N ≤ (s : ℕ) → g s = 0) :
    ∑ s, g s = ∑ s : Fin N, g (Fin.castLE hN s) := by
  let G : ℕ → M := fun k => if hk : k < N' then g ⟨k, hk⟩ else 0
  have hg : ∀ s : Fin N', g s = G s := fun s => by simp [G]
  simp only [hg, Fin.val_castLE]
  rw [Fin.sum_univ_eq_sum_range G N', Fin.sum_univ_eq_sum_range G N]
  obtain ⟨d, rfl⟩ := Nat.exists_eq_add_of_le hN
  rw [Finset.sum_range_add]
  have : ∑ x ∈ range d, G (N + x) = 0 := by
    refine Finset.sum_eq_zero fun x hx => ?_
    have hx' : N + x < N + d := by have := Finset.mem_range.mp hx; omega
    simp only [G, dif_pos hx']
    exact hz ⟨N + x, hx'⟩ (by simp)
  rw [this, add_zero]

end Padding

/-! ## Agreement of a padded node-major array with a batch-major array -/

section Agreement
variable {E Nn Np B Fi Ho : Type*} [Fintype E] [Fintype Np] [DecidableEq Np] [Fintype Fi]

/-- A node-major array `K` over the padded nodes `Np` AGREES with a batch-major array `R` over the
nodes `Nn`, along an embedding `emb` of the nodes into the padded nodes, when `K` at the image of a
node is `R` at that node, `K` is zero on the padding rows, and every entry of `K` is real. -/
structure Agrees {F : Type*} (emb : Nn → Np) (pad : Np → Prop) (K : Np → B → F → EReal)
    (R : B → Nn → F → EReal) : Prop where
  /-- equal at the nodes -/
  eq : ∀ n b f, K (emb n) b f = R b n f
  /-- zero on the padding rows -/
  zero : ∀ r, pad r → ∀ b f, K r b f = 0
  /-- every entry is a real number -/
  real : ∀ r b f, IsReal (K r b f)

/-- The batch-major array of an agreeing pair is real as well. -/
theorem Agrees.real_right {F : Type*} {emb : Nn → Np} {pad : Np → Prop} {K : Np → B → F → EReal}
    {R : B → Nn → F → EReal} (h : Agrees emb pad K R) (b : B) (n : Nn) (f : F) :
    IsReal (R b n f) := h.eq n b f ▸ h.real (emb n) b f

/-- Agreement only looks at the entries: arrays equal entry by entry to an agreeing pair agree. -/
theorem Agrees.congr {F : Type*} {emb : Nn → Np} {pad : Np → Prop} {K K' : Np → B → F → EReal}
    {R R' : B → Nn → F → EReal} (h : Agrees emb pad K R) (hK : ∀ r b f, K' r b f = K r b f)
    (hR : ∀ b n f, R' b n f = R b n f) : Agrees emb pad K' R' where
  eq n b f := by rw [hK, hR]; exact h.eq n b f
  zero r hr b f := by rw [hK]; exact h.zero r hr b f
  real r b f := by rw [hK]; exact h.real r b f

/-- One layer of graph convolution preserves agreement. On the padded side the layer is dense: the
adjacency entry `(r, s)` is `0 +` the total weight of the edges selected by `pK r` whose source is `s`,
the features are propagated by the matrix product over ALL padded sources, then the linear map `W`, the
bias, the maximum with zero and a mask (one at the nodes, zero on the padding rows) are applied. On the
other side the layer is edgewise: `0 +` the sum over the edges selected by `pR n` of the transformed
source features times the weight, then bias and maximum. The two edge selections correspond along the
embedding, and so do the two source maps. -/
theorem Agrees.layer {emb : Nn → Np} {pad : Np → Prop} {K : Np → B → Fi → EReal}
    {R : B → Nn → Fi → EReal} (h : Agrees emb pad K R)
    (srcK : E → Np) (pK : Np → E → Prop) [∀ r, DecidablePred (pK r)]
    (srcR : E → Nn) (pR : Nn → E → Prop) [∀ n, DecidablePred (pR n)]
    (hsrc : ∀ e, srcK e = emb (srcR e)) (hp : ∀ n e, pK (emb n) e ↔ pR n e)
    {w : E → EReal} (hw : AllReal w) {W : Fi → Ho → EReal} (hW : ∀ f, AllReal (W f))
    {bias : Ho → EReal} (hb : AllReal bias)
    {mask : Np → EReal} (hm1 : ∀ n, mask (emb n) = 1) (hm0 : ∀ r, pad r → mask r = 0)
    (hmr : AllReal mask) :
    Agrees emb pad
      (fun r b o => max ((∑ f, (∑ s, (0 + ∑ e ∈ univ.filter (fun e => pK r e ∧ srcK e = s), w e)
          * K s b f) * W f o) + bias o) 0 * mask r)
      (fun b n o => max ((0 + ∑ e ∈ univ.filter (pR n), (∑ f, R b (srcR e) f * W f o) * w e)
          + bias o) 0) where
  eq n b o := by
    show max _ 0 * mask (emb n) = _
    rw [hm1, dense_layer_out_eq srcK (pK (emb n)) hw (C := fun s f => K s b f)
      (W := fun f => W f o) (fun s f => h.real s b f) (fun f => hW f o) (bias o)]
    have hf : univ.filter (pK (emb n)) = univ.filter (pR n) :=
      Finset.filter_congr fun e _ => hp n e
    rw [hf]
    simp only [hsrc, h.eq]
  zero r hr b o := by
    show max _ 0 * mask r = 0
    rw [hm0 r hr, mul_zero]
  real r b o :=
    ((((isReal_sum _ _ fun f _ => (isReal_sum _ _ fun s _ =>
      ((isReal_zero).add (isReal_sum _ _ fun e _ => hw e)).mul (h.real s b f)).mul (hW f o)).add
      (hb o)).max isReal_zero).mul (hmr r))

end Agreement

/-! ## The read-out of three layers -/

section Readout
variable {Nn Np B : Type*} {n : ℕ}

/-- Three agreeing pairs of arrays with `n` features each, contracted against a weight vector of
length `3 * n`: on the padded side each array is contracted against its own residue class of the
weights and the three results are added; on the other side the three arrays are interleaved into one
array `hcat` with `3 * n` features (feature `3 * h + l` is feature `h` of array `l`) and contracted once.
The two results are equal at every node; no finiteness is needed. -/
theorem Agrees.readout {emb : Nn → Np} {pad : Np → Prop}
    {K₁ K₂ K₃ : Np → B → Fin n → EReal} {R₁ R₂ R₃ : B → Nn → Fin n → EReal}
    (h₁ : Agrees emb pad K₁ R₁) (h₂ : Agrees emb pad K₂ R₂) (h₃ : Agrees emb pad K₃ R₃)
    (Wfc : Fin (3 * n) → EReal) (bfc : EReal) (hcat : B → Nn → Fin (3 * n) → EReal)
    (hc₁ : ∀ b m (h : Fin n), hcat b m ⟨3 * h, by omega⟩ = R₁ b m h)
    (hc₂ : ∀ b m (h : Fin n), hcat b m ⟨3 * h + 1, by omega⟩ = R₂ b m h)
    (hc₃ : ∀ b m (h : Fin n), hcat b m ⟨3 * h + 2, by omega⟩ = R₃ b m h) (m : Nn) (b : B) :
    ((∑ h : Fin n, K₁ (emb m) b h * Wfc ⟨3 * h, by omega⟩
        + ∑ h : Fin n, K₂ (emb m) b h * Wfc ⟨3 * h + 1, by omega⟩)
        + ∑ h : Fin n, K₃ (emb m) b h * Wfc ⟨3 * h + 2, by omega⟩) + bfc
      = (∑ k, hcat b m k * Wfc k) + bfc := by
  rw [sum_fin_three_mul n (fun k => hcat b m k * Wfc k)]
  simp only [hc₁, hc₂, hc₃, h₁.eq, h₂.eq, h₃.eq]

end Readout

end Cert.Lib
-- ==== Proof.BridgeCore.lean ====
import proofs.«150125_j89541478187016_2_alg».proof.Proof.LibGcnDense
import Idealize.ShloMosaic.Lib.ValueIdx

/-!
# Three layers of graph convolution on concrete index sets

The node-major arrays with 15360 rows (15135 nodes and 225 rows of padding) and eight batches side by
side in the columns, against the batch-major arrays over the 15135 nodes: the abstract agreement of
`Cert.Lib.Agrees` read on arrays indexed by coordinates, one step per layer, and the read-out.
-/

namespace Cert.BridgeCore

open Idealize.ShloMosaic Idealize.ShloMosaic.ValueIdx Cert.Lib
open scoped BigOperators
open Finset

/-- Arrays of extended reals indexed by one, two, three coordinates. -/
abbrev Arr1 (a : ℕ) : Type := (⟨1, ![a]⟩ : Shape).Idx → EReal
abbrev Arr2 (a b : ℕ) : Type := (⟨2, ![a, b]⟩ : Shape).Idx → EReal
abbrev Arr3 (a b c : ℕ) : Type := (⟨3, ![a, b, c]⟩ : Shape).Idx → EReal

/-- The nodes among the padded rows. -/
def emb : Fin 15135 → Fin 15360 := Fin.castLE (by norm_num)
/-- The rows of padding. -/
def pad (r : Fin 15360) : Prop := 15135 ≤ r.val

theorem emb_val (n : Fin 15135) : (emb n).val = n.val := rfl
theorem emb_inj {a b : Fin 15135} : emb a = emb b ↔ a = b :=
  ⟨fun h => Fin.ext (by have := congrArg Fin.val h; simpa [emb_val] using this), fun h => h ▸ rfl⟩

/-- A node-major array with 64 features per batch, by row, batch, feature. -/
def un64 (X : Arr2 15360 512) : Fin 15360 → Fin 8 → Fin 64 → EReal :=
  fun r b f => X (ix2 r (⟨64 * b.val + f.val, by omega⟩ : Fin 512))
/-- A node-major array with 128 features per batch, by row, batch, feature. -/
def un128 (X : Arr2 15360 1024) : Fin 15360 → Fin 8 → Fin 128 → EReal :=
  fun r b f => X (ix2 r (⟨128 * b.val + f.val, by omega⟩ : Fin 1024))
/-- A batch-major array by batch, node, feature. -/
def unR {F : ℕ} (P : Arr3 8 15135 F) : Fin 8 → Fin 15135 → Fin F → EReal :=
  fun b n f => P (ix3 b n f)

/-- The row mask is one at the nodes, zero on the padding, real everywhere. -/
theorem mask_facts (mk : Arr2 15360 1)
    (hmk : ∀ n : Fin 15360, mk (ix2 n (0 : Fin 1)) = if n.val < 15135 then 1 else 0) :
    (∀ n, (fun r : Fin 15360 => mk (ix2 r (0 : Fin 1))) (emb n) = 1)
      ∧ (∀ r, pad r → (fun r : Fin 15360 => mk (ix2 r (0 : Fin 1))) r = 0)
      ∧ AllReal (fun r : Fin 15360 => mk (ix2 r (0 : Fin 1))) := by
  refine ⟨fun n => ?_, fun r hr => ?_, fun r => ?_⟩
  · show mk (ix2 (emb n) 0) = 1
    rw [hmk, if_pos (by rw [emb_val]; exact n.isLt)]
  · show mk (ix2 r 0) = 0
    rw [hmk, if_neg (by unfold pad at hr; omega)]
  · show IsReal (mk (ix2 r 0))
    rw [hmk]; split
    · exact isReal_one
    · exact isReal_zero

/-- A rank-one index is its coordinate. -/
def idxEquiv1 {n : ℕ} : (⟨1, ![n]⟩ : Shape).Idx ≃ Fin n where
  toFun j := j 0
  invFun := ix1
  left_inv j := (eq_ix1 j).symm
  right_inv _ := rfl

/-- The adjacency entry (r, s) as a sum over the edges by number: the edges, indexed by a rank-one
index and selected by the signed readings of their target and source words, are the edges
`e : Fin 257295` whose target node is `r` and whose source node is `s`. -/
theorem adj_reindex (srcF dstF : Fin 257295 → Fin 15135)
    (dI sI : (⟨1, ![257295]⟩ : Shape).Idx → ℤ) (nk : Arr1 257295)
    (hd : ∀ e, dI (ix1 e) = ((dstF e).val : ℤ)) (hs : ∀ e, sI (ix1 e) = ((srcF e).val : ℤ))
    (r s : Fin 15360) :
    (0 + ∑ j ∈ univ.filter (fun j => dI j = (r.val : ℤ) ∧ sI j = (s.val : ℤ)), nk j)
      = 0 + ∑ e ∈ univ.filter (fun e : Fin 257295 => emb (dstF e) = r ∧ emb (srcF e) = s), nk (ix1 e) := by
  refine congrArg (fun t : EReal => 0 + t) ?_
  refine Finset.sum_equiv idxEquiv1 (fun j => ?_) (fun j _ => ?_)
  · obtain ⟨e, rfl⟩ : ∃ e : Fin 257295, j = ix1 e := ⟨j 0, eq_ix1 j⟩
    simp only [Finset.mem_filter, Finset.mem_univ, true_and]
    show dI (ix1 e) = _ ∧ sI (ix1 e) = _ ↔ emb (dstF e) = r ∧ emb (srcF e) = s
    rw [hd, hs]
    simp only [Fin.ext_iff, emb_val, Nat.cast_inj]
  · obtain ⟨e, rfl⟩ : ∃ e : Fin 257295, j = ix1 e := ⟨j 0, eq_ix1 j⟩
    rfl

section Steps
variable (srcF dstF : Fin 257295 → Fin 15135) (w : Fin 257295 → EReal) (hw : AllReal w)
variable (A : Arr2 15360 15360)
  (hA : ∀ r s : Fin 15360, A (ix2 r s)
    = 0 + ∑ e ∈ univ.filter (fun e : Fin 257295 => emb (dstF e) = r ∧ emb (srcF e) = s), w e)
variable (mk : Arr2 15360 1)
  (hmk : ∀ n : Fin 15360, mk (ix2 n (0 : Fin 1)) = if n.val < 15135 then 1 else 0)
include hw hA hmk

/-- The first layer (64 features in, 128 out) preserves agreement. -/
theorem step64 (cols : Arr2 15360 512) (P : Arr3 8 15135 64)
    (hag : Agrees emb pad (un64 cols) (unR P))
    (out : Arr2 15360 512)
    (hout : ∀ (r : Fin 15360) (j : Fin 512), out (ix2 r j) = ∑ s : Fin 15360, A (ix2 r s) * cols (ix2 s j))
    (W : Arr2 64 128) (bb : Arr1 128) (hW : AllReal W) (hbb : AllReal bb)
    (H : Arr2 15360 1024)
    (hH : ∀ (n : Fin 15360) (b : Fin 8) (h : Fin 128),
      H (ix2 n (⟨128 * b.val + h.val, by omega⟩ : Fin 1024))
        = max ((∑ f : Fin 64, out (ix2 n (⟨64 * b.val + f.val, by omega⟩ : Fin 512)) * W (ix2 f h)) + bb (ix1 h)) 0
            * mk (ix2 n (0 : Fin 1)))
    (Rn : Arr3 8 15135 128)
    (hR : ∀ (b : Fin 8) (n : Fin 15135) (h : Fin 128),
      Rn (ix3 b n h)
        = max ((0 + ∑ e ∈ univ.filter (fun e : Fin 257295 => dstF e = n),
            (∑ f : Fin 64, P (ix3 b (srcF e) f) * W (ix2 f h)) * w e) + bb (ix1 h)) 0) :
    Agrees emb pad (un128 H) (unR Rn) := by
  obtain ⟨hm1, hm0, hmr⟩ := mask_facts mk hmk
  have key := hag.layer (E := Fin 257295) (Ho := Fin 128) (fun e => emb (srcF e)) (fun r e => emb (dstF e) = r)
    srcF (fun n e => dstF e = n) (fun _ => rfl) (fun n e => emb_inj) hw
    (W := fun f h => W (ix2 f h)) (fun f h => hW _) (bias := fun h => bb (ix1 h)) (fun h => hbb _)
    (mask := fun r => mk (ix2 r (0 : Fin 1))) hm1 hm0 hmr
  refine key.congr (fun n b h => ?_) (fun b n h => ?_)
  · show H (ix2 n _) = _
    rw [hH]
    simp only [hout, hA]
    rfl
  · show Rn (ix3 b n h) = _
    rw [hR]
    rfl

/-- A later layer (128 features in, 128 out) preserves agreement. -/
theorem step128 (cols : Arr2 15360 1024) (P : Arr3 8 15135 128)
    (hag : Agrees emb pad (un128 cols) (unR P))
    (out : Arr2 15360 1024)
    (hout : ∀ (r : Fin 15360) (j : Fin 1024), out (ix2 r j) = ∑ s : Fin 15360, A (ix2 r s) * cols (ix2 s j))
    (W : Arr2 128 128) (bb : Arr1 128) (hW : AllReal W) (hbb : AllReal bb)
    (H : Arr2 15360 1024)
    (hH : ∀ (n : Fin 15360) (b : Fin 8) (h : Fin 128),
      H (ix2 n (⟨128 * b.val + h.val, by omega⟩ : Fin 1024))
        = max ((∑ f : Fin 128, out (ix2 n (⟨128 * b.val + f.val, by omega⟩ : Fin 1024)) * W (ix2 f h)) + bb (ix1 h)) 0
            * mk (ix2 n (0 : Fin 1)))
    (Rn : Arr3 8 15135 128)
    (hR : ∀ (b : Fin 8) (n : Fin 15135) (h : Fin 128),
      Rn (ix3 b n h)
        = max ((0 + ∑ e ∈ univ.filter (fun e : Fin 257295 => dstF e = n),
            (∑ f : Fin 128, P (ix3 b (srcF e) f) * W (ix2 f h)) * w e) + bb (ix1 h)) 0) :
    Agrees emb pad (un128 H) (unR Rn) := by
  obtain ⟨hm1, hm0, hmr⟩ := mask_facts mk hmk
  have key := hag.layer (E := Fin 257295) (Ho := Fin 128) (fun e => emb (srcF e)) (fun r e => emb (dstF e) = r)
    srcF (fun n e => dstF e = n) (fun _ => rfl) (fun n e => emb_inj) hw
    (W := fun f h => W (ix2 f h)) (fun f h => hW _) (bias := fun h => bb (ix1 h)) (fun h => hbb _)
    (mask := fun r => mk (ix2 r (0 : Fin 1))) hm1 hm0 hmr
  refine key.congr (fun n b h => ?_) (fun b n h => ?_)
  · show H (ix2 n _) = _
    rw [hH]
    simp only [hout, hA]
    rfl
  · show Rn (ix3 b n h) = _
    rw [hR]
    rfl

end Steps

/-- The first right operand agrees with the input features. -/
theorem agrees_cols0 (x : Arr3 8 15135 64) (hx : AllReal x) (cols : Arr2 15360 512)
    (hc : ∀ (n : Fin 15360) (b : Fin 8) (f : Fin 64),
      cols (ix2 n (⟨64 * b.val + f.val, by omega⟩ : Fin 512))
        = if h : n.val < 15135 then x (ix3 b (⟨n.val, h⟩ : Fin 15135) f) else 0) :
    Agrees emb pad (un64 cols) (unR x) where
  eq n b f := by
    show cols (ix2 (emb n) _) = x (ix3 b n f)
    rw [hc, dif_pos (by rw [emb_val]; exact n.isLt)]
    rfl
  zero r hr b f := by
    show cols (ix2 r _) = 0
    rw [hc, dif_neg (by unfold pad at hr; omega)]
  real r b f := by
    show IsReal (cols (ix2 r _))
    rw [hc]; split
    · exact hx _
    · exact isReal_zero

/-- The two read-outs are equal at every batch and node. -/
theorem readout_eq (H1 H2 H3 : Arr2 15360 1024) (R1 R2 R3 : Arr3 8 15135 128)
    (h1 : Agrees emb pad (un128 H1) (unR R1)) (h2 : Agrees emb pad (un128 H2) (unR R2))
    (h3 : Agrees emb pad (un128 H3) (unR R3))
    (Wfc : Arr2 384 1) (bfc : Arr1 1) (hcat : Arr3 8 15135 384)
    (hc1 : ∀ (b : Fin 8) (n : Fin 15135) (h : Fin 128), hcat (ix3 b n (⟨3 * h.val, by omega⟩ : Fin 384)) = R1 (ix3 b n h))
    (hc2 : ∀ (b : Fin 8) (n : Fin 15135) (h : Fin 128), hcat (ix3 b n (⟨3 * h.val + 1, by omega⟩ : Fin 384)) = R2 (ix3 b n h))
    (hc3 : ∀ (b : Fin 8) (n : Fin 15135) (h : Fin 128), hcat (ix3 b n (⟨3 * h.val + 2, by omega⟩ : Fin 384)) = R3 (ix3 b n h))
    (b : Fin 8) (n : Fin 15135) :
    (((∑ h : Fin 128, H1 (ix2 (⟨n.val, by omega⟩ : Fin 15360) (⟨128 * b.val + h.val, by omega⟩ : Fin 1024))
            * Wfc (ix2 (⟨3 * h.val + 0, by omega⟩ : Fin 384) (0 : Fin 1)))
        + (∑ h : Fin 128, H2 (ix2 (⟨n.val, by omega⟩ : Fin 15360) (⟨128 * b.val + h.val, by omega⟩ : Fin 1024))
            * Wfc (ix2 (⟨3 * h.val + 1, by omega⟩ : Fin 384) (0 : Fin 1))))
        + (∑ h : Fin 128, H3 (ix2 (⟨n.val, by omega⟩ : Fin 15360) (⟨128 * b.val + h.val, by omega⟩ : Fin 1024))
            * Wfc (ix2 (⟨3 * h.val + 2, by omega⟩ : Fin 384) (0 : Fin 1))))
      + bfc (ix1 (0 : Fin 1))
      = (∑ k : Fin 384, hcat (ix3 b n k) * Wfc (ix2 k (0 : Fin 1))) + bfc (ix1 (0 : Fin 1)) := by
  have key := Agrees.readout (n := 128) h1 h2 h3 (fun k : Fin (3 * 128) => Wfc (ix2 (k : Fin 384) (0 : Fin 1)))
    (bfc (ix1 (0 : Fin 1))) (fun b n (k : Fin (3 * 128)) => hcat (ix3 b n (k : Fin 384)))
    (fun b m h => hc1 b m h) (fun b m h => hc2 b m h) (fun b m h => hc3 b m h) n b
  exact key

/-- The three layers and the read-out together: if the padded node-major arrays are produced by the dense
adjacency (first right operand the padded features, every later right operand the previous layer), and the
batch-major arrays by the edgewise layers, then the two read-outs are the same array. -/
theorem g_eq (srcF dstF : Fin 257295 → Fin 15135) (w : Fin 257295 → EReal) (hw : AllReal w)
    (A : Arr2 15360 15360)
    (hA : ∀ r s : Fin 15360, A (ix2 r s)
      = 0 + ∑ e ∈ univ.filter (fun e : Fin 257295 => emb (dstF e) = r ∧ emb (srcF e) = s), w e)
    (mk : Arr2 15360 1)
    (hmk : ∀ n : Fin 15360, mk (ix2 n (0 : Fin 1)) = if n.val < 15135 then 1 else 0)
    (x : Arr3 8 15135 64) (hx : AllReal x)
    (cols0 : Arr2 15360 512)
    (hc0 : ∀ (n : Fin 15360) (b : Fin 8) (f : Fin 64),
      cols0 (ix2 n (⟨64 * b.val + f.val, by omega⟩ : Fin 512))
        = if h : n.val < 15135 then x (ix3 b (⟨n.val, h⟩ : Fin 15135) f) else 0)
    (W1 : Arr2 64 128) (b1 : Arr1 128) (W2 : Arr2 128 128) (b2 : Arr1 128) (W3 : Arr2 128 128) (b3 : Arr1 128)
    (hW1 : AllReal W1) (hb1 : AllReal b1) (hW2 : AllReal W2) (hb2 : AllReal b2) (hW3 : AllReal W3)
    (hb3 : AllReal b3)
    (out0 : Arr2 15360 512)
    (hout0 : ∀ (r : Fin 15360) (j : Fin 512), out0 (ix2 r j) = ∑ s : Fin 15360, A (ix2 r s) * cols0 (ix2 s j))
    (H1 : Arr2 15360 1024)
    (hH1 : ∀ (n : Fin 15360) (b : Fin 8) (h : Fin 128),
      H1 (ix2 n (⟨128 * b.val + h.val, by omega⟩ : Fin 1024))
        = max ((∑ f : Fin 64, out0 (ix2 n (⟨64 * b.val + f.val, by omega⟩ : Fin 512)) * W1 (ix2 f h)) + b1 (ix1 h)) 0
            * mk (ix2 n (0 : Fin 1)))
    (out1 : Arr2 15360 1024)
    (hout1 : ∀ (r : Fin 15360) (j : Fin 1024), out1 (ix2 r j) = ∑ s : Fin 15360, A (ix2 r s) * H1 (ix2 s j))
    (H2 : Arr2 15360 1024)
    (hH2 : ∀ (n : Fin 15360) (b : Fin 8) (h : Fin 128),
      H2 (ix2 n (⟨128 * b.val + h.val, by omega⟩ : Fin 1024))
        = max ((∑ f : Fin 128, out1 (ix2 n (⟨128 * b.val + f.val, by omega⟩ : Fin 1024)) * W2 (ix2 f h)) + b2 (ix1 h)) 0
            * mk (ix2 n (0 : Fin 1)))
    (out2 : Arr2 15360 1024)
    (hout2 : ∀ (r : Fin 15360) (j : Fin 1024), out2 (ix2 r j) = ∑ s : Fin 15360, A (ix2 r s) * H2 (ix2 s j))
    (H3 : Arr2 15360 1024)
    (hH3 : ∀ (n : Fin 15360) (b : Fin 8) (h : Fin 128),
      H3 (ix2 n (⟨128 * b.val + h.val, by omega⟩ : Fin 1024))
        = max ((∑ f : Fin 128, out2 (ix2 n (⟨128 * b.val + f.val, by omega⟩ : Fin 1024)) * W3 (ix2 f h)) + b3 (ix1 h)) 0
            * mk (ix2 n (0 : Fin 1)))
    (R1 R2 R3 : Arr3 8 15135 128)
    (hR1 : ∀ (b : Fin 8) (n : Fin 15135) (h : Fin 128),
      R1 (ix3 b n h)
        = max ((0 + ∑ e ∈ univ.filter (fun e : Fin 257295 => dstF e = n),
            (∑ f : Fin 64, x (ix3 b (srcF e) f) * W1 (ix2 f h)) * w e) + b1 (ix1 h)) 0)
    (hR2 : ∀ (b : Fin 8) (n : Fin 15135) (h : Fin 128),
      R2 (ix3 b n h)
        = max ((0 + ∑ e ∈ univ.filter (fun e : Fin 257295 => dstF e = n),
            (∑ f : Fin 128, R1 (ix3 b (srcF e) f) * W2 (ix2 f h)) * w e) + b2 (ix1 h)) 0)
    (hR3 : ∀ (b : Fin 8) (n : Fin 15135) (h : Fin 128),
      R3 (ix3 b n h)
        = max ((0 + ∑ e ∈ univ.filter (fun e : Fin 257295 => dstF e = n),
            (∑ f : Fin 128, R2 (ix3 b (srcF e) f) * W3 (ix2 f h)) * w e) + b3 (ix1 h)) 0)
    (Wfc : Arr2 384 1) (bfc : Arr1 1) (hcat : Arr3 8 15135 384)
    (hc1 : ∀ (b : Fin 8) (n : Fin 15135) (h : Fin 128), hcat (ix3 b n (⟨3 * h.val, by omega⟩ : Fin 384)) = R1 (ix3 b n h))
    (hc2 : ∀ (b : Fin 8) (n : Fin 15135) (h : Fin 128), hcat (ix3 b n (⟨3 * h.val + 1, by omega⟩ : Fin 384)) = R2 (ix3 b n h))
    (hc3 : ∀ (b : Fin 8) (n : Fin 15135) (h : Fin 128), hcat (ix3 b n (⟨3 * h.val + 2, by omega⟩ : Fin 384)) = R3 (ix3 b n h))
    (gKer gRef : Arr2 8 15135)
    (hgK : ∀ (b : Fin 8) (n : Fin 15135), gKer (ix2 b n)
      = (((∑ h : Fin 128, H1 (ix2 (⟨n.val, by omega⟩ : Fin 15360) (⟨128 * b.val + h.val, by omega⟩ : Fin 1024))
              * Wfc (ix2 (⟨3 * h.val + 0, by omega⟩ : Fin 384) (0 : Fin 1)))
          + (∑ h : Fin 128, H2 (ix2 (⟨n.val, by omega⟩ : Fin 15360) (⟨128 * b.val + h.val, by omega⟩ : Fin 1024))
              * Wfc (ix2 (⟨3 * h.val + 1, by omega⟩ : Fin 384) (0 : Fin 1))))
          + (∑ h : Fin 128, H3 (ix2 (⟨n.val, by omega⟩ : Fin 15360) (⟨128 * b.val + h.val, by omega⟩ : Fin 1024))
              * Wfc (ix2 (⟨3 * h.val + 2, by omega⟩ : Fin 384) (0 : Fin 1))))
        + bfc (ix1 (0 : Fin 1)))
    (hgR : ∀ (b : Fin 8) (n : Fin 15135), gRef (ix2 b n)
      = (∑ k : Fin 384, hcat (ix3 b n k) * Wfc (ix2 k (0 : Fin 1))) + bfc (ix1 (0 : Fin 1))) :
    gKer = gRef := by
  have a0 := agrees_cols0 x hx cols0 hc0
  have a1 := step64 srcF dstF w hw A hA mk hmk cols0 x a0 out0 hout0 W1 b1 hW1 hb1 H1 hH1 R1 hR1
  have a2 := step128 srcF dstF w hw A hA mk hmk H1 R1 a1 out1 hout1 W2 b2 hW2 hb2 H2 hH2 R2 hR2
  have a3 := step128 srcF dstF w hw A hA mk hmk H2 R2 a2 out2 hout2 W3 b3 hW3 hb3 H3 hH3 R3 hR3
  funext j
  obtain ⟨b, n, rfl⟩ : ∃ (b : Fin 8) (n : Fin 15135), j = ix2 b n := ⟨j 0, j 1, eq_ix2 j⟩
  rw [hgK, hgR]
  exact readout_eq H1 H2 H3 R1 R2 R3 a1 a2 a3 Wfc bfc hcat hc1 hc2 hc3 b n

end Cert.BridgeCore
-- ==== Proof.Bridge.lean ====
import proofs.«150125_j89541478187016_2_alg».proof.Defs
import proofs.«150125_j89541478187016_2_alg».proof.Proof.KerSide
import proofs.«150125_j89541478187016_2_alg».proof.Proof.RefSide
import proofs.«150125_j89541478187016_2_alg».proof.Proof.PreFacts
import proofs.«150125_j89541478187016_2_alg».proof.Proof.BridgeCore

/-!
# The two programs leave the same result

One program propagates the features through the dense adjacency matrix (three matrix products over the
15360 padded nodes), the other sums over the edges. Both build the edge list, the degrees and the edge
weights by the same operations, so these are the same arrays; the adjacency entry (r, s) is the total
weight of the edges from s to r; by the agreement of the padded node-major arrays with the batch-major
ones, layer after layer, the two read-outs are the same array; and the same last operations (two dense
layers and the logarithm of the softmax) are applied to it.
-/

set_option maxRecDepth 16384

noncomputable section

namespace Cert.Bridge

open Idealize.ShloMosaic Idealize.ShloMosaic.TcCoe Idealize.ShloMosaic.ValueIdx Cert.Lib Cert.BridgeCore
open Cert.KernelIdeal.KerSide (srcRaw dstRaw srcK dstK normK adjK maskK cols0K tailK asF srcK_eq_raw dstK_eq_raw
  adjK_apply_of_range maskK_apply cols0K_apply V7_main_v61_apply V11_main_v72_apply V15_main_v83_apply
  V18_main_v105_apply V18_main_v115)
open Cert.ReferenceIdeal.RefSide (srcW dstW srcF dstF normR allReal_normR srcW_toInt dstW_toInt layer64 layer128
  layer64_apply layer128_apply hcatR hcatR_at0 hcatR_at1 hcatR_at2 gR gR_at tailR val_main_v115_eq_tailR)
open scoped BigOperators
open Finset

/-! ## The edge list and the edge weights are the same arrays in the two programs -/

section Links
variable (ei : IVec Cert.KernelIdeal.S2x242160 32)

/-- The wrapped sources are built by the same operations. -/
theorem srcK_eq_srcW : srcK ei = srcW ei := rfl
/-- The wrapped targets are built by the same operations. -/
theorem dstK_eq_dstW : dstK ei = dstW ei := rfl
/-- The edge weights are built by the same operations. -/
theorem normK_eq_normR : normK ei = normR ei := rfl

variable (hr : ∀ i : Cert.KernelIdeal.S2x242160.Idx, 0 ≤ (ei i).toInt ∧ (ei i).toInt < 15135)
include hr

/-- With every edge index a node, the target word of edge `e` reads as its target node. -/
theorem dstRaw_toInt (e : Fin 257295) : (dstRaw ei (ix1 e)).toInt = ((dstF ei e).val : ℤ) := by
  rw [← dstK_eq_raw ei hr (ix1 e), dstK_eq_dstW]
  exact dstW_toInt ei hr e

/-- With every edge index a node, the source word of edge `e` reads as its source node. -/
theorem srcRaw_toInt (e : Fin 257295) : (srcRaw ei (ix1 e)).toInt = ((srcF ei e).val : ℤ) := by
  rw [← srcK_eq_raw ei hr (ix1 e), srcK_eq_srcW]
  exact srcW_toInt ei hr e

/-- The dense adjacency at (r, s): zero plus the weights of the edges with target node r and source node s. -/
theorem adjK_fin (r s : Fin 15360) :
    adjK ei (ix2 r s)
      = 0 + ∑ e ∈ univ.filter (fun e : Fin 257295 => emb (dstF ei e) = r ∧ emb (srcF ei e) = s),
          normR ei (ix1 e) := by
  rw [adjK_apply_of_range ei hr r s]
  have h := adj_reindex (srcF ei) (dstF ei) (fun j => (dstRaw ei j).toInt) (fun j => (srcRaw ei j).toInt)
    (normK ei) (dstRaw_toInt ei hr) (srcRaw_toInt ei hr) r s
  rw [normK_eq_normR] at h
  exact h

end Links

/-! ## The read-out -/

section Readout
variable [hP : Cert.Pre_finite_inputs.Facts]
variable (m : (ℓ : Loc Cert.KernelIdeal.nD Cert.KernelIdeal.τ Cert.KernelIdeal.sig) → Buf (Elt Ideal) ℓ)
  (outs : Cert.KernelIdeal.Gen.Outs (F := Ideal)) (c : Dev Cert.KernelIdeal.nD)

/-- The kernel's read-out is the reference's read-out of the same arguments, for any regions' outputs that are
the products of the adjacency with the regions' right operands. -/
theorem g_bridge
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = fun _ => 1#1)
    (hout0 : ∀ (r : Fin 15360) (j : Fin 512), asF Cert.KernelIdeal.S15360x512 .f32 (outs 4 Cert.KernelIdeal.main_v52 c) (ix2 r j)
      = ∑ s : Fin 15360, adjK (m ((c.tc : Thread Cert.KernelIdeal.nD Cert.KernelIdeal.τ).loc Cert.KernelIdeal.main_arg1)) (ix2 r s) * cols0K (m ((c.tc : Thread Cert.KernelIdeal.nD Cert.KernelIdeal.τ).loc Cert.KernelIdeal.main_arg0)) (ix2 s j))
    (hout1 : ∀ (r : Fin 15360) (j : Fin 1024), asF Cert.KernelIdeal.S15360x1024 .f32 (outs 8 Cert.KernelIdeal.main_v63 c) (ix2 r j)
      = ∑ s : Fin 15360, adjK (m ((c.tc : Thread Cert.KernelIdeal.nD Cert.KernelIdeal.τ).loc Cert.KernelIdeal.main_arg1)) (ix2 r s)
          * asF Cert.KernelIdeal.S15360x1024 .f32 (Cert.KernelIdeal.Gen.V7 m outs c Cert.KernelIdeal.main_v61) (ix2 s j))
    (hout2 : ∀ (r : Fin 15360) (j : Fin 1024), asF Cert.KernelIdeal.S15360x1024 .f32 (outs 12 Cert.KernelIdeal.main_v74 c) (ix2 r j)
      = ∑ s : Fin 15360, adjK (m ((c.tc : Thread Cert.KernelIdeal.nD Cert.KernelIdeal.τ).loc Cert.KernelIdeal.main_arg1)) (ix2 r s)
          * asF Cert.KernelIdeal.S15360x1024 .f32 (Cert.KernelIdeal.Gen.V11 m outs c Cert.KernelIdeal.main_v72) (ix2 s j)) :
    asF Cert.KernelIdeal.S8x15135 .f32 (Cert.KernelIdeal.Gen.V18 m outs c Cert.KernelIdeal.main_v105)
      = gR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  obtain ⟨hx, hW1, hb1, hW2, hb2, hW3, hb3, hWfc, hbfc, -⟩ := Cert.Pre_finite_inputs.Hand.real_of_pre hpre
  have hr := Cert.Pre_finite_inputs.Hand.range_toInt_of_pre hpre
  exact g_eq (srcF (m ((c.tc : Thread Cert.KernelIdeal.nD Cert.KernelIdeal.τ).loc Cert.KernelIdeal.main_arg1))) (dstF (m ((c.tc : Thread Cert.KernelIdeal.nD Cert.KernelIdeal.τ).loc Cert.KernelIdeal.main_arg1)))
    (fun e => normR (m ((c.tc : Thread Cert.KernelIdeal.nD Cert.KernelIdeal.τ).loc Cert.KernelIdeal.main_arg1)) (ix1 e)) (fun e => allReal_normR _ _)
    (adjK (m ((c.tc : Thread Cert.KernelIdeal.nD Cert.KernelIdeal.τ).loc Cert.KernelIdeal.main_arg1))) (adjK_fin _ hr) maskK maskK_apply
    (m ((c.tc : Thread Cert.KernelIdeal.nD Cert.KernelIdeal.τ).loc Cert.KernelIdeal.main_arg0)) hx (cols0K (m ((c.tc : Thread Cert.KernelIdeal.nD Cert.KernelIdeal.τ).loc Cert.KernelIdeal.main_arg0))) (cols0K_apply _)
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    hW1 hb1 hW2 hb2 hW3 hb3
    (asF Cert.KernelIdeal.S15360x512 .f32 (outs 4 Cert.KernelIdeal.main_v52 c)) hout0
    (asF Cert.KernelIdeal.S15360x1024 .f32 (Cert.KernelIdeal.Gen.V7 m outs c Cert.KernelIdeal.main_v61))
    (fun n b h => by rw [maskK_apply]; exact V7_main_v61_apply m outs c n b h)
    (asF Cert.KernelIdeal.S15360x1024 .f32 (outs 8 Cert.KernelIdeal.main_v63 c)) hout1
    (asF Cert.KernelIdeal.S15360x1024 .f32 (Cert.KernelIdeal.Gen.V11 m outs c Cert.KernelIdeal.main_v72))
    (fun n b h => by rw [maskK_apply]; exact V11_main_v72_apply m outs c n b h)
    (asF Cert.KernelIdeal.S15360x1024 .f32 (outs 12 Cert.KernelIdeal.main_v74 c)) hout2
    (asF Cert.KernelIdeal.S15360x1024 .f32 (Cert.KernelIdeal.Gen.V15 m outs c Cert.KernelIdeal.main_v83))
    (fun n b h => by rw [maskK_apply]; exact V15_main_v83_apply m outs c n b h)
    (layer64 (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    (layer128 (m ((c.tc : Thread Cert.KernelIdeal.nD Cert.KernelIdeal.τ).loc Cert.KernelIdeal.main_arg1)) (layer64 (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
    (layer128 (m ((c.tc : Thread Cert.KernelIdeal.nD Cert.KernelIdeal.τ).loc Cert.KernelIdeal.main_arg1)) (layer128 (m ((c.tc : Thread Cert.KernelIdeal.nD Cert.KernelIdeal.τ).loc Cert.KernelIdeal.main_arg1)) (layer64 (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
    (fun b n h => layer64_apply _ hr _ _ _ b n h)
    (fun b n h => layer128_apply _ hr _ _ _ b n h)
    (fun b n h => layer128_apply _ hr _ _ _ b n h)
    (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    (hcatR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
    (fun b n h => hcatR_at0 _ _ _ _ _ _ _ _ b n h)
    (fun b n h => hcatR_at1 _ _ _ _ _ _ _ _ b n h)
    (fun b n h => hcatR_at2 _ _ _ _ _ _ _ _ b n h)
    _ _
    (fun b n => V18_main_v105_apply m outs c b n)
    (fun b n => gR_at _ _ _ _ _ _ _ _ _ _ b n)

end Readout

/-! ## The result -/

section Result
variable [hP : Cert.Pre_finite_inputs.Facts]

/-- The same last operations on the same read-out. -/
theorem tailK_eq_tailR (g : FVec Ideal Cert.KernelIdeal.S8x15135 .f32) (Wl1 : FVec Ideal Cert.KernelIdeal.S15135x512 .f32)
    (bl1 : FVec Ideal Cert.KernelIdeal.S512 .f32) (Wl2 : FVec Ideal Cert.KernelIdeal.S512x10 .f32) (bl2 : FVec Ideal Cert.KernelIdeal.S10 .f32) :
    tailK g Wl1 bl1 Wl2 bl2 = tailR g Wl1 bl1 Wl2 bl2 := rfl

/-- What the reference leaves in its result is what the kernel leaves in its result, when run from memories that
agree on the arguments, the kernel's satisfying the precondition: for any regions' outputs that are the products
of the adjacency with the regions' right operands. -/
theorem bridge_of
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (outs : Cert.KernelIdeal.Gen.Outs (F := Ideal)) (c : Dev Cert.KernelIdeal.nD)
    (hout0 : ∀ (r : Fin 15360) (j : Fin 512), asF Cert.KernelIdeal.S15360x512 .f32 (outs 4 Cert.KernelIdeal.main_v52 c) (ix2 r j)
      = ∑ s : Fin 15360, adjK (m ((c.tc : Thread Cert.KernelIdeal.nD Cert.KernelIdeal.τ).loc Cert.KernelIdeal.main_arg1)) (ix2 r s) * cols0K (m ((c.tc : Thread Cert.KernelIdeal.nD Cert.KernelIdeal.τ).loc Cert.KernelIdeal.main_arg0)) (ix2 s j))
    (hout1 : ∀ (r : Fin 15360) (j : Fin 1024), asF Cert.KernelIdeal.S15360x1024 .f32 (outs 8 Cert.KernelIdeal.main_v63 c) (ix2 r j)
      = ∑ s : Fin 15360, adjK (m ((c.tc : Thread Cert.KernelIdeal.nD Cert.KernelIdeal.τ).loc Cert.KernelIdeal.main_arg1)) (ix2 r s)
          * asF Cert.KernelIdeal.S15360x1024 .f32 (Cert.KernelIdeal.Gen.V7 m outs c Cert.KernelIdeal.main_v61) (ix2 s j))
    (hout2 : ∀ (r : Fin 15360) (j : Fin 1024), asF Cert.KernelIdeal.S15360x1024 .f32 (outs 12 Cert.KernelIdeal.main_v74 c) (ix2 r j)
      = ∑ s : Fin 15360, adjK (m ((c.tc : Thread Cert.KernelIdeal.nD Cert.KernelIdeal.τ).loc Cert.KernelIdeal.main_arg1)) (ix2 r s)
          * asF Cert.KernelIdeal.S15360x1024 .f32 (Cert.KernelIdeal.Gen.V11 m outs c Cert.KernelIdeal.main_v72) (ix2 s j)) :
    Cert.ReferenceIdeal.Value.res_main_v115 m' c = Cert.KernelIdeal.Gen.V18 m outs c Cert.KernelIdeal.main_v115 := by
  obtain ⟨e0, e1, e2, e3, e4, e5, e6, e7, e8, e9, e10, e11, e12, e13⟩ := hagree c
  rw [Cert.ReferenceIdeal.Read.val_main_v115_eq m' c, e0, e1, e2, e3, e4, e5, e6, e7, e8, e9, e10, e11, e12, e13,
    val_main_v115_eq_tailR, V18_main_v115 m outs c]
  have hg := g_bridge m outs c (hpre c) hout0 hout1 hout2
  rw [tailK_eq_tailR]
  exact congrArg (fun g => tailR g (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) hg.symm

end Result

end Cert.Bridge

end
-- ==== Proof.LibBlockSum.lean ====
import Mathlib.Algebra.BigOperators.Fin
import Mathlib.Tactic

/-!
# A sum over a*b rows, block by block

In any additive commutative monoid (no finiteness of the summands is needed: the extended reals are
one), a sum over the a*b rows 0, …, a*b-1 is the sum over the a blocks t = 0, …, a-1 of the sums over
the b rows t*b, …, t*b + b-1 of the block. And the block sums s 0, …, s (a-1), added one after the
other onto a zero, ((0 + s 0) + s 1) + … + s (a-1), give the sum of all the block sums; the partial
result after k blocks is the sum of the first k block sums. The instance a = 10, b = 5000 (50000 rows)
is stated with literal extents.
-/

namespace Cert.Lib

open scoped BigOperators

/-- Row r of block t, of a blocks of b rows, is one of the a*b rows. -/
theorem block_row_lt {a b : ℕ} (t : Fin a) (r : Fin b) : t.val * b + r.val < a * b :=
  calc t.val * b + r.val < t.val * b + b := Nat.add_lt_add_left r.isLt _
    _ = (t.val + 1) * b := by ring
    _ ≤ a * b := Nat.mul_le_mul_right b t.isLt

/-- The same with the block offset written b*t. -/
theorem block_row_lt' {a b : ℕ} (t : Fin a) (r : Fin b) : b * t.val + r.val < a * b := by
  rw [Nat.mul_comm b]; exact block_row_lt t r

/-- **Regrouping into blocks.** A sum over a*b rows is the sum over the a blocks of the sums over
each block's b rows, row r of block t being row t*b + r. -/
theorem sum_fin_mul_blocks {M : Type*} [AddCommMonoid M] (a b : ℕ) (f : Fin (a * b) → M) :
    ∑ i : Fin (a * b), f i = ∑ t : Fin a, ∑ r : Fin b, f ⟨t.val * b + r.val, block_row_lt t r⟩ := by
  rw [← Equiv.sum_comp finProdFinEquiv f, Fintype.sum_prod_type]
  refine Finset.sum_congr rfl fun t _ => Finset.sum_congr rfl fun r _ => congrArg f (Fin.ext ?_)
  show r.val + b * t.val = t.val * b + r.val
  ring

/-- The same with the block offset written b*t. -/
theorem sum_fin_mul_blocks' {M : Type*} [AddCommMonoid M] (a b : ℕ) (f : Fin (a * b) → M) :
    ∑ i : Fin (a * b), f i = ∑ t : Fin a, ∑ r : Fin b, f ⟨b * t.val + r.val, block_row_lt' t r⟩ := by
  rw [sum_fin_mul_blocks]
  exact Finset.sum_congr rfl fun t _ => Finset.sum_congr rfl fun r _ =>
    congrArg f (Fin.ext (by show t.val * b + r.val = b * t.val + r.val; ring))

/-- The literal instance: 50000 rows as 10 blocks of 5000. -/
theorem sum_fin_50000_blocks {M : Type*} [AddCommMonoid M] (f : Fin 50000 → M) :
    ∑ i : Fin 50000, f i
      = ∑ t : Fin 10, ∑ r : Fin 5000, f ⟨t.val * 5000 + r.val, by have := t.isLt; have := r.isLt; omega⟩ :=
  sum_fin_mul_blocks 10 5000 f

/-- The literal instance with the block offset written 5000*t. -/
theorem sum_fin_50000_blocks' {M : Type*} [AddCommMonoid M] (f : Fin 50000 → M) :
    ∑ i : Fin 50000, f i
      = ∑ t : Fin 10, ∑ r : Fin 5000, f ⟨5000 * t.val + r.val, by have := t.isLt; have := r.isLt; omega⟩ :=
  sum_fin_mul_blocks' 10 5000 f

/-! ## Adding the block sums one after the other -/

/-- The running total after k blocks: block sums s 0, …, s (k-1) added in this order onto zero,
(((0 + s 0) + s 1) + …) + s (k-1). Blocks past the last (k > a) add nothing. -/
def runningSum {M : Type*} [AddCommMonoid M] {a : ℕ} (s : Fin a → M) : ℕ → M
  | 0 => 0
  | k + 1 => runningSum s k + (if h : k < a then s ⟨k, h⟩ else 0)

/-- Before any block the running total is zero. -/
@[simp] theorem runningSum_zero {M : Type*} [AddCommMonoid M] {a : ℕ} (s : Fin a → M) :
    runningSum s 0 = 0 := rfl

/-- One more block adds its block sum to the running total. -/
theorem runningSum_succ {M : Type*} [AddCommMonoid M] {a : ℕ} (s : Fin a → M) (k : ℕ) (h : k < a) :
    runningSum s (k + 1) = runningSum s k + s ⟨k, h⟩ := by
  rw [runningSum, dif_pos h]

/-- The running total after k blocks is the sum of the block sums of the blocks before k. -/
theorem runningSum_eq_sum_filter {M : Type*} [AddCommMonoid M] {a : ℕ} (s : Fin a → M) (k : ℕ) :
    runningSum s k = ∑ t ∈ Finset.univ.filter (fun t : Fin a => t.val < k), s t := by
  induction k with
  | zero => simp
  | succ k ih =>
    rw [runningSum, ih]
    by_cases h : k < a
    · rw [dif_pos h]
      have hsplit : Finset.univ.filter (fun t : Fin a => t.val < k + 1)
          = insert (⟨k, h⟩ : Fin a) (Finset.univ.filter (fun t : Fin a => t.val < k)) := by
        ext t
        simp only [Finset.mem_filter, Finset.mem_univ, true_and, Finset.mem_insert, Fin.ext_iff]
        omega
      rw [hsplit, Finset.sum_insert (by simp), add_comm]
    · rw [dif_neg h, add_zero]
      refine Finset.sum_congr ?_ fun _ _ => rfl
      ext t
      simp only [Finset.mem_filter, Finset.mem_univ, true_and]
      have := t.isLt
      omega

/-- **After all a blocks the running total is the sum of all the block sums.** -/
theorem runningSum_all {M : Type*} [AddCommMonoid M] {a : ℕ} (s : Fin a → M) :
    runningSum s a = ∑ t : Fin a, s t := by
  rw [runningSum_eq_sum_filter]
  exact Finset.sum_congr (Finset.filter_true_of_mem fun t _ => t.isLt) fun _ _ => rfl

/-- The left fold of addition over the blocks in order, from zero, is the sum of the block sums. -/
theorem foldl_add_finRange {M : Type*} [AddCommMonoid M] {a : ℕ} (s : Fin a → M) :
    (List.finRange a).foldl (fun acc t => acc + s t) 0 = ∑ t : Fin a, s t := by
  have h : ∀ (l : List (Fin a)) (z : M), l.foldl (fun acc t => acc + s t) z = z + (l.map s).sum := by
    intro l
    induction l with
    | nil => intro z; simp
    | cons x l ih => intro z; rw [List.foldl_cons, ih, List.map_cons, List.sum_cons, add_assoc]
  rw [h, zero_add, ← List.ofFn_eq_map, List.sum_ofFn]

/-- The literal instance: ten block sums added one after the other onto zero. -/
theorem sum_ten_left_nested {M : Type*} [AddCommMonoid M] (s : Fin 10 → M) :
    0 + s 0 + s 1 + s 2 + s 3 + s 4 + s 5 + s 6 + s 7 + s 8 + s 9 = ∑ t : Fin 10, s t := by
  have h := runningSum_all s
  simp only [runningSum] at h
  rw [← h]
  simp

/-- **The unit's shape**: the sum over 50000 rows is the ten sums over the blocks of 5000 rows, added
one after the other onto zero. -/
theorem sum_fin_50000_left_nested {M : Type*} [AddCommMonoid M] (f : Fin 50000 → M) :
    ∑ i : Fin 50000, f i
      = runningSum (fun t : Fin 10 =>
          ∑ r : Fin 5000, f ⟨t.val * 5000 + r.val, by have := t.isLt; have := r.isLt; omega⟩) 10 := by
  rw [runningSum_all, sum_fin_50000_blocks]

end Cert.Lib
-- ==== Proof.ValueKI0.lean ====
import proofs.«150125_j89541478187016_2_alg».proof.Proof.RegionKI0
import proofs.«150125_j89541478187016_2_alg».proof.Proof.LibBlockSum
import Idealize.ShloMosaic.PureOps.Ideal.Laws
import Idealize.ShloMosaic.Lib.ValueIdx

/-!
  Region 0, the value: at the ideal floats (every operation exact over the extended reals) the region's output array
  ends holding the matrix product of its two input arrays.

  The scratch accumulator after each point is a left-nested sum from zero of block products; over the extended reals,
  an additive commutative monoid, that is the plain sum of the block products so far (induction on the point). At the
  last inner coordinate of a row block the ten block products — each a sum over 1536 inner coordinates — make the sum
  over all 15360 inner coordinates, and that is what is written back to the row block of the output array. The ten
  row blocks tile the output array.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The value, at the ideal floats -/

section Value

open Idealize.ShloMosaic.ValueIdx
open scoped BigOperators

/-- The zero block, at the ideal floats, is zero everywhere. -/
theorem pay1_apply0 (y : S1536x512.Idx) : (k0_pay1 (F := Ideal) y : EReal) = 0 := by
  unfold k0_pay1
  simp only [shapeCast_self]
  exact Ideal.ofBits_zero_f32

/-- The accumulate payload, at the ideal floats, at row `p` and column `j` of the block: the old contents there plus the
    sum over the contracted coordinate of the products of the two input blocks' entries. -/
theorem pay2_apply0 (acc : Vec Ideal S1536x512 .f32) (a : Vec Ideal S1536x1536 .bf16) (x : Vec Ideal S1536x512 .bf16)
    (p : Fin 1536) (j : Fin 512) :
    (k0_pay2 acc a x (ix2 p j) : EReal) = (acc (ix2 p j) : EReal) + ∑ q : Fin 1536, (a (ix2 p q) : EReal) * (x (ix2 q j) : EReal) := by
  unfold k0_pay2
  simp only [shapeCast_self, matmul]
  rw [addf_apply, Ideal.matmul_constant_zero_apply,
    ← Equiv.sum_comp (contrEquiv1 dot_S1536x1536_S1536x512_S1536x512_1_0_0_1_n_n 1536 rfl rfl).symm]
  refine congrArg _ (Finset.sum_congr rfl fun q _ => ?_)
  have c2 := contrEquiv1_symm_val dot_S1536x1536_S1536x512_S1536x512_1_0_0_1_n_n 1536 rfl rfl q
  have l2 : dot_S1536x1536_S1536x512_S1536x512_1_0_0_1_n_n.lhsIdx (ix2 p j) ((contrEquiv1 _ 1536 rfl rfl).symm q) = ix2 p q := by
    funext ax; apply Fin.ext
    match ax with
    | ⟨0, _⟩ => simp [DotDims.lhsIdx, dot_S1536x1536_S1536x512_S1536x512_1_0_0_1_n_n]; rfl
    | ⟨1, _⟩ => simp [DotDims.lhsIdx, dot_S1536x1536_S1536x512_S1536x512_1_0_0_1_n_n]; exact c2
  have r2 : dot_S1536x1536_S1536x512_S1536x512_1_0_0_1_n_n.rhsIdx (ix2 p j) ((contrEquiv1 _ 1536 rfl rfl).symm q) = ix2 q j := by
    funext ax; apply Fin.ext
    match ax with
    | ⟨0, _⟩ => simp [DotDims.rhsIdx, dot_S1536x1536_S1536x512_S1536x512_1_0_0_1_n_n]; exact c2
    | ⟨1, _⟩ => simp [DotDims.rhsIdx, dot_S1536x1536_S1536x512_S1536x512_1_0_0_1_n_n]; rfl
  rw [l2, r2]

/-- The windows' block indices in closed form: the first input's block is (row block, inner coordinate), the second's
    (inner coordinate, 0), the output's (row block, 0). -/
theorem hidx0 : ∀ t : Fin cfg0.N,
    (win0_0.index t 0 = t.val / 10 ∧ win0_0.index t 1 = t.val % 10)
    ∧ (win0_1.index t 0 = t.val % 10 ∧ win0_1.index t 1 = 0)
    ∧ (win0_2.index t 0 = t.val / 10 ∧ win0_2.index t 1 = 0) :=
  (by decide +kernel : ∀ t : Fin grid0.N,
    (win0_0.index t 0 = t.val / 10 ∧ win0_0.index t 1 = t.val % 10)
    ∧ (win0_1.index t 0 = t.val % 10 ∧ win0_1.index t 1 = 0)
    ∧ (win0_2.index t 0 = t.val / 10 ∧ win0_2.index t 1 = 0))

variable (V : (c : Dev nD) → (b : Ref sig .tc) → Buf (Elt Ideal) ((c : Thread nD τ).loc b))

/-- The two input arrays' entries at the region's entry, as extended reals. -/
abbrev aAt0 (c : Dev nD) (r s : Fin 15360) : EReal := V c main_v42 (ix2 r s)
abbrev xAt0 (c : Dev nD) (s : Fin 15360) (j : Fin 512) : EReal := V c main_v51 (ix2 s j)

/-- The two input blocks at point `t`, as vectors of the ideal floats. -/
abbrev ablk0 (c : Dev nD) (t : Fin cfg0.N) : Vec Ideal S1536x1536 .bf16 := iblk0 V c 0 t
abbrev xblk0 (c : Dev nD) (t : Fin cfg0.N) : Vec Ideal S1536x512 .bf16 := iblk0 V c 1 t

/-- The first input's block at point `t`, entry (p, q): the array's entry (1536 (t / 10) + p, 1536 (t % 10) + q). -/
theorem iblk_a_apply0 (c : Dev nD) (t : Fin cfg0.N) (p q : Fin 1536) (R S : Fin 15360)
    (hR : R.val = 1536 * (t.val / 10) + p.val) (hS : S.val = 1536 * (t.val % 10) + q.val) :
    (ablk0 V c t (ix2 p q) : EReal) = aAt0 V c R S := by
  obtain ⟨⟨h0, h1⟩, -, -⟩ := hidx0 t
  show ((cfg0.win 0).blk t).view.read (Elt Ideal) (V c (Pipeline.arrRef spec0 0)) (ix2 p q) = V c main_v42 (ix2 R S)
  rw [View.read_apply]
  show V c main_v42 _ = V c main_v42 _
  congr 1
  funext a
  apply Fin.ext
  match a with
  | ⟨0, _⟩ => show win0_0.index t 0 * 1536 + 1 * p.val = R.val; rw [h0, hR]; omega
  | ⟨1, _⟩ => show win0_0.index t 1 * 1536 + 1 * q.val = S.val; rw [h1, hS]; omega

/-- The second input's block at point `t`, entry (q, j): the array's entry (1536 (t % 10) + q, j). -/
theorem iblk_x_apply0 (c : Dev nD) (t : Fin cfg0.N) (q : Fin 1536) (j : Fin 512) (S : Fin 15360)
    (hS : S.val = 1536 * (t.val % 10) + q.val) :
    (xblk0 V c t (ix2 q j) : EReal) = xAt0 V c S j := by
  obtain ⟨-, ⟨h0, h1⟩, -⟩ := hidx0 t
  show ((cfg0.win 1).blk t).view.read (Elt Ideal) (V c (Pipeline.arrRef spec0 1)) (ix2 q j) = V c main_v51 (ix2 S j)
  rw [View.read_apply]
  show V c main_v51 _ = V c main_v51 _
  congr 1
  funext a
  apply Fin.ext
  match a with
  | ⟨0, _⟩ => show win0_1.index t 0 * 1536 + 1 * q.val = S.val; rw [h0, hS]; omega
  | ⟨1, _⟩ => show win0_1.index t 1 * 512 + 1 * j.val = j.val; rw [h1]; omega

/-- The windows' extents along each axis are the block's (no block is cut by the array's edge). -/
theorem hxsize0 : ∀ t : Fin cfg0.N, win0_2.xsize (grid0.coords t) 0 = 1536 ∧ win0_2.xsize (grid0.coords t) 1 = 512 :=
  (by decide +kernel : ∀ t : Fin grid0.N, win0_2.xsize (grid0.coords t) 0 = 1536 ∧ win0_2.xsize (grid0.coords t) 1 = 512)

/-- A coordinate below 15360 from a natural number (every number it is used at is below 15360). -/
def idx0 (n : ℕ) : Fin 15360 := ⟨n % 15360, Nat.mod_lt _ (by decide)⟩

theorem idx0_val {n : ℕ} (h : n < 15360) : (idx0 n).val = n := Nat.mod_eq_of_lt h

/-- The product of row block `i0` with inner block `m`, at row `p` and column `j` of the block: the sum over the inner
    block's 1536 coordinates of the products of the two arrays' entries. -/
def partial0 (c : Dev nD) (i0 m : ℕ) (p : Fin 1536) (j : Fin 512) : EReal :=
  ∑ q : Fin 1536, aAt0 V c (idx0 (1536 * i0 + p.val)) (idx0 (1536 * m + q.val)) * xAt0 V c (idx0 (1536 * m + q.val)) j

/-- The product of the two input blocks at point `t` is that of row block `t / 10` with inner block `t % 10`. -/
theorem prod_apply0 (c : Dev nD) (t : Fin cfg0.N) (p : Fin 1536) (j : Fin 512) :
    ∑ q : Fin 1536, (ablk0 V c t (ix2 p q) : EReal) * (xblk0 V c t (ix2 q j) : EReal)
      = partial0 V c (t.val / 10) (t.val % 10) p j := by
  have hN : t.val < 100 := lt_of_lt_of_eq t.isLt (show cfg0.N = 100 from N_0)
  unfold partial0
  refine Finset.sum_congr rfl fun q _ => ?_
  have hp := p.isLt
  have hq := q.isLt
  rw [iblk_a_apply0 V c t p q (idx0 (1536 * (t.val / 10) + p.val)) (idx0 (1536 * (t.val % 10) + q.val))
      (idx0_val (by omega)) (idx0_val (by omega)),
    iblk_x_apply0 V c t q j (idx0 (1536 * (t.val % 10) + q.val)) (idx0_val (by omega))]

/-- THE RUNNING SUM. After position `n` the scratch holds, at (p, j), the sum of the products of row block `n / 10` with
    the inner blocks `0, …, n % 10`: by induction on the position (the extended reals are an additive commutative
    monoid, so the left-nested sum from zero is the plain sum). -/
theorem acc_apply0 (c : Dev nD) (p : Fin 1536) (j : Fin 512) : ∀ (n : ℕ) (hn : n < cfg0.N),
    (acc0 V c n hn (ix2 p j) : EReal) = ∑ m ∈ Finset.range (n % 10 + 1), partial0 V c (n / 10) m p j := by
  intro n
  induction n with
  | zero =>
    intro hn
    rw [acc0_first V c ⟨0, hn⟩ rfl, pay2_apply0, pay1_apply0, zero_add, prod_apply0]
    simp
  | succ n ih =>
    intro hn
    have hN : n + 1 < 100 := lt_of_lt_of_eq hn (show cfg0.N = 100 from N_0)
    by_cases h0 : (n + 1) % 10 = 0
    · rw [acc0_first V c ⟨n + 1, hn⟩ h0, pay2_apply0, pay1_apply0, zero_add, prod_apply0]
      show partial0 V c ((n + 1) / 10) ((n + 1) % 10) p j = _
      rw [h0]; simp
    · rw [acc0_step V c ⟨n + 1, hn⟩ h0, pay2_apply0, prod_apply0]
      show (acc0 V c n _ (ix2 p j) : EReal) + partial0 V c ((n + 1) / 10) ((n + 1) % 10) p j = _
      rw [ih, show (n + 1) / 10 = n / 10 by omega, show (n + 1) % 10 = n % 10 + 1 by omega]
      exact (Finset.sum_range_succ _ _).symm

/-- What the output array ends holding: at (r, j) the sum over ALL 15360 inner coordinates of the products of the two
    arrays' entries — the matrix product. -/
def outG0 (c : Dev nD) : Buf (Elt Ideal) ((c : Thread nD τ).loc main_v52) :=
  fun i : S15360x512.Idx => (∑ s : Fin 15360, aAt0 V c (i 0) s * xAt0 V c s (i 1) : EReal)

theorem outG0_apply (c : Dev nD) (i : S15360x512.Idx) (R : Fin 15360) (j : Fin 512) (hR : (i 0).val = R.val) (hj : (i 1).val = j.val) :
    (outG0 V c i : EReal) = ∑ s : Fin 15360, aAt0 V c R s * xAt0 V c s j := by
  obtain rfl : i = ix2 R j := funext fun a => Fin.ext (match a with | ⟨0, _⟩ => hR | ⟨1, _⟩ => hj)
  rfl

/-- The ten inner blocks' products of one row block add up to the whole row's sum: the 15360 inner coordinates are
    10 blocks of 1536. -/
theorem rowsum0 (c : Dev nD) (i0 : ℕ) (hi : i0 < 10) (p : Fin 1536) (j : Fin 512) :
    ∑ m ∈ Finset.range 10, partial0 V c i0 m p j
      = ∑ s : Fin 15360, aAt0 V c (idx0 (1536 * i0 + p.val)) s * xAt0 V c s j := by
  have key := Cert.Lib.sum_fin_mul_blocks' 10 1536
    (fun s : Fin 15360 => aAt0 V c (idx0 (1536 * i0 + p.val)) s * xAt0 V c s j)
  refine Eq.trans ?_ key.symm
  rw [Finset.sum_range]
  refine Finset.sum_congr rfl fun m _ => ?_
  unfold partial0
  refine Finset.sum_congr rfl fun q _ => ?_
  have hm := m.isLt
  have hq := q.isLt
  have e : idx0 (1536 * m.val + q.val) = ⟨1536 * m.val + q.val, by omega⟩ := Fin.ext (idx0_val (by omega))
  rw [e]

/-- Each write-back (at the last inner coordinate of a row block) writes that row block of the product. -/
theorem flushed_eq0 (c : Dev nD) (t : Fin cfg0.N) (hf : (cfg0.win 2).flush t = true) :
    (dat0 V c).flushed 2 t = ((cfg0.win 2).blk t).view.read (Elt Ideal) (outG0 V c) := by
  have hN : t.val < 100 := lt_of_lt_of_eq t.isLt (show cfg0.N = 100 from N_0)
  have h9 : t.val % 10 = 9 := (flush0_2 t).mp hf
  obtain ⟨-, -, ⟨h0, h1⟩⟩ := hidx0 t
  show (cfg0.win 2).cut (grid0.coords t) ((dat0 V c).after 2 t) = _
  rw [after0_2]
  funext y
  obtain ⟨p, j, rfl⟩ : ∃ (p : Fin 1536) (j : Fin 512), y = ix2 p j := ⟨y 0, y 1, eq_ix2 y⟩
  have hp := p.isLt
  rw [View.read_apply]
  show (acc0 V c t.val t.isLt (ix2 p j) : EReal) = outG0 V c _
  rw [acc_apply0, h9, rowsum0 V c _ (by omega)]
  refine (outG0_apply V c _ (idx0 (1536 * (t.val / 10) + p.val)) j ?_ ?_).symm
  · show win0_2.index t 0 * 1536 + 1 * p.val = _
    rw [h0, idx0_val (by omega)]; omega
  · show win0_2.index t 1 * 512 + 1 * j.val = _
    rw [h1]; omega

/-- Every entry of the output array is in the block some write-back writes: row `r` is in row block `r / 1536`, written
    back at that row block's last inner coordinate. -/
theorem cover0 (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0 : ℕ) < 15360 := (i 0).isLt
  have hi1 : (i 1 : ℕ) < 512 := (i 1).isLt
  have hlt : 10 * ((i 0 : ℕ) / 1536) + 9 < cfg0.N := by rw [show cfg0.N = 100 from N_0]; omega
  refine ⟨⟨10 * ((i 0 : ℕ) / 1536) + 9, hlt⟩, (flush0_2 _).mpr (by show (10 * ((i 0 : ℕ) / 1536) + 9) % 10 = 9; omega), ?_⟩
  obtain ⟨-, -, ⟨h0, h1⟩⟩ := hidx0 ⟨10 * ((i 0 : ℕ) / 1536) + 9, hlt⟩
  obtain ⟨x0, x1⟩ := hxsize0 ⟨10 * ((i 0 : ℕ) / 1536) + 9, hlt⟩
  show i ∈ ((View.whole main_v52).slice (win0_2.rect ⟨10 * ((i 0 : ℕ) / 1536) + 9, hlt⟩)).set
  rw [View.set_slice_whole, Rect.mem_set_unit]
  intro a
  match a with
  | ⟨0, _⟩ =>
    show win0_2.index ⟨10 * ((i 0 : ℕ) / 1536) + 9, hlt⟩ 0 * win0_2.size 0 ≤ (i 0 : ℕ)
      ∧ (i 0 : ℕ) < win0_2.index ⟨10 * ((i 0 : ℕ) / 1536) + 9, hlt⟩ 0 * win0_2.size 0 + win0_2.xsize (grid0.coords ⟨10 * ((i 0 : ℕ) / 1536) + 9, hlt⟩) 0
    rw [h0, x0, show win0_2.size 0 = 1536 from rfl]
    show (10 * ((i 0 : ℕ) / 1536) + 9) / 10 * 1536 ≤ (i 0 : ℕ) ∧ (i 0 : ℕ) < (10 * ((i 0 : ℕ) / 1536) + 9) / 10 * 1536 + 1536
    omega
  | ⟨1, _⟩ =>
    show win0_2.index ⟨10 * ((i 0 : ℕ) / 1536) + 9, hlt⟩ 1 * win0_2.size 1 ≤ (i 1 : ℕ)
      ∧ (i 1 : ℕ) < win0_2.index ⟨10 * ((i 0 : ℕ) / 1536) + 9, hlt⟩ 1 * win0_2.size 1 + win0_2.xsize (grid0.coords ⟨10 * ((i 0 : ℕ) / 1536) + 9, hlt⟩) 1
    rw [h1, x1, show win0_2.size 1 = 512 from rfl]
    omega

/-- So the output array ends holding the product. -/
theorem arrAt_out0 (c : Dev nD) : (dat0 V c).arrAt 2 cfg0.N = outG0 V c :=
  (dat0 V c).arrAt_eq_of_cover 2 (outG0 V c) (flushed_eq0 V c) (cover0 c)

/-- THE VALUE: at the ideal floats the region's output array ends holding, at (r, j), the sum over all 15360 inner
    coordinates of the products of the first array's row `r` with the second array's column `j`. -/
theorem out0_apply (c : Dev nD) (r : Fin 15360) (j : Fin 512) :
    ((dat0 V c).arrAt 2 cfg0.N (ix2 r j) : EReal)
      = ∑ s : Fin 15360, aAt0 V c r s * xAt0 V c s j := by
  rw [arrAt_out0]; rfl

/-- The input arrays are as the region found them. -/
theorem arrAt_A0 (c : Dev nD) : (dat0 V c).arrAt 0 cfg0.N = V c main_v42 :=
  ((dat0 V c).arrAt_in 0 rfl _).trans (A_eq0 V c 0)
theorem arrAt_X0 (c : Dev nD) : (dat0 V c).arrAt 1 cfg0.N = V c main_v51 :=
  ((dat0 V c).arrAt_in 1 rfl _).trans (A_eq0 V c 1)

end Value

end Cert.KernelIdeal.Hand

end
-- ==== Proof.ValueKI1.lean ====
import proofs.«150125_j89541478187016_2_alg».proof.Proof.RegionKI1
import proofs.«150125_j89541478187016_2_alg».proof.Proof.LibBlockSum
import Idealize.ShloMosaic.PureOps.Ideal.Laws
import Idealize.ShloMosaic.Lib.ValueIdx

/-!
  Region 1, the value: at the ideal floats (every operation exact over the extended reals) the region's output array
  ends holding the matrix product of its two input arrays.

  The scratch accumulator after each point is a left-nested sum from zero of block products; over the extended reals,
  an additive commutative monoid, that is the plain sum of the block products so far (induction on the point). At the
  last inner coordinate of a row block the ten block products — each a sum over 1536 inner coordinates — make the sum
  over all 15360 inner coordinates, and that is what is written back to the row block of the output array. The ten
  row blocks tile the output array.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The value, at the ideal floats -/

section Value

open Idealize.ShloMosaic.ValueIdx
open scoped BigOperators

/-- The zero block, at the ideal floats, is zero everywhere. -/
theorem pay1_apply1 (y : S1536x1024.Idx) : (k1_pay1 (F := Ideal) y : EReal) = 0 := by
  unfold k1_pay1
  simp only [shapeCast_self]
  exact Ideal.ofBits_zero_f32

/-- The accumulate payload, at the ideal floats, at row `p` and column `j` of the block: the old contents there plus the
    sum over the contracted coordinate of the products of the two input blocks' entries. -/
theorem pay2_apply1 (acc : Vec Ideal S1536x1024 .f32) (a : Vec Ideal S1536x1536 .bf16) (x : Vec Ideal S1536x1024 .bf16)
    (p : Fin 1536) (j : Fin 1024) :
    (k1_pay2 acc a x (ix2 p j) : EReal) = (acc (ix2 p j) : EReal) + ∑ q : Fin 1536, (a (ix2 p q) : EReal) * (x (ix2 q j) : EReal) := by
  unfold k1_pay2
  simp only [shapeCast_self, matmul]
  rw [addf_apply, Ideal.matmul_constant_zero_apply,
    ← Equiv.sum_comp (contrEquiv1 dot_S1536x1536_S1536x1024_S1536x1024_1_0_0_1_n_n 1536 rfl rfl).symm]
  refine congrArg _ (Finset.sum_congr rfl fun q _ => ?_)
  have c2 := contrEquiv1_symm_val dot_S1536x1536_S1536x1024_S1536x1024_1_0_0_1_n_n 1536 rfl rfl q
  have l2 : dot_S1536x1536_S1536x1024_S1536x1024_1_0_0_1_n_n.lhsIdx (ix2 p j) ((contrEquiv1 _ 1536 rfl rfl).symm q) = ix2 p q := by
    funext ax; apply Fin.ext
    match ax with
    | ⟨0, _⟩ => simp [DotDims.lhsIdx, dot_S1536x1536_S1536x1024_S1536x1024_1_0_0_1_n_n]; rfl
    | ⟨1, _⟩ => simp [DotDims.lhsIdx, dot_S1536x1536_S1536x1024_S1536x1024_1_0_0_1_n_n]; exact c2
  have r2 : dot_S1536x1536_S1536x1024_S1536x1024_1_0_0_1_n_n.rhsIdx (ix2 p j) ((contrEquiv1 _ 1536 rfl rfl).symm q) = ix2 q j := by
    funext ax; apply Fin.ext
    match ax with
    | ⟨0, _⟩ => simp [DotDims.rhsIdx, dot_S1536x1536_S1536x1024_S1536x1024_1_0_0_1_n_n]; exact c2
    | ⟨1, _⟩ => simp [DotDims.rhsIdx, dot_S1536x1536_S1536x1024_S1536x1024_1_0_0_1_n_n]; rfl
  rw [l2, r2]

/-- The windows' block indices in closed form: the first input's block is (row block, inner coordinate), the second's
    (inner coordinate, 0), the output's (row block, 0). -/
theorem hidx1 : ∀ t : Fin cfg1.N,
    (win1_0.index t 0 = t.val / 10 ∧ win1_0.index t 1 = t.val % 10)
    ∧ (win1_1.index t 0 = t.val % 10 ∧ win1_1.index t 1 = 0)
    ∧ (win1_2.index t 0 = t.val / 10 ∧ win1_2.index t 1 = 0) :=
  (by decide +kernel : ∀ t : Fin grid1.N,
    (win1_0.index t 0 = t.val / 10 ∧ win1_0.index t 1 = t.val % 10)
    ∧ (win1_1.index t 0 = t.val % 10 ∧ win1_1.index t 1 = 0)
    ∧ (win1_2.index t 0 = t.val / 10 ∧ win1_2.index t 1 = 0))

variable (V : (c : Dev nD) → (b : Ref sig .tc) → Buf (Elt Ideal) ((c : Thread nD τ).loc b))

/-- The two input arrays' entries at the region's entry, as extended reals. -/
abbrev aAt1 (c : Dev nD) (r s : Fin 15360) : EReal := V c main_v42 (ix2 r s)
abbrev xAt1 (c : Dev nD) (s : Fin 15360) (j : Fin 1024) : EReal := V c main_v62 (ix2 s j)

/-- The two input blocks at point `t`, as vectors of the ideal floats. -/
abbrev ablk1 (c : Dev nD) (t : Fin cfg1.N) : Vec Ideal S1536x1536 .bf16 := iblk1 V c 0 t
abbrev xblk1 (c : Dev nD) (t : Fin cfg1.N) : Vec Ideal S1536x1024 .bf16 := iblk1 V c 1 t

/-- The first input's block at point `t`, entry (p, q): the array's entry (1536 (t / 10) + p, 1536 (t % 10) + q). -/
theorem iblk_a_apply1 (c : Dev nD) (t : Fin cfg1.N) (p q : Fin 1536) (R S : Fin 15360)
    (hR : R.val = 1536 * (t.val / 10) + p.val) (hS : S.val = 1536 * (t.val % 10) + q.val) :
    (ablk1 V c t (ix2 p q) : EReal) = aAt1 V c R S := by
  obtain ⟨⟨h0, h1⟩, -, -⟩ := hidx1 t
  show ((cfg1.win 0).blk t).view.read (Elt Ideal) (V c (Pipeline.arrRef spec1 0)) (ix2 p q) = V c main_v42 (ix2 R S)
  rw [View.read_apply]
  show V c main_v42 _ = V c main_v42 _
  congr 1
  funext a
  apply Fin.ext
  match a with
  | ⟨0, _⟩ => show win1_0.index t 0 * 1536 + 1 * p.val = R.val; rw [h0, hR]; omega
  | ⟨1, _⟩ => show win1_0.index t 1 * 1536 + 1 * q.val = S.val; rw [h1, hS]; omega

/-- The second input's block at point `t`, entry (q, j): the array's entry (1536 (t % 10) + q, j). -/
theorem iblk_x_apply1 (c : Dev nD) (t : Fin cfg1.N) (q : Fin 1536) (j : Fin 1024) (S : Fin 15360)
    (hS : S.val = 1536 * (t.val % 10) + q.val) :
    (xblk1 V c t (ix2 q j) : EReal) = xAt1 V c S j := by
  obtain ⟨-, ⟨h0, h1⟩, -⟩ := hidx1 t
  show ((cfg1.win 1).blk t).view.read (Elt Ideal) (V c (Pipeline.arrRef spec1 1)) (ix2 q j) = V c main_v62 (ix2 S j)
  rw [View.read_apply]
  show V c main_v62 _ = V c main_v62 _
  congr 1
  funext a
  apply Fin.ext
  match a with
  | ⟨0, _⟩ => show win1_1.index t 0 * 1536 + 1 * q.val = S.val; rw [h0, hS]; omega
  | ⟨1, _⟩ => show win1_1.index t 1 * 1024 + 1 * j.val = j.val; rw [h1]; omega

/-- The windows' extents along each axis are the block's (no block is cut by the array's edge). -/
theorem hxsize1 : ∀ t : Fin cfg1.N, win1_2.xsize (grid1.coords t) 0 = 1536 ∧ win1_2.xsize (grid1.coords t) 1 = 1024 :=
  (by decide +kernel : ∀ t : Fin grid1.N, win1_2.xsize (grid1.coords t) 0 = 1536 ∧ win1_2.xsize (grid1.coords t) 1 = 1024)

/-- A coordinate below 15360 from a natural number (every number it is used at is below 15360). -/
def idx1 (n : ℕ) : Fin 15360 := ⟨n % 15360, Nat.mod_lt _ (by decide)⟩

theorem idx1_val {n : ℕ} (h : n < 15360) : (idx1 n).val = n := Nat.mod_eq_of_lt h

/-- The product of row block `i0` with inner block `m`, at row `p` and column `j` of the block: the sum over the inner
    block's 1536 coordinates of the products of the two arrays' entries. -/
def partial1 (c : Dev nD) (i0 m : ℕ) (p : Fin 1536) (j : Fin 1024) : EReal :=
  ∑ q : Fin 1536, aAt1 V c (idx1 (1536 * i0 + p.val)) (idx1 (1536 * m + q.val)) * xAt1 V c (idx1 (1536 * m + q.val)) j

/-- The product of the two input blocks at point `t` is that of row block `t / 10` with inner block `t % 10`. -/
theorem prod_apply1 (c : Dev nD) (t : Fin cfg1.N) (p : Fin 1536) (j : Fin 1024) :
    ∑ q : Fin 1536, (ablk1 V c t (ix2 p q) : EReal) * (xblk1 V c t (ix2 q j) : EReal)
      = partial1 V c (t.val / 10) (t.val % 10) p j := by
  have hN : t.val < 100 := lt_of_lt_of_eq t.isLt (show cfg1.N = 100 from N_1)
  unfold partial1
  refine Finset.sum_congr rfl fun q _ => ?_
  have hp := p.isLt
  have hq := q.isLt
  rw [iblk_a_apply1 V c t p q (idx1 (1536 * (t.val / 10) + p.val)) (idx1 (1536 * (t.val % 10) + q.val))
      (idx1_val (by omega)) (idx1_val (by omega)),
    iblk_x_apply1 V c t q j (idx1 (1536 * (t.val % 10) + q.val)) (idx1_val (by omega))]

/-- THE RUNNING SUM. After position `n` the scratch holds, at (p, j), the sum of the products of row block `n / 10` with
    the inner blocks `0, …, n % 10`: by induction on the position (the extended reals are an additive commutative
    monoid, so the left-nested sum from zero is the plain sum). -/
theorem acc_apply1 (c : Dev nD) (p : Fin 1536) (j : Fin 1024) : ∀ (n : ℕ) (hn : n < cfg1.N),
    (acc1 V c n hn (ix2 p j) : EReal) = ∑ m ∈ Finset.range (n % 10 + 1), partial1 V c (n / 10) m p j := by
  intro n
  induction n with
  | zero =>
    intro hn
    rw [acc1_first V c ⟨0, hn⟩ rfl, pay2_apply1, pay1_apply1, zero_add, prod_apply1]
    simp
  | succ n ih =>
    intro hn
    have hN : n + 1 < 100 := lt_of_lt_of_eq hn (show cfg1.N = 100 from N_1)
    by_cases h0 : (n + 1) % 10 = 0
    · rw [acc1_first V c ⟨n + 1, hn⟩ h0, pay2_apply1, pay1_apply1, zero_add, prod_apply1]
      show partial1 V c ((n + 1) / 10) ((n + 1) % 10) p j = _
      rw [h0]; simp
    · rw [acc1_step V c ⟨n + 1, hn⟩ h0, pay2_apply1, prod_apply1]
      show (acc1 V c n _ (ix2 p j) : EReal) + partial1 V c ((n + 1) / 10) ((n + 1) % 10) p j = _
      rw [ih, show (n + 1) / 10 = n / 10 by omega, show (n + 1) % 10 = n % 10 + 1 by omega]
      exact (Finset.sum_range_succ _ _).symm

/-- What the output array ends holding: at (r, j) the sum over ALL 15360 inner coordinates of the products of the two
    arrays' entries — the matrix product. -/
def outG1 (c : Dev nD) : Buf (Elt Ideal) ((c : Thread nD τ).loc main_v63) :=
  fun i : S15360x1024.Idx => (∑ s : Fin 15360, aAt1 V c (i 0) s * xAt1 V c s (i 1) : EReal)

theorem outG1_apply (c : Dev nD) (i : S15360x1024.Idx) (R : Fin 15360) (j : Fin 1024) (hR : (i 0).val = R.val) (hj : (i 1).val = j.val) :
    (outG1 V c i : EReal) = ∑ s : Fin 15360, aAt1 V c R s * xAt1 V c s j := by
  obtain rfl : i = ix2 R j := funext fun a => Fin.ext (match a with | ⟨0, _⟩ => hR | ⟨1, _⟩ => hj)
  rfl

/-- The ten inner blocks' products of one row block add up to the whole row's sum: the 15360 inner coordinates are
    10 blocks of 1536. -/
theorem rowsum1 (c : Dev nD) (i0 : ℕ) (hi : i0 < 10) (p : Fin 1536) (j : Fin 1024) :
    ∑ m ∈ Finset.range 10, partial1 V c i0 m p j
      = ∑ s : Fin 15360, aAt1 V c (idx1 (1536 * i0 + p.val)) s * xAt1 V c s j := by
  have key := Cert.Lib.sum_fin_mul_blocks' 10 1536
    (fun s : Fin 15360 => aAt1 V c (idx1 (1536 * i0 + p.val)) s * xAt1 V c s j)
  refine Eq.trans ?_ key.symm
  rw [Finset.sum_range]
  refine Finset.sum_congr rfl fun m _ => ?_
  unfold partial1
  refine Finset.sum_congr rfl fun q _ => ?_
  have hm := m.isLt
  have hq := q.isLt
  have e : idx1 (1536 * m.val + q.val) = ⟨1536 * m.val + q.val, by omega⟩ := Fin.ext (idx1_val (by omega))
  rw [e]

/-- Each write-back (at the last inner coordinate of a row block) writes that row block of the product. -/
theorem flushed_eq1 (c : Dev nD) (t : Fin cfg1.N) (hf : (cfg1.win 2).flush t = true) :
    (dat1 V c).flushed 2 t = ((cfg1.win 2).blk t).view.read (Elt Ideal) (outG1 V c) := by
  have hN : t.val < 100 := lt_of_lt_of_eq t.isLt (show cfg1.N = 100 from N_1)
  have h9 : t.val % 10 = 9 := (flush1_2 t).mp hf
  obtain ⟨-, -, ⟨h0, h1⟩⟩ := hidx1 t
  show (cfg1.win 2).cut (grid1.coords t) ((dat1 V c).after 2 t) = _
  rw [after1_2]
  funext y
  obtain ⟨p, j, rfl⟩ : ∃ (p : Fin 1536) (j : Fin 1024), y = ix2 p j := ⟨y 0, y 1, eq_ix2 y⟩
  have hp := p.isLt
  rw [View.read_apply]
  show (acc1 V c t.val t.isLt (ix2 p j) : EReal) = outG1 V c _
  rw [acc_apply1, h9, rowsum1 V c _ (by omega)]
  refine (outG1_apply V c _ (idx1 (1536 * (t.val / 10) + p.val)) j ?_ ?_).symm
  · show win1_2.index t 0 * 1536 + 1 * p.val = _
    rw [h0, idx1_val (by omega)]; omega
  · show win1_2.index t 1 * 1024 + 1 * j.val = _
    rw [h1]; omega

/-- Every entry of the output array is in the block some write-back writes: row `r` is in row block `r / 1536`, written
    back at that row block's last inner coordinate. -/
theorem cover1 (c : Dev nD) (i : ((cfg1.win 2).arr.view.loc (c.tc : Thread nD τ)).2.ty.Idx) :
    ∃ t : Fin cfg1.N, (cfg1.win 2).flush t = true ∧ i ∈ ((cfg1.win 2).blk t).view.set := by
  have hi0 : (i 0 : ℕ) < 15360 := (i 0).isLt
  have hi1 : (i 1 : ℕ) < 1024 := (i 1).isLt
  have hlt : 10 * ((i 0 : ℕ) / 1536) + 9 < cfg1.N := by rw [show cfg1.N = 100 from N_1]; omega
  refine ⟨⟨10 * ((i 0 : ℕ) / 1536) + 9, hlt⟩, (flush1_2 _).mpr (by show (10 * ((i 0 : ℕ) / 1536) + 9) % 10 = 9; omega), ?_⟩
  obtain ⟨-, -, ⟨h0, h1⟩⟩ := hidx1 ⟨10 * ((i 0 : ℕ) / 1536) + 9, hlt⟩
  obtain ⟨x0, x1⟩ := hxsize1 ⟨10 * ((i 0 : ℕ) / 1536) + 9, hlt⟩
  show i ∈ ((View.whole main_v63).slice (win1_2.rect ⟨10 * ((i 0 : ℕ) / 1536) + 9, hlt⟩)).set
  rw [View.set_slice_whole, Rect.mem_set_unit]
  intro a
  match a with
  | ⟨0, _⟩ =>
    show win1_2.index ⟨10 * ((i 0 : ℕ) / 1536) + 9, hlt⟩ 0 * win1_2.size 0 ≤ (i 0 : ℕ)
      ∧ (i 0 : ℕ) < win1_2.index ⟨10 * ((i 0 : ℕ) / 1536) + 9, hlt⟩ 0 * win1_2.size 0 + win1_2.xsize (grid1.coords ⟨10 * ((i 0 : ℕ) / 1536) + 9, hlt⟩) 0
    rw [h0, x0, show win1_2.size 0 = 1536 from rfl]
    show (10 * ((i 0 : ℕ) / 1536) + 9) / 10 * 1536 ≤ (i 0 : ℕ) ∧ (i 0 : ℕ) < (10 * ((i 0 : ℕ) / 1536) + 9) / 10 * 1536 + 1536
    omega
  | ⟨1, _⟩ =>
    show win1_2.index ⟨10 * ((i 0 : ℕ) / 1536) + 9, hlt⟩ 1 * win1_2.size 1 ≤ (i 1 : ℕ)
      ∧ (i 1 : ℕ) < win1_2.index ⟨10 * ((i 0 : ℕ) / 1536) + 9, hlt⟩ 1 * win1_2.size 1 + win1_2.xsize (grid1.coords ⟨10 * ((i 0 : ℕ) / 1536) + 9, hlt⟩) 1
    rw [h1, x1, show win1_2.size 1 = 1024 from rfl]
    omega

/-- So the output array ends holding the product. -/
theorem arrAt_out1 (c : Dev nD) : (dat1 V c).arrAt 2 cfg1.N = outG1 V c :=
  (dat1 V c).arrAt_eq_of_cover 2 (outG1 V c) (flushed_eq1 V c) (cover1 c)

/-- THE VALUE: at the ideal floats the region's output array ends holding, at (r, j), the sum over all 15360 inner
    coordinates of the products of the first array's row `r` with the second array's column `j`. -/
theorem out1_apply (c : Dev nD) (r : Fin 15360) (j : Fin 1024) :
    ((dat1 V c).arrAt 2 cfg1.N (ix2 r j) : EReal)
      = ∑ s : Fin 15360, aAt1 V c r s * xAt1 V c s j := by
  rw [arrAt_out1]; rfl

/-- The input arrays are as the region found them. -/
theorem arrAt_A1 (c : Dev nD) : (dat1 V c).arrAt 0 cfg1.N = V c main_v42 :=
  ((dat1 V c).arrAt_in 0 rfl _).trans (A_eq1 V c 0)
theorem arrAt_X1 (c : Dev nD) : (dat1 V c).arrAt 1 cfg1.N = V c main_v62 :=
  ((dat1 V c).arrAt_in 1 rfl _).trans (A_eq1 V c 1)

end Value

end Cert.KernelIdeal.Hand

end
-- ==== Proof.ValueKI2.lean ====
import proofs.«150125_j89541478187016_2_alg».proof.Proof.RegionKI2
import proofs.«150125_j89541478187016_2_alg».proof.Proof.LibBlockSum
import Idealize.ShloMosaic.PureOps.Ideal.Laws
import Idealize.ShloMosaic.Lib.ValueIdx

/-!
  Region 2, the value: at the ideal floats (every operation exact over the extended reals) the region's output array
  ends holding the matrix product of its two input arrays.

  The scratch accumulator after each point is a left-nested sum from zero of block products; over the extended reals,
  an additive commutative monoid, that is the plain sum of the block products so far (induction on the point). At the
  last inner coordinate of a row block the ten block products — each a sum over 1536 inner coordinates — make the sum
  over all 15360 inner coordinates, and that is what is written back to the row block of the output array. The ten
  row blocks tile the output array.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The value, at the ideal floats -/

section Value

open Idealize.ShloMosaic.ValueIdx
open scoped BigOperators

/-- The zero block, at the ideal floats, is zero everywhere. -/
theorem pay1_apply2 (y : S1536x1024.Idx) : (k2_pay1 (F := Ideal) y : EReal) = 0 := by
  unfold k2_pay1
  simp only [shapeCast_self]
  exact Ideal.ofBits_zero_f32

/-- The accumulate payload, at the ideal floats, at row `p` and column `j` of the block: the old contents there plus the
    sum over the contracted coordinate of the products of the two input blocks' entries. -/
theorem pay2_apply2 (acc : Vec Ideal S1536x1024 .f32) (a : Vec Ideal S1536x1536 .bf16) (x : Vec Ideal S1536x1024 .bf16)
    (p : Fin 1536) (j : Fin 1024) :
    (k2_pay2 acc a x (ix2 p j) : EReal) = (acc (ix2 p j) : EReal) + ∑ q : Fin 1536, (a (ix2 p q) : EReal) * (x (ix2 q j) : EReal) := by
  unfold k2_pay2
  simp only [shapeCast_self, matmul]
  rw [addf_apply, Ideal.matmul_constant_zero_apply,
    ← Equiv.sum_comp (contrEquiv1 dot_S1536x1536_S1536x1024_S1536x1024_1_0_0_1_n_n 1536 rfl rfl).symm]
  refine congrArg _ (Finset.sum_congr rfl fun q _ => ?_)
  have c2 := contrEquiv1_symm_val dot_S1536x1536_S1536x1024_S1536x1024_1_0_0_1_n_n 1536 rfl rfl q
  have l2 : dot_S1536x1536_S1536x1024_S1536x1024_1_0_0_1_n_n.lhsIdx (ix2 p j) ((contrEquiv1 _ 1536 rfl rfl).symm q) = ix2 p q := by
    funext ax; apply Fin.ext
    match ax with
    | ⟨0, _⟩ => simp [DotDims.lhsIdx, dot_S1536x1536_S1536x1024_S1536x1024_1_0_0_1_n_n]; rfl
    | ⟨1, _⟩ => simp [DotDims.lhsIdx, dot_S1536x1536_S1536x1024_S1536x1024_1_0_0_1_n_n]; exact c2
  have r2 : dot_S1536x1536_S1536x1024_S1536x1024_1_0_0_1_n_n.rhsIdx (ix2 p j) ((contrEquiv1 _ 1536 rfl rfl).symm q) = ix2 q j := by
    funext ax; apply Fin.ext
    match ax with
    | ⟨0, _⟩ => simp [DotDims.rhsIdx, dot_S1536x1536_S1536x1024_S1536x1024_1_0_0_1_n_n]; exact c2
    | ⟨1, _⟩ => simp [DotDims.rhsIdx, dot_S1536x1536_S1536x1024_S1536x1024_1_0_0_1_n_n]; rfl
  rw [l2, r2]

/-- The windows' block indices in closed form: the first input's block is (row block, inner coordinate), the second's
    (inner coordinate, 0), the output's (row block, 0). -/
theorem hidx2 : ∀ t : Fin cfg2.N,
    (win2_0.index t 0 = t.val / 10 ∧ win2_0.index t 1 = t.val % 10)
    ∧ (win2_1.index t 0 = t.val % 10 ∧ win2_1.index t 1 = 0)
    ∧ (win2_2.index t 0 = t.val / 10 ∧ win2_2.index t 1 = 0) :=
  (by decide +kernel : ∀ t : Fin grid2.N,
    (win2_0.index t 0 = t.val / 10 ∧ win2_0.index t 1 = t.val % 10)
    ∧ (win2_1.index t 0 = t.val % 10 ∧ win2_1.index t 1 = 0)
    ∧ (win2_2.index t 0 = t.val / 10 ∧ win2_2.index t 1 = 0))

variable (V : (c : Dev nD) → (b : Ref sig .tc) → Buf (Elt Ideal) ((c : Thread nD τ).loc b))

/-- The two input arrays' entries at the region's entry, as extended reals. -/
abbrev aAt2 (c : Dev nD) (r s : Fin 15360) : EReal := V c main_v42 (ix2 r s)
abbrev xAt2 (c : Dev nD) (s : Fin 15360) (j : Fin 1024) : EReal := V c main_v73 (ix2 s j)

/-- The two input blocks at point `t`, as vectors of the ideal floats. -/
abbrev ablk2 (c : Dev nD) (t : Fin cfg2.N) : Vec Ideal S1536x1536 .bf16 := iblk2 V c 0 t
abbrev xblk2 (c : Dev nD) (t : Fin cfg2.N) : Vec Ideal S1536x1024 .bf16 := iblk2 V c 1 t

/-- The first input's block at point `t`, entry (p, q): the array's entry (1536 (t / 10) + p, 1536 (t % 10) + q). -/
theorem iblk_a_apply2 (c : Dev nD) (t : Fin cfg2.N) (p q : Fin 1536) (R S : Fin 15360)
    (hR : R.val = 1536 * (t.val / 10) + p.val) (hS : S.val = 1536 * (t.val % 10) + q.val) :
    (ablk2 V c t (ix2 p q) : EReal) = aAt2 V c R S := by
  obtain ⟨⟨h0, h1⟩, -, -⟩ := hidx2 t
  show ((cfg2.win 0).blk t).view.read (Elt Ideal) (V c (Pipeline.arrRef spec2 0)) (ix2 p q) = V c main_v42 (ix2 R S)
  rw [View.read_apply]
  show V c main_v42 _ = V c main_v42 _
  congr 1
  funext a
  apply Fin.ext
  match a with
  | ⟨0, _⟩ => show win2_0.index t 0 * 1536 + 1 * p.val = R.val; rw [h0, hR]; omega
  | ⟨1, _⟩ => show win2_0.index t 1 * 1536 + 1 * q.val = S.val; rw [h1, hS]; omega

/-- The second input's block at point `t`, entry (q, j): the array's entry (1536 (t % 10) + q, j). -/
theorem iblk_x_apply2 (c : Dev nD) (t : Fin cfg2.N) (q : Fin 1536) (j : Fin 1024) (S : Fin 15360)
    (hS : S.val = 1536 * (t.val % 10) + q.val) :
    (xblk2 V c t (ix2 q j) : EReal) = xAt2 V c S j := by
  obtain ⟨-, ⟨h0, h1⟩, -⟩ := hidx2 t
  show ((cfg2.win 1).blk t).view.read (Elt Ideal) (V c (Pipeline.arrRef spec2 1)) (ix2 q j) = V c main_v73 (ix2 S j)
  rw [View.read_apply]
  show V c main_v73 _ = V c main_v73 _
  congr 1
  funext a
  apply Fin.ext
  match a with
  | ⟨0, _⟩ => show win2_1.index t 0 * 1536 + 1 * q.val = S.val; rw [h0, hS]; omega
  | ⟨1, _⟩ => show win2_1.index t 1 * 1024 + 1 * j.val = j.val; rw [h1]; omega

/-- The windows' extents along each axis are the block's (no block is cut by the array's edge). -/
theorem hxsize2 : ∀ t : Fin cfg2.N, win2_2.xsize (grid2.coords t) 0 = 1536 ∧ win2_2.xsize (grid2.coords t) 1 = 1024 :=
  (by decide +kernel : ∀ t : Fin grid2.N, win2_2.xsize (grid2.coords t) 0 = 1536 ∧ win2_2.xsize (grid2.coords t) 1 = 1024)

/-- A coordinate below 15360 from a natural number (every number it is used at is below 15360). -/
def idx2 (n : ℕ) : Fin 15360 := ⟨n % 15360, Nat.mod_lt _ (by decide)⟩

theorem idx2_val {n : ℕ} (h : n < 15360) : (idx2 n).val = n := Nat.mod_eq_of_lt h

/-- The product of row block `i0` with inner block `m`, at row `p` and column `j` of the block: the sum over the inner
    block's 1536 coordinates of the products of the two arrays' entries. -/
def partial2 (c : Dev nD) (i0 m : ℕ) (p : Fin 1536) (j : Fin 1024) : EReal :=
  ∑ q : Fin 1536, aAt2 V c (idx2 (1536 * i0 + p.val)) (idx2 (1536 * m + q.val)) * xAt2 V c (idx2 (1536 * m + q.val)) j

/-- The product of the two input blocks at point `t` is that of row block `t / 10` with inner block `t % 10`. -/
theorem prod_apply2 (c : Dev nD) (t : Fin cfg2.N) (p : Fin 1536) (j : Fin 1024) :
    ∑ q : Fin 1536, (ablk2 V c t (ix2 p q) : EReal) * (xblk2 V c t (ix2 q j) : EReal)
      = partial2 V c (t.val / 10) (t.val % 10) p j := by
  have hN : t.val < 100 := lt_of_lt_of_eq t.isLt (show cfg2.N = 100 from N_2)
  unfold partial2
  refine Finset.sum_congr rfl fun q _ => ?_
  have hp := p.isLt
  have hq := q.isLt
  rw [iblk_a_apply2 V c t p q (idx2 (1536 * (t.val / 10) + p.val)) (idx2 (1536 * (t.val % 10) + q.val))
      (idx2_val (by omega)) (idx2_val (by omega)),
    iblk_x_apply2 V c t q j (idx2 (1536 * (t.val % 10) + q.val)) (idx2_val (by omega))]

/-- THE RUNNING SUM. After position `n` the scratch holds, at (p, j), the sum of the products of row block `n / 10` with
    the inner blocks `0, …, n % 10`: by induction on the position (the extended reals are an additive commutative
    monoid, so the left-nested sum from zero is the plain sum). -/
theorem acc_apply2 (c : Dev nD) (p : Fin 1536) (j : Fin 1024) : ∀ (n : ℕ) (hn : n < cfg2.N),
    (acc2 V c n hn (ix2 p j) : EReal) = ∑ m ∈ Finset.range (n % 10 + 1), partial2 V c (n / 10) m p j := by
  intro n
  induction n with
  | zero =>
    intro hn
    rw [acc2_first V c ⟨0, hn⟩ rfl, pay2_apply2, pay1_apply2, zero_add, prod_apply2]
    simp
  | succ n ih =>
    intro hn
    have hN : n + 1 < 100 := lt_of_lt_of_eq hn (show cfg2.N = 100 from N_2)
    by_cases h0 : (n + 1) % 10 = 0
    · rw [acc2_first V c ⟨n + 1, hn⟩ h0, pay2_apply2, pay1_apply2, zero_add, prod_apply2]
      show partial2 V c ((n + 1) / 10) ((n + 1) % 10) p j = _
      rw [h0]; simp
    · rw [acc2_step V c ⟨n + 1, hn⟩ h0, pay2_apply2, prod_apply2]
      show (acc2 V c n _ (ix2 p j) : EReal) + partial2 V c ((n + 1) / 10) ((n + 1) % 10) p j = _
      rw [ih, show (n + 1) / 10 = n / 10 by omega, show (n + 1) % 10 = n % 10 + 1 by omega]
      exact (Finset.sum_range_succ _ _).symm

/-- What the output array ends holding: at (r, j) the sum over ALL 15360 inner coordinates of the products of the two
    arrays' entries — the matrix product. -/
def outG2 (c : Dev nD) : Buf (Elt Ideal) ((c : Thread nD τ).loc main_v74) :=
  fun i : S15360x1024.Idx => (∑ s : Fin 15360, aAt2 V c (i 0) s * xAt2 V c s (i 1) : EReal)

theorem outG2_apply (c : Dev nD) (i : S15360x1024.Idx) (R : Fin 15360) (j : Fin 1024) (hR : (i 0).val = R.val) (hj : (i 1).val = j.val) :
    (outG2 V c i : EReal) = ∑ s : Fin 15360, aAt2 V c R s * xAt2 V c s j := by
  obtain rfl : i = ix2 R j := funext fun a => Fin.ext (match a with | ⟨0, _⟩ => hR | ⟨1, _⟩ => hj)
  rfl

/-- The ten inner blocks' products of one row block add up to the whole row's sum: the 15360 inner coordinates are
    10 blocks of 1536. -/
theorem rowsum2 (c : Dev nD) (i0 : ℕ) (hi : i0 < 10) (p : Fin 1536) (j : Fin 1024) :
    ∑ m ∈ Finset.range 10, partial2 V c i0 m p j
      = ∑ s : Fin 15360, aAt2 V c (idx2 (1536 * i0 + p.val)) s * xAt2 V c s j := by
  have key := Cert.Lib.sum_fin_mul_blocks' 10 1536
    (fun s : Fin 15360 => aAt2 V c (idx2 (1536 * i0 + p.val)) s * xAt2 V c s j)
  refine Eq.trans ?_ key.symm
  rw [Finset.sum_range]
  refine Finset.sum_congr rfl fun m _ => ?_
  unfold partial2
  refine Finset.sum_congr rfl fun q _ => ?_
  have hm := m.isLt
  have hq := q.isLt
  have e : idx2 (1536 * m.val + q.val) = ⟨1536 * m.val + q.val, by omega⟩ := Fin.ext (idx2_val (by omega))
  rw [e]

/-- Each write-back (at the last inner coordinate of a row block) writes that row block of the product. -/
theorem flushed_eq2 (c : Dev nD) (t : Fin cfg2.N) (hf : (cfg2.win 2).flush t = true) :
    (dat2 V c).flushed 2 t = ((cfg2.win 2).blk t).view.read (Elt Ideal) (outG2 V c) := by
  have hN : t.val < 100 := lt_of_lt_of_eq t.isLt (show cfg2.N = 100 from N_2)
  have h9 : t.val % 10 = 9 := (flush2_2 t).mp hf
  obtain ⟨-, -, ⟨h0, h1⟩⟩ := hidx2 t
  show (cfg2.win 2).cut (grid2.coords t) ((dat2 V c).after 2 t) = _
  rw [after2_2]
  funext y
  obtain ⟨p, j, rfl⟩ : ∃ (p : Fin 1536) (j : Fin 1024), y = ix2 p j := ⟨y 0, y 1, eq_ix2 y⟩
  have hp := p.isLt
  rw [View.read_apply]
  show (acc2 V c t.val t.isLt (ix2 p j) : EReal) = outG2 V c _
  rw [acc_apply2, h9, rowsum2 V c _ (by omega)]
  refine (outG2_apply V c _ (idx2 (1536 * (t.val / 10) + p.val)) j ?_ ?_).symm
  · show win2_2.index t 0 * 1536 + 1 * p.val = _
    rw [h0, idx2_val (by omega)]; omega
  · show win2_2.index t 1 * 1024 + 1 * j.val = _
    rw [h1]; omega

/-- Every entry of the output array is in the block some write-back writes: row `r` is in row block `r / 1536`, written
    back at that row block's last inner coordinate. -/
theorem cover2 (c : Dev nD) (i : ((cfg2.win 2).arr.view.loc (c.tc : Thread nD τ)).2.ty.Idx) :
    ∃ t : Fin cfg2.N, (cfg2.win 2).flush t = true ∧ i ∈ ((cfg2.win 2).blk t).view.set := by
  have hi0 : (i 0 : ℕ) < 15360 := (i 0).isLt
  have hi1 : (i 1 : ℕ) < 1024 := (i 1).isLt
  have hlt : 10 * ((i 0 : ℕ) / 1536) + 9 < cfg2.N := by rw [show cfg2.N = 100 from N_2]; omega
  refine ⟨⟨10 * ((i 0 : ℕ) / 1536) + 9, hlt⟩, (flush2_2 _).mpr (by show (10 * ((i 0 : ℕ) / 1536) + 9) % 10 = 9; omega), ?_⟩
  obtain ⟨-, -, ⟨h0, h1⟩⟩ := hidx2 ⟨10 * ((i 0 : ℕ) / 1536) + 9, hlt⟩
  obtain ⟨x0, x1⟩ := hxsize2 ⟨10 * ((i 0 : ℕ) / 1536) + 9, hlt⟩
  show i ∈ ((View.whole main_v74).slice (win2_2.rect ⟨10 * ((i 0 : ℕ) / 1536) + 9, hlt⟩)).set
  rw [View.set_slice_whole, Rect.mem_set_unit]
  intro a
  match a with
  | ⟨0, _⟩ =>
    show win2_2.index ⟨10 * ((i 0 : ℕ) / 1536) + 9, hlt⟩ 0 * win2_2.size 0 ≤ (i 0 : ℕ)
      ∧ (i 0 : ℕ) < win2_2.index ⟨10 * ((i 0 : ℕ) / 1536) + 9, hlt⟩ 0 * win2_2.size 0 + win2_2.xsize (grid2.coords ⟨10 * ((i 0 : ℕ) / 1536) + 9, hlt⟩) 0
    rw [h0, x0, show win2_2.size 0 = 1536 from rfl]
    show (10 * ((i 0 : ℕ) / 1536) + 9) / 10 * 1536 ≤ (i 0 : ℕ) ∧ (i 0 : ℕ) < (10 * ((i 0 : ℕ) / 1536) + 9) / 10 * 1536 + 1536
    omega
  | ⟨1, _⟩ =>
    show win2_2.index ⟨10 * ((i 0 : ℕ) / 1536) + 9, hlt⟩ 1 * win2_2.size 1 ≤ (i 1 : ℕ)
      ∧ (i 1 : ℕ) < win2_2.index ⟨10 * ((i 0 : ℕ) / 1536) + 9, hlt⟩ 1 * win2_2.size 1 + win2_2.xsize (grid2.coords ⟨10 * ((i 0 : ℕ) / 1536) + 9, hlt⟩) 1
    rw [h1, x1, show win2_2.size 1 = 1024 from rfl]
    omega

/-- So the output array ends holding the product. -/
theorem arrAt_out2 (c : Dev nD) : (dat2 V c).arrAt 2 cfg2.N = outG2 V c :=
  (dat2 V c).arrAt_eq_of_cover 2 (outG2 V c) (flushed_eq2 V c) (cover2 c)

/-- THE VALUE: at the ideal floats the region's output array ends holding, at (r, j), the sum over all 15360 inner
    coordinates of the products of the first array's row `r` with the second array's column `j`. -/
theorem out2_apply (c : Dev nD) (r : Fin 15360) (j : Fin 1024) :
    ((dat2 V c).arrAt 2 cfg2.N (ix2 r j) : EReal)
      = ∑ s : Fin 15360, aAt2 V c r s * xAt2 V c s j := by
  rw [arrAt_out2]; rfl

/-- The input arrays are as the region found them. -/
theorem arrAt_A2 (c : Dev nD) : (dat2 V c).arrAt 0 cfg2.N = V c main_v42 :=
  ((dat2 V c).arrAt_in 0 rfl _).trans (A_eq2 V c 0)
theorem arrAt_X2 (c : Dev nD) : (dat2 V c).arrAt 1 cfg2.N = V c main_v73 :=
  ((dat2 V c).arrAt_in 1 rfl _).trans (A_eq2 V c 1)

end Value

end Cert.KernelIdeal.Hand

end
-- ==== Proof.BridgeKer.lean ====
import proofs.«150125_j89541478187016_2_alg».proof.Proof.KerSide
import proofs.«150125_j89541478187016_2_alg».proof.Proof.SegsKI
import proofs.«150125_j89541478187016_2_alg».proof.Proof.ValueKI0
import proofs.«150125_j89541478187016_2_alg».proof.Proof.ValueKI1
import proofs.«150125_j89541478187016_2_alg».proof.Proof.ValueKI2

/-!
# The regions' outputs, read with the host operations around them

Each of the three regions multiplies the dense adjacency with its right operand. With what the host operations put
into the operands, the first region's output is the adjacency times the padded node features and the next two are the
adjacency times the previous layer's masked activations, entry by entry.
-/

set_option maxRecDepth 16384

noncomputable section

namespace Cert.KernelIdeal.BridgeKer

open Cert.KernelIdeal Cert.KernelIdeal.Gen Cert.KernelIdeal.KerSide
open Idealize.ShloMosaic Idealize.ShloMosaic.TcCoe Idealize.ShloMosaic.StableHlo Idealize.ShloMosaic.ValueIdx
open scoped BigOperators

/-! ## The regions' outputs as products of the adjacency with the previous activations

Each region leaves in its output array the product of its two input arrays (proved with the regions). Read with the
host operations before it, that is the adjacency times the padded features (first region) or times the previous
layer's masked activations (second and third region). Here for any family of outputs with that property. -/

section Generic
variable (m : (ℓ : Loc nD τ sig) → Buf (Elt E) ℓ) (outs : Outs (F := E)) (c : Dev nD)

/-- First region: the adjacency times the padded node features. -/
theorem hout0_of
    (h : ∀ (r : Fin 15360) (j : Fin 512), asF S15360x512 .f32 (outs 4 main_v52 c) (ix2 r j)
      = ∑ s : Fin 15360, asF S15360x15360 .bf16 (V3 m c main_v42) (ix2 r s) * asF S15360x512 .bf16 (V3 m c main_v51) (ix2 s j))
    (r : Fin 15360) (j : Fin 512) :
    asF S15360x512 .f32 (outs 4 main_v52 c) (ix2 r j)
      = ∑ s : Fin 15360, adjK (m ((c : Thread nD τ).loc main_arg1)) (ix2 r s) * cols0K (m ((c : Thread nD τ).loc main_arg0)) (ix2 s j) := by
  rw [h, V3_main_v42, V3_main_v51]
  rfl

/-- Second region: the adjacency times the first layer's activations. -/
theorem hout1_of
    (h : ∀ (r : Fin 15360) (j : Fin 1024), asF S15360x1024 .f32 (outs 8 main_v63 c) (ix2 r j)
      = ∑ s : Fin 15360, asF S15360x15360 .bf16 (V7 m outs c main_v42) (ix2 r s) * asF S15360x1024 .bf16 (V7 m outs c main_v62) (ix2 s j))
    (r : Fin 15360) (j : Fin 1024) :
    asF S15360x1024 .f32 (outs 8 main_v63 c) (ix2 r j)
      = ∑ s : Fin 15360, adjK (m ((c : Thread nD τ).loc main_arg1)) (ix2 r s) * asF S15360x1024 .f32 (V7 m outs c main_v61) (ix2 s j) := by
  rw [h, V7_main_v42, V3_main_v42, V7_main_v62, V7_main_v61]
  rfl

/-- Third region: the adjacency times the second layer's activations. -/
theorem hout2_of
    (h : ∀ (r : Fin 15360) (j : Fin 1024), asF S15360x1024 .f32 (outs 12 main_v74 c) (ix2 r j)
      = ∑ s : Fin 15360, asF S15360x15360 .bf16 (V11 m outs c main_v42) (ix2 r s) * asF S15360x1024 .bf16 (V11 m outs c main_v73) (ix2 s j))
    (r : Fin 15360) (j : Fin 1024) :
    asF S15360x1024 .f32 (outs 12 main_v74 c) (ix2 r j)
      = ∑ s : Fin 15360, adjK (m ((c : Thread nD τ).loc main_arg1)) (ix2 r s) * asF S15360x1024 .f32 (V11 m outs c main_v72) (ix2 s j) := by
  rw [h, V11_main_v42, V3_main_v42, V11_main_v73, V11_main_v72]
  rfl

end Generic

/-! ## The three regions of this program -/

section Instance
open Cert.KernelIdeal.Hand
variable (m : (ℓ : Loc nD τ sig) → Buf (Elt E) ℓ) (c : Dev nD)

/-- The first region's output: the adjacency times the padded node features. -/
theorem hout0 (r : Fin 15360) (j : Fin 512) :
    asF S15360x512 .f32 (oC m 4 main_v52 c) (ix2 r j)
      = ∑ s : Fin 15360, adjK (m ((c : Thread nD τ).loc main_arg1)) (ix2 r s) * cols0K (m ((c : Thread nD τ).loc main_arg0)) (ix2 s j) :=
  hout0_of m (oC m) c (fun r j => by rw [oC_4]; exact out0_apply (E3 m) c r j) r j

/-- The second region's output: the adjacency times the first layer's activations. -/
theorem hout1 (r : Fin 15360) (j : Fin 1024) :
    asF S15360x1024 .f32 (oC m 8 main_v63 c) (ix2 r j)
      = ∑ s : Fin 15360, adjK (m ((c : Thread nD τ).loc main_arg1)) (ix2 r s) * asF S15360x1024 .f32 (V7 m (oC m) c main_v61) (ix2 s j) :=
  hout1_of m (oC m) c (fun r j => by rw [oC_8, V7_oA]; exact out1_apply (E7 m) c r j) r j

/-- The third region's output: the adjacency times the second layer's activations. -/
theorem hout2 (r : Fin 15360) (j : Fin 1024) :
    asF S15360x1024 .f32 (oC m 12 main_v74 c) (ix2 r j)
      = ∑ s : Fin 15360, adjK (m ((c : Thread nD τ).loc main_arg1)) (ix2 r s) * asF S15360x1024 .f32 (V11 m (oC m) c main_v72) (ix2 s j) :=
  hout2_of m (oC m) c (fun r j => by rw [oC_12, V11_oB]; exact out2_apply (E11 m) c r j) r j

end Instance

end Cert.KernelIdeal.BridgeKer
end
-- ==== Proof.BridgeFinal.lean ====
import proofs.«150125_j89541478187016_2_alg».proof.Proof.Bridge
import proofs.«150125_j89541478187016_2_alg».proof.Proof.BridgeKer

/-!
# The two programs leave the same result: at the regions' actual outputs

Each of the three matrix-product regions leaves the product of the dense adjacency with its right operand
(the padded features, then the previous layer's masked activations). With these outputs the general
statement applies: the reference's result, from a memory that agrees with the kernel's on the arguments, is
the kernel's result.
-/

set_option maxRecDepth 16384

noncomputable section

namespace Cert.Bridge

open Idealize.ShloMosaic Idealize.ShloMosaic.TcCoe

variable [hP : Cert.Pre_finite_inputs.Facts]

/-- What the reference leaves in its result is what the kernel leaves in its result. -/
theorem bridge
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (c : Dev Cert.KernelIdeal.nD) :
    Cert.ReferenceIdeal.Value.res_main_v115 m' c
      = Cert.KernelIdeal.Gen.V18 m (Cert.KernelIdeal.Hand.oC m) c Cert.KernelIdeal.main_v115 :=
  bridge_of m m' hpre hagree (Cert.KernelIdeal.Hand.oC m) c
    (Cert.KernelIdeal.BridgeKer.hout0 m c) (Cert.KernelIdeal.BridgeKer.hout1 m c) (Cert.KernelIdeal.BridgeKer.hout2 m c)

end Cert.Bridge

end
-- ==== Proof.lean ====
/-
  A three-layer graph convolution on 15135 nodes, computed two ways, then a 384-to-1 contraction, two dense layers and
  a log-softmax. The reference gathers each edge's source row, scales it by the symmetric normalisation
  dinv[src] * dinv[dst] (dinv = deg^(-1/2), self loops added) and scatter-adds it into the edge's target row. The
  kernel builds the dense normalised adjacency A[dst, src] += norm, padded to 15360 = 10 * 1536 rows and columns, and
  propagates by the matrix product A @ cols in a pipelined call over a 10 x 10 grid whose inner axis accumulates the
  block products in a scratch buffer; weights, bias, relu and a mask of the real rows are applied between the calls.
  Over the extended reals the two agree when every float input is a real number and every edge index lies in
  [0, 15135): the per-edge sum regrouped by (target, source) is the matrix product (distributivity, which needs
  finiteness), pad rows and columns are zero, and the 384-contraction is the same finite sum taken in another order.
-/
import proofs.«150125_j89541478187016_2_alg».proof.Defs
import proofs.«150125_j89541478187016_2_alg».proof.Proof.Gen.Kernel
import proofs.«150125_j89541478187016_2_alg».proof.Proof.Gen.KernelIdeal
import proofs.«150125_j89541478187016_2_alg».proof.Proof.Gen.ReferenceIdeal
import proofs.«150125_j89541478187016_2_alg».proof.Proof.Gen.Pre_finite_inputs
import proofs.«150125_j89541478187016_2_alg».proof.Proof.Gen.ReferenceIdeal.Run
import proofs.«150125_j89541478187016_2_alg».proof.Proof.SegsK
import proofs.«150125_j89541478187016_2_alg».proof.Proof.SegsKI
import proofs.«150125_j89541478187016_2_alg».proof.Proof.BridgeFinal
import Idealize.ShloMosaic.Adequacy
import Idealize.ShloMosaic.Init

noncomputable section

namespace Cert.Proof

open Idealize.ShloMosaic Idealize.ShloMosaic.TcCoe Idealize.SL.Sem

/-- The kernel's program, as printed, runs to the end without a fault and leaves its arguments as launched. -/
theorem frame_k : Cert.frame_Kernel := fun m ρ _ => Cert.Kernel.Hand.frame_K m ρ

/-- So does its idealisation. -/
theorem frame_ki : Cert.frame_KernelIdeal := fun m ρ _ => Cert.KernelIdeal.Hand.frame_KI m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

set_option maxHeartbeats 4000000 in
set_option maxRecDepth 16384 in
/-- Both programs end with the same [8, 10] array: the kernel's is the last valuation at the result buffer, the
    reference's its operations' composed term, and the two are one function of the arguments. -/
theorem algebraic : Cert.algebraic_KernelIdeal_ReferenceIdeal := by
  intro m ρ m' ρ' hpre hagree
  refine ⟨fun c => Cert.KernelIdeal.Gen.V18 m (Cert.KernelIdeal.Hand.oC m) c Cert.KernelIdeal.main_v115,
    Cert.KernelIdeal.Hand.result_KI m ρ, ?_⟩
  exact (θ_run Cert.ReferenceIdeal.defs _ _).mono
    (fun _ h c => ⟨(h c).1.trans (Cert.Bridge.bridge m m' hpre hagree c), (h c).2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
